-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v72) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v139) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4x256x256 : Shape := ⟨4, ![128, 4, 256, 256]⟩
abbrev S128x4 : Shape := ⟨2, ![128, 4]⟩
abbrev S128x1x256x256 : Shape := ⟨4, ![128, 1, 256, 256]⟩
abbrev S_ : Shape := ⟨0, ![]⟩

class Facts : Prop where
  bcast_S_S128x4x256x256 : S_.BroadcastsInDim S128x4x256x256 (![] : Fin 0 → Fin S128x4x256x256.rank)
  reducesTo_S128x4x256x256_S_d0_1_2_3 : S128x4x256x256.ReducesTo [0, 1, 2, 3] S_
  h_S_ : 0 < S_.numel
  bcast_S_S128x4 : S_.BroadcastsInDim S128x4 (![] : Fin 0 → Fin S128x4.rank)
  reducesTo_S128x4_S_d0_1 : S128x4.ReducesTo [0, 1] S_
  bcast_S_S128x1x256x256 : S_.BroadcastsInDim S128x1x256x256 (![] : Fin 0 → Fin S128x1x256x256.rank)
  reducesTo_S128x1x256x256_S_d0_1_2_3 : S128x1x256x256.ReducesTo [0, 1, 2, 3] S_

variable [Facts]

def fn {F : FTy → Type} [FloatOps F] (main_arg0 : FVec F S128x4x256x256 .f32) (main_arg1 : FVec F S128x4 .f32) (main_arg2 : FVec F S128x1x256x256 .f32) : IVec S_ 1 :=
  let main_v0 : FVec F S128x4x256x256 .f32 := Host.absf main_arg0
  let main_cst : FVec F S_ .f32 := constant S_ .f32 0x7F800000#32
  let main_v1 : FVec F S128x4x256x256 .f32 := broadcastInDim S128x4x256x256 ![] bcast_S_S128x4x256x256 main_cst
  let main_v2 : IVec S128x4x256x256 1 := cmpf .olt main_v0 main_v1
  let main_c : IVec S_ 1 := constantI S_ 1 1#1
  let main_v3 : IVec S_ 1 := (fun x v => Host.reduce IntOp.andi x v reducesTo_S128x4x256x256_S_d0_1_2_3 h_S_) main_v2 main_c
  let main_v4 : FVec F S128x4 .f32 := Host.absf main_arg1
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S128x1x256x256 .f32 := Host.absf main_arg2
  let main_cst_2 : FVec F S_ .f32 := constant S_ .f32 0x7F800000#32
  let main_v10 : FVec F S128x1x256x256 .f32 := broadcastInDim S128x1x256x256 ![] bcast_S_S128x1x256x256 main_cst_2
  let main_v11 : IVec S128x1x256x256 1 := cmpf .olt main_v9 main_v10
  let main_c_3 : IVec S_ 1 := constantI S_ 1 1#1
  let main_v12 : IVec S_ 1 := (fun x v => Host.reduce IntOp.andi x v reducesTo_S128x1x256x256_S_d0_1_2_3 h_S_) main_v11 main_c_3
  let main_v13 : IVec S_ 1 := andi main_v8 main_v12
  main_v13
-- ==== Kernel.lean ====
abbrev S128x4x256x256 : Shape := ⟨4, ![128, 4, 256, 256]⟩
abbrev S128x4 : Shape := ⟨2, ![128, 4]⟩
abbrev S128x1x256x256 : Shape := ⟨4, ![128, 1, 256, 256]⟩
abbrev S4 : Shape := ⟨1, ![4]⟩
abbrev S128x1 : Shape := ⟨2, ![128, 1]⟩
abbrev S32x4x32x256 : Shape := ⟨4, ![32, 4, 32, 256]⟩
abbrev S32x1x32x256 : Shape := ⟨4, ![32, 1, 32, 256]⟩
abbrev S32x4 : Shape := ⟨2, ![32, 4]⟩
abbrev S32x1 : Shape := ⟨2, ![32, 1]⟩
abbrev S32x4x32 : Shape := ⟨3, ![32, 4, 32]⟩
abbrev S32x32x256 : Shape := ⟨3, ![32, 32, 256]⟩
abbrev S32x32 : Shape := ⟨2, ![32, 32]⟩
abbrev S32 : Shape := ⟨1, ![32]⟩
abbrev S128 : Shape := ⟨1, ![128]⟩
abbrev S_ : Shape := ⟨0, ![]⟩
abbrev S1x4 : Shape := ⟨2, ![1, 4]⟩

abbrev nBuf : Space → Nat
  | .hbm => 121
  | .vmem => 20
  | .smem => 0
  | _ => 0

abbrev bufTy : (tb : Table) → Fin (tcTables nBuf tb) → BufTy
  | .hbm, ⟨0, _⟩ => ⟨S128x4x256x256, .f32⟩
  | .hbm, ⟨1, _⟩ => ⟨S128x4, .f32⟩
  | .hbm, ⟨2, _⟩ => ⟨S128x1x256x256, .f32⟩
  | .hbm, ⟨3, _⟩ => ⟨S4, .f32⟩
  | .hbm, ⟨4, _⟩ => ⟨S4, .f32⟩
  | .hbm, ⟨5, _⟩ => ⟨S128x4, .f32⟩
  | .hbm, ⟨6, _⟩ => ⟨S128x4, .f32⟩
  | .hbm, ⟨7, _⟩ => ⟨S128x4, .f32⟩
  | .hbm, ⟨8, _⟩ => ⟨S128x1, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S128x1, .f32⟩
  | .hbm, ⟨14, _⟩ => ⟨S1x4, .f32⟩
  | .hbm, ⟨15, _⟩ => ⟨S128x4, .f32⟩
  | .hbm, ⟨16, _⟩ => ⟨S128x4, .f32⟩
  | .hbm, ⟨17, _⟩ => ⟨S128x4, .i1⟩
  | .hbm, ⟨18, _⟩ => ⟨S128x1, .f32⟩
  | .hbm, ⟨19, _⟩ => ⟨S1x4, .f32⟩
  | .hbm, ⟨20, _⟩ => ⟨S128x4, .f32⟩
  | .hbm, ⟨21, _⟩ => ⟨S128x4, .f32⟩
  | .hbm, ⟨22, _⟩ => ⟨S128x4, .i1⟩
  | .hbm, ⟨23, _⟩ => ⟨S128x4, .i1⟩
  | .hbm, ⟨24, _⟩ => ⟨S128x4, .f32⟩
  | .hbm, ⟨25, _⟩ => ⟨S_, .f32⟩
  | .hbm, ⟨26, _⟩ => ⟨S128, .f32⟩
  | .hbm, ⟨27, _⟩ => ⟨S128x4, .f32⟩
  | .hbm, ⟨28, _⟩ => ⟨S_, .f32⟩
  | .hbm, ⟨29, _⟩ => ⟨S128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .i1⟩
  | .hbm, ⟨37, _⟩ => ⟨S_, .f32⟩
  | .hbm, ⟨38, _⟩ => ⟨S_, .f32⟩
  | .hbm, ⟨39, _⟩ => ⟨S128, .f32⟩
  | .hbm, ⟨40, _⟩ => ⟨S128, .f32⟩
  | .hbm, ⟨41, _⟩ => ⟨S_, .f32⟩
  | .hbm, ⟨42, _⟩ => ⟨S128, .f32⟩
  | .hbm, ⟨43, _⟩ => ⟨S128, .i1⟩
  | .hbm, ⟨44, _⟩ => ⟨S128, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .i1⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S128, .f32⟩
  | .hbm, ⟨59, _⟩ => ⟨S128x4, .f32⟩
  | .hbm, ⟨60, _⟩ => ⟨S_, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S128, .f32⟩
  | .hbm, ⟨68, _⟩ => ⟨S128, .i1⟩
  | .hbm, ⟨69, _⟩ => ⟨S_, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .i1⟩
  | .hbm, ⟨76, _⟩ => ⟨S128, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .i1⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S128, .f32⟩
  | .hbm, ⟨91, _⟩ => ⟨S128x4, .f32⟩
  | .hbm, ⟨92, _⟩ => ⟨S_, .f32⟩
  | .hbm, ⟨93, _⟩ => ⟨S128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S_, .f32⟩
  | .hbm, ⟨99, _⟩ => ⟨S128, .f32⟩
  | .hbm, ⟨100, _⟩ => ⟨S128, .i1⟩
  | .hbm, ⟨101, _⟩ => ⟨S_, .f32⟩
  | .hbm, ⟨102, _⟩ => ⟨S_, .f32⟩
  | .hbm, ⟨103, _⟩ => ⟨S128, .f32⟩
  | .hbm, ⟨104, _⟩ => ⟨S128, .f32⟩
  | .hbm, ⟨105, _⟩ => ⟨S_, .f32⟩
  | .hbm, ⟨106, _⟩ => ⟨S128, .f32⟩
  | .hbm, ⟨107, _⟩ => ⟨S128, .i1⟩
  | .hbm, ⟨108, _⟩ => ⟨S128, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .i1⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .local _ .vmem, ⟨0, _⟩ => ⟨S32x4x32x256, .f32⟩
  | .local _ .vmem, ⟨1, _⟩ => ⟨S32x4x32x256, .f32⟩
  | .local _ .vmem, ⟨2, _⟩ => ⟨S32x1x32x256, .f32⟩
  | .local _ .vmem, ⟨3, _⟩ => ⟨S32x1x32x256, .f32⟩
  | .local _ .vmem, ⟨4, _⟩ => ⟨S32x4, .f32⟩
  | .local _ .vmem, ⟨5, _⟩ => ⟨S32x4, .f32⟩
  | .local _ .vmem, ⟨6, _⟩ => ⟨S32x4, .f32⟩
  | .local _ .vmem, ⟨7, _⟩ => ⟨S32x4, .f32⟩
  | .local _ .vmem, ⟨8, _⟩ => ⟨S32x4, .f32⟩
  | .local _ .vmem, ⟨9, _⟩ => ⟨S32x4, .f32⟩
  | .local _ .vmem, ⟨10, _⟩ => ⟨S32x4, .f32⟩
  | .local _ .vmem, ⟨11, _⟩ => ⟨S32x4, .f32⟩
  | .local _ .vmem, ⟨12, _⟩ => ⟨S32x1, .f32⟩
  | .local _ .vmem, ⟨13, _⟩ => ⟨S32x1, .f32⟩
  | .local _ .vmem, ⟨14, _⟩ => ⟨S32x4, .f32⟩
  | .local _ .vmem, ⟨15, _⟩ => ⟨S32x4, .f32⟩
  | .local _ .vmem, ⟨16, _⟩ => ⟨S32x4, .f32⟩
  | .local _ .vmem, ⟨17, _⟩ => ⟨S32x4, .f32⟩
  | .local _ .vmem, ⟨18, _⟩ => ⟨S32x4, .f32⟩
  | .local _ .vmem, ⟨19, _⟩ => ⟨S32x1, .f32⟩
  | _, _ => ⟨S128x4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_call0_v0 : Ref sig .tc := ⟨.hbm, 38, rfl⟩
abbrev main_call0_v1 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_cst_10 : Ref sig .tc := ⟨.hbm, 49, rfl⟩
abbrev main_v30 : Ref sig .tc := ⟨.hbm, 50, rfl⟩
abbrev main_cst_11 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_12 : Ref sig .tc := ⟨.hbm, 55, rfl⟩
abbrev main_v34 : Ref sig .tc := ⟨.hbm, 56, rfl⟩
abbrev main_cst_13 : Ref sig .tc := ⟨.hbm, 57, rfl⟩
abbrev main_v35 : Ref sig .tc := ⟨.hbm, 58, rfl⟩
abbrev main_v36 : Ref sig .tc := ⟨.hbm, 59, rfl⟩
abbrev main_cst_14 : Ref sig .tc := ⟨.hbm, 60, rfl⟩
abbrev main_v37 : Ref sig .tc := ⟨.hbm, 61, rfl⟩
abbrev main_cst_15 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_16 : Ref sig .tc := ⟨.hbm, 66, rfl⟩
abbrev main_v41 : Ref sig .tc := ⟨.hbm, 67, rfl⟩
abbrev main_v42 : Ref sig .tc := ⟨.hbm, 68, rfl⟩
abbrev main_cst_17 : Ref sig .tc := ⟨.hbm, 69, rfl⟩
abbrev main_call2_v0 : Ref sig .tc := ⟨.hbm, 70, rfl⟩
abbrev main_call2_v1 : Ref sig .tc := ⟨.hbm, 71, rfl⟩
abbrev main_v43 : Ref sig .tc := ⟨.hbm, 72, rfl⟩
abbrev main_cst_18 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_19 : Ref sig .tc := ⟨.hbm, 77, rfl⟩
abbrev main_v47 : Ref sig .tc := ⟨.hbm, 78, rfl⟩
abbrev main_cst_20 : Ref sig .tc := ⟨.hbm, 79, rfl⟩
abbrev main_v48 : Ref sig .tc := ⟨.hbm, 80, rfl⟩
abbrev main_cst_21 : Ref sig .tc := ⟨.hbm, 81, rfl⟩
abbrev main_v49 : Ref sig .tc := ⟨.hbm, 82, rfl⟩
abbrev main_cst_22 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_23 : Ref sig .tc := ⟨.hbm, 87, rfl⟩
abbrev main_v53 : Ref sig .tc := ⟨.hbm, 88, rfl⟩
abbrev main_cst_24 : Ref sig .tc := ⟨.hbm, 89, rfl⟩
abbrev main_v54 : Ref sig .tc := ⟨.hbm, 90, rfl⟩
abbrev main_v55 : Ref sig .tc := ⟨.hbm, 91, rfl⟩
abbrev main_cst_25 : Ref sig .tc := ⟨.hbm, 92, rfl⟩
abbrev main_v56 : Ref sig .tc := ⟨.hbm, 93, rfl⟩
abbrev main_cst_26 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_27 : Ref sig .tc := ⟨.hbm, 98, rfl⟩
abbrev main_v60 : Ref sig .tc := ⟨.hbm, 99, rfl⟩
abbrev main_v61 : Ref sig .tc := ⟨.hbm, 100, rfl⟩
abbrev main_cst_28 : Ref sig .tc := ⟨.hbm, 101, rfl⟩
abbrev main_call4_v0 : Ref sig .tc := ⟨.hbm, 102, rfl⟩
abbrev main_call4_v1 : Ref sig .tc := ⟨.hbm, 103, rfl⟩
abbrev main_v62 : Ref sig .tc := ⟨.hbm, 104, rfl⟩
abbrev main_cst_29 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_30 : Ref sig .tc := ⟨.hbm, 109, rfl⟩
abbrev main_v66 : Ref sig .tc := ⟨.hbm, 110, rfl⟩
abbrev main_cst_31 : Ref sig .tc := ⟨.hbm, 111, rfl⟩
abbrev main_v67 : Ref sig .tc := ⟨.hbm, 112, rfl⟩
abbrev main_cst_32 : Ref sig .tc := ⟨.hbm, 113, rfl⟩
abbrev main_v68 : Ref sig .tc := ⟨.hbm, 114, rfl⟩
abbrev main_cst_33 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_cst_34 : Ref sig .tc := ⟨.hbm, 119, rfl⟩
abbrev main_v72 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v81 : BitVec 1 := Scalar.cmpi .eq arg1 c7_i32
  let v82 : BitVec 32 := Scalar.extui v81
  let c0_i32_51 : BitVec 32 := 0#32
  let v83 : BitVec 1 := Scalar.cmpi .ne v82 c0_i32_51
  v83

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x4x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S32x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S32x4_S32x4_0_0 : ∀ a, (![0, 0] : Fin 2 → Nat) a + S32x4.size a ≤ S32x4.size a
  h_S32x4 : 0 < S32x4.numel
  shapeCasts_S32x4_S32x4 : S32x4.ShapeCasts S32x4
  inb_S32x1_S32x1_0_0 : ∀ a, (![0, 0] : Fin 2 → Nat) a + S32x1.size a ≤ S32x1.size a
  h_S32x1 : 0 < S32x1.numel
  shapeCasts_S32x1_S32x1 : S32x1.ShapeCasts S32x1
  inb_S32x4x32x256_S32x4x32x256_0_0_0_0 : ∀ a, (![0, 0, 0, 0] : Fin 4 → Nat) a + S32x4x32x256.size a ≤ S32x4x32x256.size a
  h_S32x4x32x256 : 0 < S32x4x32x256.numel
  inb_S32x1x32x256_S32x1x32x256_0_0_0_0 : ∀ a, (![0, 0, 0, 0] : Fin 4 → Nat) a + S32x1x32x256.size a ≤ S32x1x32x256.size a
  h_S32x1x32x256 : 0 < S32x1x32x256.numel
  shapeCasts_S32x1x32x256_S32x1x32x256 : S32x1x32x256.ShapeCasts S32x1x32x256
  broadcasts_S32x1x32x256_S32x4x32x256 : S32x1x32x256.Broadcasts S32x4x32x256
  reduces_S32x4x32x256_S32x4x32 : S32x4x32x256.Reduces [3] S32x4x32
  reduces_S32x4x32_S32x4 : S32x4x32.Reduces [2] S32x4
  natLt_1_32 : 1 < 32
  shapeCasts_S32x1x32x256_S32x32x256 : S32x1x32x256.ShapeCasts S32x32x256
  reduces_S32x32x256_S32x32 : S32x32x256.Reduces [2] S32x32
  reduces_S32x32_S32 : S32x32.Reduces [1] S32
  shapeCasts_S32_S32x1 : S32.ShapeCasts S32x1
  broadcasts_S32x1_S32x4 : S32x1.Broadcasts S32x4
  shapeCasts_S128x1_S128 : S128x1.ShapeCasts S128
  bcast_S_S128 : S_.BroadcastsInDim S128 (![] : Fin 0 → Fin S128.rank)
  bcast_S128_S128x1_0 : S128.BroadcastsInDim S128x1 (![0] : Fin 1 → Fin S128x1.rank)
  bcast_S4_S1x4_1 : S4.BroadcastsInDim S1x4 (![1] : Fin 1 → Fin S1x4.rank)
  bcast_S128x1_S128x4_0_1 : S128x1.BroadcastsInDim S128x4 (![0, 1] : Fin 2 → Fin S128x4.rank)
  bcast_S1x4_S128x4_0_1 : S1x4.BroadcastsInDim S128x4 (![0, 1] : Fin 2 → Fin S128x4.rank)
  reducesTo_S128x4_S128_d1 : S128x4.ReducesTo [1] S128
  h_S_ : 0 < S_.numel
  reducesTo_S128_S_d0 : S128.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x4x32x256.size a ≤ S128x4x256x256.size a
  hwx0_0 : ∀ i : grid0.Coords, EltTy.bits .f32 = 32 ∨ (Rect.block (s := S128x4x256x256) S32x4x32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1x32x256.size a ≤ S128x1x256x256.size a
  hwx0_1 : ∀ i : grid0.Coords, EltTy.bits .f32 = 32 ∨ (Rect.block (s := S128x1x256x256) S32x1x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x4.size a ≤ S128x4.size a
  hwx0_2 : ∀ i : grid0.Coords, EltTy.bits .f32 = 32 ∨ (Rect.block (s := S128x4) S32x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x4.size a ≤ S128x4.size a
  hwx0_3 : ∀ i : grid0.Coords, EltTy.bits .f32 = 32 ∨ (Rect.block (s := S128x4) S32x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x4.size a ≤ S128x4.size a
  hwx0_4 : ∀ i : grid0.Coords, EltTy.bits .f32 = 32 ∨ (Rect.block (s := S128x4) S32x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x4.size a ≤ S128x4.size a
  hwx0_5 : ∀ i : grid0.Coords, EltTy.bits .f32 = 32 ∨ (Rect.block (s := S128x4) S32x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S128x1.size a
  hwx0_6 : ∀ i : grid0.Coords, EltTy.bits .f32 = 32 ∨ (Rect.block (s := S128x1) S32x1.size (cc0_transform_6 i) (hinb0_6 i)).WholeWords (EltTy.packing .f32)

variable [Facts₀]

abbrev win0_0 : Pipeline.Window sig grid0 :=
  Pipeline.Window.ofSpec (Memref.whole main_arg0) S32x4x32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x1x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S32x4.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S32x4.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S32x4.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S32x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S128x4x256x256 : Shape := ⟨4, ![128, 4, 256, 256]⟩
abbrev S128x4 : Shape := ⟨2, ![128, 4]⟩
abbrev S128x1x256x256 : Shape := ⟨4, ![128, 1, 256, 256]⟩
abbrev S4 : Shape := ⟨1, ![4]⟩
abbrev S128x4x65536 : Shape := ⟨3, ![128, 4, 65536]⟩
abbrev S128x65536 : Shape := ⟨2, ![128, 65536]⟩
abbrev S_ : Shape := ⟨0, ![]⟩
abbrev S128 : Shape := ⟨1, ![128]⟩
abbrev S128x1 : Shape := ⟨2, ![128, 1]⟩
abbrev S1x4 : Shape := ⟨2, ![1, 4]⟩
abbrev S128x1x65536 : Shape := ⟨3, ![128, 1, 65536]⟩

abbrev nBuf : Space → Nat
  | .hbm => 214
  | .vmem => 0
  | .smem => 0
  | _ => 0

abbrev hbmTy0_0 (i : Nat) : BufTy := match i % 128 with
  | 0 => ⟨S128x4x256x256, .f32⟩
  | 1 => ⟨S128x4, .f32⟩
  | 2 => ⟨S128x1x256x256, .f32⟩
  | 3 => ⟨S4, .f32⟩
  | 4 => ⟨S4, .f32⟩
  | 5 => ⟨S128x4x65536, .f32⟩
  | 6 => ⟨S128x65536, .f32⟩
  | 7 => ⟨S_, .f32⟩
  | 8 => ⟨S128, .f32⟩
  | 9 => ⟨S_, .f32⟩
  | 10 => ⟨S128, .f32⟩
  | 11 => ⟨S128, .f32⟩
  | 12 => ⟨S128x1, .f32⟩
  | 13 => ⟨S1x4, .f32⟩
  | 14 => ⟨S128x4, .f32⟩
  | 15 => ⟨S128x4, .f32⟩
  | 16 => ⟨S128x4, .i1⟩
  | 17 => ⟨S128x1, .f32⟩
  | 18 => ⟨S1x4, .f32⟩
  | 19 => ⟨S128x4, .f32⟩
  | 20 => ⟨S128x4, .f32⟩
  | 21 => ⟨S128x4, .i1⟩
  | 22 => ⟨S128x4, .i1⟩
  | 23 => ⟨S128x4, .f32⟩
  | 24 => ⟨S128x1x65536, .f32⟩
  | 25 => ⟨S_, .f32⟩
  | 26 => ⟨S128x4x65536, .f32⟩
  | 27 => ⟨S128x4x65536, .f32⟩
  | 28 => ⟨S128x4x65536, .f32⟩
  | 29 => ⟨S128x4x65536, .f32⟩
  | 30 => ⟨S128x4x65536, .f32⟩
  | 31 => ⟨S128x4x65536, .f32⟩
  | 32 => ⟨S128x4x65536, .f32⟩
  | 33 => ⟨S128x4x65536, .f32⟩
  | 34 => ⟨S128x4x65536, .f32⟩
  | 35 => ⟨S128x4x65536, .f32⟩
  | 36 => ⟨S128x4x65536, .f32⟩
  | 37 => ⟨S128x4x65536, .f32⟩
  | 38 => ⟨S_, .f32⟩
  | 39 => ⟨S128x4x65536, .f32⟩
  | 40 => ⟨S128x4x65536, .f32⟩
  | 41 => ⟨S_, .f32⟩
  | 42 => ⟨S128x4x65536, .f32⟩
  | 43 => ⟨S128x4x65536, .f32⟩
  | 44 => ⟨S_, .f32⟩
  | 45 => ⟨S128x4x65536, .f32⟩
  | 46 => ⟨S128x4x65536, .f32⟩
  | 47 => ⟨S128x4x65536, .f32⟩
  | 48 => ⟨S_, .f32⟩
  | 49 => ⟨S128x4, .f32⟩
  | 50 => ⟨S_, .f32⟩
  | 51 => ⟨S128x4, .f32⟩
  | 52 => ⟨S128x4, .f32⟩
  | 53 => ⟨S_, .f32⟩
  | 54 => ⟨S128, .f32⟩
  | 55 => ⟨S128x4, .f32⟩
  | 56 => ⟨S_, .f32⟩
  | 57 => ⟨S128, .f32⟩
  | 58 => ⟨S_, .f32⟩
  | 59 => ⟨S128, .f32⟩
  | 60 => ⟨S128, .f32⟩
  | 61 => ⟨S128, .f32⟩
  | 62 => ⟨S_, .f32⟩
  | 63 => ⟨S128, .f32⟩
  | 64 => ⟨S128, .i1⟩
  | 65 => ⟨S_, .f32⟩
  | 66 => ⟨S_, .f32⟩
  | 67 => ⟨S128, .f32⟩
  | 68 => ⟨S128, .f32⟩
  | 69 => ⟨S_, .f32⟩
  | 70 => ⟨S128, .f32⟩
  | 71 => ⟨S128, .i1⟩
  | 72 => ⟨S128, .f32⟩
  | 73 => ⟨S_, .f32⟩
  | 74 => ⟨S_, .f32⟩
  | 75 => ⟨S_, .f32⟩
  | 76 => ⟨S_, .f32⟩
  | 77 => ⟨S_, .f32⟩
  | 78 => ⟨S_, .i1⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S128x4x65536, .f32⟩
  | 86 => ⟨S128x4x65536, .f32⟩
  | 87 => ⟨S_, .f32⟩
  | 88 => ⟨S128x4x65536, .f32⟩
  | 89 => ⟨S128x4x65536, .f32⟩
  | 90 => ⟨S_, .f32⟩
  | 91 => ⟨S128x4x65536, .f32⟩
  | 92 => ⟨S128x4x65536, .f32⟩
  | 93 => ⟨S_, .f32⟩
  | 94 => ⟨S_, .f32⟩
  | 95 => ⟨S_, .f32⟩
  | 96 => ⟨S128x4x65536, .f32⟩
  | 97 => ⟨S128x4x65536, .f32⟩
  | 98 => ⟨S_, .f32⟩
  | 99 => ⟨S128x4x65536, .f32⟩
  | 100 => ⟨S128x4x65536, .f32⟩
  | 101 => ⟨S128x4x65536, .f32⟩
  | 102 => ⟨S128x4x65536, .f32⟩
  | 103 => ⟨S_, .f32⟩
  | 104 => ⟨S128x4, .f32⟩
  | 105 => ⟨S_, .f32⟩
  | 106 => ⟨S128x4, .f32⟩
  | 107 => ⟨S128x4, .f32⟩
  | 108 => ⟨S_, .f32⟩
  | 109 => ⟨S128x4, .f32⟩
  | 110 => ⟨S128x4, .f32⟩
  | 111 => ⟨S_, .f32⟩
  | 112 => ⟨S128x4, .f32⟩
  | 113 => ⟨S_, .f32⟩
  | 114 => ⟨S128, .f32⟩
  | 115 => ⟨S128x1, .f32⟩
  | 116 => ⟨S128x4, .f32⟩
  | 117 => ⟨S128x4, .f32⟩
  | 118 => ⟨S_, .f32⟩
  | 119 => ⟨S128x4, .f32⟩
  | 120 => ⟨S128x4, .f32⟩
  | 121 => ⟨S128x4, .f32⟩
  | 122 => ⟨S_, .f32⟩
  | 123 => ⟨S128x4, .f32⟩
  | 124 => ⟨S128x4, .f32⟩
  | 125 => ⟨S_, .f32⟩
  | 126 => ⟨S128, .f32⟩
  | 127 => ⟨S128x4, .f32⟩
  | _ => ⟨S128x4x256x256, .f32⟩

abbrev hbmTy0_1 (i : Nat) : BufTy := match i % 128 with
  | 0 => ⟨S_, .f32⟩
  | 1 => ⟨S128, .f32⟩
  | 2 => ⟨S_, .f32⟩
  | 3 => ⟨S128, .f32⟩
  | 4 => ⟨S128, .f32⟩
  | 5 => ⟨S128, .f32⟩
  | 6 => ⟨S_, .f32⟩
  | 7 => ⟨S128, .f32⟩
  | 8 => ⟨S128, .i1⟩
  | 9 => ⟨S_, .f32⟩
  | 10 => ⟨S_, .f32⟩
  | 11 => ⟨S128, .f32⟩
  | 12 => ⟨S128, .f32⟩
  | 13 => ⟨S_, .f32⟩
  | 14 => ⟨S128, .f32⟩
  | 15 => ⟨S128, .i1⟩
  | 16 => ⟨S128, .f32⟩
  | 17 => ⟨S_, .f32⟩
  | 18 => ⟨S_, .f32⟩
  | 19 => ⟨S_, .f32⟩
  | 20 => ⟨S_, .f32⟩
  | 21 => ⟨S_, .f32⟩
  | 22 => ⟨S_, .i1⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S128x4x65536, .f32⟩
  | 31 => ⟨S128x4x65536, .i1⟩
  | 32 => ⟨S128x4x65536, .f32⟩
  | 33 => ⟨S128x4x65536, .f32⟩
  | 34 => ⟨S128x4x65536, .f32⟩
  | 35 => ⟨S_, .f32⟩
  | 36 => ⟨S128x4, .f32⟩
  | 37 => ⟨S_, .f32⟩
  | 38 => ⟨S128x4, .f32⟩
  | 39 => ⟨S128x4, .f32⟩
  | 40 => ⟨S_, .f32⟩
  | 41 => ⟨S128x4, .f32⟩
  | 42 => ⟨S_, .f32⟩
  | 43 => ⟨S128, .f32⟩
  | 44 => ⟨S128x1, .f32⟩
  | 45 => ⟨S128x4, .f32⟩
  | 46 => ⟨S128x4, .f32⟩
  | 47 => ⟨S128x4, .f32⟩
  | 48 => ⟨S_, .f32⟩
  | 49 => ⟨S128x4, .f32⟩
  | 50 => ⟨S128x4, .f32⟩
  | 51 => ⟨S128x4, .f32⟩
  | 52 => ⟨S128x4, .f32⟩
  | 53 => ⟨S128x4, .f32⟩
  | 54 => ⟨S_, .f32⟩
  | 55 => ⟨S128, .f32⟩
  | 56 => ⟨S128x4, .f32⟩
  | 57 => ⟨S_, .f32⟩
  | 58 => ⟨S128, .f32⟩
  | 59 => ⟨S_, .f32⟩
  | 60 => ⟨S128, .f32⟩
  | 61 => ⟨S128, .f32⟩
  | 62 => ⟨S128, .f32⟩
  | 63 => ⟨S_, .f32⟩
  | 64 => ⟨S128, .f32⟩
  | 65 => ⟨S128, .i1⟩
  | 66 => ⟨S_, .f32⟩
  | 67 => ⟨S_, .f32⟩
  | 68 => ⟨S128, .f32⟩
  | 69 => ⟨S128, .f32⟩
  | 70 => ⟨S_, .f32⟩
  | 71 => ⟨S128, .f32⟩
  | 72 => ⟨S128, .i1⟩
  | 73 => ⟨S128, .f32⟩
  | 74 => ⟨S_, .f32⟩
  | 75 => ⟨S_, .f32⟩
  | 76 => ⟨S_, .f32⟩
  | 77 => ⟨S_, .f32⟩
  | 78 => ⟨S_, .f32⟩
  | 79 => ⟨S_, .i1⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | _ => ⟨S128x4x256x256, .f32⟩

abbrev hbmTy (i : Nat) : BufTy := match i / 128 with
  | 0 => hbmTy0_0 i
  | 1 => hbmTy0_1 i
  | _ => ⟨S128x4x256x256, .f32⟩

abbrev bufTy : (tb : Table) → Fin (tcTables nBuf tb) → BufTy
  | .hbm, ⟨i, _⟩ => hbmTy i
  | _, _ => ⟨S128x4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_cst_2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_cst_11 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_12 : Ref sig .tc := ⟨.hbm, 62, rfl⟩
abbrev main_v46 : Ref sig .tc := ⟨.hbm, 63, rfl⟩
abbrev main_v47 : Ref sig .tc := ⟨.hbm, 64, rfl⟩
abbrev main_cst_13 : Ref sig .tc := ⟨.hbm, 65, rfl⟩
abbrev main_call0_v0 : Ref sig .tc := ⟨.hbm, 66, rfl⟩
abbrev main_call0_v1 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_cst_16 : Ref sig .tc := ⟨.hbm, 75, rfl⟩
abbrev main_v53 : Ref sig .tc := ⟨.hbm, 76, rfl⟩
abbrev main_cst_17 : Ref sig .tc := ⟨.hbm, 77, rfl⟩
abbrev main_v54 : Ref sig .tc := ⟨.hbm, 78, rfl⟩
abbrev main_cst_18 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_19 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_20 : Ref sig .tc := ⟨.hbm, 87, rfl⟩
abbrev main_v61 : Ref sig .tc := ⟨.hbm, 88, rfl⟩
abbrev main_v62 : Ref sig .tc := ⟨.hbm, 89, rfl⟩
abbrev main_cst_21 : Ref sig .tc := ⟨.hbm, 90, rfl⟩
abbrev main_v63 : Ref sig .tc := ⟨.hbm, 91, rfl⟩
abbrev main_v64 : Ref sig .tc := ⟨.hbm, 92, rfl⟩
abbrev main_cst_22 : Ref sig .tc := ⟨.hbm, 93, rfl⟩
abbrev main_cst_23 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_24 : Ref sig .tc := ⟨.hbm, 103, rfl⟩
abbrev main_v68 : Ref sig .tc := ⟨.hbm, 104, rfl⟩
abbrev main_cst_25 : Ref sig .tc := ⟨.hbm, 105, rfl⟩
abbrev main_v69 : Ref sig .tc := ⟨.hbm, 106, rfl⟩
abbrev main_v70 : Ref sig .tc := ⟨.hbm, 107, rfl⟩
abbrev main_cst_26 : Ref sig .tc := ⟨.hbm, 108, rfl⟩
abbrev main_v71 : Ref sig .tc := ⟨.hbm, 109, rfl⟩
abbrev main_v72 : Ref sig .tc := ⟨.hbm, 110, rfl⟩
abbrev main_cst_27 : Ref sig .tc := ⟨.hbm, 111, rfl⟩
abbrev main_v73 : Ref sig .tc := ⟨.hbm, 112, rfl⟩
abbrev main_cst_28 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_cst_29 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_30 : Ref sig .tc := ⟨.hbm, 122, rfl⟩
abbrev main_v81 : Ref sig .tc := ⟨.hbm, 123, rfl⟩
abbrev main_v82 : Ref sig .tc := ⟨.hbm, 124, rfl⟩
abbrev main_cst_31 : Ref sig .tc := ⟨.hbm, 125, rfl⟩
abbrev main_v83 : Ref sig .tc := ⟨.hbm, 126, rfl⟩
abbrev main_v84 : Ref sig .tc := ⟨.hbm, 127, rfl⟩
abbrev main_cst_32 : Ref sig .tc := ⟨.hbm, 128, rfl⟩
abbrev main_v85 : Ref sig .tc := ⟨.hbm, 129, rfl⟩
abbrev main_cst_33 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_34 : Ref sig .tc := ⟨.hbm, 134, rfl⟩
abbrev main_v89 : Ref sig .tc := ⟨.hbm, 135, rfl⟩
abbrev main_v90 : Ref sig .tc := ⟨.hbm, 136, rfl⟩
abbrev main_cst_35 : Ref sig .tc := ⟨.hbm, 137, rfl⟩
abbrev main_call3_v0 : Ref sig .tc := ⟨.hbm, 138, rfl⟩
abbrev main_call3_v1 : Ref sig .tc := ⟨.hbm, 139, rfl⟩
abbrev main_v91 : Ref sig .tc := ⟨.hbm, 140, rfl⟩
abbrev main_cst_36 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_37 : Ref sig .tc := ⟨.hbm, 145, rfl⟩
abbrev main_v95 : Ref sig .tc := ⟨.hbm, 146, rfl⟩
abbrev main_cst_38 : Ref sig .tc := ⟨.hbm, 147, rfl⟩
abbrev main_v96 : Ref sig .tc := ⟨.hbm, 148, rfl⟩
abbrev main_cst_39 : Ref sig .tc := ⟨.hbm, 149, rfl⟩
abbrev main_v97 : Ref sig .tc := ⟨.hbm, 150, rfl⟩
abbrev main_cst_40 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_41 : Ref sig .tc := ⟨.hbm, 155, rfl⟩
abbrev main_v101 : Ref sig .tc := ⟨.hbm, 156, rfl⟩
abbrev main_cst_42 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_cst_43 : Ref sig .tc := ⟨.hbm, 163, rfl⟩
abbrev main_v107 : Ref sig .tc := ⟨.hbm, 164, rfl⟩
abbrev main_cst_44 : Ref sig .tc := ⟨.hbm, 165, rfl⟩
abbrev main_v108 : Ref sig .tc := ⟨.hbm, 166, rfl⟩
abbrev main_v109 : Ref sig .tc := ⟨.hbm, 167, rfl⟩
abbrev main_cst_45 : Ref sig .tc := ⟨.hbm, 168, rfl⟩
abbrev main_v110 : Ref sig .tc := ⟨.hbm, 169, rfl⟩
abbrev main_cst_46 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_cst_47 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_cst_48 : Ref sig .tc := ⟨.hbm, 182, rfl⟩
abbrev main_v121 : Ref sig .tc := ⟨.hbm, 183, rfl⟩
abbrev main_v122 : Ref sig .tc := ⟨.hbm, 184, rfl⟩
abbrev main_cst_49 : Ref sig .tc := ⟨.hbm, 185, rfl⟩
abbrev main_v123 : Ref sig .tc := ⟨.hbm, 186, rfl⟩
abbrev main_cst_50 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_cst_51 : Ref sig .tc := ⟨.hbm, 191, rfl⟩
abbrev main_v127 : Ref sig .tc := ⟨.hbm, 192, rfl⟩
abbrev main_v128 : Ref sig .tc := ⟨.hbm, 193, rfl⟩
abbrev main_cst_52 : Ref sig .tc := ⟨.hbm, 194, rfl⟩
abbrev main_call5_v0 : Ref sig .tc := ⟨.hbm, 195, rfl⟩
abbrev main_call5_v1 : Ref sig .tc := ⟨.hbm, 196, rfl⟩
abbrev main_v129 : Ref sig .tc := ⟨.hbm, 197, rfl⟩
abbrev main_cst_53 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_54 : Ref sig .tc := ⟨.hbm, 202, rfl⟩
abbrev main_v133 : Ref sig .tc := ⟨.hbm, 203, rfl⟩
abbrev main_cst_55 : Ref sig .tc := ⟨.hbm, 204, rfl⟩
abbrev main_v134 : Ref sig .tc := ⟨.hbm, 205, rfl⟩
abbrev main_cst_56 : Ref sig .tc := ⟨.hbm, 206, rfl⟩
abbrev main_v135 : Ref sig .tc := ⟨.hbm, 207, rfl⟩
abbrev main_cst_57 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_cst_58 : Ref sig .tc := ⟨.hbm, 212, rfl⟩
abbrev main_v139 : Ref sig .tc := ⟨.hbm, 213, rfl⟩

abbrev nD : Nat := 1
abbrev τ : Topo := Topo.v7x

variable {F : FTy → Type} [FloatOps F]

class Facts₀ : Prop where
  shapeCasts_S128x4x256x256_S128x4x65536 : S128x4x256x256.ShapeCasts S128x4x65536
  shapeCasts_S128x1x256x256_S128x65536 : S128x1x256x256.ShapeCasts S128x65536
  reducesTo_S128x65536_S128_d1 : S128x65536.ReducesTo [1] S128
  h_S_ : 0 < S_.numel
  bcast_S_S128 : S_.BroadcastsInDim S128 (![] : Fin 0 → Fin S128.rank)
  bcast_S128_S128x1_0 : S128.BroadcastsInDim S128x1 (![0] : Fin 1 → Fin S128x1.rank)
  bcast_S4_S1x4_1 : S4.BroadcastsInDim S1x4 (![1] : Fin 1 → Fin S1x4.rank)
  bcast_S128x1_S128x4_0_1 : S128x1.BroadcastsInDim S128x4 (![0, 1] : Fin 2 → Fin S128x4.rank)
  bcast_S1x4_S128x4_0_1 : S1x4.BroadcastsInDim S128x4 (![0, 1] : Fin 2 → Fin S128x4.rank)
  bcast_S128x65536_S128x1x65536_0_2 : S128x65536.BroadcastsInDim S128x1x65536 (![0, 2] : Fin 2 → Fin S128x1x65536.rank)
  bcast_S_S128x4x65536 : S_.BroadcastsInDim S128x4x65536 (![] : Fin 0 → Fin S128x4x65536.rank)
  bcast_S128x1x65536_S128x4x65536_0_1_2 : S128x1x65536.BroadcastsInDim S128x4x65536 (![0, 1, 2] : Fin 3 → Fin S128x4x65536.rank)
  reducesTo_S128x4x65536_S128x4_d2 : S128x4x65536.ReducesTo [2] S128x4
  bcast_S_S128x4 : S_.BroadcastsInDim S128x4 (![] : Fin 0 → Fin S128x4.rank)
  reducesTo_S128x4_S128_d1 : S128x4.ReducesTo [1] S128
  reducesTo_S128_S_d0 : S128.ReducesTo [0] S_

variable [Facts₀]

class Facts : Prop extends Facts₀ where

variable [Facts]
-- ==== Proof.KConds.lean ====
/-
  The kernel body branches twice on the second grid coordinate h (the grid is 4 × 8, point t = 8·b + h):
  at h = 0 the six running sums kept in scratch are reset to zero, and at h = 7 the four output blocks
  are computed from the running sums and stored. This module decides both conditions over the 32 points,
  says where the four output windows are idle, names the scratch buffers, and records how a whole-block
  store reads back.
-/
import proofs.«180374_j28707561407033_2_alg».proof.Proof.Gen.Kernel.Launch
import proofs.«180374_j28707561407033_2_alg».proof.Proof.Gen.Kernel.Skeleton
import proofs.«180374_j28707561407033_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset condition: the second grid coordinate is 0. -/
abbrev condInit (i : grid0.Coords) : Prop :=
  (Scalar.cmpi .ne (Scalar.extui (Scalar.cmpi .eq (BitVec.ofNat 32 (i 1).val) 0#32)) 0#32) = 1#1
/-- It holds exactly at the points 8·b. -/
theorem condInit_iff : ∀ t : Fin cfg0.N, condInit (grid0.coords t) ↔ t.val % 8 = 0 :=
  (by decide +kernel : ∀ t : Fin grid0.N, condInit (grid0.coords t) ↔ t.val % 8 = 0)

/-- The finishing condition: the second grid coordinate is 7. -/
abbrev condLast (i : grid0.Coords) : Prop := k0_cond2 i = 1#1
/-- It holds exactly at the points 8·b + 7. -/
theorem condLast_iff : ∀ t : Fin cfg0.N, condLast (grid0.coords t) ↔ t.val % 8 = 7 :=
  (by decide +kernel : ∀ t : Fin grid0.N, condLast (grid0.coords t) ↔ t.val % 8 = 7)

/-- The three input windows are never idle. -/
theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
/-- An output window is idle away from the points 8·b + 7, and live there. -/
theorem idle_out : ∀ (w : Fin cfg0.W) (t : Fin cfg0.N), 3 ≤ w.val → ¬ t.val % 8 = 7 → cfg0.idle w (grid0.coords t) = true := by decide +kernel
theorem live_out : ∀ (w : Fin cfg0.W) (t : Fin cfg0.N), 3 ≤ w.val → t.val % 8 = 7 → cfg0.idle w (grid0.coords t) = false := by decide +kernel
/-- Away from those points an output block is not written back. -/
theorem noflush_out : ∀ (w : Fin cfg0.W) (t : Fin cfg0.N), 3 ≤ w.val → ¬ t.val % 8 = 7 → (cfg0.win w).flush t = false := by decide +kernel

/-- The six scratch buffers, as whole memrefs. -/
abbrev sc0 : Memref sig .tc .vmem S32x4 .f32 := Memref.whole cc0_scratch0
abbrev sc1 : Memref sig .tc .vmem S32x4 .f32 := Memref.whole cc0_scratch1
abbrev sc2 : Memref sig .tc .vmem S32x4 .f32 := Memref.whole cc0_scratch2
abbrev sc3 : Memref sig .tc .vmem S32x4 .f32 := Memref.whole cc0_scratch3
abbrev sc4 : Memref sig .tc .vmem S32x4 .f32 := Memref.whole cc0_scratch4
abbrev sc5 : Memref sig .tc .vmem S32x1 .f32 := Memref.whole cc0_scratch5

/-- What the region's invariant holds besides the windows: each scratch buffer whole at some contents, and the
    generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The zero offsets of a whole-block access, however many axes. -/
theorem hz2 : (![0, 0] : Fin 2 → Nat) = fun _ => 0 := by funext a; fin_cases a <;> rfl
theorem hz4 : (![0, 0, 0, 0] : Fin 4 → Nat) = fun _ => 0 := by funext a; fin_cases a <;> rfl

/-- A store of a whole block, made last, reads back as its payload whatever was stored before. -/
theorem read_whole_store {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

end Cert.Kernel.Body

end
-- ==== Proof.KRunA.lean ====
/-
  The kernel body at the first point of a row of eight (h = 0, not the last): the six running sums are reset to zero
  and then this tile's partial sums are added, so each ends at zero plus the tile's sum; inputs and the idle output
  buffers are left as they were.
-/
import proofs.«180374_j28707561407033_2_alg».proof.Proof.KConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run_first (c : Dev nD) (i : grid0.Coords) (a2 : Memref sig .tc .vmem S32x4x32x256 .f32) (h2 : a2.IsWhole) (a3 : Memref sig .tc .vmem S32x1x32x256 .f32) (h3 : a3.IsWhole) (a4 : Memref sig .tc .vmem S32x4 .f32) (h4 : a4.IsWhole) (a5 : Memref sig .tc .vmem S32x4 .f32) (h5 : a5.IsWhole) (a6 : Memref sig .tc .vmem S32x4 .f32) (h6 : a6.IsWhole) (a7 : Memref sig .tc .vmem S32x4 .f32) (h7 : a7.IsWhole) (a8 : Memref sig .tc .vmem S32x1 .f32) (h8 : a8.IsWhole) (a9 : Memref sig .tc .vmem S32x4 .f32) (h9 : a9.IsWhole) (a10 : Memref sig .tc .vmem S32x4 .f32) (h10 : a10.IsWhole) (a11 : Memref sig .tc .vmem S32x4 .f32) (h11 : a11.IsWhole) (a12 : Memref sig .tc .vmem S32x4 .f32) (h12 : a12.IsWhole) (a13 : Memref sig .tc .vmem S32x4 .f32) (h13 : a13.IsWhole) (a14 : Memref sig .tc .vmem S32x1 .f32) (h14 : a14.IsWhole)
    (hc1 : condInit i) (hc2 : ¬ condLast i)
    (x0 : Vec F S32x4x32x256 .f32) (x1 : Vec F S32x1x32x256 .f32) (x2 : Vec F S32x4 .f32)
    (o3 o4 o5 : Vec F S32x4 .f32) (o6 : Vec F S32x1 .f32)
    (s9 s10 s11 s12 s13 : Vec F S32x4 .f32) (s14 : Vec F S32x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare o3 ∗ owns (c : Thread nD τ) a6 fullShare o4 ∗ owns (c : Thread nD τ) a7 fullShare o5 ∗ owns (c : Thread nD τ) a8 fullShare o6
        ∗ owns (c : Thread nD τ) a9 fullShare s9 ∗ owns (c : Thread nD τ) a10 fullShare s10 ∗ owns (c : Thread nD τ) a11 fullShare s11 ∗ owns (c : Thread nD τ) a12 fullShare s12 ∗ owns (c : Thread nD τ) a13 fullShare s13 ∗ owns (c : Thread nD τ) a14 fullShare s14
        ∗ (iprop(owns (c : Thread nD τ) a2 fullShare x0 ∗ owns (c : Thread nD τ) a3 fullShare x1 ∗ owns (c : Thread nD τ) a4 fullShare x2
            ∗ owns (c : Thread nD τ) a5 fullShare o3 ∗ owns (c : Thread nD τ) a6 fullShare o4 ∗ owns (c : Thread nD τ) a7 fullShare o5 ∗ owns (c : Thread nD τ) a8 fullShare o6
            ∗ owns (c : Thread nD τ) a9 fullShare (k0_pay13 x0 x1 (k0_pay6 (F := F))) ∗ owns (c : Thread nD τ) a10 fullShare (k0_pay17 (k0_pay14 x0) (Scalar.ofBits .f32 0x38D1B717#32) (k0_pay7 (F := F))) ∗ owns (c : Thread nD τ) a11 fullShare (k0_pay16 (k0_pay12 x1) (k0_pay14 x0) (Scalar.ofBits .f32 0x38D1B717#32) (k0_pay8 (F := F)))
            ∗ owns (c : Thread nD τ) a12 fullShare (k0_pay1 (k0_pay20 x0) (k0_pay9 (F := F))) ∗ owns (c : Thread nD τ) a13 fullShare (k0_pay19 x0 (k0_pay12 x1) (k0_pay10 (F := F))) ∗ owns (c : Thread nD τ) a14 fullShare (k0_pay2 x1 (k0_pay11 (F := F)))) -∗ K ⟨⟩))
      ⊢ wp frame (wpE (defs₀ (F := F)) Variants.none c none) E (cc0__loss_kernel i a2 h2 a3 h3 a4 h4 a5 h5 a6 h6 a7 h7 a8 h8 a9 h9 a10 h10 a11 h11 a12 h12 a13 h13 a14 h14) K := by
  simp only [cc0__loss_kernel_eq_skeleton]; unfold cc0__loss_kernel_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  obtain rfl := h2.eq_unread e2; obtain rfl := h3.eq_unread e3; obtain rfl := h4.eq_unread e4
  obtain rfl := h5.eq_unread e5; obtain rfl := h6.eq_unread e6; obtain rfl := h7.eq_unread e7; obtain rfl := h8.eq_unread e8
  obtain rfl := h9.eq_unread e9; obtain rfl := h10.eq_unread e10; obtain rfl := h11.eq_unread e11
  obtain rfl := h12.eq_unread e12; obtain rfl := h13.eq_unread e13; obtain rfl := h14.eq_unread e14
  sl_exec (disch := first | exact hc1 | exact hc2)
  sl_step
  iapply Hk
  isplitl [H2]
  · iexists _; isplitr
    · ipureintro; exact e2
    iexact H2
  isplitl [H3]
  · iexists _; isplitr
    · ipureintro; exact e3
    iexact H3
  isplitl [H4]
  · iexists _; isplitr
    · ipureintro; exact e4
    iexact H4
  isplitl [H5]
  · iexists _; isplitr
    · ipureintro; exact e5
    iexact H5
  isplitl [H6]
  · iexists _; isplitr
    · ipureintro; exact e6
    iexact H6
  isplitl [H7]
  · iexists _; isplitr
    · ipureintro; exact e7
    iexact H7
  isplitl [H8]
  · iexists _; isplitr
    · ipureintro; exact e8
    iexact H8
  isplitl [H9]
  · iexists _; isplitr
    swap
    · iexact H9
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H10]
  · iexists _; isplitr
    swap
    · iexact H10
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H11]
  · iexists _; isplitr
    swap
    · iexact H11
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H12]
  · iexists _; isplitr
    swap
    · iexact H12
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H13]
  · iexists _; isplitr
    swap
    · iexact H13
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  iexists _; isplitr
  swap
  · iexact H14
  ipureintro
  try sl_unfold_words
  rw [read_whole_store _ _ hz2]
  simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
  try rfl

end Cert.Kernel.Body

end
-- ==== Proof.KRunB.lean ====
/-
  The kernel body at a grid point that is neither the first nor the last of its row of eight: no reset, no final
  store. Each of the six running sums is replaced by itself plus this tile's partial sum; the input blocks and the
  (idle) output buffers are left as they were.
-/
import proofs.«180374_j28707561407033_2_alg».proof.Proof.KConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run_mid (c : Dev nD) (i : grid0.Coords) (a2 : Memref sig .tc .vmem S32x4x32x256 .f32) (h2 : a2.IsWhole) (a3 : Memref sig .tc .vmem S32x1x32x256 .f32) (h3 : a3.IsWhole) (a4 : Memref sig .tc .vmem S32x4 .f32) (h4 : a4.IsWhole) (a5 : Memref sig .tc .vmem S32x4 .f32) (h5 : a5.IsWhole) (a6 : Memref sig .tc .vmem S32x4 .f32) (h6 : a6.IsWhole) (a7 : Memref sig .tc .vmem S32x4 .f32) (h7 : a7.IsWhole) (a8 : Memref sig .tc .vmem S32x1 .f32) (h8 : a8.IsWhole) (a9 : Memref sig .tc .vmem S32x4 .f32) (h9 : a9.IsWhole) (a10 : Memref sig .tc .vmem S32x4 .f32) (h10 : a10.IsWhole) (a11 : Memref sig .tc .vmem S32x4 .f32) (h11 : a11.IsWhole) (a12 : Memref sig .tc .vmem S32x4 .f32) (h12 : a12.IsWhole) (a13 : Memref sig .tc .vmem S32x4 .f32) (h13 : a13.IsWhole) (a14 : Memref sig .tc .vmem S32x1 .f32) (h14 : a14.IsWhole)
    (hc1 : ¬ condInit i) (hc2 : ¬ condLast i)
    (x0 : Vec F S32x4x32x256 .f32) (x1 : Vec F S32x1x32x256 .f32) (x2 : Vec F S32x4 .f32)
    (o3 o4 o5 : Vec F S32x4 .f32) (o6 : Vec F S32x1 .f32)
    (s9 s10 s11 s12 s13 : Vec F S32x4 .f32) (s14 : Vec F S32x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare o3 ∗ owns (c : Thread nD τ) a6 fullShare o4 ∗ owns (c : Thread nD τ) a7 fullShare o5 ∗ owns (c : Thread nD τ) a8 fullShare o6
        ∗ owns (c : Thread nD τ) a9 fullShare s9 ∗ owns (c : Thread nD τ) a10 fullShare s10 ∗ owns (c : Thread nD τ) a11 fullShare s11 ∗ owns (c : Thread nD τ) a12 fullShare s12 ∗ owns (c : Thread nD τ) a13 fullShare s13 ∗ owns (c : Thread nD τ) a14 fullShare s14
        ∗ (iprop(owns (c : Thread nD τ) a2 fullShare x0 ∗ owns (c : Thread nD τ) a3 fullShare x1 ∗ owns (c : Thread nD τ) a4 fullShare x2
            ∗ owns (c : Thread nD τ) a5 fullShare o3 ∗ owns (c : Thread nD τ) a6 fullShare o4 ∗ owns (c : Thread nD τ) a7 fullShare o5 ∗ owns (c : Thread nD τ) a8 fullShare o6
            ∗ owns (c : Thread nD τ) a9 fullShare (k0_pay13 x0 x1 s9) ∗ owns (c : Thread nD τ) a10 fullShare (k0_pay17 (k0_pay14 x0) (Scalar.ofBits .f32 0x38D1B717#32) s10) ∗ owns (c : Thread nD τ) a11 fullShare (k0_pay16 (k0_pay12 x1) (k0_pay14 x0) (Scalar.ofBits .f32 0x38D1B717#32) s11)
            ∗ owns (c : Thread nD τ) a12 fullShare (k0_pay1 (k0_pay20 x0) s12) ∗ owns (c : Thread nD τ) a13 fullShare (k0_pay19 x0 (k0_pay12 x1) s13) ∗ owns (c : Thread nD τ) a14 fullShare (k0_pay2 x1 s14)) -∗ K ⟨⟩))
      ⊢ wp frame (wpE (defs₀ (F := F)) Variants.none c none) E (cc0__loss_kernel i a2 h2 a3 h3 a4 h4 a5 h5 a6 h6 a7 h7 a8 h8 a9 h9 a10 h10 a11 h11 a12 h12 a13 h13 a14 h14) K := by
  simp only [cc0__loss_kernel_eq_skeleton]; unfold cc0__loss_kernel_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  obtain rfl := h2.eq_unread e2; obtain rfl := h3.eq_unread e3; obtain rfl := h4.eq_unread e4
  obtain rfl := h5.eq_unread e5; obtain rfl := h6.eq_unread e6; obtain rfl := h7.eq_unread e7; obtain rfl := h8.eq_unread e8
  obtain rfl := h9.eq_unread e9; obtain rfl := h10.eq_unread e10; obtain rfl := h11.eq_unread e11
  obtain rfl := h12.eq_unread e12; obtain rfl := h13.eq_unread e13; obtain rfl := h14.eq_unread e14
  sl_exec (disch := first | exact hc1 | exact hc2)
  sl_step
  iapply Hk
  isplitl [H2]
  · iexists _; isplitr
    · ipureintro; exact e2
    iexact H2
  isplitl [H3]
  · iexists _; isplitr
    · ipureintro; exact e3
    iexact H3
  isplitl [H4]
  · iexists _; isplitr
    · ipureintro; exact e4
    iexact H4
  isplitl [H5]
  · iexists _; isplitr
    · ipureintro; exact e5
    iexact H5
  isplitl [H6]
  · iexists _; isplitr
    · ipureintro; exact e6
    iexact H6
  isplitl [H7]
  · iexists _; isplitr
    · ipureintro; exact e7
    iexact H7
  isplitl [H8]
  · iexists _; isplitr
    · ipureintro; exact e8
    iexact H8
  isplitl [H9]
  · iexists _; isplitr
    swap
    · iexact H9
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H10]
  · iexists _; isplitr
    swap
    · iexact H10
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H11]
  · iexists _; isplitr
    swap
    · iexact H11
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H12]
  · iexists _; isplitr
    swap
    · iexact H12
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H13]
  · iexists _; isplitr
    swap
    · iexact H13
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  iexists _; isplitr
  swap
  · iexact H14
  ipureintro
  try sl_unfold_words
  rw [read_whole_store _ _ hz2]
  simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
  try rfl

end Cert.Kernel.Body

end
-- ==== Proof.KRunC.lean ====
/-
  The kernel body at the last point of a row of eight (h = 7): the six running sums take this tile's partial sums, and
  the four output blocks are then computed from the finished sums (the focal mean, the dice term, the squared
  IoU-prediction error and the target count) and stored whole.
-/
import proofs.«180374_j28707561407033_2_alg».proof.Proof.KConds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run_last (c : Dev nD) (i : grid0.Coords) (a2 : Memref sig .tc .vmem S32x4x32x256 .f32) (h2 : a2.IsWhole) (a3 : Memref sig .tc .vmem S32x1x32x256 .f32) (h3 : a3.IsWhole) (a4 : Memref sig .tc .vmem S32x4 .f32) (h4 : a4.IsWhole) (a5 : Memref sig .tc .vmem S32x4 .f32) (h5 : a5.IsWhole) (a6 : Memref sig .tc .vmem S32x4 .f32) (h6 : a6.IsWhole) (a7 : Memref sig .tc .vmem S32x4 .f32) (h7 : a7.IsWhole) (a8 : Memref sig .tc .vmem S32x1 .f32) (h8 : a8.IsWhole) (a9 : Memref sig .tc .vmem S32x4 .f32) (h9 : a9.IsWhole) (a10 : Memref sig .tc .vmem S32x4 .f32) (h10 : a10.IsWhole) (a11 : Memref sig .tc .vmem S32x4 .f32) (h11 : a11.IsWhole) (a12 : Memref sig .tc .vmem S32x4 .f32) (h12 : a12.IsWhole) (a13 : Memref sig .tc .vmem S32x4 .f32) (h13 : a13.IsWhole) (a14 : Memref sig .tc .vmem S32x1 .f32) (h14 : a14.IsWhole)
    (hc1 : ¬ condInit i) (hc2 : condLast i)
    (x0 : Vec F S32x4x32x256 .f32) (x1 : Vec F S32x1x32x256 .f32) (x2 : Vec F S32x4 .f32)
    (o3 o4 o5 : Vec F S32x4 .f32) (o6 : Vec F S32x1 .f32)
    (s9 s10 s11 s12 s13 : Vec F S32x4 .f32) (s14 : Vec F S32x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare o3 ∗ owns (c : Thread nD τ) a6 fullShare o4 ∗ owns (c : Thread nD τ) a7 fullShare o5 ∗ owns (c : Thread nD τ) a8 fullShare o6
        ∗ owns (c : Thread nD τ) a9 fullShare s9 ∗ owns (c : Thread nD τ) a10 fullShare s10 ∗ owns (c : Thread nD τ) a11 fullShare s11 ∗ owns (c : Thread nD τ) a12 fullShare s12 ∗ owns (c : Thread nD τ) a13 fullShare s13 ∗ owns (c : Thread nD τ) a14 fullShare s14
        ∗ (iprop(owns (c : Thread nD τ) a2 fullShare x0 ∗ owns (c : Thread nD τ) a3 fullShare x1 ∗ owns (c : Thread nD τ) a4 fullShare x2
            ∗ owns (c : Thread nD τ) a5 fullShare (k0_pay3 (k0_pay13 x0 x1 s9)) ∗ owns (c : Thread nD τ) a6 fullShare (k0_pay4 (k0_pay2 x1 s14) (k0_pay16 (k0_pay12 x1) (k0_pay14 x0) (Scalar.ofBits .f32 0x38D1B717#32) s11) (k0_pay17 (k0_pay14 x0) (Scalar.ofBits .f32 0x38D1B717#32) s10)) ∗ owns (c : Thread nD τ) a7 fullShare (k0_pay5 (k0_pay2 x1 s14) (k0_pay19 x0 (k0_pay12 x1) s13) (k0_pay1 (k0_pay20 x0) s12) (k0_pay19 x0 (k0_pay12 x1) s13) x2) ∗ owns (c : Thread nD τ) a8 fullShare (k0_pay2 x1 s14)
            ∗ owns (c : Thread nD τ) a9 fullShare (k0_pay13 x0 x1 s9) ∗ owns (c : Thread nD τ) a10 fullShare (k0_pay17 (k0_pay14 x0) (Scalar.ofBits .f32 0x38D1B717#32) s10) ∗ owns (c : Thread nD τ) a11 fullShare (k0_pay16 (k0_pay12 x1) (k0_pay14 x0) (Scalar.ofBits .f32 0x38D1B717#32) s11)
            ∗ owns (c : Thread nD τ) a12 fullShare (k0_pay1 (k0_pay20 x0) s12) ∗ owns (c : Thread nD τ) a13 fullShare (k0_pay19 x0 (k0_pay12 x1) s13) ∗ owns (c : Thread nD τ) a14 fullShare (k0_pay2 x1 s14)) -∗ K ⟨⟩))
      ⊢ wp frame (wpE (defs₀ (F := F)) Variants.none c none) E (cc0__loss_kernel i a2 h2 a3 h3 a4 h4 a5 h5 a6 h6 a7 h7 a8 h8 a9 h9 a10 h10 a11 h11 a12 h12 a13 h13 a14 h14) K := by
  simp only [cc0__loss_kernel_eq_skeleton]; unfold cc0__loss_kernel_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  obtain rfl := h2.eq_unread e2; obtain rfl := h3.eq_unread e3; obtain rfl := h4.eq_unread e4
  obtain rfl := h5.eq_unread e5; obtain rfl := h6.eq_unread e6; obtain rfl := h7.eq_unread e7; obtain rfl := h8.eq_unread e8
  obtain rfl := h9.eq_unread e9; obtain rfl := h10.eq_unread e10; obtain rfl := h11.eq_unread e11
  obtain rfl := h12.eq_unread e12; obtain rfl := h13.eq_unread e13; obtain rfl := h14.eq_unread e14
  sl_exec (disch := first | exact hc1 | exact hc2)
  sl_step
  iapply Hk
  isplitl [H2]
  · iexists _; isplitr
    · ipureintro; exact e2
    iexact H2
  isplitl [H3]
  · iexists _; isplitr
    · ipureintro; exact e3
    iexact H3
  isplitl [H4]
  · iexists _; isplitr
    · ipureintro; exact e4
    iexact H4
  isplitl [H5]
  · iexists _; isplitr
    swap
    · iexact H5
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H6]
  · iexists _; isplitr
    swap
    · iexact H6
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H7]
  · iexists _; isplitr
    swap
    · iexact H7
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H8]
  · iexists _; isplitr
    swap
    · iexact H8
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H9]
  · iexists _; isplitr
    swap
    · iexact H9
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H10]
  · iexists _; isplitr
    swap
    · iexact H10
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H11]
  · iexists _; isplitr
    swap
    · iexact H11
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H12]
  · iexists _; isplitr
    swap
    · iexact H12
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H13]
  · iexists _; isplitr
    swap
    · iexact H13
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  iexists _; isplitr
  swap
  · iexact H14
  ipureintro
  try sl_unfold_words
  rw [read_whole_store _ _ hz2]
  simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
  try rfl

end Cert.Kernel.Body

end
-- ==== Proof.KBody.lean ====
/-
  The pipeline's proof data for the one kernel region, and the body's obligation at every grid point.

  Point t = 8·b + h works on rows 32·b … 32·b+31 of the batch and image rows 32·h … 32·h+31. After point t the six
  scratch buffers hold the running sums over the tiles h' ≤ h of row-block b (an `Acc`): the focal terms, the clamped
  probabilities, probability × target, the thresholded mask, mask × target, and the targets. The sums restart from zero
  whenever h = 0. At h = 7 the four output blocks are functions of the finished sums; at the other points the output
  windows are idle and nothing is read from or written back through them.
-/
import proofs.«180374_j28707561407033_2_alg».proof.Proof.KRunA
import proofs.«180374_j28707561407033_2_alg».proof.Proof.KRunB
import proofs.«180374_j28707561407033_2_alg».proof.Proof.KRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The six running sums the kernel keeps in scratch. -/
structure Acc (F : FTy → Type) [FloatOps F] where
  foc : Vec F S32x4 .f32
  prb : Vec F S32x4 .f32
  int : Vec F S32x4 .f32
  msk : Vec F S32x4 .f32
  mi : Vec F S32x4 .f32
  tg : Vec F S32x1 .f32

/-- All sums at zero: what the reset stores. -/
def Acc.zero : Acc F := ⟨k0_pay6, k0_pay7, k0_pay8, k0_pay9, k0_pay10, k0_pay11⟩

/-- One tile's contribution added to each sum: x0 the logits' block, x1 the targets' block. -/
def Acc.step (x0 : Vec F S32x4x32x256 .f32) (x1 : Vec F S32x1x32x256 .f32) (s : Acc F) : Acc F :=
  ⟨k0_pay13 x0 x1 s.foc, k0_pay17 (k0_pay14 x0) (Scalar.ofBits .f32 0x38D1B717#32) s.prb, k0_pay16 (k0_pay12 x1) (k0_pay14 x0) (Scalar.ofBits .f32 0x38D1B717#32) s.int,
   k0_pay1 (k0_pay20 x0) s.msk, k0_pay19 x0 (k0_pay12 x1) s.mi, k0_pay2 x1 s.tg⟩

/-- The sums after point n: restarted from zero at the first point of each row of eight. -/
def accAt (c : Dev nD) : (n : ℕ) → n < cfg0.N → Acc F
  | 0, h => Acc.step (iblk V c 0 ⟨0, h⟩) (iblk V c 1 ⟨0, h⟩) Acc.zero
  | n + 1, h => Acc.step (iblk V c 0 ⟨n + 1, h⟩) (iblk V c 1 ⟨n + 1, h⟩)
      (if (n + 1) % 8 = 0 then Acc.zero else accAt c n (Nat.lt_of_succ_lt h))

theorem accAt_first (c : Dev nD) (t : Fin cfg0.N) (h0 : t.val % 8 = 0) :
    accAt V c t.val t.isLt = Acc.step (iblk V c 0 t) (iblk V c 1 t) Acc.zero := by
  obtain ⟨n, hn⟩ := t
  cases n with
  | zero => rfl
  | succ n => show Acc.step _ _ (if (n + 1) % 8 = 0 then _ else _) = _; rw [if_pos h0]

theorem accAt_next (c : Dev nD) (t : Fin cfg0.N) (h0 : ¬ t.val % 8 = 0) :
    accAt V c t.val t.isLt = Acc.step (iblk V c 0 t) (iblk V c 1 t) (accAt V c (t.val - 1) (Nat.lt_of_le_of_lt (Nat.sub_le _ _) t.isLt)) := by
  obtain ⟨n, hn⟩ := t
  cases n with
  | zero => exact absurd (Nat.zero_mod _) h0
  | succ n => show Acc.step _ _ (if (n + 1) % 8 = 0 then _ else _) = _; rw [if_neg h0]; rfl

/-- The region's invariant before position n: at the start whatever the launch hands over; afterwards the scratch
    buffers at the running sums the point before left. -/
def PhiS (c : Dev nD) : (n : ℕ) → n ≤ cfg0.N → sProp 𝕄
  | 0, _ => Pipeline.ΦA spec0 c
  | n + 1, hn => iprop(iprop(owns (c : Thread nD τ) sc0 fullShare (accAt V c n hn).foc ∗ owns (c : Thread nD τ) sc1 fullShare (accAt V c n hn).prb ∗ owns (c : Thread nD τ) sc2 fullShare (accAt V c n hn).int ∗ owns (c : Thread nD τ) sc3 fullShare (accAt V c n hn).msk ∗ owns (c : Thread nD τ) sc4 fullShare (accAt V c n hn).mi ∗ owns (c : Thread nD τ) sc5 fullShare (accAt V c n hn).tg) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) sc0 fullShare (accAt V c n hn).foc ∗ owns (c : Thread nD τ) sc1 fullShare (accAt V c n hn).prb ∗ owns (c : Thread nD τ) sc2 fullShare (accAt V c n hn).int ∗ owns (c : Thread nD τ) sc3 fullShare (accAt V c n hn).msk ∗ owns (c : Thread nD τ) sc4 fullShare (accAt V c n hn).mi ∗ owns (c : Thread nD τ) sc5 fullShare (accAt V c n hn).tg) ∗ (∃ r, prngReg c r)) := rfl
theorem PhiS_pos (c : Dev nD) (n : ℕ) (h : n ≤ cfg0.N) (hz : n ≠ 0) :
    PhiS V c n h = iprop(iprop(owns (c : Thread nD τ) sc0 fullShare (accAt V c (n - 1) (by omega)).foc ∗ owns (c : Thread nD τ) sc1 fullShare (accAt V c (n - 1) (by omega)).prb ∗ owns (c : Thread nD τ) sc2 fullShare (accAt V c (n - 1) (by omega)).int ∗ owns (c : Thread nD τ) sc3 fullShare (accAt V c (n - 1) (by omega)).msk ∗ owns (c : Thread nD τ) sc4 fullShare (accAt V c (n - 1) (by omega)).mi ∗ owns (c : Thread nD τ) sc5 fullShare (accAt V c (n - 1) (by omega)).tg) ∗ (∃ r, prngReg c r)) := by
  cases n with
  | zero => exact absurd rfl hz
  | succ n => rfl

/-- The proof data: the arrays as the region finds them; each input's buffer at its block; the four outputs' buffers
    at the functions of the running sums that the last point of a row stores (consulted only there); the invariant
    above; nothing owed; full shares. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (accAt V c t.val t.isLt).foc
    | ⟨4, _⟩ => k0_pay4 (accAt V c t.val t.isLt).tg (accAt V c t.val t.isLt).int (accAt V c t.val t.isLt).prb
    | ⟨5, _⟩ => k0_pay5 (accAt V c t.val t.isLt).tg (accAt V c t.val t.isLt).mi (accAt V c t.val t.isLt).msk (accAt V c t.val t.isLt).mi (iblk V c 2 t)
    | ⟨6, _⟩ => (accAt V c t.val t.isLt).tg
    | ⟨_ + 7, h⟩ => absurd h (Nat.not_lt.2 (Nat.le_add_left _ _))
  Φ t := PhiS V c t.val (Nat.le_of_lt_succ t.isLt)
  q _ := fullShare
  owed _ := 0

theorem A_eq (c : Dev nD) (w : Fin cfg0.W) : (dats V 0 c).A w = V c (Pipeline.arrRef spec0 w) := by
  dsimp only [dats]
theorem Phi_castSucc (c : Dev nD) (t : Fin cfg0.N) :
    (dats V 0 c).Φ t.castSucc = PhiS V c t.val (Nat.le_of_lt t.isLt) := by
  dsimp only [dats]; simp only [Fin.coe_castSucc]
theorem after_in0 (c : Dev nD) (t : Fin cfg0.N) : (dats V 0 c).after 0 t = iblk V c 0 t := by dsimp only [dats]
theorem after_in1 (c : Dev nD) (t : Fin cfg0.N) : (dats V 0 c).after 1 t = iblk V c 1 t := by dsimp only [dats]
theorem after_in2 (c : Dev nD) (t : Fin cfg0.N) : (dats V 0 c).after 2 t = iblk V c 2 t := by dsimp only [dats]
theorem after_out3 (c : Dev nD) (t : Fin cfg0.N) : (dats V 0 c).after 3 t = k0_pay3 (accAt V c t.val t.isLt).foc := by dsimp only [dats]
theorem after_out4 (c : Dev nD) (t : Fin cfg0.N) : (dats V 0 c).after 4 t = k0_pay4 (accAt V c t.val t.isLt).tg (accAt V c t.val t.isLt).int (accAt V c t.val t.isLt).prb := by dsimp only [dats]
theorem after_out5 (c : Dev nD) (t : Fin cfg0.N) : (dats V 0 c).after 5 t = k0_pay5 (accAt V c t.val t.isLt).tg (accAt V c t.val t.isLt).mi (accAt V c t.val t.isLt).msk (accAt V c t.val t.isLt).mi (iblk V c 2 t) := by dsimp only [dats]
theorem after_out6 (c : Dev nD) (t : Fin cfg0.N) : (dats V 0 c).after 6 t = (accAt V c t.val t.isLt).tg := by dsimp only [dats]

theorem before0 (c : Dev nD) (t : Fin cfg0.N) (d) : (dats V 0 c).before 0 t d = iblk V c 0 t :=
  before_in0 V (dats V 0 c) (A_eq V c 0) (after_in0 V c) t d
theorem before1 (c : Dev nD) (t : Fin cfg0.N) (d) : (dats V 0 c).before 1 t d = iblk V c 1 t :=
  before_in1 V (dats V 0 c) (A_eq V c 1) (after_in1 V c) t d
theorem before2 (c : Dev nD) (t : Fin cfg0.N) (d) : (dats V 0 c).before 2 t d = iblk V c 2 t :=
  before_in2 V (dats V 0 c) (A_eq V c 2) (after_in2 V c) t d

/-- What the body is called with at point t, the seven windows one by one, -/
def bodyPre (c : Dev nD) (t : Fin cfg0.N) : sProp 𝕄 :=
  iprop((dats V 0 c).Φ t.castSucc ∗ (dats V 0 c).owesAt () t.castSucc
    ∗ (∃ d, owns (c : Thread nD τ) (win0_0.stage (cfg0.slots t 0)) fullShare ((dats V 0 c).before 0 t d))
    ∗ (∃ d, owns (c : Thread nD τ) (win0_1.stage (cfg0.slots t 1)) fullShare ((dats V 0 c).before 1 t d))
    ∗ (∃ d, owns (c : Thread nD τ) (win0_2.stage (cfg0.slots t 2)) fullShare ((dats V 0 c).before 2 t d))
    ∗ (∃ d, owns (c : Thread nD τ) (win0_3.stage (cfg0.slots t 3)) fullShare ((dats V 0 c).before 3 t d))
    ∗ (∃ d, owns (c : Thread nD τ) (win0_4.stage (cfg0.slots t 4)) fullShare ((dats V 0 c).before 4 t d))
    ∗ (∃ d, owns (c : Thread nD τ) (win0_5.stage (cfg0.slots t 5)) fullShare ((dats V 0 c).before 5 t d))
    ∗ (∃ d, owns (c : Thread nD τ) (win0_6.stage (cfg0.slots t 6)) fullShare ((dats V 0 c).before 6 t d)))

/-- and what it returns. -/
def bodyPost (c : Dev nD) (t : Fin cfg0.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t
    ∗ (dats V 0 c).leavesExact 3 t
    ∗ (dats V 0 c).leavesExact 4 t
    ∗ (dats V 0 c).leavesExact 5 t
    ∗ (dats V 0 c).leavesExact 6 t)

set_option maxHeartbeats 8000000 in
/-- The body at any point: by the position h = t mod 8 in the row, one of the three runs applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dats V 0 c).owesAt () t.succ = (dats V 0 c).owesAt () t.castSucc from rfl]
  rw [show (dats V 0 c).Φ t.succ = PhiS V c (t.val + 1) t.isLt from rfl, PhiS_succ]
  rw [show (dats V 0 c).leavesExact 0 t = owns (c : Thread nD τ) (win0_0.stage (cfg0.slots t 0)) fullShare ((dats V 0 c).after 0 t) from by
      unfold Dat.leavesExact; rw [live_in0 t], after_in0]
  rw [show (dats V 0 c).leavesExact 1 t = owns (c : Thread nD τ) (win0_1.stage (cfg0.slots t 1)) fullShare ((dats V 0 c).after 1 t) from by
      unfold Dat.leavesExact; rw [live_in1 t], after_in1]
  rw [show (dats V 0 c).leavesExact 2 t = owns (c : Thread nD τ) (win0_2.stage (cfg0.slots t 2)) fullShare ((dats V 0 c).after 2 t) from by
      unfold Dat.leavesExact; rw [live_in2 t], after_in2]
  by_cases h7 : t.val % 8 = 7
  · have h0 : ¬ t.val % 8 = 0 := by omega
    have hz : t.val ≠ 0 := fun h => h0 (by rw [h])
    rw [show (dats V 0 c).leavesExact 3 t = owns (c : Thread nD τ) (win0_3.stage (cfg0.slots t 3)) fullShare ((dats V 0 c).after 3 t) from by
      unfold Dat.leavesExact; rw [live_out 3 t (by decide) h7], after_out3]
    rw [show (dats V 0 c).leavesExact 4 t = owns (c : Thread nD τ) (win0_4.stage (cfg0.slots t 4)) fullShare ((dats V 0 c).after 4 t) from by
      unfold Dat.leavesExact; rw [live_out 4 t (by decide) h7], after_out4]
    rw [show (dats V 0 c).leavesExact 5 t = owns (c : Thread nD τ) (win0_5.stage (cfg0.slots t 5)) fullShare ((dats V 0 c).after 5 t) from by
      unfold Dat.leavesExact; rw [live_out 5 t (by decide) h7], after_out5]
    rw [show (dats V 0 c).leavesExact 6 t = owns (c : Thread nD τ) (win0_6.stage (cfg0.slots t 6)) fullShare ((dats V 0 c).after 6 t) from by
      unfold Dat.leavesExact; rw [live_out 6 t (by decide) h7], after_out6]
    rw [accAt_next V c t h0, Phi_castSucc V c t, PhiS_pos V c _ _ hz]
    iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩⟩
    iapply (run_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) (fun h => h0 ((condInit_iff t).mp h)) ((condLast_iff t).mpr h7) (iblk V c 0 t) (iblk V c 1 t) (iblk V c 2 t) _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, S0, S1, S2, S3, S4, S5⟩
    isplitl [S0 S1 S2 S3 S4 S5 Hg]
    · isplitl [S0 S1 S2 S3 S4 S5]
      · isplitl [S0]; · iexact S0
        isplitl [S1]; · iexact S1
        isplitl [S2]; · iexact S2
        isplitl [S3]; · iexact S3
        isplitl [S4]; · iexact S4
        iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dats V 0 c) 3 t (idle_out 3 t (by decide) h7) (noflush_out 3 t (by decide) h7)]
    rw [Dat.leavesExact_idle (dats V 0 c) 4 t (idle_out 4 t (by decide) h7) (noflush_out 4 t (by decide) h7)]
    rw [Dat.leavesExact_idle (dats V 0 c) 5 t (idle_out 5 t (by decide) h7) (noflush_out 5 t (by decide) h7)]
    rw [Dat.leavesExact_idle (dats V 0 c) 6 t (idle_out 6 t (by decide) h7) (noflush_out 6 t (by decide) h7)]
    by_cases h0 : t.val % 8 = 0
    · rw [accAt_first V c t h0]
      by_cases hz : t.val = 0
      · rw [Phi_castSucc V c t, PhiS_zero V c _ _ hz, PhiA_eq]
        iintro ⟨⟨⟨⟨%e0, S0⟩, ⟨%e1, S1⟩, ⟨%e2, S2⟩, ⟨%e3, S3⟩, ⟨%e4, S4⟩, ⟨%e5, S5⟩⟩, Hg⟩, Ho, ⟨%d0, H0⟩, ⟨%d1, H1⟩, ⟨%d2, H2⟩, ⟨%d3, H3⟩, ⟨%d4, H4⟩, ⟨%d5, H5⟩, ⟨%d6, H6⟩⟩
        iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) ((condInit_iff t).mpr h0) (fun h => h7 ((condLast_iff t).mp h)) (iblk V c 0 t) (iblk V c 1 t) (iblk V c 2 t) _ _ _ _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [S0]; · iexact S0
        isplitl [S1]; · iexact S1
        isplitl [S2]; · iexact S2
        isplitl [S3]; · iexact S3
        isplitl [S4]; · iexact S4
        isplitl [S5]; · iexact S5
        iintro ⟨H0, H1, H2, H3, H4, H5, H6, S0, S1, S2, S3, S4, S5⟩
        isplitl [S0 S1 S2 S3 S4 S5 Hg]
        · isplitl [S0 S1 S2 S3 S4 S5]
          · isplitl [S0]; · iexact S0
            isplitl [S1]; · iexact S1
            isplitl [S2]; · iexact S2
            isplitl [S3]; · iexact S3
            isplitl [S4]; · iexact S4
            iexact S5
          iexact Hg
        isplitl [Ho]; · iexact Ho
        isplitl [H0]; · iexact H0
        isplitl [H1]; · iexact H1
        isplitl [H2]; · iexact H2
        isplitl [H3]; · iexists _; iexact H3
        isplitl [H4]; · iexists _; iexact H4
        isplitl [H5]; · iexists _; iexact H5
        iexists _; iexact H6
      · rw [Phi_castSucc V c t, PhiS_pos V c _ _ hz]
        iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩⟩
        iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) ((condInit_iff t).mpr h0) (fun h => h7 ((condLast_iff t).mp h)) (iblk V c 0 t) (iblk V c 1 t) (iblk V c 2 t) _ _ _ _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [S0]; · iexact S0
        isplitl [S1]; · iexact S1
        isplitl [S2]; · iexact S2
        isplitl [S3]; · iexact S3
        isplitl [S4]; · iexact S4
        isplitl [S5]; · iexact S5
        iintro ⟨H0, H1, H2, H3, H4, H5, H6, S0, S1, S2, S3, S4, S5⟩
        isplitl [S0 S1 S2 S3 S4 S5 Hg]
        · isplitl [S0 S1 S2 S3 S4 S5]
          · isplitl [S0]; · iexact S0
            isplitl [S1]; · iexact S1
            isplitl [S2]; · iexact S2
            isplitl [S3]; · iexact S3
            isplitl [S4]; · iexact S4
            iexact S5
          iexact Hg
        isplitl [Ho]; · iexact Ho
        isplitl [H0]; · iexact H0
        isplitl [H1]; · iexact H1
        isplitl [H2]; · iexact H2
        isplitl [H3]; · iexists _; iexact H3
        isplitl [H4]; · iexists _; iexact H4
        isplitl [H5]; · iexists _; iexact H5
        iexists _; iexact H6
    · have hz : t.val ≠ 0 := fun h => h0 (by rw [h])
      rw [accAt_next V c t h0, Phi_castSucc V c t, PhiS_pos V c _ _ hz]
      iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) (fun h => h0 ((condInit_iff t).mp h)) (fun h => h7 ((condLast_iff t).mp h)) (iblk V c 0 t) (iblk V c 1 t) (iblk V c 2 t) _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, S0, S1, S2, S3, S4, S5⟩
      isplitl [S0 S1 S2 S3 S4 S5 Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexists _; iexact H3
      isplitl [H4]; · iexists _; iexact H4
      isplitl [H5]; · iexists _; iexact H5
      iexists _; iexact H6

/-- The library's body obligation, at every point. -/
theorem body_obligation (c : Dev nD) : BodyObligation (dats (F := F) V 0 c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dats V 0 c).Φ 0 := by
  rw [show (dats V 0 c).Φ 0 = PhiS V c 0 (Nat.zero_le _) from rfl, PhiS_zero V c 0 _ rfl]
  try exact Idealize.SL.BI.Entails.refl _

/-- After the last point the invariant gives the scratch buffers back at contents no longer named. -/
theorem hout (c : Dev nD) : (dats V 0 c).Φ (Fin.last cfg0.N) ⊢ Pipeline.ΦA spec0 c := by
  have hN : (Fin.last cfg0.N).val ≠ 0 := by rw [Fin.val_last]; have : cfg0.N = 32 := N_0; omega
  rw [show (dats V 0 c).Φ (Fin.last cfg0.N) = PhiS V c (Fin.last cfg0.N).val (Nat.le_of_lt_succ (Fin.last cfg0.N).isLt) from rfl, PhiS_pos V c _ _ hN, PhiA_eq]
  iintro ⟨⟨S0, S1, S2, S3, S4, S5⟩, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

end Cert.Kernel.Body

end
-- ==== Proof.KTail.lean ====
/-
  The launch side of `Kernel`'s @main: two host constants, the one pallas_call region, and the 112 host
  operations after it, generic over the pipeline's proof data. The region is entered at the contents
  after the two constants (`V₀`); the lines after the region read the windows' arrays and write fresh
  buffers only, so the frame run around the region applies to any proof data whose arrays are the
  region-entry contents, and the three argument arrays end as launched.
-/
import proofs.«180374_j28707561407033_2_alg».proof.Proof.Gen.Kernel.Launch
import Idealize.ShloMosaic.Lib.Pipeline.FrameSuffix

set_option maxRecDepth 16384

noncomputable section

namespace Cert.Kernel.Tail

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## @main around the region -/

/-- Core `c`'s TensorCore buffer contents when the region is entered: after the two constants. -/
abbrev V₀ (c : Dev nD) : Valuation τ sig (Elt F) := StableHlo.after (hostOps0 (F := F)) (fun b => m (c, b))
/-- The same read at a TensorCore reference. -/
abbrev V (c : Dev nD) (b : Ref sig .tc) : Buf (Elt F) ((c : Thread nD τ).loc b) := V₀ m c (Proc.devRef .tc b)

/-- The stretches of host operations after the region, in program order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-- @main is the two constants, the region, then the later lines: it reduces to the region continued by them,
    at the contents after the constants. -/
theorem hmain : Pipeline.HMainK (Ix := Unit) (Name := ℕ) (U := UR sig nD τ) (Lvl := ℕ) cfgs 0 defs₀ Variants.none m (main (F := F))
      (fun c b => V₀ m c (Proc.devRef .tc b)) (fun _ => Pipeline.chain ((tailOpss (F := F)).map StableHlo.seq)) :=
  Pipeline.hmain_around cfgs 0 defs₀ Variants.none m main [hostOps0] tailOpss (by simp only [List.Forall]; exact hostOps0_sub)
    (by simp only [List.Forall]; exact hostOps0_fresh) main_chain

/-- Every later line touches TensorCore references only. -/
theorem tail_sub : (tailOpss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub⟩

/-- The later lines touch the pipeline's arrays and the bypassing buffers only: with nothing prefetched every
    unscoped TensorCore reference is one or the other. -/
theorem hsub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp tail_sub ops hops) op hop)

theorem tail_fresh : (tailOpss : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh⟩

/-- They allocate nothing. -/
theorem hfresh : ∀ ops ∈ (tailOpss : List (List (HloOp τ sig (Elt F)))), ∀ op ∈ ops, op.fresh = ∅ := fun ops hops op hop =>
  List.forall_iff_forall_mem.mp (List.forall_iff_forall_mem.mp tail_fresh ops hops) op hop

/-- An operation writes no array of the pipeline. -/
abbrev Keeps (op : HloOp τ sig (Elt F)) : Prop := ∀ w, Proc.devRef .tc (Pipeline.arrRef spec0 w) ∉ op.writes

/-- An operation whose one written buffer is no window's array writes no window's array. -/
theorem keeps_of_writes {op : HloOp τ sig (Elt F)} {y : Ref sig .tc} (hw : op.writes = {Proc.devRef .tc y})
    (hy : ∀ w, Pipeline.arrRef spec0 w ≠ y) : Keeps op := by
  intro w; rw [hw, Finset.mem_singleton]; exact StableHlo.devRef_ne_of_ne (hy w)

theorem hostOps1_keeps : (hostOps1 : List (HloOp τ sig (Elt F))).Forall Keeps :=
  ⟨keeps_of_writes (StableHlo.reshape_writes ..) (by decide),
    keeps_of_writes (StableHlo.nullary_writes ..) (by decide),
    keeps_of_writes (StableHlo.unary_writes ..) (by decide),
    keeps_of_writes (StableHlo.binary_writes ..) (by decide),
    keeps_of_writes (StableHlo.unary_writes ..) (by decide),
    keeps_of_writes (StableHlo.unary_writes ..) (by decide),
    keeps_of_writes (StableHlo.unary_writes ..) (by decide),
    keeps_of_writes (StableHlo.unary_writes ..) (by decide),
    keeps_of_writes (StableHlo.binary_writes ..) (by decide),
    keeps_of_writes (StableHlo.unary_writes ..) (by decide),
    keeps_of_writes (StableHlo.unary_writes ..) (by decide),
    keeps_of_writes (StableHlo.unary_writes ..) (by decide),
    keeps_of_writes (StableHlo.unary_writes ..) (by decide),
    keeps_of_writes (StableHlo.binary_writes ..) (by decide),
    keeps_of_writes (StableHlo.binary_writes ..) (by decide),
    keeps_of_writes (StableHlo.unary_writes ..) (by decide),
    keeps_of_writes (StableHlo.nullary_writes ..) (by decide),
    keeps_of_writes (StableHlo.binary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.unary_writes ..) (by decide),
    keeps_of_writes (StableHlo.binary_writes ..) (by decide),
    keeps_of_writes (StableHlo.binary_writes ..) (by decide),
    keeps_of_writes (StableHlo.nullary_writes ..) (by decide),
    keeps_of_writes (StableHlo.unary_writes ..) (by decide),
    keeps_of_writes (StableHlo.binary_writes ..) (by decide),
    keeps_of_writes (StableHlo.nullary_writes ..) (by decide)⟩
theorem hostOps1_1_keeps : (hostOps1_1 : List (HloOp τ sig (Elt F))).Forall Keeps :=
  ⟨keeps_of_writes (StableHlo.unary_writes ..) (by decide),
    keeps_of_writes (StableHlo.unary_writes ..) (by decide),
    keeps_of_writes (StableHlo.ternary_writes ..) (by decide)⟩
theorem hostOps1_2_keeps : (hostOps1_2 : List (HloOp τ sig (Elt F))).Forall Keeps :=
  ⟨keeps_of_writes (StableHlo.nullary_writes ..) (by decide),
    keeps_of_writes (StableHlo.unary_writes ..) (by decide),
    keeps_of_writes (StableHlo.binary_writes ..) (by decide),
    keeps_of_writes (StableHlo.unary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.binary_writes ..) (by decide)⟩
theorem hostOps1_3_keeps : (hostOps1_3 : List (HloOp τ sig (Elt F))).Forall Keeps :=
  keeps_of_writes (StableHlo.ternary_writes ..) (by decide)
theorem hostOps1_4_keeps : (hostOps1_4 : List (HloOp τ sig (Elt F))).Forall Keeps :=
  ⟨keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.unary_writes ..) (by decide),
    keeps_of_writes (StableHlo.binary_writes ..) (by decide),
    keeps_of_writes (StableHlo.binary_writes ..) (by decide),
    keeps_of_writes (StableHlo.nullary_writes ..) (by decide),
    keeps_of_writes (StableHlo.unary_writes ..) (by decide),
    keeps_of_writes (StableHlo.binary_writes ..) (by decide),
    keeps_of_writes (StableHlo.nullary_writes ..) (by decide)⟩
theorem hostOps1_5_keeps : (hostOps1_5 : List (HloOp τ sig (Elt F))).Forall Keeps :=
  ⟨keeps_of_writes (StableHlo.unary_writes ..) (by decide),
    keeps_of_writes (StableHlo.unary_writes ..) (by decide),
    keeps_of_writes (StableHlo.ternary_writes ..) (by decide)⟩
theorem hostOps1_6_keeps : (hostOps1_6 : List (HloOp τ sig (Elt F))).Forall Keeps :=
  ⟨keeps_of_writes (StableHlo.nullary_writes ..) (by decide),
    keeps_of_writes (StableHlo.unary_writes ..) (by decide),
    keeps_of_writes (StableHlo.binary_writes ..) (by decide),
    keeps_of_writes (StableHlo.unary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.binary_writes ..) (by decide)⟩
theorem hostOps1_7_keeps : (hostOps1_7 : List (HloOp τ sig (Elt F))).Forall Keeps :=
  keeps_of_writes (StableHlo.ternary_writes ..) (by decide)
theorem hostOps1_8_keeps : (hostOps1_8 : List (HloOp τ sig (Elt F))).Forall Keeps :=
  ⟨keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.unary_writes ..) (by decide),
    keeps_of_writes (StableHlo.binary_writes ..) (by decide),
    keeps_of_writes (StableHlo.binary_writes ..) (by decide),
    keeps_of_writes (StableHlo.nullary_writes ..) (by decide),
    keeps_of_writes (StableHlo.unary_writes ..) (by decide),
    keeps_of_writes (StableHlo.binary_writes ..) (by decide),
    keeps_of_writes (StableHlo.nullary_writes ..) (by decide)⟩
theorem hostOps1_9_keeps : (hostOps1_9 : List (HloOp τ sig (Elt F))).Forall Keeps :=
  ⟨keeps_of_writes (StableHlo.unary_writes ..) (by decide),
    keeps_of_writes (StableHlo.unary_writes ..) (by decide),
    keeps_of_writes (StableHlo.ternary_writes ..) (by decide)⟩
theorem hostOps1_10_keeps : (hostOps1_10 : List (HloOp τ sig (Elt F))).Forall Keeps :=
  ⟨keeps_of_writes (StableHlo.nullary_writes ..) (by decide),
    keeps_of_writes (StableHlo.unary_writes ..) (by decide),
    keeps_of_writes (StableHlo.binary_writes ..) (by decide),
    keeps_of_writes (StableHlo.unary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.binary_writes ..) (by decide)⟩
theorem hostOps1_11_keeps : (hostOps1_11 : List (HloOp τ sig (Elt F))).Forall Keeps :=
  keeps_of_writes (StableHlo.ternary_writes ..) (by decide)
theorem hostOps1_12_keeps : (hostOps1_12 : List (HloOp τ sig (Elt F))).Forall Keeps :=
  ⟨keeps_of_writes (StableHlo.nullary_writes ..) (by decide),
    keeps_of_writes (StableHlo.binary_writes ..) (by decide)⟩

theorem tail_keeps : (tailOpss : List (List (HloOp τ sig (Elt F)))).Forall fun ops => ops.Forall Keeps :=
  ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps⟩

/-- And write no array of the pipeline: each writes only its own result buffer, which is no array. -/
theorem hkeep : ∀ ops ∈ (tailOpss : List (List (HloOp τ sig (Elt F)))), ∀ op ∈ ops,
    ∀ w, Proc.devRef .tc (Pipeline.arrRef spec0 w) ∉ op.writes := fun ops hops op hop =>
  List.forall_iff_forall_mem.mp (List.forall_iff_forall_mem.mp tail_keeps ops hops) op hop

/-- The two constants write neither argument: the region finds the three as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, Finset.mem_singleton]
    repeat' apply And.intro
    all_goals exact StableHlo.devRef_ne_of_ne (by decide)))

/-! ## The frame run around the region, for any proof data -/

set_option backward.isDefEq.respectTransparency.types false in
/-- For any proof data of the one pipeline whose arrays are the region-entry contents (`hA`) and whose body
    obligation holds: every weakly fair execution of @main terminates, every array of the pipeline ends at what
    the library computes from the proof data, and every other unscoped buffer as the later lines leave it. -/
theorem run_of (dats : (p : Fin 1) → (c : Dev nD) → Pipeline.Dat τ (Elt F) Unit ℕ (UR sig nD τ) ℕ (cfgs p) c)
    (hbody : ∀ c, Pipeline.BodyObligationLoose (dats 0 c) defs₀ Variants.none () Set.univ)
    (hshare : ∀ c w, (dats 0 c).share w = fullShare) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V₀ m) tailOpss)) :=
  Pipeline.θ_run_frame_around_track cfgs dats (0 : Fin 1) launch0 defs₀ Variants.none m ρ main
    (hbody := hbody) (hshare := hshare) (howed := howed) (V₀ := V₀ m) (opss := tailOpss)
    (hsub := hsub) (hfresh := hfresh) (hkeep := hkeep) (hmain := hmain m) (hA := hA) (hin := hin) (hout := hout)

/-! ## The frame claim's post from the frame run's -/

/-- THE FRAME from a frame run: for any proof data whose arrays are the region-entry contents (`hA`), the three
    argument arrays — each a staged input of the pipeline, which the library leaves at its entry contents
    (`Dat.arrAt_in`), and those are the launch contents (`V_argK`) — end as launched. -/
theorem frame_of (dats : (p : Fin 1) → (c : Dev nD) → Pipeline.Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V₀ m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_arg0 m c))),
     ((h c).1 2).trans (((dats 0 c).arrAt_in 2 rfl _).trans ((hA c 2).trans (V_arg1 m c))),
     ((h c).1 1).trans (((dats 0 c).arrAt_in 1 rfl _).trans ((hA c 1).trans (V_arg2 m c)))⟩) h

end Cert.Kernel.Tail

end
-- ==== Proof.KFrame.lean ====
/-
  The program's run: the region's proof data and body obligation plugged into the launch of @main (two constants,
  the region, then the host lines that aggregate the four outputs), and the frame read off it: the program runs to
  the end, nothing faults, and the three argument arrays end unchanged.
-/
import proofs.«180374_j28707561407033_2_alg».proof.Proof.KBody
import proofs.«180374_j28707561407033_2_alg».proof.Proof.KTail

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data at the contents the region finds. -/
abbrev D (p : Fin 1) (c : Dev nD) : Dat τ (Elt F) Unit ℕ (UR sig nD τ) ℕ (cfgs p) c :=
  Cert.Kernel.Body.dats (Cert.Kernel.Tail.V m) p c

theorem run_main : θ_run defs (onTc (τ := τ) (main (F := F))) (s₀ m ρ)
    (Pipeline.FramePost cfgs (D m) 0 (Pipeline.afterTail₀ cfgs (D m) 0 (Cert.Kernel.Tail.V₀ m) Cert.Kernel.Tail.tailOpss)) :=
  Cert.Kernel.Tail.run_of m ρ (D m) (fun c => (Cert.Kernel.Body.body_obligation (Cert.Kernel.Tail.V m) c).loose)
    (fun c => (D m 0 c).share_full fun _ => rfl) (fun _ _ => rfl)
    (Cert.Kernel.Body.A_eq (Cert.Kernel.Tail.V m)) (Cert.Kernel.Body.hin (Cert.Kernel.Tail.V m)) (Cert.Kernel.Body.hout (Cert.Kernel.Tail.V m))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Cert.Kernel.Tail.frame_of m ρ (D m) (Cert.Kernel.Body.A_eq (Cert.Kernel.Tail.V m)) (run_main m ρ)

end Cert.Kernel.Frame

end
-- ==== Proof.KIConds.lean ====
/-
  The kernel body branches twice on the second grid coordinate h (the grid is 4 × 8, point t = 8·b + h):
  at h = 0 the six running sums kept in scratch are reset to zero, and at h = 7 the four output blocks
  are computed from the running sums and stored. This module decides both conditions over the 32 points,
  says where the four output windows are idle, names the scratch buffers, and records how a whole-block
  store reads back.
-/
import proofs.«180374_j28707561407033_2_alg».proof.Proof.Gen.KernelIdeal.Launch
import proofs.«180374_j28707561407033_2_alg».proof.Proof.Gen.KernelIdeal.Skeleton
import proofs.«180374_j28707561407033_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The reset condition: the second grid coordinate is 0. -/
abbrev condInit (i : grid0.Coords) : Prop :=
  (Scalar.cmpi .ne (Scalar.extui (Scalar.cmpi .eq (BitVec.ofNat 32 (i 1).val) 0#32)) 0#32) = 1#1
/-- It holds exactly at the points 8·b. -/
theorem condInit_iff : ∀ t : Fin cfg0.N, condInit (grid0.coords t) ↔ t.val % 8 = 0 :=
  (by decide +kernel : ∀ t : Fin grid0.N, condInit (grid0.coords t) ↔ t.val % 8 = 0)

/-- The finishing condition: the second grid coordinate is 7. -/
abbrev condLast (i : grid0.Coords) : Prop := k0_cond2 i = 1#1
/-- It holds exactly at the points 8·b + 7. -/
theorem condLast_iff : ∀ t : Fin cfg0.N, condLast (grid0.coords t) ↔ t.val % 8 = 7 :=
  (by decide +kernel : ∀ t : Fin grid0.N, condLast (grid0.coords t) ↔ t.val % 8 = 7)

/-- The three input windows are never idle. -/
theorem live_in0 : ∀ t : Fin cfg0.N, cfg0.idle 0 (grid0.coords t) = false := by decide +kernel
theorem live_in1 : ∀ t : Fin cfg0.N, cfg0.idle 1 (grid0.coords t) = false := by decide +kernel
theorem live_in2 : ∀ t : Fin cfg0.N, cfg0.idle 2 (grid0.coords t) = false := by decide +kernel
/-- An output window is idle away from the points 8·b + 7, and live there. -/
theorem idle_out : ∀ (w : Fin cfg0.W) (t : Fin cfg0.N), 3 ≤ w.val → ¬ t.val % 8 = 7 → cfg0.idle w (grid0.coords t) = true := by decide +kernel
theorem live_out : ∀ (w : Fin cfg0.W) (t : Fin cfg0.N), 3 ≤ w.val → t.val % 8 = 7 → cfg0.idle w (grid0.coords t) = false := by decide +kernel
/-- Away from those points an output block is not written back. -/
theorem noflush_out : ∀ (w : Fin cfg0.W) (t : Fin cfg0.N), 3 ≤ w.val → ¬ t.val % 8 = 7 → (cfg0.win w).flush t = false := by decide +kernel

/-- The six scratch buffers, as whole memrefs. -/
abbrev sc0 : Memref sig .tc .vmem S32x4 .f32 := Memref.whole cc0_scratch0
abbrev sc1 : Memref sig .tc .vmem S32x4 .f32 := Memref.whole cc0_scratch1
abbrev sc2 : Memref sig .tc .vmem S32x4 .f32 := Memref.whole cc0_scratch2
abbrev sc3 : Memref sig .tc .vmem S32x4 .f32 := Memref.whole cc0_scratch3
abbrev sc4 : Memref sig .tc .vmem S32x4 .f32 := Memref.whole cc0_scratch4
abbrev sc5 : Memref sig .tc .vmem S32x1 .f32 := Memref.whole cc0_scratch5

/-- What the region's invariant holds besides the windows: each scratch buffer whole at some contents, and the
    generator register. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-- The zero offsets of a whole-block access, however many axes. -/
theorem hz2 : (![0, 0] : Fin 2 → Nat) = fun _ => 0 := by funext a; fin_cases a <;> rfl
theorem hz4 : (![0, 0, 0, 0] : Fin 4 → Nat) = fun _ => 0 := by funext a; fin_cases a <;> rfl

/-- A store of a whole block, made last, reads back as its payload whatever was stored before. -/
theorem read_whole_store {sig' : RefSig} {κ : Kind} {sp : Space} {S : Shape} {e : EltTy} {Val : EltTy → Type} [∀ e, Nonempty (Val e)]
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb]

end Cert.KernelIdeal.Body

end
-- ==== Proof.KIRunA.lean ====
/-
  The kernel body at the first point of a row of eight (h = 0, not the last): the six running sums are reset to zero
  and then this tile's partial sums are added, so each ends at zero plus the tile's sum; inputs and the idle output
  buffers are left as they were.
-/
import proofs.«180374_j28707561407033_2_alg».proof.Proof.KIConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run_first (c : Dev nD) (i : grid0.Coords) (a2 : Memref sig .tc .vmem S32x4x32x256 .f32) (h2 : a2.IsWhole) (a3 : Memref sig .tc .vmem S32x1x32x256 .f32) (h3 : a3.IsWhole) (a4 : Memref sig .tc .vmem S32x4 .f32) (h4 : a4.IsWhole) (a5 : Memref sig .tc .vmem S32x4 .f32) (h5 : a5.IsWhole) (a6 : Memref sig .tc .vmem S32x4 .f32) (h6 : a6.IsWhole) (a7 : Memref sig .tc .vmem S32x4 .f32) (h7 : a7.IsWhole) (a8 : Memref sig .tc .vmem S32x1 .f32) (h8 : a8.IsWhole) (a9 : Memref sig .tc .vmem S32x4 .f32) (h9 : a9.IsWhole) (a10 : Memref sig .tc .vmem S32x4 .f32) (h10 : a10.IsWhole) (a11 : Memref sig .tc .vmem S32x4 .f32) (h11 : a11.IsWhole) (a12 : Memref sig .tc .vmem S32x4 .f32) (h12 : a12.IsWhole) (a13 : Memref sig .tc .vmem S32x4 .f32) (h13 : a13.IsWhole) (a14 : Memref sig .tc .vmem S32x1 .f32) (h14 : a14.IsWhole)
    (hc1 : condInit i) (hc2 : ¬ condLast i)
    (x0 : Vec F S32x4x32x256 .f32) (x1 : Vec F S32x1x32x256 .f32) (x2 : Vec F S32x4 .f32)
    (o3 o4 o5 : Vec F S32x4 .f32) (o6 : Vec F S32x1 .f32)
    (s9 s10 s11 s12 s13 : Vec F S32x4 .f32) (s14 : Vec F S32x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare o3 ∗ owns (c : Thread nD τ) a6 fullShare o4 ∗ owns (c : Thread nD τ) a7 fullShare o5 ∗ owns (c : Thread nD τ) a8 fullShare o6
        ∗ owns (c : Thread nD τ) a9 fullShare s9 ∗ owns (c : Thread nD τ) a10 fullShare s10 ∗ owns (c : Thread nD τ) a11 fullShare s11 ∗ owns (c : Thread nD τ) a12 fullShare s12 ∗ owns (c : Thread nD τ) a13 fullShare s13 ∗ owns (c : Thread nD τ) a14 fullShare s14
        ∗ (iprop(owns (c : Thread nD τ) a2 fullShare x0 ∗ owns (c : Thread nD τ) a3 fullShare x1 ∗ owns (c : Thread nD τ) a4 fullShare x2
            ∗ owns (c : Thread nD τ) a5 fullShare o3 ∗ owns (c : Thread nD τ) a6 fullShare o4 ∗ owns (c : Thread nD τ) a7 fullShare o5 ∗ owns (c : Thread nD τ) a8 fullShare o6
            ∗ owns (c : Thread nD τ) a9 fullShare (k0_pay13 x0 x1 (k0_pay6 (F := F))) ∗ owns (c : Thread nD τ) a10 fullShare (k0_pay17 (k0_pay14 x0) (Scalar.ofBits .f32 0x38D1B717#32) (k0_pay7 (F := F))) ∗ owns (c : Thread nD τ) a11 fullShare (k0_pay16 (k0_pay12 x1) (k0_pay14 x0) (Scalar.ofBits .f32 0x38D1B717#32) (k0_pay8 (F := F)))
            ∗ owns (c : Thread nD τ) a12 fullShare (k0_pay1 (k0_pay20 x0) (k0_pay9 (F := F))) ∗ owns (c : Thread nD τ) a13 fullShare (k0_pay19 x0 (k0_pay12 x1) (k0_pay10 (F := F))) ∗ owns (c : Thread nD τ) a14 fullShare (k0_pay2 x1 (k0_pay11 (F := F)))) -∗ K ⟨⟩))
      ⊢ wp frame (wpE (defs₀ (F := F)) Variants.none c none) E (cc0__loss_kernel i a2 h2 a3 h3 a4 h4 a5 h5 a6 h6 a7 h7 a8 h8 a9 h9 a10 h10 a11 h11 a12 h12 a13 h13 a14 h14) K := by
  simp only [cc0__loss_kernel_eq_skeleton]; unfold cc0__loss_kernel_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  obtain rfl := h2.eq_unread e2; obtain rfl := h3.eq_unread e3; obtain rfl := h4.eq_unread e4
  obtain rfl := h5.eq_unread e5; obtain rfl := h6.eq_unread e6; obtain rfl := h7.eq_unread e7; obtain rfl := h8.eq_unread e8
  obtain rfl := h9.eq_unread e9; obtain rfl := h10.eq_unread e10; obtain rfl := h11.eq_unread e11
  obtain rfl := h12.eq_unread e12; obtain rfl := h13.eq_unread e13; obtain rfl := h14.eq_unread e14
  sl_exec (disch := first | exact hc1 | exact hc2)
  sl_step
  iapply Hk
  isplitl [H2]
  · iexists _; isplitr
    · ipureintro; exact e2
    iexact H2
  isplitl [H3]
  · iexists _; isplitr
    · ipureintro; exact e3
    iexact H3
  isplitl [H4]
  · iexists _; isplitr
    · ipureintro; exact e4
    iexact H4
  isplitl [H5]
  · iexists _; isplitr
    · ipureintro; exact e5
    iexact H5
  isplitl [H6]
  · iexists _; isplitr
    · ipureintro; exact e6
    iexact H6
  isplitl [H7]
  · iexists _; isplitr
    · ipureintro; exact e7
    iexact H7
  isplitl [H8]
  · iexists _; isplitr
    · ipureintro; exact e8
    iexact H8
  isplitl [H9]
  · iexists _; isplitr
    swap
    · iexact H9
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H10]
  · iexists _; isplitr
    swap
    · iexact H10
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H11]
  · iexists _; isplitr
    swap
    · iexact H11
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H12]
  · iexists _; isplitr
    swap
    · iexact H12
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H13]
  · iexists _; isplitr
    swap
    · iexact H13
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  iexists _; isplitr
  swap
  · iexact H14
  ipureintro
  try sl_unfold_words
  rw [read_whole_store _ _ hz2]
  simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
  try rfl

end Cert.KernelIdeal.Body

end
-- ==== Proof.KIRunB.lean ====
/-
  The kernel body at a grid point that is neither the first nor the last of its row of eight: no reset, no final
  store. Each of the six running sums is replaced by itself plus this tile's partial sum; the input blocks and the
  (idle) output buffers are left as they were.
-/
import proofs.«180374_j28707561407033_2_alg».proof.Proof.KIConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run_mid (c : Dev nD) (i : grid0.Coords) (a2 : Memref sig .tc .vmem S32x4x32x256 .f32) (h2 : a2.IsWhole) (a3 : Memref sig .tc .vmem S32x1x32x256 .f32) (h3 : a3.IsWhole) (a4 : Memref sig .tc .vmem S32x4 .f32) (h4 : a4.IsWhole) (a5 : Memref sig .tc .vmem S32x4 .f32) (h5 : a5.IsWhole) (a6 : Memref sig .tc .vmem S32x4 .f32) (h6 : a6.IsWhole) (a7 : Memref sig .tc .vmem S32x4 .f32) (h7 : a7.IsWhole) (a8 : Memref sig .tc .vmem S32x1 .f32) (h8 : a8.IsWhole) (a9 : Memref sig .tc .vmem S32x4 .f32) (h9 : a9.IsWhole) (a10 : Memref sig .tc .vmem S32x4 .f32) (h10 : a10.IsWhole) (a11 : Memref sig .tc .vmem S32x4 .f32) (h11 : a11.IsWhole) (a12 : Memref sig .tc .vmem S32x4 .f32) (h12 : a12.IsWhole) (a13 : Memref sig .tc .vmem S32x4 .f32) (h13 : a13.IsWhole) (a14 : Memref sig .tc .vmem S32x1 .f32) (h14 : a14.IsWhole)
    (hc1 : ¬ condInit i) (hc2 : ¬ condLast i)
    (x0 : Vec F S32x4x32x256 .f32) (x1 : Vec F S32x1x32x256 .f32) (x2 : Vec F S32x4 .f32)
    (o3 o4 o5 : Vec F S32x4 .f32) (o6 : Vec F S32x1 .f32)
    (s9 s10 s11 s12 s13 : Vec F S32x4 .f32) (s14 : Vec F S32x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare o3 ∗ owns (c : Thread nD τ) a6 fullShare o4 ∗ owns (c : Thread nD τ) a7 fullShare o5 ∗ owns (c : Thread nD τ) a8 fullShare o6
        ∗ owns (c : Thread nD τ) a9 fullShare s9 ∗ owns (c : Thread nD τ) a10 fullShare s10 ∗ owns (c : Thread nD τ) a11 fullShare s11 ∗ owns (c : Thread nD τ) a12 fullShare s12 ∗ owns (c : Thread nD τ) a13 fullShare s13 ∗ owns (c : Thread nD τ) a14 fullShare s14
        ∗ (iprop(owns (c : Thread nD τ) a2 fullShare x0 ∗ owns (c : Thread nD τ) a3 fullShare x1 ∗ owns (c : Thread nD τ) a4 fullShare x2
            ∗ owns (c : Thread nD τ) a5 fullShare o3 ∗ owns (c : Thread nD τ) a6 fullShare o4 ∗ owns (c : Thread nD τ) a7 fullShare o5 ∗ owns (c : Thread nD τ) a8 fullShare o6
            ∗ owns (c : Thread nD τ) a9 fullShare (k0_pay13 x0 x1 s9) ∗ owns (c : Thread nD τ) a10 fullShare (k0_pay17 (k0_pay14 x0) (Scalar.ofBits .f32 0x38D1B717#32) s10) ∗ owns (c : Thread nD τ) a11 fullShare (k0_pay16 (k0_pay12 x1) (k0_pay14 x0) (Scalar.ofBits .f32 0x38D1B717#32) s11)
            ∗ owns (c : Thread nD τ) a12 fullShare (k0_pay1 (k0_pay20 x0) s12) ∗ owns (c : Thread nD τ) a13 fullShare (k0_pay19 x0 (k0_pay12 x1) s13) ∗ owns (c : Thread nD τ) a14 fullShare (k0_pay2 x1 s14)) -∗ K ⟨⟩))
      ⊢ wp frame (wpE (defs₀ (F := F)) Variants.none c none) E (cc0__loss_kernel i a2 h2 a3 h3 a4 h4 a5 h5 a6 h6 a7 h7 a8 h8 a9 h9 a10 h10 a11 h11 a12 h12 a13 h13 a14 h14) K := by
  simp only [cc0__loss_kernel_eq_skeleton]; unfold cc0__loss_kernel_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  obtain rfl := h2.eq_unread e2; obtain rfl := h3.eq_unread e3; obtain rfl := h4.eq_unread e4
  obtain rfl := h5.eq_unread e5; obtain rfl := h6.eq_unread e6; obtain rfl := h7.eq_unread e7; obtain rfl := h8.eq_unread e8
  obtain rfl := h9.eq_unread e9; obtain rfl := h10.eq_unread e10; obtain rfl := h11.eq_unread e11
  obtain rfl := h12.eq_unread e12; obtain rfl := h13.eq_unread e13; obtain rfl := h14.eq_unread e14
  sl_exec (disch := first | exact hc1 | exact hc2)
  sl_step
  iapply Hk
  isplitl [H2]
  · iexists _; isplitr
    · ipureintro; exact e2
    iexact H2
  isplitl [H3]
  · iexists _; isplitr
    · ipureintro; exact e3
    iexact H3
  isplitl [H4]
  · iexists _; isplitr
    · ipureintro; exact e4
    iexact H4
  isplitl [H5]
  · iexists _; isplitr
    · ipureintro; exact e5
    iexact H5
  isplitl [H6]
  · iexists _; isplitr
    · ipureintro; exact e6
    iexact H6
  isplitl [H7]
  · iexists _; isplitr
    · ipureintro; exact e7
    iexact H7
  isplitl [H8]
  · iexists _; isplitr
    · ipureintro; exact e8
    iexact H8
  isplitl [H9]
  · iexists _; isplitr
    swap
    · iexact H9
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H10]
  · iexists _; isplitr
    swap
    · iexact H10
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H11]
  · iexists _; isplitr
    swap
    · iexact H11
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H12]
  · iexists _; isplitr
    swap
    · iexact H12
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H13]
  · iexists _; isplitr
    swap
    · iexact H13
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  iexists _; isplitr
  swap
  · iexact H14
  ipureintro
  try sl_unfold_words
  rw [read_whole_store _ _ hz2]
  simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
  try rfl

end Cert.KernelIdeal.Body

end
-- ==== Proof.KIRunC.lean ====
/-
  The kernel body at the last point of a row of eight (h = 7): the six running sums take this tile's partial sums, and
  the four output blocks are then computed from the finished sums (the focal mean, the dice term, the squared
  IoU-prediction error and the target count) and stored whole.
-/
import proofs.«180374_j28707561407033_2_alg».proof.Proof.KIConds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
theorem run_last (c : Dev nD) (i : grid0.Coords) (a2 : Memref sig .tc .vmem S32x4x32x256 .f32) (h2 : a2.IsWhole) (a3 : Memref sig .tc .vmem S32x1x32x256 .f32) (h3 : a3.IsWhole) (a4 : Memref sig .tc .vmem S32x4 .f32) (h4 : a4.IsWhole) (a5 : Memref sig .tc .vmem S32x4 .f32) (h5 : a5.IsWhole) (a6 : Memref sig .tc .vmem S32x4 .f32) (h6 : a6.IsWhole) (a7 : Memref sig .tc .vmem S32x4 .f32) (h7 : a7.IsWhole) (a8 : Memref sig .tc .vmem S32x1 .f32) (h8 : a8.IsWhole) (a9 : Memref sig .tc .vmem S32x4 .f32) (h9 : a9.IsWhole) (a10 : Memref sig .tc .vmem S32x4 .f32) (h10 : a10.IsWhole) (a11 : Memref sig .tc .vmem S32x4 .f32) (h11 : a11.IsWhole) (a12 : Memref sig .tc .vmem S32x4 .f32) (h12 : a12.IsWhole) (a13 : Memref sig .tc .vmem S32x4 .f32) (h13 : a13.IsWhole) (a14 : Memref sig .tc .vmem S32x1 .f32) (h14 : a14.IsWhole)
    (hc1 : ¬ condInit i) (hc2 : condLast i)
    (x0 : Vec F S32x4x32x256 .f32) (x1 : Vec F S32x1x32x256 .f32) (x2 : Vec F S32x4 .f32)
    (o3 o4 o5 : Vec F S32x4 .f32) (o6 : Vec F S32x1 .f32)
    (s9 s10 s11 s12 s13 : Vec F S32x4 .f32) (s14 : Vec F S32x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare o3 ∗ owns (c : Thread nD τ) a6 fullShare o4 ∗ owns (c : Thread nD τ) a7 fullShare o5 ∗ owns (c : Thread nD τ) a8 fullShare o6
        ∗ owns (c : Thread nD τ) a9 fullShare s9 ∗ owns (c : Thread nD τ) a10 fullShare s10 ∗ owns (c : Thread nD τ) a11 fullShare s11 ∗ owns (c : Thread nD τ) a12 fullShare s12 ∗ owns (c : Thread nD τ) a13 fullShare s13 ∗ owns (c : Thread nD τ) a14 fullShare s14
        ∗ (iprop(owns (c : Thread nD τ) a2 fullShare x0 ∗ owns (c : Thread nD τ) a3 fullShare x1 ∗ owns (c : Thread nD τ) a4 fullShare x2
            ∗ owns (c : Thread nD τ) a5 fullShare (k0_pay3 (k0_pay13 x0 x1 s9)) ∗ owns (c : Thread nD τ) a6 fullShare (k0_pay4 (k0_pay2 x1 s14) (k0_pay16 (k0_pay12 x1) (k0_pay14 x0) (Scalar.ofBits .f32 0x38D1B717#32) s11) (k0_pay17 (k0_pay14 x0) (Scalar.ofBits .f32 0x38D1B717#32) s10)) ∗ owns (c : Thread nD τ) a7 fullShare (k0_pay5 (k0_pay2 x1 s14) (k0_pay19 x0 (k0_pay12 x1) s13) (k0_pay1 (k0_pay20 x0) s12) (k0_pay19 x0 (k0_pay12 x1) s13) x2) ∗ owns (c : Thread nD τ) a8 fullShare (k0_pay2 x1 s14)
            ∗ owns (c : Thread nD τ) a9 fullShare (k0_pay13 x0 x1 s9) ∗ owns (c : Thread nD τ) a10 fullShare (k0_pay17 (k0_pay14 x0) (Scalar.ofBits .f32 0x38D1B717#32) s10) ∗ owns (c : Thread nD τ) a11 fullShare (k0_pay16 (k0_pay12 x1) (k0_pay14 x0) (Scalar.ofBits .f32 0x38D1B717#32) s11)
            ∗ owns (c : Thread nD τ) a12 fullShare (k0_pay1 (k0_pay20 x0) s12) ∗ owns (c : Thread nD τ) a13 fullShare (k0_pay19 x0 (k0_pay12 x1) s13) ∗ owns (c : Thread nD τ) a14 fullShare (k0_pay2 x1 s14)) -∗ K ⟨⟩))
      ⊢ wp frame (wpE (defs₀ (F := F)) Variants.none c none) E (cc0__loss_kernel i a2 h2 a3 h3 a4 h4 a5 h5 a6 h6 a7 h7 a8 h8 a9 h9 a10 h10 a11 h11 a12 h12 a13 h13 a14 h14) K := by
  simp only [cc0__loss_kernel_eq_skeleton]; unfold cc0__loss_kernel_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  obtain rfl := h2.eq_unread e2; obtain rfl := h3.eq_unread e3; obtain rfl := h4.eq_unread e4
  obtain rfl := h5.eq_unread e5; obtain rfl := h6.eq_unread e6; obtain rfl := h7.eq_unread e7; obtain rfl := h8.eq_unread e8
  obtain rfl := h9.eq_unread e9; obtain rfl := h10.eq_unread e10; obtain rfl := h11.eq_unread e11
  obtain rfl := h12.eq_unread e12; obtain rfl := h13.eq_unread e13; obtain rfl := h14.eq_unread e14
  sl_exec (disch := first | exact hc1 | exact hc2)
  sl_step
  iapply Hk
  isplitl [H2]
  · iexists _; isplitr
    · ipureintro; exact e2
    iexact H2
  isplitl [H3]
  · iexists _; isplitr
    · ipureintro; exact e3
    iexact H3
  isplitl [H4]
  · iexists _; isplitr
    · ipureintro; exact e4
    iexact H4
  isplitl [H5]
  · iexists _; isplitr
    swap
    · iexact H5
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H6]
  · iexists _; isplitr
    swap
    · iexact H6
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H7]
  · iexists _; isplitr
    swap
    · iexact H7
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H8]
  · iexists _; isplitr
    swap
    · iexact H8
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H9]
  · iexists _; isplitr
    swap
    · iexact H9
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H10]
  · iexists _; isplitr
    swap
    · iexact H10
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H11]
  · iexists _; isplitr
    swap
    · iexact H11
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H12]
  · iexists _; isplitr
    swap
    · iexact H12
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  isplitl [H13]
  · iexists _; isplitr
    swap
    · iexact H13
    ipureintro
    try sl_unfold_words
    rw [read_whole_store _ _ hz2]
    simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
    try rfl
  iexists _; isplitr
  swap
  · iexact H14
  ipureintro
  try sl_unfold_words
  rw [read_whole_store _ _ hz2]
  simp only [View.readAt_eq_ld, h2.read_unread, h3.read_unread, h4.read_unread, h9.read_unread, h10.read_unread, h11.read_unread, h12.read_unread, h13.read_unread, h14.read_unread, View.ld_unit_zero (S := S32x4) hz2, View.ld_unit_zero (S := S32x1) hz2, View.ld_unit_zero (S := S32x4x32x256) hz4, View.ld_unit_zero (S := S32x1x32x256) hz4, View.readCov_unit_zero (S := S32x4) _ hz2, View.readCov_unit_zero (S := S32x1) _ hz2]
  try rfl

end Cert.KernelIdeal.Body

end
-- ==== Proof.KIBody.lean ====
/-
  The pipeline's proof data for the one kernel region, and the body's obligation at every grid point.

  Point t = 8·b + h works on rows 32·b … 32·b+31 of the batch and image rows 32·h … 32·h+31. After point t the six
  scratch buffers hold the running sums over the tiles h' ≤ h of row-block b (an `Acc`): the focal terms, the clamped
  probabilities, probability × target, the thresholded mask, mask × target, and the targets. The sums restart from zero
  whenever h = 0. At h = 7 the four output blocks are functions of the finished sums; at the other points the output
  windows are idle and nothing is read from or written back through them.
-/
import proofs.«180374_j28707561407033_2_alg».proof.Proof.KIRunA
import proofs.«180374_j28707561407033_2_alg».proof.Proof.KIRunB
import proofs.«180374_j28707561407033_2_alg».proof.Proof.KIRunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before_in0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The six running sums the kernel keeps in scratch. -/
structure Acc (F : FTy → Type) [FloatOps F] where
  foc : Vec F S32x4 .f32
  prb : Vec F S32x4 .f32
  int : Vec F S32x4 .f32
  msk : Vec F S32x4 .f32
  mi : Vec F S32x4 .f32
  tg : Vec F S32x1 .f32

/-- All sums at zero: what the reset stores. -/
def Acc.zero : Acc F := ⟨k0_pay6, k0_pay7, k0_pay8, k0_pay9, k0_pay10, k0_pay11⟩

/-- One tile's contribution added to each sum: x0 the logits' block, x1 the targets' block. -/
def Acc.step (x0 : Vec F S32x4x32x256 .f32) (x1 : Vec F S32x1x32x256 .f32) (s : Acc F) : Acc F :=
  ⟨k0_pay13 x0 x1 s.foc, k0_pay17 (k0_pay14 x0) (Scalar.ofBits .f32 0x38D1B717#32) s.prb, k0_pay16 (k0_pay12 x1) (k0_pay14 x0) (Scalar.ofBits .f32 0x38D1B717#32) s.int,
   k0_pay1 (k0_pay20 x0) s.msk, k0_pay19 x0 (k0_pay12 x1) s.mi, k0_pay2 x1 s.tg⟩

/-- The sums after point n: restarted from zero at the first point of each row of eight. -/
def accAt (c : Dev nD) : (n : ℕ) → n < cfg0.N → Acc F
  | 0, h => Acc.step (iblk V c 0 ⟨0, h⟩) (iblk V c 1 ⟨0, h⟩) Acc.zero
  | n + 1, h => Acc.step (iblk V c 0 ⟨n + 1, h⟩) (iblk V c 1 ⟨n + 1, h⟩)
      (if (n + 1) % 8 = 0 then Acc.zero else accAt c n (Nat.lt_of_succ_lt h))

theorem accAt_first (c : Dev nD) (t : Fin cfg0.N) (h0 : t.val % 8 = 0) :
    accAt V c t.val t.isLt = Acc.step (iblk V c 0 t) (iblk V c 1 t) Acc.zero := by
  obtain ⟨n, hn⟩ := t
  cases n with
  | zero => rfl
  | succ n => show Acc.step _ _ (if (n + 1) % 8 = 0 then _ else _) = _; rw [if_pos h0]

theorem accAt_next (c : Dev nD) (t : Fin cfg0.N) (h0 : ¬ t.val % 8 = 0) :
    accAt V c t.val t.isLt = Acc.step (iblk V c 0 t) (iblk V c 1 t) (accAt V c (t.val - 1) (Nat.lt_of_le_of_lt (Nat.sub_le _ _) t.isLt)) := by
  obtain ⟨n, hn⟩ := t
  cases n with
  | zero => exact absurd (Nat.zero_mod _) h0
  | succ n => show Acc.step _ _ (if (n + 1) % 8 = 0 then _ else _) = _; rw [if_neg h0]; rfl

/-- The region's invariant before position n: at the start whatever the launch hands over; afterwards the scratch
    buffers at the running sums the point before left. -/
def PhiS (c : Dev nD) : (n : ℕ) → n ≤ cfg0.N → sProp 𝕄
  | 0, _ => Pipeline.ΦA spec0 c
  | n + 1, hn => iprop(iprop(owns (c : Thread nD τ) sc0 fullShare (accAt V c n hn).foc ∗ owns (c : Thread nD τ) sc1 fullShare (accAt V c n hn).prb ∗ owns (c : Thread nD τ) sc2 fullShare (accAt V c n hn).int ∗ owns (c : Thread nD τ) sc3 fullShare (accAt V c n hn).msk ∗ owns (c : Thread nD τ) sc4 fullShare (accAt V c n hn).mi ∗ owns (c : Thread nD τ) sc5 fullShare (accAt V c n hn).tg) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) sc0 fullShare (accAt V c n hn).foc ∗ owns (c : Thread nD τ) sc1 fullShare (accAt V c n hn).prb ∗ owns (c : Thread nD τ) sc2 fullShare (accAt V c n hn).int ∗ owns (c : Thread nD τ) sc3 fullShare (accAt V c n hn).msk ∗ owns (c : Thread nD τ) sc4 fullShare (accAt V c n hn).mi ∗ owns (c : Thread nD τ) sc5 fullShare (accAt V c n hn).tg) ∗ (∃ r, prngReg c r)) := rfl
theorem PhiS_pos (c : Dev nD) (n : ℕ) (h : n ≤ cfg0.N) (hz : n ≠ 0) :
    PhiS V c n h = iprop(iprop(owns (c : Thread nD τ) sc0 fullShare (accAt V c (n - 1) (by omega)).foc ∗ owns (c : Thread nD τ) sc1 fullShare (accAt V c (n - 1) (by omega)).prb ∗ owns (c : Thread nD τ) sc2 fullShare (accAt V c (n - 1) (by omega)).int ∗ owns (c : Thread nD τ) sc3 fullShare (accAt V c (n - 1) (by omega)).msk ∗ owns (c : Thread nD τ) sc4 fullShare (accAt V c (n - 1) (by omega)).mi ∗ owns (c : Thread nD τ) sc5 fullShare (accAt V c (n - 1) (by omega)).tg) ∗ (∃ r, prngReg c r)) := by
  cases n with
  | zero => exact absurd rfl hz
  | succ n => rfl

/-- The proof data: the arrays as the region finds them; each input's buffer at its block; the four outputs' buffers
    at the functions of the running sums that the last point of a row stores (consulted only there); the invariant
    above; nothing owed; full shares. -/
def dats (_ : Fin 1) (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => k0_pay3 (accAt V c t.val t.isLt).foc
    | ⟨4, _⟩ => k0_pay4 (accAt V c t.val t.isLt).tg (accAt V c t.val t.isLt).int (accAt V c t.val t.isLt).prb
    | ⟨5, _⟩ => k0_pay5 (accAt V c t.val t.isLt).tg (accAt V c t.val t.isLt).mi (accAt V c t.val t.isLt).msk (accAt V c t.val t.isLt).mi (iblk V c 2 t)
    | ⟨6, _⟩ => (accAt V c t.val t.isLt).tg
    | ⟨_ + 7, h⟩ => absurd h (Nat.not_lt.2 (Nat.le_add_left _ _))
  Φ t := PhiS V c t.val (Nat.le_of_lt_succ t.isLt)
  q _ := fullShare
  owed _ := 0

theorem A_eq (c : Dev nD) (w : Fin cfg0.W) : (dats V 0 c).A w = V c (Pipeline.arrRef spec0 w) := by
  dsimp only [dats]
theorem Phi_castSucc (c : Dev nD) (t : Fin cfg0.N) :
    (dats V 0 c).Φ t.castSucc = PhiS V c t.val (Nat.le_of_lt t.isLt) := by
  dsimp only [dats]; simp only [Fin.coe_castSucc]
theorem after_in0 (c : Dev nD) (t : Fin cfg0.N) : (dats V 0 c).after 0 t = iblk V c 0 t := by dsimp only [dats]
theorem after_in1 (c : Dev nD) (t : Fin cfg0.N) : (dats V 0 c).after 1 t = iblk V c 1 t := by dsimp only [dats]
theorem after_in2 (c : Dev nD) (t : Fin cfg0.N) : (dats V 0 c).after 2 t = iblk V c 2 t := by dsimp only [dats]
theorem after_out3 (c : Dev nD) (t : Fin cfg0.N) : (dats V 0 c).after 3 t = k0_pay3 (accAt V c t.val t.isLt).foc := by dsimp only [dats]
theorem after_out4 (c : Dev nD) (t : Fin cfg0.N) : (dats V 0 c).after 4 t = k0_pay4 (accAt V c t.val t.isLt).tg (accAt V c t.val t.isLt).int (accAt V c t.val t.isLt).prb := by dsimp only [dats]
theorem after_out5 (c : Dev nD) (t : Fin cfg0.N) : (dats V 0 c).after 5 t = k0_pay5 (accAt V c t.val t.isLt).tg (accAt V c t.val t.isLt).mi (accAt V c t.val t.isLt).msk (accAt V c t.val t.isLt).mi (iblk V c 2 t) := by dsimp only [dats]
theorem after_out6 (c : Dev nD) (t : Fin cfg0.N) : (dats V 0 c).after 6 t = (accAt V c t.val t.isLt).tg := by dsimp only [dats]

theorem before0 (c : Dev nD) (t : Fin cfg0.N) (d) : (dats V 0 c).before 0 t d = iblk V c 0 t :=
  before_in0 V (dats V 0 c) (A_eq V c 0) (after_in0 V c) t d
theorem before1 (c : Dev nD) (t : Fin cfg0.N) (d) : (dats V 0 c).before 1 t d = iblk V c 1 t :=
  before_in1 V (dats V 0 c) (A_eq V c 1) (after_in1 V c) t d
theorem before2 (c : Dev nD) (t : Fin cfg0.N) (d) : (dats V 0 c).before 2 t d = iblk V c 2 t :=
  before_in2 V (dats V 0 c) (A_eq V c 2) (after_in2 V c) t d

/-- What the body is called with at point t, the seven windows one by one, -/
def bodyPre (c : Dev nD) (t : Fin cfg0.N) : sProp 𝕄 :=
  iprop((dats V 0 c).Φ t.castSucc ∗ (dats V 0 c).owesAt () t.castSucc
    ∗ (∃ d, owns (c : Thread nD τ) (win0_0.stage (cfg0.slots t 0)) fullShare ((dats V 0 c).before 0 t d))
    ∗ (∃ d, owns (c : Thread nD τ) (win0_1.stage (cfg0.slots t 1)) fullShare ((dats V 0 c).before 1 t d))
    ∗ (∃ d, owns (c : Thread nD τ) (win0_2.stage (cfg0.slots t 2)) fullShare ((dats V 0 c).before 2 t d))
    ∗ (∃ d, owns (c : Thread nD τ) (win0_3.stage (cfg0.slots t 3)) fullShare ((dats V 0 c).before 3 t d))
    ∗ (∃ d, owns (c : Thread nD τ) (win0_4.stage (cfg0.slots t 4)) fullShare ((dats V 0 c).before 4 t d))
    ∗ (∃ d, owns (c : Thread nD τ) (win0_5.stage (cfg0.slots t 5)) fullShare ((dats V 0 c).before 5 t d))
    ∗ (∃ d, owns (c : Thread nD τ) (win0_6.stage (cfg0.slots t 6)) fullShare ((dats V 0 c).before 6 t d)))

/-- and what it returns. -/
def bodyPost (c : Dev nD) (t : Fin cfg0.N) : sProp 𝕄 :=
  iprop((dats V 0 c).Φ t.succ ∗ (dats V 0 c).owesAt () t.succ
    ∗ (dats V 0 c).leavesExact 0 t
    ∗ (dats V 0 c).leavesExact 1 t
    ∗ (dats V 0 c).leavesExact 2 t
    ∗ (dats V 0 c).leavesExact 3 t
    ∗ (dats V 0 c).leavesExact 4 t
    ∗ (dats V 0 c).leavesExact 5 t
    ∗ (dats V 0 c).leavesExact 6 t)

set_option maxHeartbeats 8000000 in
/-- The body at any point: by the position h = t mod 8 in the row, one of the three runs applies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dats V 0 c).owesAt () t.succ = (dats V 0 c).owesAt () t.castSucc from rfl]
  rw [show (dats V 0 c).Φ t.succ = PhiS V c (t.val + 1) t.isLt from rfl, PhiS_succ]
  rw [show (dats V 0 c).leavesExact 0 t = owns (c : Thread nD τ) (win0_0.stage (cfg0.slots t 0)) fullShare ((dats V 0 c).after 0 t) from by
      unfold Dat.leavesExact; rw [live_in0 t], after_in0]
  rw [show (dats V 0 c).leavesExact 1 t = owns (c : Thread nD τ) (win0_1.stage (cfg0.slots t 1)) fullShare ((dats V 0 c).after 1 t) from by
      unfold Dat.leavesExact; rw [live_in1 t], after_in1]
  rw [show (dats V 0 c).leavesExact 2 t = owns (c : Thread nD τ) (win0_2.stage (cfg0.slots t 2)) fullShare ((dats V 0 c).after 2 t) from by
      unfold Dat.leavesExact; rw [live_in2 t], after_in2]
  by_cases h7 : t.val % 8 = 7
  · have h0 : ¬ t.val % 8 = 0 := by omega
    have hz : t.val ≠ 0 := fun h => h0 (by rw [h])
    rw [show (dats V 0 c).leavesExact 3 t = owns (c : Thread nD τ) (win0_3.stage (cfg0.slots t 3)) fullShare ((dats V 0 c).after 3 t) from by
      unfold Dat.leavesExact; rw [live_out 3 t (by decide) h7], after_out3]
    rw [show (dats V 0 c).leavesExact 4 t = owns (c : Thread nD τ) (win0_4.stage (cfg0.slots t 4)) fullShare ((dats V 0 c).after 4 t) from by
      unfold Dat.leavesExact; rw [live_out 4 t (by decide) h7], after_out4]
    rw [show (dats V 0 c).leavesExact 5 t = owns (c : Thread nD τ) (win0_5.stage (cfg0.slots t 5)) fullShare ((dats V 0 c).after 5 t) from by
      unfold Dat.leavesExact; rw [live_out 5 t (by decide) h7], after_out5]
    rw [show (dats V 0 c).leavesExact 6 t = owns (c : Thread nD τ) (win0_6.stage (cfg0.slots t 6)) fullShare ((dats V 0 c).after 6 t) from by
      unfold Dat.leavesExact; rw [live_out 6 t (by decide) h7], after_out6]
    rw [accAt_next V c t h0, Phi_castSucc V c t, PhiS_pos V c _ _ hz]
    iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩⟩
    iapply (run_last c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) (fun h => h0 ((condInit_iff t).mp h)) ((condLast_iff t).mpr h7) (iblk V c 0 t) (iblk V c 1 t) (iblk V c 2 t) _ _ _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    iintro ⟨H0, H1, H2, H3, H4, H5, H6, S0, S1, S2, S3, S4, S5⟩
    isplitl [S0 S1 S2 S3 S4 S5 Hg]
    · isplitl [S0 S1 S2 S3 S4 S5]
      · isplitl [S0]; · iexact S0
        isplitl [S1]; · iexact S1
        isplitl [S2]; · iexact S2
        isplitl [S3]; · iexact S3
        isplitl [S4]; · iexact S4
        iexact S5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dats V 0 c) 3 t (idle_out 3 t (by decide) h7) (noflush_out 3 t (by decide) h7)]
    rw [Dat.leavesExact_idle (dats V 0 c) 4 t (idle_out 4 t (by decide) h7) (noflush_out 4 t (by decide) h7)]
    rw [Dat.leavesExact_idle (dats V 0 c) 5 t (idle_out 5 t (by decide) h7) (noflush_out 5 t (by decide) h7)]
    rw [Dat.leavesExact_idle (dats V 0 c) 6 t (idle_out 6 t (by decide) h7) (noflush_out 6 t (by decide) h7)]
    by_cases h0 : t.val % 8 = 0
    · rw [accAt_first V c t h0]
      by_cases hz : t.val = 0
      · rw [Phi_castSucc V c t, PhiS_zero V c _ _ hz, PhiA_eq]
        iintro ⟨⟨⟨⟨%e0, S0⟩, ⟨%e1, S1⟩, ⟨%e2, S2⟩, ⟨%e3, S3⟩, ⟨%e4, S4⟩, ⟨%e5, S5⟩⟩, Hg⟩, Ho, ⟨%d0, H0⟩, ⟨%d1, H1⟩, ⟨%d2, H2⟩, ⟨%d3, H3⟩, ⟨%d4, H4⟩, ⟨%d5, H5⟩, ⟨%d6, H6⟩⟩
        iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) ((condInit_iff t).mpr h0) (fun h => h7 ((condLast_iff t).mp h)) (iblk V c 0 t) (iblk V c 1 t) (iblk V c 2 t) _ _ _ _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [S0]; · iexact S0
        isplitl [S1]; · iexact S1
        isplitl [S2]; · iexact S2
        isplitl [S3]; · iexact S3
        isplitl [S4]; · iexact S4
        isplitl [S5]; · iexact S5
        iintro ⟨H0, H1, H2, H3, H4, H5, H6, S0, S1, S2, S3, S4, S5⟩
        isplitl [S0 S1 S2 S3 S4 S5 Hg]
        · isplitl [S0 S1 S2 S3 S4 S5]
          · isplitl [S0]; · iexact S0
            isplitl [S1]; · iexact S1
            isplitl [S2]; · iexact S2
            isplitl [S3]; · iexact S3
            isplitl [S4]; · iexact S4
            iexact S5
          iexact Hg
        isplitl [Ho]; · iexact Ho
        isplitl [H0]; · iexact H0
        isplitl [H1]; · iexact H1
        isplitl [H2]; · iexact H2
        isplitl [H3]; · iexists _; iexact H3
        isplitl [H4]; · iexists _; iexact H4
        isplitl [H5]; · iexists _; iexact H5
        iexists _; iexact H6
      · rw [Phi_castSucc V c t, PhiS_pos V c _ _ hz]
        iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩⟩
        iapply (run_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) ((condInit_iff t).mpr h0) (fun h => h7 ((condLast_iff t).mp h)) (iblk V c 0 t) (iblk V c 1 t) (iblk V c 2 t) _ _ _ _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [S0]; · iexact S0
        isplitl [S1]; · iexact S1
        isplitl [S2]; · iexact S2
        isplitl [S3]; · iexact S3
        isplitl [S4]; · iexact S4
        isplitl [S5]; · iexact S5
        iintro ⟨H0, H1, H2, H3, H4, H5, H6, S0, S1, S2, S3, S4, S5⟩
        isplitl [S0 S1 S2 S3 S4 S5 Hg]
        · isplitl [S0 S1 S2 S3 S4 S5]
          · isplitl [S0]; · iexact S0
            isplitl [S1]; · iexact S1
            isplitl [S2]; · iexact S2
            isplitl [S3]; · iexact S3
            isplitl [S4]; · iexact S4
            iexact S5
          iexact Hg
        isplitl [Ho]; · iexact Ho
        isplitl [H0]; · iexact H0
        isplitl [H1]; · iexact H1
        isplitl [H2]; · iexact H2
        isplitl [H3]; · iexists _; iexact H3
        isplitl [H4]; · iexists _; iexact H4
        isplitl [H5]; · iexists _; iexact H5
        iexists _; iexact H6
    · have hz : t.val ≠ 0 := fun h => h0 (by rw [h])
      rw [accAt_next V c t h0, Phi_castSucc V c t, PhiS_pos V c _ _ hz]
      iintro ⟨⟨⟨S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) sc0 (Memref.isWhole_whole _) sc1 (Memref.isWhole_whole _) sc2 (Memref.isWhole_whole _) sc3 (Memref.isWhole_whole _) sc4 (Memref.isWhole_whole _) sc5 (Memref.isWhole_whole _) (fun h => h0 ((condInit_iff t).mp h)) (fun h => h7 ((condLast_iff t).mp h)) (iblk V c 0 t) (iblk V c 1 t) (iblk V c 2 t) _ _ _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      isplitl [S4]; · iexact S4
      isplitl [S5]; · iexact S5
      iintro ⟨H0, H1, H2, H3, H4, H5, H6, S0, S1, S2, S3, S4, S5⟩
      isplitl [S0 S1 S2 S3 S4 S5 Hg]
      · isplitl [S0 S1 S2 S3 S4 S5]
        · isplitl [S0]; · iexact S0
          isplitl [S1]; · iexact S1
          isplitl [S2]; · iexact S2
          isplitl [S3]; · iexact S3
          isplitl [S4]; · iexact S4
          iexact S5
        iexact Hg
      isplitl [Ho]; · iexact Ho
      isplitl [H0]; · iexact H0
      isplitl [H1]; · iexact H1
      isplitl [H2]; · iexact H2
      isplitl [H3]; · iexists _; iexact H3
      isplitl [H4]; · iexists _; iexact H4
      isplitl [H5]; · iexists _; iexact H5
      iexists _; iexact H6

/-- The library's body obligation, at every point. -/
theorem body_obligation (c : Dev nD) : BodyObligation (dats (F := F) V 0 c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dats V 0 c).Φ 0 := by
  rw [show (dats V 0 c).Φ 0 = PhiS V c 0 (Nat.zero_le _) from rfl, PhiS_zero V c 0 _ rfl]
  try exact Idealize.SL.BI.Entails.refl _

/-- After the last point the invariant gives the scratch buffers back at contents no longer named. -/
theorem hout (c : Dev nD) : (dats V 0 c).Φ (Fin.last cfg0.N) ⊢ Pipeline.ΦA spec0 c := by
  have hN : (Fin.last cfg0.N).val ≠ 0 := by rw [Fin.val_last]; have : cfg0.N = 32 := N_0; omega
  rw [show (dats V 0 c).Φ (Fin.last cfg0.N) = PhiS V c (Fin.last cfg0.N).val (Nat.le_of_lt_succ (Fin.last cfg0.N).isLt) from rfl, PhiS_pos V c _ _ hN, PhiA_eq]
  iintro ⟨⟨S0, S1, S2, S3, S4, S5⟩, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

end Cert.KernelIdeal.Body

end
-- ==== Proof.KITail.lean ====
/-
  The launch side of `KernelIdeal`'s @main: two host constants, the one pallas_call region, and the 112 host
  operations after it, generic over the pipeline's proof data. The region is entered at the contents
  after the two constants (`V₀`); the lines after the region read the windows' arrays and write fresh
  buffers only, so the frame run around the region applies to any proof data whose arrays are the
  region-entry contents, and the program's three scalar results are one aggregation (`agg`) of an
  output array and the per-sample count array.
-/
import proofs.«180374_j28707561407033_2_alg».proof.Proof.Gen.KernelIdeal.Launch
import Idealize.ShloMosaic.Lib.Pipeline.FrameSuffix

set_option maxRecDepth 16384

noncomputable section

namespace Cert.KernelIdeal.Tail

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## @main around the region -/

/-- Core `c`'s TensorCore buffer contents when the region is entered: after the two constants. -/
abbrev V₀ (c : Dev nD) : Valuation τ sig (Elt F) := StableHlo.after (hostOps0 (F := F)) (fun b => m (c, b))
/-- The same read at a TensorCore reference. -/
abbrev V (c : Dev nD) (b : Ref sig .tc) : Buf (Elt F) ((c : Thread nD τ).loc b) := V₀ m c (Proc.devRef .tc b)

/-- The stretches of host operations after the region, in program order. -/
abbrev tailOpss : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-- @main is the two constants, the region, then the later lines: it reduces to the region continued by them,
    at the contents after the constants. -/
theorem hmain : Pipeline.HMainK (Ix := Unit) (Name := ℕ) (U := UR sig nD τ) (Lvl := ℕ) cfgs 0 defs₀ Variants.none m (main (F := F))
      (fun c b => V₀ m c (Proc.devRef .tc b)) (fun _ => Pipeline.chain ((tailOpss (F := F)).map StableHlo.seq)) :=
  Pipeline.hmain_around cfgs 0 defs₀ Variants.none m main [hostOps0] tailOpss (by simp only [List.Forall]; exact hostOps0_sub)
    (by simp only [List.Forall]; exact hostOps0_fresh) main_chain

/-- Every later line touches TensorCore references only. -/
theorem tail_sub : (tailOpss : List (List (HloOp τ sig (Elt F)))).Forall fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub, hostOps1_9_sub, hostOps1_10_sub, hostOps1_11_sub, hostOps1_12_sub⟩

/-- The later lines touch the pipeline's arrays and the bypassing buffers only: with nothing prefetched every
    unscoped TensorCore reference is one or the other. -/
theorem hsub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (List.forall_iff_forall_mem.mp (List.forall_iff_forall_mem.mp tail_sub ops hops) op hop)

theorem tail_fresh : (tailOpss : List (List (HloOp τ sig (Elt F)))).Forall fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh, hostOps1_9_fresh, hostOps1_10_fresh, hostOps1_11_fresh, hostOps1_12_fresh⟩

/-- They allocate nothing. -/
theorem hfresh : ∀ ops ∈ (tailOpss : List (List (HloOp τ sig (Elt F)))), ∀ op ∈ ops, op.fresh = ∅ := fun ops hops op hop =>
  List.forall_iff_forall_mem.mp (List.forall_iff_forall_mem.mp tail_fresh ops hops) op hop

/-- An operation writes no array of the pipeline. -/
abbrev Keeps (op : HloOp τ sig (Elt F)) : Prop := ∀ w, Proc.devRef .tc (Pipeline.arrRef spec0 w) ∉ op.writes

/-- An operation whose one written buffer is no window's array writes no window's array. -/
theorem keeps_of_writes {op : HloOp τ sig (Elt F)} {y : Ref sig .tc} (hw : op.writes = {Proc.devRef .tc y})
    (hy : ∀ w, Pipeline.arrRef spec0 w ≠ y) : Keeps op := by
  intro w; rw [hw, Finset.mem_singleton]; exact StableHlo.devRef_ne_of_ne (hy w)

theorem hostOps1_keeps : (hostOps1 : List (HloOp τ sig (Elt F))).Forall Keeps :=
  ⟨keeps_of_writes (StableHlo.reshape_writes ..) (by decide),
    keeps_of_writes (StableHlo.nullary_writes ..) (by decide),
    keeps_of_writes (StableHlo.unary_writes ..) (by decide),
    keeps_of_writes (StableHlo.binary_writes ..) (by decide),
    keeps_of_writes (StableHlo.unary_writes ..) (by decide),
    keeps_of_writes (StableHlo.unary_writes ..) (by decide),
    keeps_of_writes (StableHlo.unary_writes ..) (by decide),
    keeps_of_writes (StableHlo.unary_writes ..) (by decide),
    keeps_of_writes (StableHlo.binary_writes ..) (by decide),
    keeps_of_writes (StableHlo.unary_writes ..) (by decide),
    keeps_of_writes (StableHlo.unary_writes ..) (by decide),
    keeps_of_writes (StableHlo.unary_writes ..) (by decide),
    keeps_of_writes (StableHlo.unary_writes ..) (by decide),
    keeps_of_writes (StableHlo.binary_writes ..) (by decide),
    keeps_of_writes (StableHlo.binary_writes ..) (by decide),
    keeps_of_writes (StableHlo.unary_writes ..) (by decide),
    keeps_of_writes (StableHlo.nullary_writes ..) (by decide),
    keeps_of_writes (StableHlo.binary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.unary_writes ..) (by decide),
    keeps_of_writes (StableHlo.binary_writes ..) (by decide),
    keeps_of_writes (StableHlo.binary_writes ..) (by decide),
    keeps_of_writes (StableHlo.nullary_writes ..) (by decide),
    keeps_of_writes (StableHlo.unary_writes ..) (by decide),
    keeps_of_writes (StableHlo.binary_writes ..) (by decide),
    keeps_of_writes (StableHlo.nullary_writes ..) (by decide)⟩
theorem hostOps1_1_keeps : (hostOps1_1 : List (HloOp τ sig (Elt F))).Forall Keeps :=
  ⟨keeps_of_writes (StableHlo.unary_writes ..) (by decide),
    keeps_of_writes (StableHlo.unary_writes ..) (by decide),
    keeps_of_writes (StableHlo.ternary_writes ..) (by decide)⟩
theorem hostOps1_2_keeps : (hostOps1_2 : List (HloOp τ sig (Elt F))).Forall Keeps :=
  ⟨keeps_of_writes (StableHlo.nullary_writes ..) (by decide),
    keeps_of_writes (StableHlo.unary_writes ..) (by decide),
    keeps_of_writes (StableHlo.binary_writes ..) (by decide),
    keeps_of_writes (StableHlo.unary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.binary_writes ..) (by decide)⟩
theorem hostOps1_3_keeps : (hostOps1_3 : List (HloOp τ sig (Elt F))).Forall Keeps :=
  keeps_of_writes (StableHlo.ternary_writes ..) (by decide)
theorem hostOps1_4_keeps : (hostOps1_4 : List (HloOp τ sig (Elt F))).Forall Keeps :=
  ⟨keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.unary_writes ..) (by decide),
    keeps_of_writes (StableHlo.binary_writes ..) (by decide),
    keeps_of_writes (StableHlo.binary_writes ..) (by decide),
    keeps_of_writes (StableHlo.nullary_writes ..) (by decide),
    keeps_of_writes (StableHlo.unary_writes ..) (by decide),
    keeps_of_writes (StableHlo.binary_writes ..) (by decide),
    keeps_of_writes (StableHlo.nullary_writes ..) (by decide)⟩
theorem hostOps1_5_keeps : (hostOps1_5 : List (HloOp τ sig (Elt F))).Forall Keeps :=
  ⟨keeps_of_writes (StableHlo.unary_writes ..) (by decide),
    keeps_of_writes (StableHlo.unary_writes ..) (by decide),
    keeps_of_writes (StableHlo.ternary_writes ..) (by decide)⟩
theorem hostOps1_6_keeps : (hostOps1_6 : List (HloOp τ sig (Elt F))).Forall Keeps :=
  ⟨keeps_of_writes (StableHlo.nullary_writes ..) (by decide),
    keeps_of_writes (StableHlo.unary_writes ..) (by decide),
    keeps_of_writes (StableHlo.binary_writes ..) (by decide),
    keeps_of_writes (StableHlo.unary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.binary_writes ..) (by decide)⟩
theorem hostOps1_7_keeps : (hostOps1_7 : List (HloOp τ sig (Elt F))).Forall Keeps :=
  keeps_of_writes (StableHlo.ternary_writes ..) (by decide)
theorem hostOps1_8_keeps : (hostOps1_8 : List (HloOp τ sig (Elt F))).Forall Keeps :=
  ⟨keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.unary_writes ..) (by decide),
    keeps_of_writes (StableHlo.binary_writes ..) (by decide),
    keeps_of_writes (StableHlo.binary_writes ..) (by decide),
    keeps_of_writes (StableHlo.nullary_writes ..) (by decide),
    keeps_of_writes (StableHlo.unary_writes ..) (by decide),
    keeps_of_writes (StableHlo.binary_writes ..) (by decide),
    keeps_of_writes (StableHlo.nullary_writes ..) (by decide)⟩
theorem hostOps1_9_keeps : (hostOps1_9 : List (HloOp τ sig (Elt F))).Forall Keeps :=
  ⟨keeps_of_writes (StableHlo.unary_writes ..) (by decide),
    keeps_of_writes (StableHlo.unary_writes ..) (by decide),
    keeps_of_writes (StableHlo.ternary_writes ..) (by decide)⟩
theorem hostOps1_10_keeps : (hostOps1_10 : List (HloOp τ sig (Elt F))).Forall Keeps :=
  ⟨keeps_of_writes (StableHlo.nullary_writes ..) (by decide),
    keeps_of_writes (StableHlo.unary_writes ..) (by decide),
    keeps_of_writes (StableHlo.binary_writes ..) (by decide),
    keeps_of_writes (StableHlo.unary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.nullary_writes ..) (by decide),
    keeps_of_writes (StableHlo.binary_writes ..) (by decide),
    keeps_of_writes (StableHlo.binary_writes ..) (by decide)⟩
theorem hostOps1_11_keeps : (hostOps1_11 : List (HloOp τ sig (Elt F))).Forall Keeps :=
  keeps_of_writes (StableHlo.ternary_writes ..) (by decide)
theorem hostOps1_12_keeps : (hostOps1_12 : List (HloOp τ sig (Elt F))).Forall Keeps :=
  ⟨keeps_of_writes (StableHlo.nullary_writes ..) (by decide),
    keeps_of_writes (StableHlo.binary_writes ..) (by decide)⟩

theorem tail_keeps : (tailOpss : List (List (HloOp τ sig (Elt F)))).Forall fun ops => ops.Forall Keeps :=
  ⟨hostOps1_keeps, hostOps1_1_keeps, hostOps1_2_keeps, hostOps1_3_keeps, hostOps1_4_keeps, hostOps1_5_keeps, hostOps1_6_keeps, hostOps1_7_keeps, hostOps1_8_keeps, hostOps1_9_keeps, hostOps1_10_keeps, hostOps1_11_keeps, hostOps1_12_keeps⟩

/-- And write no array of the pipeline: each writes only its own result buffer, which is no array. -/
theorem hkeep : ∀ ops ∈ (tailOpss : List (List (HloOp τ sig (Elt F)))), ∀ op ∈ ops,
    ∀ w, Proc.devRef .tc (Pipeline.arrRef spec0 w) ∉ op.writes := fun ops hops op hop =>
  List.forall_iff_forall_mem.mp (List.forall_iff_forall_mem.mp tail_keeps ops hops) op hop

/-- The two constants write neither argument: the region finds the three as launched. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    repeat' apply And.intro
    all_goals exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, Finset.mem_singleton]
    repeat' apply And.intro
    all_goals exact StableHlo.devRef_ne_of_ne (by decide)))
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, Finset.mem_singleton]
    repeat' apply And.intro
    all_goals exact StableHlo.devRef_ne_of_ne (by decide)))

/-! ## The frame run around the region, for any proof data -/

set_option backward.isDefEq.respectTransparency.types false in
/-- For any proof data of the one pipeline whose arrays are the region-entry contents (`hA`) and whose body
    obligation holds: every weakly fair execution of @main terminates, every array of the pipeline ends at what
    the library computes from the proof data, and every other unscoped buffer as the later lines leave it. -/
theorem run_of (dats : (p : Fin 1) → (c : Dev nD) → Pipeline.Dat τ (Elt F) Unit ℕ (UR sig nD τ) ℕ (cfgs p) c)
    (hbody : ∀ c, Pipeline.BodyObligationLoose (dats 0 c) defs₀ Variants.none () Set.univ)
    (hshare : ∀ c w, (dats 0 c).share w = fullShare) (howed : ∀ c t, (dats 0 c).owed t = 0)
    (hA : ∀ c w, (dats 0 c).A w = V m c (Pipeline.arrRef spec0 w))
    (hin : ∀ c, Pipeline.ΦA spec0 c ⊢ (dats 0 c).Φ 0) (hout : ∀ c, (dats 0 c).Φ (Fin.last cfg0.N) ⊢ Pipeline.ΦA spec0 c) :
    θ_run defs (onTc (τ := τ) (main (F := F))) (s₀ m ρ)
      (Pipeline.FramePost cfgs dats 0 (Pipeline.afterTail₀ cfgs dats 0 (V₀ m) tailOpss)) :=
  Pipeline.θ_run_frame_around_track cfgs dats (0 : Fin 1) launch0 defs₀ Variants.none m ρ main
    (hbody := hbody) (hshare := hshare) (howed := howed) (V₀ := V₀ m) (opss := tailOpss)
    (hsub := hsub) (hfresh := hfresh) (hkeep := hkeep) (hmain := hmain m) (hA := hA) (hin := hin) (hout := hout)

/-! ## The frame claim's post from the frame run's -/

/-- THE FRAME from a frame run: for any proof data whose arrays are the region-entry contents (`hA`), the three
    argument arrays — each a staged input of the pipeline, which the library leaves at its entry contents
    (`Dat.arrAt_in`), and those are the launch contents (`V_argK`) — end as launched. -/
theorem frame_of (dats : (p : Fin 1) → (c : Dev nD) → Pipeline.Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V₀ m) tailOpss))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 0).trans (((dats 0 c).arrAt_in 0 rfl _).trans ((hA c 0).trans (V_arg0 m c))),
     ((h c).1 2).trans (((dats 0 c).arrAt_in 2 rfl _).trans ((hA c 2).trans (V_arg1 m c))),
     ((h c).1 1).trans (((dats 0 c).arrAt_in 1 rfl _).trans ((hA c 1).trans (V_arg2 m c)))⟩) h

/-! ## The three results: one aggregation of an output array and the per-sample count array -/

/-- The per-sample count sums, the [128,1] array read as [128]. -/
def ts (o : (⟨S128x1, .f32⟩ : BufTy).Contents (Elt F)) : (⟨S128, .f32⟩ : BufTy).Contents (Elt F) :=
  fun i => shapeCast S128 o shapeCasts_S128x1_S128 i

/-- THE AGGREGATION the program applies to each of its three loss arrays, over the bin bounds `lo`, `hi`:
    `ratio = tsum / 65536`; `valid = (ratio > lo) ∧ (ratio < hi)` as a float, per sample and bin; `cnt` its sum over
    the bins; per sample the loss summed over the valid bins divided by `max cnt 1`, zero where `cnt = 0`; `vb` the
    number of samples with a valid bin and `total` the per-sample values' sum; `total / max vb 1` where `vb > 0`, else
    `total`; times the literal `w`. Operands in the order the program prints them. -/
def aggOf (lo hi : (⟨S4, .f32⟩ : BufTy).Contents (Elt F)) (w : BitVec 32)
    (loss : FVec F S128x4 .f32) (tsum : FVec F S128 .f32) : (⟨S_, .f32⟩ : BufTy).Contents (Elt F) :=
  let ratio : FVec F S128 .f32 := Host.divf tsum (broadcastInDim S128 ![] bcast_S_S128 (constant (F := F) S_ .f32 0x47800000#32))
  let valid : FVec F S128x4 .f32 := uitofp .f32 (andi
    (cmpf .ogt (broadcastInDim S128x4 ![0, 1] bcast_S128x1_S128x4_0_1 (broadcastInDim S128x1 ![0] bcast_S128_S128x1_0 ratio))
      (broadcastInDim S128x4 ![0, 1] bcast_S1x4_S128x4_0_1 (broadcastInDim S1x4 ![1] bcast_S4_S1x4_1 lo)))
    (cmpf .olt (broadcastInDim S128x4 ![0, 1] bcast_S128x1_S128x4_0_1 (broadcastInDim S128x1 ![0] bcast_S128_S128x1_0 ratio))
      (broadcastInDim S128x4 ![0, 1] bcast_S1x4_S128x4_0_1 (broadcastInDim S1x4 ![1] bcast_S4_S1x4_1 hi))))
  let cnt : FVec F S128 .f32 := Host.reduceAdd valid (constant (F := F) S_ .f32 0x00000000#32) reducesTo_S128x4_S128_d1 h_S_
  let per : FVec F S128 .f32 := select
    (cmpf .ogt cnt (broadcastInDim S128 ![] bcast_S_S128 (constant (F := F) S_ .f32 0x00000000#32)))
    (Host.divf (Host.reduceAdd (mulf loss valid) (constant (F := F) S_ .f32 0x00000000#32) reducesTo_S128x4_S128_d1 h_S_)
      (maximumf cnt (broadcastInDim S128 ![] bcast_S_S128 (constant (F := F) S_ .f32 0x3F800000#32))))
    (broadcastInDim S128 ![] bcast_S_S128 (id (constant (F := F) S_ .f32 0x00000000#32)))
  let vb : FVec F S_ .f32 := Host.reduceAdd
    (uitofp .f32 (cmpf .ogt cnt (broadcastInDim S128 ![] bcast_S_S128 (constant (F := F) S_ .f32 0x00000000#32))))
    (constant (F := F) S_ .f32 0x00000000#32) reducesTo_S128_S_d0 h_S_
  let total : FVec F S_ .f32 := Host.reduceAdd per (constant (F := F) S_ .f32 0x00000000#32) reducesTo_S128_S_d0 h_S_
  mulf (constant (F := F) S_ .f32 w)
    (select (cmpf .ogt vb (constant (F := F) S_ .f32 0x00000000#32))
      (Host.divf total (maximumf vb (constant (F := F) S_ .f32 0x3F800000#32))) total)

/-- The lower and upper bin bounds: @main's two constant tables. -/
def binLo : (⟨S4, .f32⟩ : BufTy).Contents (Elt F) := fun i => FloatOps.ofBits .f32 (lit0 (S4.rowMajor i))
def binHi : (⟨S4, .f32⟩ : BufTy).Contents (Elt F) := fun i => FloatOps.ofBits .f32 (lit1 (S4.rowMajor i))

/-- The aggregation at the program's own bin bounds. -/
def agg (w : BitVec 32) (loss : FVec F S128x4 .f32) (tsum : FVec F S128 .f32) : (⟨S_, .f32⟩ : BufTy).Contents (Elt F) :=
  aggOf binLo binHi w loss tsum

set_option maxHeartbeats 4000000 in
/-- The later lines, from ANY contents `W` at the region's exit, leave in the three result buffers the aggregation of
    the three loss arrays — the fold of the 112 operations computed once, over an opaque valuation. -/
theorem tail_results (W : Valuation τ sig (Elt F)) :
    StableHlo.after (List.flatten (tailOpss (F := F))) W (Proc.devRef .tc main_v34)
        = aggOf (W (Proc.devRef .tc main_cst)) (W (Proc.devRef .tc main_cst_0)) 0x41A00000#32
            (W (Proc.devRef .tc main_v0_0)) (ts (W (Proc.devRef .tc main_v0_3)))
    ∧ StableHlo.after (List.flatten (tailOpss (F := F))) W (Proc.devRef .tc main_v53)
        = aggOf (W (Proc.devRef .tc main_cst)) (W (Proc.devRef .tc main_cst_0)) 0x3F800000#32
            (W (Proc.devRef .tc main_v0_1)) (ts (W (Proc.devRef .tc main_v0_3)))
    ∧ StableHlo.after (List.flatten (tailOpss (F := F))) W (Proc.devRef .tc main_v72)
        = aggOf (W (Proc.devRef .tc main_cst)) (W (Proc.devRef .tc main_cst_0)) 0x3F800000#32
            (W (Proc.devRef .tc main_v0_2)) (ts (W (Proc.devRef .tc main_v0_3))) := by
  simp only [tailOpss, hostOps1, hostOps1_1, hostOps1_2, hostOps1_3, hostOps1_4, hostOps1_5, hostOps1_6, hostOps1_7, hostOps1_8, hostOps1_9, hostOps1_10, hostOps1_11, hostOps1_12, List.flatten_cons, List.flatten_nil, List.append_nil, List.cons_append, List.nil_append]
  after_results_simp
  exact ⟨rfl, rfl, rfl⟩

/-- The aggregation respects equality of its operands. -/
theorem aggOf_congr {lo lo' hi hi' : (⟨S4, .f32⟩ : BufTy).Contents (Elt F)} (w : BitVec 32) {loss loss' : FVec F S128x4 .f32}
    {tsum tsum' : FVec F S128 .f32} (h1 : lo = lo') (h2 : hi = hi') (h3 : loss = loss') (h4 : tsum = tsum') :
    aggOf lo hi w loss tsum = aggOf lo' hi' w loss' tsum' := by
  subst h1 h2 h3 h4; rfl

/-- At the region's exit the two constant tables hold the bin bounds: neither is an array of the pipeline, and the
    two constants before the region wrote them. -/
theorem exit_cst (c : Dev nD) (A : (w : Fin 7) → Buf (Elt F) ((spec0 w).arr.view.loc (c.tc : Thread nD τ))) :
    Pipeline.withArrays spec0 c (V₀ m c) A (Proc.devRef .tc main_cst) = binLo := by
  rw [Pipeline.withArrays_of_ne spec0 c (V₀ m c) A main_cst (by exact (by decide : ∀ w, Pipeline.arrRef spec0 w ≠ main_cst))]
  show StableHlo.after hostOps0 (fun b => m (c, b)) (Proc.devRef .tc main_cst) = _
  simp only [hostOps0]
  after_results
  rfl
theorem exit_cst_0 (c : Dev nD) (A : (w : Fin 7) → Buf (Elt F) ((spec0 w).arr.view.loc (c.tc : Thread nD τ))) :
    Pipeline.withArrays spec0 c (V₀ m c) A (Proc.devRef .tc main_cst_0) = binHi := by
  rw [Pipeline.withArrays_of_ne spec0 c (V₀ m c) A main_cst_0 (by exact (by decide : ∀ w, Pipeline.arrRef spec0 w ≠ main_cst_0))]
  show StableHlo.after hostOps0 (fun b => m (c, b)) (Proc.devRef .tc main_cst_0) = _
  simp only [hostOps0]
  after_results
  rfl

/-- At the region's exit a window's array holds what the region left in it. -/
theorem exit_arr (c : Dev nD) (A : (w : Fin 7) → Buf (Elt F) ((spec0 w).arr.view.loc (c.tc : Thread nD τ))) (w : Fin 7) :
    Pipeline.withArrays spec0 c (V₀ m c) A (Proc.devRef .tc (Pipeline.arrRef spec0 w)) = A w :=
  Pipeline.withArrays_arr spec0 launch0.win.arr_inj c _ _ w

/-- What the three result buffers hold after the later lines, for any proof data: the aggregation of the three loss
    arrays as the region leaves them (windows 3, 4, 5) and of the count array (window 6). -/
theorem after_tail (dats : (p : Fin 1) → (c : Dev nD) → Pipeline.Dat τ (Elt F) Unit ℕ (UR sig nD τ) ℕ (cfgs p) c) (c : Dev nD) :
    Pipeline.afterTail₀ cfgs dats 0 (V₀ m) tailOpss c main_v34
        = agg 0x41A00000#32 ((dats 0 c).arrAt 3 cfg0.N) (ts ((dats 0 c).arrAt 6 cfg0.N))
    ∧ Pipeline.afterTail₀ cfgs dats 0 (V₀ m) tailOpss c main_v53
        = agg 0x3F800000#32 ((dats 0 c).arrAt 4 cfg0.N) (ts ((dats 0 c).arrAt 6 cfg0.N))
    ∧ Pipeline.afterTail₀ cfgs dats 0 (V₀ m) tailOpss c main_v72
        = agg 0x3F800000#32 ((dats 0 c).arrAt 5 cfg0.N) (ts ((dats 0 c).arrAt 6 cfg0.N)) := by
  unfold Pipeline.afterTail₀
  obtain ⟨h1, h2, h3⟩ := tail_results (Pipeline.withArrays (cfgs 0).spec c (V₀ m c) fun w => (dats 0 c).arrAt w (cfgs 0).N)
  exact ⟨h1.trans (aggOf_congr _ (exit_cst m c _) (exit_cst_0 m c _) (exit_arr m c _ 3) (congrArg ts (exit_arr m c _ 6))),
    h2.trans (aggOf_congr _ (exit_cst m c _) (exit_cst_0 m c _) (exit_arr m c _ 4) (congrArg ts (exit_arr m c _ 6))),
    h3.trans (aggOf_congr _ (exit_cst m c _) (exit_cst_0 m c _) (exit_arr m c _ 5) (congrArg ts (exit_arr m c _ 6)))⟩

/-- THE RESULTS from a frame run: for any proof data whose arrays are the region-entry contents, the three scalar
    results are the aggregation (`agg`) of what the region leaves in the three loss arrays and the count array, and
    the three arguments end as launched. -/
theorem results_of (dats : (p : Fin 1) → (c : Dev nD) → Pipeline.Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V₀ m) tailOpss))) :
    θ_run defs (onTc (τ := τ) (main (F := F))) ⟨m, fun _ => 0, ρ⟩ (fun r => ∀ c : Dev nD,
      r.2.mem ((c.tc : Thread nD τ).loc main_v34) = agg 0x41A00000#32 ((dats 0 c).arrAt 3 cfg0.N) (ts ((dats 0 c).arrAt 6 cfg0.N))
      ∧ r.2.mem ((c.tc : Thread nD τ).loc main_v53) = agg 0x3F800000#32 ((dats 0 c).arrAt 4 cfg0.N) (ts ((dats 0 c).arrAt 6 cfg0.N))
      ∧ r.2.mem ((c.tc : Thread nD τ).loc main_v72) = agg 0x3F800000#32 ((dats 0 c).arrAt 5 cfg0.N) (ts ((dats 0 c).arrAt 6 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v34 (Pipeline.mem_restRefs_of main_v34 (by decide) (by decide))).trans (after_tail m dats c).1,
     ((h c).2 main_v53 (Pipeline.mem_restRefs_of main_v53 (by decide) (by decide))).trans (after_tail m dats c).2.1,
     ((h c).2 main_v72 (Pipeline.mem_restRefs_of main_v72 (by decide) (by decide))).trans (after_tail m dats c).2.2,
     ((h c).1 0).trans (((dats 0 c).arrAt_in 0 rfl _).trans ((hA c 0).trans (V_arg0 m c))),
     ((h c).1 2).trans (((dats 0 c).arrAt_in 2 rfl _).trans ((hA c 2).trans (V_arg1 m c))),
     ((h c).1 1).trans (((dats 0 c).arrAt_in 1 rfl _).trans ((hA c 1).trans (V_arg2 m c)))⟩) h

end Cert.KernelIdeal.Tail

end
-- ==== Proof.KIFrame.lean ====
/-
  The program's run: the region's proof data and body obligation plugged into the launch of @main (two constants,
  the region, then the host lines that aggregate the four outputs), and the frame read off it: the program runs to
  the end, nothing faults, and the three argument arrays end unchanged.
-/
import proofs.«180374_j28707561407033_2_alg».proof.Proof.KIBody
import proofs.«180374_j28707561407033_2_alg».proof.Proof.KITail

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data at the contents the region finds. -/
abbrev D (p : Fin 1) (c : Dev nD) : Dat τ (Elt F) Unit ℕ (UR sig nD τ) ℕ (cfgs p) c :=
  Cert.KernelIdeal.Body.dats (Cert.KernelIdeal.Tail.V m) p c

theorem run_main : θ_run defs (onTc (τ := τ) (main (F := F))) (s₀ m ρ)
    (Pipeline.FramePost cfgs (D m) 0 (Pipeline.afterTail₀ cfgs (D m) 0 (Cert.KernelIdeal.Tail.V₀ m) Cert.KernelIdeal.Tail.tailOpss)) :=
  Cert.KernelIdeal.Tail.run_of m ρ (D m) (fun c => (Cert.KernelIdeal.Body.body_obligation (Cert.KernelIdeal.Tail.V m) c).loose)
    (fun c => (D m 0 c).share_full fun _ => rfl) (fun _ _ => rfl)
    (Cert.KernelIdeal.Body.A_eq (Cert.KernelIdeal.Tail.V m)) (Cert.KernelIdeal.Body.hin (Cert.KernelIdeal.Tail.V m)) (Cert.KernelIdeal.Body.hout (Cert.KernelIdeal.Tail.V m))

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Cert.KernelIdeal.Tail.frame_of m ρ (D m) (Cert.KernelIdeal.Body.A_eq (Cert.KernelIdeal.Tail.V m)) (run_main m ρ)

end Cert.KernelIdeal.Frame

end
-- ==== Proof.LibFinite.lean ====
/-
  Extended reals that are real numbers, and the operations that keep them so.
-/
import Idealize.ShloMosaic.PureOps.Ideal

noncomputable section

namespace Cert.LibFinite

open Idealize.ShloMosaic

/-- An extended real that is a real number (neither infinity). -/
def IsFin (x : EReal) : Prop := ∃ y : ℝ, x = (y : EReal)

theorem isFin_coe (y : ℝ) : IsFin (y : EReal) := ⟨y, rfl⟩

/-- Zero is the real number zero. -/
theorem isFin_zero : IsFin (0 : EReal) := ⟨0, rfl⟩

/-- The sum of two reals is the real sum: the coercion is additive. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The difference of two reals is the real difference. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The product of two reals is the real product. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The larger of two reals is one of them. -/
theorem IsFin.max {x y : EReal} (hx : IsFin x) (hy : IsFin y) : IsFin (max x y) := by
  rcases max_choice x y with h | h
  · rw [h]; exact hx
  · rw [h]; exact hy

/-- A real divided by a nonzero real is the real quotient: off zero the quotient is the product with the
    inverse, and the inverse of a real is the real inverse. -/
theorem IsFin.div {x y : EReal} (hx : IsFin x) (hy : IsFin y) (h0 : y ≠ 0) : IsFin (Ideal.div x y) := by
  obtain ⟨a, rfl⟩ := hx
  obtain ⟨b, rfl⟩ := hy
  refine ⟨a * b⁻¹, ?_⟩
  rw [Ideal.div, if_neg h0, ← EReal.coe_inv, ← EReal.coe_mul]

/-- A finite sum of reals is a real, by induction on the index set. -/
theorem IsFin.sum {ι : Type} (s : Finset ι) (f : ι → EReal) (h : ∀ i ∈ s, IsFin (f i)) :
    IsFin (∑ i ∈ s, f i) := by
  classical
  induction s using Finset.induction_on with
  | empty => simpa using isFin_zero
  | insert a s ha ih =>
    rw [Finset.sum_insert ha]
    exact (h a (Finset.mem_insert_self a s)).add (ih fun i hi => h i (Finset.mem_insert_of_mem hi))

/-- The pattern of `+0.0` denotes `0`. -/
theorem ofBits_zero : Ideal.ofBits .f32 0x00000000#32 = (0 : EReal) := by
  simp [Ideal.ofBits, Ideal.ieee]

/-- The pattern of `1.0` (exponent field `127`, zero fraction) denotes `2^23 · 2^(127 - 127 - 23) = 1`. -/
theorem ofBits_one : Ideal.ofBits .f32 0x3F800000#32 = ((1 : ℝ) : EReal) := by
  simp [Ideal.ofBits, Ideal.ieee, -EReal.coe_mul]; norm_num

/-- The pattern `0x47C35000` (exponent field `143`, fraction `0x435000`) denotes
    `(2^23 + 0x435000) · 2^(143 - 127 - 23) = 12800000 / 128 = 100000`. -/
theorem ofBits_1e5 : Ideal.ofBits .f32 0x47C35000#32 = ((100000 : ℝ) : EReal) := by
  simp [Ideal.ofBits, Ideal.ieee, -EReal.coe_mul]; norm_num

/-- The pattern `0x3727C5AC` has exponent field `110`, neither all ones nor zero: a normal number, a real. -/
theorem isFin_ofBits_eps : IsFin (Ideal.ofBits .f32 0x3727C5AC#32) := by
  simp [Ideal.ofBits, Ideal.ieee, -EReal.coe_mul]
  exact isFin_coe _

/-- A maximum against `1` is at least `1`, so it is not `0`. -/
theorem max_one_ne_zero (x : EReal) : max x (Ideal.ofBits .f32 0x3F800000#32) ≠ 0 := by
  rw [ofBits_one]
  have h : ((1 : ℝ) : EReal) ≤ max x ((1 : ℝ) : EReal) := le_max_right _ _
  have h0 : (0 : EReal) < ((1 : ℝ) : EReal) := by exact_mod_cast zero_lt_one
  exact (lt_of_lt_of_le h0 h).ne'

end Cert.LibFinite

end
-- ==== Proof.Elem.lean ====
/-
  The elementwise terms of the loss, as functions on the extended reals, in the two spellings the two programs use,
  and why they agree on real numbers: `0 - a` is `-a`; a square written as the power with exponent `2` is the
  product of a real number with itself; a product of three factors may be bracketed either way.
-/
import Idealize.ShloMosaic.PureOps.Ideal
import proofs.«180374_j28707561407033_2_alg».proof.Proof.LibFinite
import Mathlib.Analysis.SpecialFunctions.Pow.Real

noncomputable section

namespace Cert.Elem

open Idealize.ShloMosaic Cert.LibFinite

/-- The literals: 0, 1, 0.8 (as the nearest binary32 number), 2. -/
abbrev z : EReal := Ideal.ofBits .f32 0x00000000#32
abbrev one : EReal := Ideal.ofBits .f32 0x3F800000#32
abbrev alpha : EReal := Ideal.ofBits .f32 0x3F4CCCCD#32
abbrev two : EReal := Ideal.ofBits .f32 0x40000000#32

/-- The pattern of `2.0` (exponent field 128, zero fraction) denotes 2. -/
theorem ofBits_two : two = ((2 : ℝ) : EReal) := by
  simp [two, Ideal.ofBits, Ideal.ieee, -EReal.coe_mul]; norm_num

theorem z_eq : z = 0 := ofBits_zero

/-- The stable binary cross-entropy with logits, written with `0 - |x|`. -/
def bceK (x t : EReal) : EReal := (max x z - x * t) + Ideal.log1p (Ideal.exp (z - max x (-x)))
/-- The same written with `-|x|`. -/
def bceR (x t : EReal) : EReal := (max x z - x * t) + Ideal.log1p (Ideal.exp (-(max x (-x))))

theorem bce_eq (x t : EReal) : bceK x t = bceR x t := by
  unfold bceK bceR; rw [z_eq, zero_sub]

/-- On real numbers the cross-entropy is a real number. -/
theorem bceR_coe (a b : ℝ) : ∃ r : ℝ, bceR (a : EReal) (b : EReal) = (r : EReal) := by
  refine ⟨(max a 0 - a * b) + Real.log (1 + Real.exp (-(max a (-a)))), ?_⟩
  have hpos : ¬ (1 + Real.exp (-(max a (-a))) ≤ 0) := by
    have := Real.exp_pos (-(max a (-a))); linarith
  unfold bceR Ideal.log1p
  rw [z_eq]
  have h1 : max (a : EReal) (-(a : EReal)) = ((max a (-a) : ℝ) : EReal) := by
    rw [← EReal.coe_neg]; exact (EReal.coe_strictMono.monotone.map_max).symm
  have h2 : max (a : EReal) 0 = ((max a 0 : ℝ) : EReal) := by
    rw [← EReal.coe_zero]; exact (EReal.coe_strictMono.monotone.map_max).symm
  rw [h1, h2, ← EReal.coe_neg, Ideal.exp_coe, ← EReal.coe_mul, ← EReal.coe_sub, ← EReal.coe_one, ← EReal.coe_add,
    Ideal.log_coe, if_neg hpos, ← EReal.coe_add]

/-- The focal term with the square written as a product, the weight multiplied in first. -/
def focK (x t : EReal) : EReal :=
  ((alpha * (one - Ideal.exp (z - bceK x t))) * (one - Ideal.exp (z - bceK x t))) * bceK x t
/-- The focal term with the square written as a power. -/
def focR (x t : EReal) : EReal :=
  (alpha * Ideal.pow (one - Ideal.exp (-(bceR x t))) two) * bceR x t

/-- A real number to the power 2 is its product with itself. -/
theorem pow_two_coe (u : ℝ) : Ideal.pow (u : EReal) two = (u : EReal) * (u : EReal) := by
  rw [ofBits_two, Ideal.pow_coe_coe, ← EReal.coe_mul]
  congr 1
  show u ^ (2 : ℝ) = u * u
  rw [Real.rpow_two, sq]

theorem foc_eq {x t : EReal} (hx : IsFin x) (ht : IsFin t) : focK x t = focR x t := by
  obtain ⟨a, rfl⟩ := hx
  obtain ⟨b, rfl⟩ := ht
  unfold focK focR
  rw [bce_eq, z_eq, zero_sub]
  obtain ⟨r, hr⟩ := bceR_coe a b
  rw [hr]
  have hu : one - Ideal.exp (-(r : EReal)) = ((1 - Real.exp (-r) : ℝ) : EReal) := by
    rw [show one = ((1 : ℝ) : EReal) from ofBits_one, ← EReal.coe_neg, Ideal.exp_coe, ← EReal.coe_sub]
  rw [hu, pow_two_coe, mul_assoc alpha]

/-- More literals: 1e-4 and 1 - 1e-4 (as binary32 numbers), and 65536. -/
abbrev wS : EReal := Ideal.ofBits .f32 0x38D1B717#32
abbrev wH : EReal := Ideal.ofBits .f32 0x3F7FF972#32
abbrev wN : EReal := Ideal.ofBits .f32 0x47800000#32

/-- The clamped sigmoid, the sigmoid as one operation. -/
def probK (x : EReal) : EReal := min wH (max wS (Ideal.logistic x))
/-- The clamped sigmoid, the sigmoid spelled `1 / (1 + e^(-x))` with the literal 1. -/
def probR (x : EReal) : EReal := min wH (max wS (Ideal.div one (one + Ideal.exp (-x))))

theorem prob_eq (x : EReal) : probK x = probR x := by
  unfold probK probR Ideal.logistic
  rw [show one = (1 : EReal) from ofBits_one.trans EReal.coe_one]

/-- The thresholded mask `x ≥ 0` as a number: the comparison's bit widened to 32 bits and read signed, -/
def mskK (x : EReal) : EReal := ((((Ideal.cmp .oge x z).setWidth 32).toInt : ℝ) : EReal)
/-- or the bit read unsigned. -/
def mskR (x : EReal) : EReal := (((Ideal.cmp .oge x z).toNat : ℝ) : EReal)

theorem bit_widen : ∀ b : BitVec 1, (b.setWidth 32).toInt = (b.toNat : ℤ) := by decide

theorem msk_eq (x : EReal) : mskK x = mskR x := by
  unfold mskK mskR
  rw [bit_widen]; norm_cast

end Cert.Elem

end
-- ==== Proof.KIPay.lean ====
/-
  The kernel body's pure values read at an index, at the ideal instance: each running sum's update is the old value
  plus the tile's double sum (over the 32 rows and 256 columns of the tile) of an elementwise term of the logit and the
  target; the reset stores the zero word; the four output blocks are the closing arithmetic of the finished sums.
-/
import proofs.«180374_j28707561407033_2_alg».proof.Proof.Gen.KernelIdeal.Skeleton
import proofs.«180374_j28707561407033_2_alg».proof.Proof.Elem
import Idealize.ShloMosaic.Lib.Pipeline.Value
import Idealize.ShloMosaic.Lib.ValueIdx
import Idealize.ShloMosaic.PureOps.Ideal.Laws

set_option maxRecDepth 16384

noncomputable section

namespace Cert.KernelIdeal.Pay

open Idealize.ShloMosaic Idealize.ShloMosaic.ValueIdx
open Cert.KernelIdeal Cert.KernelIdeal.Gen Cert.Elem

/-- Two lane sums in a row, the last axis and then the next, are the double sum over the two axes. -/
theorem lanes (g : FVec Ideal S32x4x32x256 .f32) (h3 : S32x4x32x256.Reduces [3] S32x4x32) (h2 : S32x4x32.Reduces [2] S32x4)
    (hφ : FKind.Formats .f32) (hacc : (0x00000000#32 : BitVec 32) = FKind.add.neutral .f32 hφ) (r : Fin 32) (q : Fin 4) :
    multiReduction .add [2] S32x4 (multiReduction .add [3] S32x4x32 g 0x00000000#32 h3 hφ hacc) 0x00000000#32 h2 hφ hacc (ix2 r q)
      = ∑ y : Fin 32, ∑ w : Fin 256, g (ix4 r q y w) := by
  refine (Ideal.multiReduction_add_single _ _ h2 hφ hacc (ix2 r q)).trans ?_
  show ∑ y : Fin 32, _ = _
  refine Finset.sum_congr rfl fun y _ => ?_
  rw [show h2.lift (ix2 r q) y = ix3 r q y from funext fun c => Fin.ext (by match c with | ⟨0, _⟩ => rfl | ⟨1, _⟩ => rfl | ⟨2, _⟩ => rfl)]
  refine (Ideal.multiReduction_add_single g _ h3 hφ hacc (ix3 r q y)).trans ?_
  show ∑ w : Fin 256, _ = _
  refine Finset.sum_congr rfl fun w _ => ?_
  rw [show h3.lift (ix3 r q y) w = ix4 r q y w from funext fun c => Fin.ext (by match c with | ⟨0, _⟩ => rfl | ⟨1, _⟩ => rfl | ⟨2, _⟩ => rfl | ⟨3, _⟩ => rfl)]

/-- The targets' block broadcast along the mask axis. -/
theorem pay12_apply (x1 : Vec Ideal S32x1x32x256 .f32) (r : Fin 32) (q : Fin 4) (y : Fin 32) (w : Fin 256) :
    k0_pay12 x1 (ix4 r q y w) = x1 (ix4 r (0 : Fin 1) y w) := by
  unfold k0_pay12
  show broadcastTo S32x4x32x256 (shapeCast S32x1x32x256 x1 _) _ (ix4 r q y w) = _
  rw [shapeCast_self]
  exact broadcastTo_apply x1 _ (ix4 r q y w) (ix4 r 0 y w)
    (fun a => by match a with | ⟨0, _⟩ => rfl | ⟨1, _⟩ => rfl | ⟨2, _⟩ => rfl | ⟨3, _⟩ => rfl)

/-- The focal sum's update. -/
theorem pay13_apply (x0 : Vec Ideal S32x4x32x256 .f32) (x1 : Vec Ideal S32x1x32x256 .f32) (s : Vec Ideal S32x4 .f32)
    (r : Fin 32) (q : Fin 4) :
    k0_pay13 x0 x1 s (ix2 r q)
      = s (ix2 r q) + ∑ y : Fin 32, ∑ w : Fin 256, focK (x0 (ix4 r q y w)) (x1 (ix4 r (0 : Fin 1) y w)) := by
  unfold k0_pay13
  show shapeCast S32x4 (addf (F := Ideal) (φ := .f32) s (multiReduction (F := Ideal) (φ := .f32) .add [2] S32x4 (multiReduction (F := Ideal) (φ := .f32) .add [3] S32x4x32 _ _ _ _ _) _ _ _ _)) _ (ix2 r q) = _
  rw [shapeCast_self, addf_apply]
  refine congrArg (s (ix2 r q) + ·) ?_
  refine (lanes _ _ _ _ _ r q).trans ?_
  refine Finset.sum_congr rfl fun y _ => Finset.sum_congr rfl fun w _ => ?_
  rw [← pay12_apply x1 r q y w]
  rfl

/-- The probability sum's update. -/
theorem pay17_apply (x0 : Vec Ideal S32x4x32x256 .f32) (s : Vec Ideal S32x4 .f32) (r : Fin 32) (q : Fin 4) :
    k0_pay17 (k0_pay14 x0) (Scalar.ofBits .f32 0x38D1B717#32) s (ix2 r q)
      = s (ix2 r q) + ∑ y : Fin 32, ∑ w : Fin 256, probK (x0 (ix4 r q y w)) := by
  unfold k0_pay17
  show shapeCast S32x4 (addf (F := Ideal) (φ := .f32) s (multiReduction (F := Ideal) (φ := .f32) .add [2] S32x4 (multiReduction (F := Ideal) (φ := .f32) .add [3] S32x4x32 _ _ _ _ _) _ _ _ _)) _ (ix2 r q) = _
  rw [shapeCast_self, addf_apply]
  refine congrArg (s (ix2 r q) + ·) ?_
  refine (lanes _ _ _ _ _ r q).trans ?_
  refine Finset.sum_congr rfl fun y _ => Finset.sum_congr rfl fun w _ => ?_
  rfl

/-- The probability-times-target sum's update. -/
theorem pay16_apply (x0 : Vec Ideal S32x4x32x256 .f32) (x1 : Vec Ideal S32x1x32x256 .f32) (s : Vec Ideal S32x4 .f32)
    (r : Fin 32) (q : Fin 4) :
    k0_pay16 (k0_pay12 x1) (k0_pay14 x0) (Scalar.ofBits .f32 0x38D1B717#32) s (ix2 r q)
      = s (ix2 r q) + ∑ y : Fin 32, ∑ w : Fin 256, probK (x0 (ix4 r q y w)) * x1 (ix4 r (0 : Fin 1) y w) := by
  unfold k0_pay16
  show shapeCast S32x4 (addf (F := Ideal) (φ := .f32) s (multiReduction (F := Ideal) (φ := .f32) .add [2] S32x4 (multiReduction (F := Ideal) (φ := .f32) .add [3] S32x4x32 _ _ _ _ _) _ _ _ _)) _ (ix2 r q) = _
  rw [shapeCast_self, addf_apply]
  refine congrArg (s (ix2 r q) + ·) ?_
  refine (lanes _ _ _ _ _ r q).trans ?_
  refine Finset.sum_congr rfl fun y _ => Finset.sum_congr rfl fun w _ => ?_
  rw [← pay12_apply x1 r q y w]
  rfl

/-- The mask sum's update. -/
theorem pay1_apply (x0 : Vec Ideal S32x4x32x256 .f32) (s : Vec Ideal S32x4 .f32) (r : Fin 32) (q : Fin 4) :
    k0_pay1 (k0_pay20 x0) s (ix2 r q) = s (ix2 r q) + ∑ y : Fin 32, ∑ w : Fin 256, mskK (x0 (ix4 r q y w)) := by
  unfold k0_pay1 k0_pay20
  show shapeCast S32x4 (addf (F := Ideal) (φ := .f32) s (multiReduction (F := Ideal) (φ := .f32) .add [2] S32x4 (multiReduction (F := Ideal) (φ := .f32) .add [3] S32x4x32 _ _ _ _ _) _ _ _ _)) _ (ix2 r q) = _
  rw [shapeCast_self, addf_apply]
  refine congrArg (s (ix2 r q) + ·) ?_
  refine (lanes _ _ _ _ _ r q).trans ?_
  refine Finset.sum_congr rfl fun y _ => Finset.sum_congr rfl fun w _ => ?_
  rfl

/-- The mask-times-target sum's update. -/
theorem pay19_apply (x0 : Vec Ideal S32x4x32x256 .f32) (x1 : Vec Ideal S32x1x32x256 .f32) (s : Vec Ideal S32x4 .f32)
    (r : Fin 32) (q : Fin 4) :
    k0_pay19 x0 (k0_pay12 x1) s (ix2 r q)
      = s (ix2 r q) + ∑ y : Fin 32, ∑ w : Fin 256, mskK (x0 (ix4 r q y w)) * x1 (ix4 r (0 : Fin 1) y w) := by
  unfold k0_pay19
  show shapeCast S32x4 (addf (F := Ideal) (φ := .f32) s (multiReduction (F := Ideal) (φ := .f32) .add [2] S32x4 (multiReduction (F := Ideal) (φ := .f32) .add [3] S32x4x32 _ _ _ _ _) _ _ _ _)) _ (ix2 r q) = _
  rw [shapeCast_self, addf_apply]
  refine congrArg (s (ix2 r q) + ·) ?_
  refine (lanes _ _ _ _ _ r q).trans ?_
  refine Finset.sum_congr rfl fun y _ => Finset.sum_congr rfl fun w _ => ?_
  rw [← pay12_apply x1 r q y w]
  rfl

/-- The target sum's update. -/
theorem pay2_apply (x1 : Vec Ideal S32x1x32x256 .f32) (s : Vec Ideal S32x1 .f32) (r : Fin 32) :
    k0_pay2 x1 s (ix2 r (0 : Fin 1)) = s (ix2 r (0 : Fin 1)) + ∑ y : Fin 32, ∑ w : Fin 256, x1 (ix4 r (0 : Fin 1) y w) := by
  unfold k0_pay2
  show shapeCast S32x1 (addf (F := Ideal) (φ := .f32) s (shapeCast S32x1 (multiReduction (F := Ideal) (φ := .f32) .add [1] S32 (multiReduction (F := Ideal) (φ := .f32) .add [2] S32x32
    (shapeCast (α := Ideal .f32) S32x32x256 x1 shapeCasts_S32x1x32x256_S32x32x256) _ reduces_S32x32x256_S32x32 _ _) _ reduces_S32x32_S32 _ _) shapeCasts_S32_S32x1)) _ (ix2 r 0) = _
  rw [shapeCast_self, addf_apply]
  refine congrArg (s (ix2 r 0) + ·) ?_
  rw [shapeCast_apply _ shapeCasts_S32_S32x1 (ix2 r (0 : Fin 1)) (ix1 r)
    (by rw [Shape.rowMajor_val_one, Shape.rowMajor_val_two]; show r.val = r.val * 1 + 0; omega)]
  refine (Ideal.multiReduction_add_single _ _ reduces_S32x32_S32 _ _ (ix1 r)).trans ?_
  show ∑ y : Fin 32, _ = _
  refine Finset.sum_congr rfl fun y _ => ?_
  rw [show reduces_S32x32_S32.lift (ix1 r) y = ix2 r y from funext fun c => Fin.ext (by match c with | ⟨0, _⟩ => rfl | ⟨1, _⟩ => rfl)]
  refine (Ideal.multiReduction_add_single _ _ reduces_S32x32x256_S32x32 _ _ (ix2 r y)).trans ?_
  show ∑ w : Fin 256, _ = _
  refine Finset.sum_congr rfl fun w _ => ?_
  rw [show reduces_S32x32x256_S32x32.lift (ix2 r y) w = ix3 r y w from funext fun c => Fin.ext (by match c with | ⟨0, _⟩ => rfl | ⟨1, _⟩ => rfl | ⟨2, _⟩ => rfl)]
  exact shapeCast_apply x1 shapeCasts_S32x1x32x256_S32x32x256 (ix3 r y w) (ix4 r (0 : Fin 1) y w)
    (by rw [Shape.rowMajor_val_four, Shape.rowMajor_val_three]
        show ((r.val * 1 + 0) * 32 + y.val) * 256 + w.val = (r.val * 32 + y.val) * 256 + w.val
        omega)

/-- The reset stores the zero word. -/
theorem pay6_apply (i : S32x4.Idx) : (k0_pay6 (F := Ideal)) i = z := by
  unfold k0_pay6; show shapeCast S32x4 _ _ i = _; rw [shapeCast_self]; rfl
theorem pay7_apply (i : S32x4.Idx) : (k0_pay7 (F := Ideal)) i = z := by
  unfold k0_pay7; show shapeCast S32x4 _ _ i = _; rw [shapeCast_self]; rfl
theorem pay8_apply (i : S32x4.Idx) : (k0_pay8 (F := Ideal)) i = z := by
  unfold k0_pay8; show shapeCast S32x4 _ _ i = _; rw [shapeCast_self]; rfl
theorem pay9_apply (i : S32x4.Idx) : (k0_pay9 (F := Ideal)) i = z := by
  unfold k0_pay9; show shapeCast S32x4 _ _ i = _; rw [shapeCast_self]; rfl
theorem pay10_apply (i : S32x4.Idx) : (k0_pay10 (F := Ideal)) i = z := by
  unfold k0_pay10; show shapeCast S32x4 _ _ i = _; rw [shapeCast_self]; rfl
theorem pay11_apply (i : S32x1.Idx) : (k0_pay11 (F := Ideal)) i = z := by
  unfold k0_pay11; show shapeCast S32x1 _ _ i = _; rw [shapeCast_self]; rfl

/-- The focal output: the finished sum over 65536. -/
theorem pay3_apply (foc : Vec Ideal S32x4 .f32) (r : Fin 32) (q : Fin 4) :
    k0_pay3 foc (ix2 r q) = Ideal.div (foc (ix2 r q)) wN := rfl

/-- The dice output. -/
theorem pay4_apply (tg : Vec Ideal S32x1 .f32) (int prb : Vec Ideal S32x4 .f32) (r : Fin 32) (q : Fin 4) :
    k0_pay4 tg int prb (ix2 r q)
      = one - Ideal.div (two * int (ix2 r q) + wS) ((prb (ix2 r q) + tg (ix2 r (0 : Fin 1))) + wS) := by
  have e : broadcastTo S32x4 tg broadcasts_S32x1_S32x4 (ix2 r q) = tg (ix2 r (0 : Fin 1)) :=
    broadcastTo_apply tg _ (ix2 r q) (ix2 r 0) (fun a => by match a with | ⟨0, _⟩ => rfl | ⟨1, _⟩ => rfl)
  rw [← e]; rfl

/-- The IoU output. -/
theorem pay5_apply (tg : Vec Ideal S32x1 .f32) (mi msk p : Vec Ideal S32x4 .f32) (r : Fin 32) (q : Fin 4) :
    k0_pay5 tg mi msk mi p (ix2 r q)
      = (p (ix2 r q) - Ideal.div (mi (ix2 r q) + wS) (((msk (ix2 r q) + tg (ix2 r (0 : Fin 1))) - mi (ix2 r q)) + wS))
        * (p (ix2 r q) - Ideal.div (mi (ix2 r q) + wS) (((msk (ix2 r q) + tg (ix2 r (0 : Fin 1))) - mi (ix2 r q)) + wS)) := by
  have e : broadcastTo S32x4 tg broadcasts_S32x1_S32x4 (ix2 r q) = tg (ix2 r (0 : Fin 1)) :=
    broadcastTo_apply tg _ (ix2 r q) (ix2 r 0) (fun a => by match a with | ⟨0, _⟩ => rfl | ⟨1, _⟩ => rfl)
  rw [← e]; rfl

end Cert.KernelIdeal.Pay

end
-- ==== Proof.KIAcc.lean ====
/-
  The six running sums after any grid point, in closed form: after point n the sum at (r, q) is the zero word plus
  the tiles' double sums over the points of n's row of eight up to n — by induction on the point, from the restart at
  the first point of each row and the one-tile update elsewhere.
-/
import proofs.«180374_j28707561407033_2_alg».proof.Proof.KIBody
import proofs.«180374_j28707561407033_2_alg».proof.Proof.KIPay

set_option maxRecDepth 16384

noncomputable section

namespace Cert.KernelIdeal.AccV

open Idealize.ShloMosaic Idealize.ShloMosaic.TcCoe Idealize.ShloMosaic.ValueIdx
open Idealize.SL.Sem
open Cert.KernelIdeal Cert.KernelIdeal.Gen Cert.KernelIdeal.Body Cert.KernelIdeal.Pay Cert.Elem

variable (V : (c : Dev nD) → (b : Ref sig .tc) → Buf (Elt Ideal) ((c : Thread nD τ).loc b))

/-- One tile's double sum of an elementwise term of the logits' and the targets' blocks at point n (zero past the grid). -/
def tile (f : EReal → EReal → EReal) (c : Dev nD) (n : ℕ) (r : Fin 32) (q : Fin 4) : EReal :=
  if hn : n < cfg0.N then
    ∑ y : Fin 32, ∑ w : Fin 256, f (iblk V c 0 ⟨n, hn⟩ (ix4 r q y w)) (iblk V c 1 ⟨n, hn⟩ (ix4 r (0 : Fin 1) y w))
  else 0

theorem tile_of_lt (f : EReal → EReal → EReal) (c : Dev nD) (t : Fin cfg0.N) (r : Fin 32) (q : Fin 4) :
    tile V f c t.val r q
      = ∑ y : Fin 32, ∑ w : Fin 256, f (iblk V c 0 t (ix4 r q y w)) (iblk V c 1 t (ix4 r (0 : Fin 1) y w)) := by
  unfold tile; rw [dif_pos t.isLt]

/-- A quantity read off the running sums that starts at the zero word and gains M(t) at every point t is, after
    point n, the zero word plus the gains of the points of n's row of eight up to n. -/
theorem acc_closed {ι : Type} (c : Dev nD) (π : Acc Ideal → ι → EReal) (M : ℕ → ι → EReal)
    (hZ : ∀ i, π Acc.zero i = z)
    (hstep : ∀ (t : Fin cfg0.N) (s : Acc Ideal) (i : ι),
      π (Acc.step (iblk V c 0 t) (iblk V c 1 t) s) i = π s i + M t.val i) :
    ∀ (n : ℕ) (hn : n < cfg0.N) (i : ι),
      π (accAt V c n hn) i = z + ∑ s ∈ Finset.range (n % 8 + 1), M (n - n % 8 + s) i := by
  intro n
  induction n with
  | zero =>
    intro hn i
    rw [accAt_first V c ⟨0, hn⟩ rfl, hstep, hZ]
    simp only [Nat.zero_mod, Nat.sub_zero, zero_add, Finset.sum_range_one, Nat.add_zero]
  | succ k ih =>
    intro hn i
    by_cases h0 : (k + 1) % 8 = 0
    · rw [accAt_first V c ⟨k + 1, hn⟩ h0, hstep, hZ, h0]
      simp only [Nat.sub_zero, zero_add, Finset.sum_range_one, Nat.add_zero]
    · rw [accAt_next V c ⟨k + 1, hn⟩ h0, hstep]
      have e : π (accAt V c ((⟨k + 1, hn⟩ : Fin cfg0.N).val - 1) (Nat.lt_of_le_of_lt (Nat.sub_le _ _) (⟨k + 1, hn⟩ : Fin cfg0.N).isLt)) i
          = z + ∑ s ∈ Finset.range (k % 8 + 1), M (k - k % 8 + s) i := ih (Nat.lt_of_succ_lt hn) i
      rw [e]
      have h1 : (k + 1) % 8 = k % 8 + 1 := by omega
      have h2 : k + 1 - (k % 8 + 1) = k - k % 8 := by omega
      have h3 : k - k % 8 + (k % 8 + 1) = k + 1 := by have := Nat.mod_le k 8; omega
      show z + ∑ s ∈ Finset.range (k % 8 + 1), M (k - k % 8 + s) i + M (k + 1) i = _
      rw [h1, h2, Finset.sum_range_succ _ (k % 8 + 1), h3, add_assoc]

/-- The focal sum. -/
theorem foc_at (c : Dev nD) (n : ℕ) (hn : n < cfg0.N) (r : Fin 32) (q : Fin 4) :
    (accAt V c n hn).foc (ix2 r q) = z + ∑ s ∈ Finset.range (n % 8 + 1), tile V focK c (n - n % 8 + s) r q :=
  acc_closed V c (fun s (i : Fin 32 × Fin 4) => s.foc (ix2 i.1 i.2)) (fun n i => tile V focK c n i.1 i.2)
    (fun i => pay6_apply (ix2 i.1 i.2))
    (fun t s i => (pay13_apply (iblk V c 0 t) (iblk V c 1 t) s.foc i.1 i.2).trans
      (congrArg (s.foc (ix2 i.1 i.2) + ·) (tile_of_lt V focK c t i.1 i.2).symm)) n hn (r, q)

/-- The probability sum. -/
theorem prb_at (c : Dev nD) (n : ℕ) (hn : n < cfg0.N) (r : Fin 32) (q : Fin 4) :
    (accAt V c n hn).prb (ix2 r q) = z + ∑ s ∈ Finset.range (n % 8 + 1), tile V (fun x _ => probK x) c (n - n % 8 + s) r q :=
  acc_closed V c (fun s (i : Fin 32 × Fin 4) => s.prb (ix2 i.1 i.2)) (fun n i => tile V (fun x _ => probK x) c n i.1 i.2)
    (fun i => pay7_apply (ix2 i.1 i.2))
    (fun t s i => (pay17_apply (iblk V c 0 t) s.prb i.1 i.2).trans
      (congrArg (s.prb (ix2 i.1 i.2) + ·) (tile_of_lt V (fun x _ => probK x) c t i.1 i.2).symm)) n hn (r, q)

/-- The probability-times-target sum. -/
theorem int_at (c : Dev nD) (n : ℕ) (hn : n < cfg0.N) (r : Fin 32) (q : Fin 4) :
    (accAt V c n hn).int (ix2 r q) = z + ∑ s ∈ Finset.range (n % 8 + 1), tile V (fun x t => probK x * t) c (n - n % 8 + s) r q :=
  acc_closed V c (fun s (i : Fin 32 × Fin 4) => s.int (ix2 i.1 i.2)) (fun n i => tile V (fun x t => probK x * t) c n i.1 i.2)
    (fun i => pay8_apply (ix2 i.1 i.2))
    (fun t s i => (pay16_apply (iblk V c 0 t) (iblk V c 1 t) s.int i.1 i.2).trans
      (congrArg (s.int (ix2 i.1 i.2) + ·) (tile_of_lt V (fun x t => probK x * t) c t i.1 i.2).symm)) n hn (r, q)

/-- The mask sum. -/
theorem msk_at (c : Dev nD) (n : ℕ) (hn : n < cfg0.N) (r : Fin 32) (q : Fin 4) :
    (accAt V c n hn).msk (ix2 r q) = z + ∑ s ∈ Finset.range (n % 8 + 1), tile V (fun x _ => mskK x) c (n - n % 8 + s) r q :=
  acc_closed V c (fun s (i : Fin 32 × Fin 4) => s.msk (ix2 i.1 i.2)) (fun n i => tile V (fun x _ => mskK x) c n i.1 i.2)
    (fun i => pay9_apply (ix2 i.1 i.2))
    (fun t s i => (pay1_apply (iblk V c 0 t) s.msk i.1 i.2).trans
      (congrArg (s.msk (ix2 i.1 i.2) + ·) (tile_of_lt V (fun x _ => mskK x) c t i.1 i.2).symm)) n hn (r, q)

/-- The mask-times-target sum. -/
theorem mi_at (c : Dev nD) (n : ℕ) (hn : n < cfg0.N) (r : Fin 32) (q : Fin 4) :
    (accAt V c n hn).mi (ix2 r q) = z + ∑ s ∈ Finset.range (n % 8 + 1), tile V (fun x t => mskK x * t) c (n - n % 8 + s) r q :=
  acc_closed V c (fun s (i : Fin 32 × Fin 4) => s.mi (ix2 i.1 i.2)) (fun n i => tile V (fun x t => mskK x * t) c n i.1 i.2)
    (fun i => pay10_apply (ix2 i.1 i.2))
    (fun t s i => (pay19_apply (iblk V c 0 t) (iblk V c 1 t) s.mi i.1 i.2).trans
      (congrArg (s.mi (ix2 i.1 i.2) + ·) (tile_of_lt V (fun x t => mskK x * t) c t i.1 i.2).symm)) n hn (r, q)

/-- The target sum. -/
theorem tg_at (c : Dev nD) (n : ℕ) (hn : n < cfg0.N) (r : Fin 32) :
    (accAt V c n hn).tg (ix2 r (0 : Fin 1)) = z + ∑ s ∈ Finset.range (n % 8 + 1), tile V (fun _ t => t) c (n - n % 8 + s) r 0 :=
  acc_closed V c (fun s (i : Fin 32) => s.tg (ix2 i (0 : Fin 1))) (fun n i => tile V (fun _ t => t) c n i 0)
    (fun i => pay11_apply (ix2 i (0 : Fin 1)))
    (fun t s i => (pay2_apply (iblk V c 1 t) s.tg i).trans
      (congrArg (s.tg (ix2 i (0 : Fin 1)) + ·) (tile_of_lt V (fun _ t => t) c t i 0).symm)) n hn r

end Cert.KernelIdeal.AccV

end
-- ==== Proof.Spec.lean ====
/-
  What the four arrays the two programs aggregate hold, index by index, as functions of the three argument arrays
  X : [128, 4, 256, 256] (logits), P : [128, 4] (predicted IoU), T : [128, 1, 256, 256] (targets).

  For sample p and mask q, over the 65536 pixels (y, w) of the image:
    F = ∑ focal(X[p,q,y,w], T[p,0,y,w]),  S = ∑ prob(X),  I = ∑ prob(X)·T,  M = ∑ mask(X),  J = ∑ mask(X)·T,  N = ∑ T;
    focal mean = F / 65536;  dice = 1 − (2·I + ε)/((S + N) + ε);  IoU error = (P[p,q] − (J + ε)/(((M + N) − J) + ε))².
  One program sums the image in 8 bands of 32 rows (a triple sum over band, row in band, column); the other over the
  flattened pixel index k = 256·y + w, starting from the literal zero. `K`-suffixed definitions are the first spelling,
  `R`-suffixed the second.
-/
import Idealize.ShloMosaic.Lib.ValueIdx
import proofs.«180374_j28707561407033_2_alg».proof.Proof.Elem

noncomputable section

namespace Cert.Spec

open Idealize.ShloMosaic Idealize.ShloMosaic.ValueIdx Cert.Elem

abbrev SX : Shape := ⟨4, ![128, 4, 256, 256]⟩
abbrev ST : Shape := ⟨4, ![128, 1, 256, 256]⟩
abbrev SP : Shape := ⟨2, ![128, 4]⟩

variable (X : SX.Idx → EReal) (P : SP.Idx → EReal) (T : ST.Idx → EReal)

/-- Image row 32·h + r of band h. -/
def bandRow (h : Fin 8) (r : Fin 32) : Fin 256 := ⟨32 * h.val + r.val, by omega⟩
/-- Image row and column of the flattened pixel k. -/
def rowOf (k : Fin 65536) : Fin 256 := ⟨k.val / 256, by omega⟩
def colOf (k : Fin 65536) : Fin 256 := ⟨k.val % 256, by omega⟩

/-- A sum over the image of a term of the logit and the target at a pixel, band by band. -/
def sumK (f : EReal → EReal → EReal) (p : Fin 128) (q : Fin 4) : EReal :=
  ∑ h : Fin 8, ∑ r : Fin 32, ∑ w : Fin 256, f (X (ix4 p q (bandRow h r) w)) (T (ix4 p (0 : Fin 1) (bandRow h r) w))
/-- The same over the flattened pixel index, from the literal zero. -/
def sumR (f : EReal → EReal → EReal) (p : Fin 128) (q : Fin 4) : EReal :=
  z + ∑ k : Fin 65536, f (X (ix4 p q (rowOf k) (colOf k))) (T (ix4 p (0 : Fin 1) (rowOf k) (colOf k)))

/-- The target count of sample p. -/
def tsumK (p : Fin 128) : EReal := ∑ h : Fin 8, ∑ r : Fin 32, ∑ w : Fin 256, T (ix4 p (0 : Fin 1) (bandRow h r) w)
def tsumR (p : Fin 128) : EReal := z + ∑ k : Fin 65536, T (ix4 p (0 : Fin 1) (rowOf k) (colOf k))

def focalK (p : Fin 128) (q : Fin 4) : EReal := Ideal.div (sumK X T focK p q) wN
def focalR (p : Fin 128) (q : Fin 4) : EReal := Ideal.div (sumR X T focR p q) wN

def diceK (p : Fin 128) (q : Fin 4) : EReal :=
  one - Ideal.div (two * sumK X T (fun x t => probK x * t) p q + wS) ((sumK X T (fun x _ => probK x) p q + tsumK T p) + wS)
def diceR (p : Fin 128) (q : Fin 4) : EReal :=
  one - Ideal.div (two * sumR X T (fun x t => probR x * t) p q + wS) ((sumR X T (fun x _ => probR x) p q + tsumR T p) + wS)

def iouGtK (p : Fin 128) (q : Fin 4) : EReal :=
  Ideal.div (sumK X T (fun x t => mskK x * t) p q + wS)
    (((sumK X T (fun x _ => mskK x) p q + tsumK T p) - sumK X T (fun x t => mskK x * t) p q) + wS)
def iouGtR (p : Fin 128) (q : Fin 4) : EReal :=
  Ideal.div (sumR X T (fun x t => mskR x * t) p q + wS)
    (((sumR X T (fun x _ => mskR x) p q + tsumR T p) - sumR X T (fun x t => mskR x * t) p q) + wS)

def iouK (p : Fin 128) (q : Fin 4) : EReal := (P (ix2 p q) - iouGtK X T p q) * (P (ix2 p q) - iouGtK X T p q)
def iouR (p : Fin 128) (q : Fin 4) : EReal := (P (ix2 p q) - iouGtR X T p q) * (P (ix2 p q) - iouGtR X T p q)

end Cert.Spec

end
-- ==== Proof.KIValue.lean ====
/-
  The four output arrays of the kernel region in closed form, at the ideal instance: the block a finishing point
  8·b + 7 writes back is the closing arithmetic of the row's finished sums, each finished sum is the sum over the
  row's eight tiles, and a tile's rows and columns are the bands of the image; the blocks of the four finishing
  points tile each array.
-/
import proofs.«180374_j28707561407033_2_alg».proof.Proof.KIAcc
import proofs.«180374_j28707561407033_2_alg».proof.Proof.KITail
import proofs.«180374_j28707561407033_2_alg».proof.Proof.Spec

set_option maxRecDepth 16384

noncomputable section

namespace Cert.KernelIdeal.Val

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Body Cert.KernelIdeal.AccV Cert.KernelIdeal.Pay
open Cert.Elem Cert.Spec

/-- The count array read as a vector: entry p of the reshape is entry (p, 0). -/
theorem ts_apply {F : FTy → Type} [FloatOps F] (o : (⟨S128x1, .f32⟩ : BufTy).Contents (Elt F)) (p : Fin 128) :
    Cert.KernelIdeal.Tail.ts o (ix1 p) = o (ix2 p (0 : Fin 1)) := by
  unfold Cert.KernelIdeal.Tail.ts
  exact shapeCast_apply o shapeCasts_S128x1_S128 (ix1 p) (ix2 p (0 : Fin 1))
    (by rw [Shape.rowMajor_val_one, Shape.rowMajor_val_two]; show p.val * 1 + 0 = p.val; omega)

/-! ## Where the blocks sit -/

/-- The printed index maps, decided over the grid: at point t = 8·b + h the two image windows sit at block (b, 0, h, 0),
    the five row windows at block (b, 0). -/
theorem idx_facts : ∀ t : Fin cfg0.N,
    win0_0.index t (0 : Fin 4) = t.val / 8 ∧ win0_0.index t (1 : Fin 4) = 0 ∧ win0_0.index t (2 : Fin 4) = t.val % 8 ∧ win0_0.index t (3 : Fin 4) = 0
    ∧ win0_1.index t (0 : Fin 4) = t.val / 8 ∧ win0_1.index t (1 : Fin 4) = 0 ∧ win0_1.index t (2 : Fin 4) = t.val % 8 ∧ win0_1.index t (3 : Fin 4) = 0
    ∧ win0_2.index t (0 : Fin 2) = t.val / 8 ∧ win0_2.index t (1 : Fin 2) = 0
    ∧ win0_3.index t (0 : Fin 2) = t.val / 8 ∧ win0_3.index t (1 : Fin 2) = 0
    ∧ win0_4.index t (0 : Fin 2) = t.val / 8 ∧ win0_4.index t (1 : Fin 2) = 0
    ∧ win0_5.index t (0 : Fin 2) = t.val / 8 ∧ win0_5.index t (1 : Fin 2) = 0
    ∧ win0_6.index t (0 : Fin 2) = t.val / 8 ∧ win0_6.index t (1 : Fin 2) = 0 :=
  (by decide +kernel : ∀ t : Fin grid0.N, _)

section Blocks

variable (V : (c : Dev nD) → (b : Ref sig .tc) → Buf (Elt Ideal) ((c : Thread nD τ).loc b))

/-- An element of the logits' block at point t, in the array. -/
theorem iblk0_at (c : Dev nD) (t : Fin cfg0.N) (r : Fin 32) (q : Fin 4) (y : Fin 32) (w : Fin 256) (p : Fin 128) (yy : Fin 256)
    (hp : p.val = 32 * (t.val / 8) + r.val) (hy : yy.val = 32 * (t.val % 8) + y.val) :
    iblk V c 0 t (ix4 r q y w) = V c main_arg0 (ix4 p q yy w) := by
  obtain ⟨e0, e1, e2, e3, -⟩ := idx_facts t
  have h : ((cfg0.win 0).blk t).view.emb (ix4 r q y w) = ix4 p q yy w := by
    funext a; apply Fin.ext
    match a with
    | ⟨0, _⟩ => show win0_0.index t (0 : Fin 4) * 32 + 1 * r.val = p.val; omega
    | ⟨1, _⟩ => show win0_0.index t (1 : Fin 4) * 4 + 1 * q.val = q.val; omega
    | ⟨2, _⟩ => show win0_0.index t (2 : Fin 4) * 32 + 1 * y.val = yy.val; omega
    | ⟨3, _⟩ => show win0_0.index t (3 : Fin 4) * 256 + 1 * w.val = w.val; omega
  show V c main_arg0 (((cfg0.win 0).blk t).view.emb (ix4 r q y w)) = _
  rw [h]

/-- An element of the targets' block at point t, in the array. -/
theorem iblk1_at (c : Dev nD) (t : Fin cfg0.N) (r : Fin 32) (y : Fin 32) (w : Fin 256) (p : Fin 128) (yy : Fin 256)
    (hp : p.val = 32 * (t.val / 8) + r.val) (hy : yy.val = 32 * (t.val % 8) + y.val) :
    iblk V c 1 t (ix4 r (0 : Fin 1) y w) = V c main_arg2 (ix4 p (0 : Fin 1) yy w) := by
  obtain ⟨-, -, -, -, e0, e1, e2, e3, -⟩ := idx_facts t
  have h : ((cfg0.win 1).blk t).view.emb (ix4 r (0 : Fin 1) y w) = ix4 p (0 : Fin 1) yy w := by
    funext a; apply Fin.ext
    match a with
    | ⟨0, _⟩ => show win0_1.index t (0 : Fin 4) * 32 + 1 * r.val = p.val; omega
    | ⟨1, _⟩ => show win0_1.index t (1 : Fin 4) * 1 + 1 * 0 = 0; omega
    | ⟨2, _⟩ => show win0_1.index t (2 : Fin 4) * 32 + 1 * y.val = yy.val; omega
    | ⟨3, _⟩ => show win0_1.index t (3 : Fin 4) * 256 + 1 * w.val = w.val; omega
  show V c main_arg2 (((cfg0.win 1).blk t).view.emb (ix4 r (0 : Fin 1) y w)) = _
  rw [h]

/-- An element of the predictions' block at point t, in the array. -/
theorem iblk2_at (c : Dev nD) (t : Fin cfg0.N) (r : Fin 32) (q : Fin 4) (p : Fin 128)
    (hp : p.val = 32 * (t.val / 8) + r.val) :
    iblk V c 2 t (ix2 r q) = V c main_arg1 (ix2 p q) := by
  obtain ⟨-, -, -, -, -, -, -, -, e0, e1, -⟩ := idx_facts t
  have h : ((cfg0.win 2).blk t).view.emb (ix2 r q) = ix2 p q := by
    funext a; apply Fin.ext
    match a with
    | ⟨0, _⟩ => show win0_2.index t (0 : Fin 2) * 32 + 1 * r.val = p.val; omega
    | ⟨1, _⟩ => show win0_2.index t (1 : Fin 2) * 4 + 1 * q.val = q.val; omega
  show V c main_arg1 (((cfg0.win 2).blk t).view.emb (ix2 r q)) = _
  rw [h]

/-- THE FINISHED SUM: at a finishing point the zero word plus the row's eight tiles is the sum over the whole image,
    band by band, of the term at the sample the block's row r is. -/
theorem sum_tiles (f : EReal → EReal → EReal) (c : Dev nD) (t : Fin cfg0.N) (h7 : t.val % 8 = 7) (r : Fin 32) (q : Fin 4)
    (p : Fin 128) (hp : p.val = 32 * (t.val / 8) + r.val) :
    z + ∑ s ∈ Finset.range (t.val % 8 + 1), tile V f c (t.val - t.val % 8 + s) r q
      = sumK (V c main_arg0) (V c main_arg2) f p q := by
  rw [h7, z_eq, zero_add, show (7 + 1 : ℕ) = 8 from rfl, Finset.sum_range]
  unfold sumK
  refine Finset.sum_congr rfl fun h _ => ?_
  have hlt : t.val - 7 + h.val < cfg0.N := by have := t.isLt; have := h.isLt; omega
  unfold tile
  rw [dif_pos hlt]
  refine Finset.sum_congr rfl fun y _ => Finset.sum_congr rfl fun w _ => ?_
  rw [iblk0_at V c ⟨t.val - 7 + h.val, hlt⟩ r q y w p (bandRow h y)
        (by show p.val = 32 * ((t.val - 7 + h.val) / 8) + r.val; have := h.isLt; omega)
        (by show 32 * h.val + y.val = 32 * ((t.val - 7 + h.val) % 8) + y.val; have := h.isLt; omega),
      iblk1_at V c ⟨t.val - 7 + h.val, hlt⟩ r y w p (bandRow h y)
        (by show p.val = 32 * ((t.val - 7 + h.val) / 8) + r.val; have := h.isLt; omega)
        (by show 32 * h.val + y.val = 32 * ((t.val - 7 + h.val) % 8) + y.val; have := h.isLt; omega)]

end Blocks

/-! ## The four arrays -/

section Arrays

variable (m : (ℓ : Loc nD τ sig) → Buf (Elt Ideal) ℓ)

/-- An index of a [128, 4] output array is in point t's block iff its row is among the block's 32. -/
theorem mem_blk3 (t : Fin cfg0.N) (i : S128x4.Idx) :
    i ∈ ((cfg0.win 3).blk t).view.set ↔ ∀ a : Fin 2, win0_3.index t a * S32x4.size a ≤ (i a).val ∧ (i a).val < win0_3.index t a * S32x4.size a + S32x4.size a := by
  show i ∈ ((View.whole main_v0_0).slice (win0_3.rect t)).set ↔ _
  rw [View.set_slice_whole, Rect.mem_set_unit]
  exact Iff.rfl
theorem mem_blk4 (t : Fin cfg0.N) (i : S128x4.Idx) :
    i ∈ ((cfg0.win 4).blk t).view.set ↔ ∀ a : Fin 2, win0_4.index t a * S32x4.size a ≤ (i a).val ∧ (i a).val < win0_4.index t a * S32x4.size a + S32x4.size a := by
  show i ∈ ((View.whole main_v0_1).slice (win0_4.rect t)).set ↔ _
  rw [View.set_slice_whole, Rect.mem_set_unit]
  exact Iff.rfl
theorem mem_blk5 (t : Fin cfg0.N) (i : S128x4.Idx) :
    i ∈ ((cfg0.win 5).blk t).view.set ↔ ∀ a : Fin 2, win0_5.index t a * S32x4.size a ≤ (i a).val ∧ (i a).val < win0_5.index t a * S32x4.size a + S32x4.size a := by
  show i ∈ ((View.whole main_v0_2).slice (win0_5.rect t)).set ↔ _
  rw [View.set_slice_whole, Rect.mem_set_unit]
  exact Iff.rfl
theorem mem_blk6 (t : Fin cfg0.N) (i : S128x1.Idx) :
    i ∈ ((cfg0.win 6).blk t).view.set ↔ ∀ a : Fin 2, win0_6.index t a * S32x1.size a ≤ (i a).val ∧ (i a).val < win0_6.index t a * S32x1.size a + S32x1.size a := by
  show i ∈ ((View.whole main_v0_3).slice (win0_6.rect t)).set ↔ _
  rw [View.set_slice_whole, Rect.mem_set_unit]
  exact Iff.rfl

/-- The finishing point of the row of eight that holds sample p. -/
def finPt (p : Fin 128) : Fin cfg0.N := ⟨8 * (p.val / 32) + 7, by have hN : cfg0.N = 32 := N_0; have := p.isLt; omega⟩

theorem finPt_mod (p : Fin 128) : (finPt p).val % 8 = 7 := by show (8 * (p.val / 32) + 7) % 8 = 7; omega

/-- The sample a block row is, as an index of the batch. -/
def rowOfBlk (t : Fin cfg0.N) (r : Fin 32) : Fin 128 := ⟨32 * (t.val / 8) + r.val, by have hN : cfg0.N = 32 := N_0; have := t.isLt; omega⟩

/-- WHAT A FINISHING POINT WRITES BACK into the focal array is its block of the focal means. -/
theorem flushed3 (c : Dev nD) (t : Fin cfg0.N) (hf : (cfg0.win 3).flush t = true) :
    (Body.dats (Tail.V m) 0 c).flushed 3 t
      = ((cfg0.win 3).blk t).view.read (Elt Ideal)
          (fun i : S128x4.Idx => focalK (m ((c : Thread nD τ).loc main_arg0)) (m ((c : Thread nD τ).loc main_arg2)) (i 0) (i 1)) := by
  have h7 : t.val % 8 = 7 := (flush0_3 t).mp hf
  obtain ⟨-, -, -, -, -, -, -, -, -, -, e0, e1, -⟩ := idx_facts t
  show (cfg0.win 3).cut (grid0.coords t) ((Body.dats (Tail.V m) 0 c).after 3 t) = _
  rw [after_out3]
  funext j
  obtain ⟨r, q, rfl⟩ : ∃ (r : Fin 32) (q : Fin 4), j = ix2 r q := ⟨j 0, j 1, eq_ix2 j⟩
  have hemb : ((cfg0.win 3).blk t).view.emb (ix2 r q) = ix2 (rowOfBlk t r) q := by
    funext a; apply Fin.ext
    match a with
    | ⟨0, _⟩ => show win0_3.index t (0 : Fin 2) * 32 + 1 * r.val = 32 * (t.val / 8) + r.val; omega
    | ⟨1, _⟩ => show win0_3.index t (1 : Fin 2) * 4 + 1 * q.val = q.val; omega
  show k0_pay3 (accAt (Tail.V m) c t.val t.isLt).foc (ix2 r q)
    = focalK (m ((c : Thread nD τ).loc main_arg0)) (m ((c : Thread nD τ).loc main_arg2))
        ((((cfg0.win 3).blk t).view.emb (ix2 r q)) 0) ((((cfg0.win 3).blk t).view.emb (ix2 r q)) 1)
  rw [hemb, pay3_apply, foc_at, sum_tiles (Tail.V m) focK c t h7 r q (rowOfBlk t r) rfl, Tail.V_arg0, Tail.V_arg2]
  rfl

/-- … into the dice array, its block of the dice terms. -/
theorem flushed4 (c : Dev nD) (t : Fin cfg0.N) (hf : (cfg0.win 4).flush t = true) :
    (Body.dats (Tail.V m) 0 c).flushed 4 t
      = ((cfg0.win 4).blk t).view.read (Elt Ideal)
          (fun i : S128x4.Idx => diceK (m ((c : Thread nD τ).loc main_arg0)) (m ((c : Thread nD τ).loc main_arg2)) (i 0) (i 1)) := by
  have h7 : t.val % 8 = 7 := (flush0_4 t).mp hf
  obtain ⟨-, -, -, -, -, -, -, -, -, -, -, -, e0, e1, -⟩ := idx_facts t
  show (cfg0.win 4).cut (grid0.coords t) ((Body.dats (Tail.V m) 0 c).after 4 t) = _
  rw [after_out4]
  funext j
  obtain ⟨r, q, rfl⟩ : ∃ (r : Fin 32) (q : Fin 4), j = ix2 r q := ⟨j 0, j 1, eq_ix2 j⟩
  have hemb : ((cfg0.win 4).blk t).view.emb (ix2 r q) = ix2 (rowOfBlk t r) q := by
    funext a; apply Fin.ext
    match a with
    | ⟨0, _⟩ => show win0_4.index t (0 : Fin 2) * 32 + 1 * r.val = 32 * (t.val / 8) + r.val; omega
    | ⟨1, _⟩ => show win0_4.index t (1 : Fin 2) * 4 + 1 * q.val = q.val; omega
  show k0_pay4 (accAt (Tail.V m) c t.val t.isLt).tg (accAt (Tail.V m) c t.val t.isLt).int (accAt (Tail.V m) c t.val t.isLt).prb (ix2 r q)
    = diceK (m ((c : Thread nD τ).loc main_arg0)) (m ((c : Thread nD τ).loc main_arg2))
        ((((cfg0.win 4).blk t).view.emb (ix2 r q)) 0) ((((cfg0.win 4).blk t).view.emb (ix2 r q)) 1)
  rw [hemb, pay4_apply, int_at, prb_at, tg_at,
    sum_tiles (Tail.V m) (fun x t => probK x * t) c t h7 r q (rowOfBlk t r) rfl,
    sum_tiles (Tail.V m) (fun x _ => probK x) c t h7 r q (rowOfBlk t r) rfl,
    sum_tiles (Tail.V m) (fun _ t => t) c t h7 r 0 (rowOfBlk t r) rfl, Tail.V_arg0, Tail.V_arg2]
  rfl

/-- … into the IoU array, its block of the squared IoU errors. -/
theorem flushed5 (c : Dev nD) (t : Fin cfg0.N) (hf : (cfg0.win 5).flush t = true) :
    (Body.dats (Tail.V m) 0 c).flushed 5 t
      = ((cfg0.win 5).blk t).view.read (Elt Ideal)
          (fun i : S128x4.Idx => iouK (m ((c : Thread nD τ).loc main_arg0)) (m ((c : Thread nD τ).loc main_arg1)) (m ((c : Thread nD τ).loc main_arg2)) (i 0) (i 1)) := by
  have h7 : t.val % 8 = 7 := (flush0_5 t).mp hf
  obtain ⟨-, -, -, -, -, -, -, -, -, -, -, -, -, -, e0, e1, -⟩ := idx_facts t
  show (cfg0.win 5).cut (grid0.coords t) ((Body.dats (Tail.V m) 0 c).after 5 t) = _
  rw [after_out5]
  funext j
  obtain ⟨r, q, rfl⟩ : ∃ (r : Fin 32) (q : Fin 4), j = ix2 r q := ⟨j 0, j 1, eq_ix2 j⟩
  have hemb : ((cfg0.win 5).blk t).view.emb (ix2 r q) = ix2 (rowOfBlk t r) q := by
    funext a; apply Fin.ext
    match a with
    | ⟨0, _⟩ => show win0_5.index t (0 : Fin 2) * 32 + 1 * r.val = 32 * (t.val / 8) + r.val; omega
    | ⟨1, _⟩ => show win0_5.index t (1 : Fin 2) * 4 + 1 * q.val = q.val; omega
  show k0_pay5 (accAt (Tail.V m) c t.val t.isLt).tg (accAt (Tail.V m) c t.val t.isLt).mi (accAt (Tail.V m) c t.val t.isLt).msk (accAt (Tail.V m) c t.val t.isLt).mi (iblk (Tail.V m) c 2 t) (ix2 r q)
    = iouK (m ((c : Thread nD τ).loc main_arg0)) (m ((c : Thread nD τ).loc main_arg1)) (m ((c : Thread nD τ).loc main_arg2))
        ((((cfg0.win 5).blk t).view.emb (ix2 r q)) 0) ((((cfg0.win 5).blk t).view.emb (ix2 r q)) 1)
  rw [hemb, pay5_apply, mi_at, msk_at, tg_at, iblk2_at (Tail.V m) c t r q (rowOfBlk t r) rfl,
    sum_tiles (Tail.V m) (fun x t => mskK x * t) c t h7 r q (rowOfBlk t r) rfl,
    sum_tiles (Tail.V m) (fun x _ => mskK x) c t h7 r q (rowOfBlk t r) rfl,
    sum_tiles (Tail.V m) (fun _ t => t) c t h7 r 0 (rowOfBlk t r) rfl, Tail.V_arg0, Tail.V_arg1, Tail.V_arg2]
  rfl

/-- … into the count array, its block of the target counts. -/
theorem flushed6 (c : Dev nD) (t : Fin cfg0.N) (hf : (cfg0.win 6).flush t = true) :
    (Body.dats (Tail.V m) 0 c).flushed 6 t
      = ((cfg0.win 6).blk t).view.read (Elt Ideal)
          (fun i : S128x1.Idx => tsumK (m ((c : Thread nD τ).loc main_arg2)) (i 0)) := by
  have h7 : t.val % 8 = 7 := (flush0_6 t).mp hf
  obtain ⟨-, -, -, -, -, -, -, -, -, -, -, -, -, -, -, -, e0, e1⟩ := idx_facts t
  show (cfg0.win 6).cut (grid0.coords t) ((Body.dats (Tail.V m) 0 c).after 6 t) = _
  rw [after_out6]
  funext j
  obtain ⟨r, q, rfl⟩ : ∃ (r : Fin 32) (q : Fin 1), j = ix2 r q := ⟨j 0, j 1, eq_ix2 j⟩
  obtain rfl : q = 0 := Subsingleton.elim _ _
  have hemb : ((cfg0.win 6).blk t).view.emb (ix2 r (0 : Fin 1)) = ix2 (rowOfBlk t r) (0 : Fin 1) := by
    funext a; apply Fin.ext
    match a with
    | ⟨0, _⟩ => show win0_6.index t (0 : Fin 2) * 32 + 1 * r.val = 32 * (t.val / 8) + r.val; omega
    | ⟨1, _⟩ => show win0_6.index t (1 : Fin 2) * 1 + 1 * 0 = 0; omega
  show (accAt (Tail.V m) c t.val t.isLt).tg (ix2 r (0 : Fin 1))
    = tsumK (m ((c : Thread nD τ).loc main_arg2)) ((((cfg0.win 6).blk t).view.emb (ix2 r (0 : Fin 1))) 0)
  rw [hemb, tg_at, sum_tiles (Tail.V m) (fun _ t => t) c t h7 r 0 (rowOfBlk t r) rfl, Tail.V_arg2]
  rfl

/-- THE FOCAL ARRAY after the region: entry (p, q) is the focal mean of sample p and mask q. -/
theorem arr3 (c : Dev nD) (p : Fin 128) (q : Fin 4) :
    (Body.dats (Tail.V m) 0 c).arrAt 3 cfg0.N (ix2 p q)
      = focalK (m ((c : Thread nD τ).loc main_arg0)) (m ((c : Thread nD τ).loc main_arg2)) p q := by
  obtain ⟨-, -, -, -, -, -, -, -, -, -, e0, e1, -⟩ := idx_facts (finPt p)
  exact (Body.dats (Tail.V m) 0 c).arrAt_apply_of_mem 3
    (fun i : S128x4.Idx => focalK (m ((c : Thread nD τ).loc main_arg0)) (m ((c : Thread nD τ).loc main_arg2)) (i 0) (i 1))
    (fun t hf => flushed3 m c t hf) cfg0.N (finPt p) (ix2 p q) (finPt p).isLt ((flush0_3 (finPt p)).mpr (finPt_mod p))
    ((mem_blk3 (finPt p) (ix2 p q)).mpr fun a => by
      match a with
      | ⟨0, _⟩ => show win0_3.index (finPt p) (0 : Fin 2) * 32 ≤ p.val ∧ p.val < win0_3.index (finPt p) (0 : Fin 2) * 32 + 32
                  rw [e0]; show (8 * (p.val / 32) + 7) / 8 * 32 ≤ p.val ∧ p.val < (8 * (p.val / 32) + 7) / 8 * 32 + 32; omega
      | ⟨1, _⟩ => show win0_3.index (finPt p) (1 : Fin 2) * 4 ≤ q.val ∧ q.val < win0_3.index (finPt p) (1 : Fin 2) * 4 + 4
                  rw [e1]; have := q.isLt; omega)

/-- THE DICE ARRAY after the region. -/
theorem arr4 (c : Dev nD) (p : Fin 128) (q : Fin 4) :
    (Body.dats (Tail.V m) 0 c).arrAt 4 cfg0.N (ix2 p q)
      = diceK (m ((c : Thread nD τ).loc main_arg0)) (m ((c : Thread nD τ).loc main_arg2)) p q := by
  obtain ⟨-, -, -, -, -, -, -, -, -, -, -, -, e0, e1, -⟩ := idx_facts (finPt p)
  exact (Body.dats (Tail.V m) 0 c).arrAt_apply_of_mem 4
    (fun i : S128x4.Idx => diceK (m ((c : Thread nD τ).loc main_arg0)) (m ((c : Thread nD τ).loc main_arg2)) (i 0) (i 1))
    (fun t hf => flushed4 m c t hf) cfg0.N (finPt p) (ix2 p q) (finPt p).isLt ((flush0_4 (finPt p)).mpr (finPt_mod p))
    ((mem_blk4 (finPt p) (ix2 p q)).mpr fun a => by
      match a with
      | ⟨0, _⟩ => show win0_4.index (finPt p) (0 : Fin 2) * 32 ≤ p.val ∧ p.val < win0_4.index (finPt p) (0 : Fin 2) * 32 + 32
                  rw [e0]; show (8 * (p.val / 32) + 7) / 8 * 32 ≤ p.val ∧ p.val < (8 * (p.val / 32) + 7) / 8 * 32 + 32; omega
      | ⟨1, _⟩ => show win0_4.index (finPt p) (1 : Fin 2) * 4 ≤ q.val ∧ q.val < win0_4.index (finPt p) (1 : Fin 2) * 4 + 4
                  rw [e1]; have := q.isLt; omega)

/-- THE IoU ARRAY after the region. -/
theorem arr5 (c : Dev nD) (p : Fin 128) (q : Fin 4) :
    (Body.dats (Tail.V m) 0 c).arrAt 5 cfg0.N (ix2 p q)
      = iouK (m ((c : Thread nD τ).loc main_arg0)) (m ((c : Thread nD τ).loc main_arg1)) (m ((c : Thread nD τ).loc main_arg2)) p q := by
  obtain ⟨-, -, -, -, -, -, -, -, -, -, -, -, -, -, e0, e1, -⟩ := idx_facts (finPt p)
  exact (Body.dats (Tail.V m) 0 c).arrAt_apply_of_mem 5
    (fun i : S128x4.Idx => iouK (m ((c : Thread nD τ).loc main_arg0)) (m ((c : Thread nD τ).loc main_arg1)) (m ((c : Thread nD τ).loc main_arg2)) (i 0) (i 1))
    (fun t hf => flushed5 m c t hf) cfg0.N (finPt p) (ix2 p q) (finPt p).isLt ((flush0_5 (finPt p)).mpr (finPt_mod p))
    ((mem_blk5 (finPt p) (ix2 p q)).mpr fun a => by
      match a with
      | ⟨0, _⟩ => show win0_5.index (finPt p) (0 : Fin 2) * 32 ≤ p.val ∧ p.val < win0_5.index (finPt p) (0 : Fin 2) * 32 + 32
                  rw [e0]; show (8 * (p.val / 32) + 7) / 8 * 32 ≤ p.val ∧ p.val < (8 * (p.val / 32) + 7) / 8 * 32 + 32; omega
      | ⟨1, _⟩ => show win0_5.index (finPt p) (1 : Fin 2) * 4 ≤ q.val ∧ q.val < win0_5.index (finPt p) (1 : Fin 2) * 4 + 4
                  rw [e1]; have := q.isLt; omega)

/-- THE COUNT ARRAY after the region: entry (p, 0) is the number of target pixels of sample p. -/
theorem arr6 (c : Dev nD) (p : Fin 128) :
    (Body.dats (Tail.V m) 0 c).arrAt 6 cfg0.N (ix2 p (0 : Fin 1))
      = tsumK (m ((c : Thread nD τ).loc main_arg2)) p := by
  obtain ⟨-, -, -, -, -, -, -, -, -, -, -, -, -, -, -, -, e0, e1⟩ := idx_facts (finPt p)
  exact (Body.dats (Tail.V m) 0 c).arrAt_apply_of_mem 6
    (fun i : S128x1.Idx => tsumK (m ((c : Thread nD τ).loc main_arg2)) (i 0))
    (fun t hf => flushed6 m c t hf) cfg0.N (finPt p) (ix2 p (0 : Fin 1)) (finPt p).isLt ((flush0_6 (finPt p)).mpr (finPt_mod p))
    ((mem_blk6 (finPt p) (ix2 p (0 : Fin 1))).mpr fun a => by
      match a with
      | ⟨0, _⟩ => show win0_6.index (finPt p) (0 : Fin 2) * 32 ≤ p.val ∧ p.val < win0_6.index (finPt p) (0 : Fin 2) * 32 + 32
                  rw [e0]; show (8 * (p.val / 32) + 7) / 8 * 32 ≤ p.val ∧ p.val < (8 * (p.val / 32) + 7) / 8 * 32 + 32; omega
      | ⟨1, _⟩ => show win0_6.index (finPt p) (1 : Fin 2) * 1 ≤ 0 ∧ 0 < win0_6.index (finPt p) (1 : Fin 2) * 1 + 1
                  rw [e1]; omega)

end Arrays

end Cert.KernelIdeal.Val

end
-- ==== Proof.RefRun.lean ====
/- The reference program's @main as a list of its host operations (the three outlined functions'
   operations standing at their call sites, over each call's own buffers), and its run: every weakly fair
   execution terminates and each buffer ends at the fold of the operations over the launch contents. -/
import proofs.«180374_j28707561407033_2_alg».proof.Defs
import proofs.«180374_j28707561407033_2_alg».proof.Proof.Gen.ReferenceIdeal
import proofs.«180374_j28707561407033_2_alg».proof.Proof.Gen.Pre_finite_inputs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold over a concatenation is the folds in turn. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- The operations of @main's statements 1 … 60, a called function's in its call's place. -/
abbrev ops0 : List (HloOp τ sig (Elt F)) :=
  [ StableHlo.nullary main_cst (fun i => FloatOps.ofBits .f32 (lit0 (S4.rowMajor i))),
    StableHlo.nullary main_cst_0 (fun i => FloatOps.ofBits .f32 (lit1 (S4.rowMajor i))),
    StableHlo.reshape main_arg0 main_v0 rfl shapeCasts_S128x4x256x256_S128x4x65536,
    StableHlo.reshape main_arg2 main_v1 rfl shapeCasts_S128x1x256x256_S128x65536,
    StableHlo.nullary main_cst_1 (constant S_ .f32 0x00000000#32),
    StableHlo.binary main_v1 main_cst_1 main_v2 ((fun x v => Host.reduceAdd x v reducesTo_S128x65536_S128_d1 h_S_) : (⟨S128x65536, .f32⟩ : BufTy).Contents (Elt F) → (⟨S_, .f32⟩ : BufTy).Contents (Elt F) → (⟨S128, .f32⟩ : BufTy).Contents (Elt F)),
    StableHlo.nullary main_cst_2 (constant S_ .f32 0x47800000#32),
    StableHlo.unary main_cst_2 main_v3 (broadcastInDim S128 ![] bcast_S_S128 : (⟨S_, .f32⟩ : BufTy).Contents (Elt F) → (⟨S128, .f32⟩ : BufTy).Contents (Elt F)),
    StableHlo.binary main_v2 main_v3 main_v4 (Host.divf : (⟨S128, .f32⟩ : BufTy).Contents (Elt F) → (⟨S128, .f32⟩ : BufTy).Contents (Elt F) → (⟨S128, .f32⟩ : BufTy).Contents (Elt F)),
    StableHlo.unary main_v4 main_v5 (broadcastInDim S128x1 ![0] bcast_S128_S128x1_0 : (⟨S128, .f32⟩ : BufTy).Contents (Elt F) → (⟨S128x1, .f32⟩ : BufTy).Contents (Elt F)),
    StableHlo.unary main_cst main_v6 (broadcastInDim S1x4 ![1] bcast_S4_S1x4_1 : (⟨S4, .f32⟩ : BufTy).Contents (Elt F) → (⟨S1x4, .f32⟩ : BufTy).Contents (Elt F)),
    StableHlo.unary main_v5 main_v7 (broadcastInDim S128x4 ![0, 1] bcast_S128x1_S128x4_0_1 : (⟨S128x1, .f32⟩ : BufTy).Contents (Elt F) → (⟨S128x4, .f32⟩ : BufTy).Contents (Elt F)),
    StableHlo.unary main_v6 main_v8 (broadcastInDim S128x4 ![0, 1] bcast_S1x4_S128x4_0_1 : (⟨S1x4, .f32⟩ : BufTy).Contents (Elt F) → (⟨S128x4, .f32⟩ : BufTy).Contents (Elt F)),
    StableHlo.binary main_v7 main_v8 main_v9 (cmpf .ogt : (⟨S128x4, .f32⟩ : BufTy).Contents (Elt F) → (⟨S128x4, .f32⟩ : BufTy).Contents (Elt F) → (⟨S128x4, .i1⟩ : BufTy).Contents (Elt F)),
    StableHlo.unary main_v4 main_v10 (broadcastInDim S128x1 ![0] bcast_S128_S128x1_0 : (⟨S128, .f32⟩ : BufTy).Contents (Elt F) → (⟨S128x1, .f32⟩ : BufTy).Contents (Elt F)),
    StableHlo.unary main_cst_0 main_v11 (broadcastInDim S1x4 ![1] bcast_S4_S1x4_1 : (⟨S4, .f32⟩ : BufTy).Contents (Elt F) → (⟨S1x4, .f32⟩ : BufTy).Contents (Elt F)),
    StableHlo.unary main_v10 main_v12 (broadcastInDim S128x4 ![0, 1] bcast_S128x1_S128x4_0_1 : (⟨S128x1, .f32⟩ : BufTy).Contents (Elt F) → (⟨S128x4, .f32⟩ : BufTy).Contents (Elt F)),
    StableHlo.unary main_v11 main_v13 (broadcastInDim S128x4 ![0, 1] bcast_S1x4_S128x4_0_1 : (⟨S1x4, .f32⟩ : BufTy).Contents (Elt F) → (⟨S128x4, .f32⟩ : BufTy).Contents (Elt F)),
    StableHlo.binary main_v12 main_v13 main_v14 (cmpf .olt : (⟨S128x4, .f32⟩ : BufTy).Contents (Elt F) → (⟨S128x4, .f32⟩ : BufTy).Contents (Elt F) → (⟨S128x4, .i1⟩ : BufTy).Contents (Elt F)),
    StableHlo.binary main_v9 main_v14 main_v15 (andi : (⟨S128x4, .i1⟩ : BufTy).Contents (Elt F) → (⟨S128x4, .i1⟩ : BufTy).Contents (Elt F) → (⟨S128x4, .i1⟩ : BufTy).Contents (Elt F)),
    StableHlo.unary main_v15 main_v16 (uitofp .f32 : (⟨S128x4, .i1⟩ : BufTy).Contents (Elt F) → (⟨S128x4, .f32⟩ : BufTy).Contents (Elt F)),
    StableHlo.unary main_v1 main_v17 (broadcastInDim S128x1x65536 ![0, 2] bcast_S128x65536_S128x1x65536_0_2 : (⟨S128x65536, .f32⟩ : BufTy).Contents (Elt F) → (⟨S128x1x65536, .f32⟩ : BufTy).Contents (Elt F)),
    StableHlo.nullary main_cst_3 (constant S_ .f32 0x00000000#32),
    StableHlo.unary main_cst_3 main_v18 (broadcastInDim S128x4x65536 ![] bcast_S_S128x4x65536 : (⟨S_, .f32⟩ : BufTy).Contents (Elt F) → (⟨S128x4x65536, .f32⟩ : BufTy).Contents (Elt F)),
    StableHlo.binary main_v0 main_v18 main_v19 (maximumf : (⟨S128x4x65536, .f32⟩ : BufTy).Contents (Elt F) → (⟨S128x4x65536, .f32⟩ : BufTy).Contents (Elt F) → (⟨S128x4x65536, .f32⟩ : BufTy).Contents (Elt F)),
    StableHlo.unary main_v17 main_v20 (broadcastInDim S128x4x65536 ![0, 1, 2] bcast_S128x1x65536_S128x4x65536_0_1_2 : (⟨S128x1x65536, .f32⟩ : BufTy).Contents (Elt F) → (⟨S128x4x65536, .f32⟩ : BufTy).Contents (Elt F)),
    StableHlo.binary main_v0 main_v20 main_v21 (mulf : (⟨S128x4x65536, .f32⟩ : BufTy).Contents (Elt F) → (⟨S128x4x65536, .f32⟩ : BufTy).Contents (Elt F) → (⟨S128x4x65536, .f32⟩ : BufTy).Contents (Elt F)),
    StableHlo.binary main_v19 main_v21 main_v22 (subf : (⟨S128x4x65536, .f32⟩ : BufTy).Contents (Elt F) → (⟨S128x4x65536, .f32⟩ : BufTy).Contents (Elt F) → (⟨S128x4x65536, .f32⟩ : BufTy).Contents (Elt F)),
    StableHlo.unary main_v0 main_v23 (Host.absf : (⟨S128x4x65536, .f32⟩ : BufTy).Contents (Elt F) → (⟨S128x4x65536, .f32⟩ : BufTy).Contents (Elt F)),
    StableHlo.unary main_v23 main_v24 (Host.negf : (⟨S128x4x65536, .f32⟩ : BufTy).Contents (Elt F) → (⟨S128x4x65536, .f32⟩ : BufTy).Contents (Elt F)),
    StableHlo.unary main_v24 main_v25 (Host.exp : (⟨S128x4x65536, .f32⟩ : BufTy).Contents (Elt F) → (⟨S128x4x65536, .f32⟩ : BufTy).Contents (Elt F)),
    StableHlo.unary main_v25 main_v26 (Host.log1p : (⟨S128x4x65536, .f32⟩ : BufTy).Contents (Elt F) → (⟨S128x4x65536, .f32⟩ : BufTy).Contents (Elt F)),
    StableHlo.binary main_v22 main_v26 main_v27 (addf : (⟨S128x4x65536, .f32⟩ : BufTy).Contents (Elt F) → (⟨S128x4x65536, .f32⟩ : BufTy).Contents (Elt F) → (⟨S128x4x65536, .f32⟩ : BufTy).Contents (Elt F)),
    StableHlo.unary main_v27 main_v28 (Host.negf : (⟨S128x4x65536, .f32⟩ : BufTy).Contents (Elt F) → (⟨S128x4x65536, .f32⟩ : BufTy).Contents (Elt F)),
    StableHlo.unary main_v28 main_v29 (Host.exp : (⟨S128x4x65536, .f32⟩ : BufTy).Contents (Elt F) → (⟨S128x4x65536, .f32⟩ : BufTy).Contents (Elt F)),
    StableHlo.nullary main_cst_4 (constant S_ .f32 0x3F800000#32),
    StableHlo.unary main_cst_4 main_v30 (broadcastInDim S128x4x65536 ![] bcast_S_S128x4x65536 : (⟨S_, .f32⟩ : BufTy).Contents (Elt F) → (⟨S128x4x65536, .f32⟩ : BufTy).Contents (Elt F)),
    StableHlo.binary main_v30 main_v29 main_v31 (subf : (⟨S128x4x65536, .f32⟩ : BufTy).Contents (Elt F) → (⟨S128x4x65536, .f32⟩ : BufTy).Contents (Elt F) → (⟨S128x4x65536, .f32⟩ : BufTy).Contents (Elt F)),
    StableHlo.nullary main_cst_5 (constant S_ .f32 0x40000000#32),
    StableHlo.unary main_cst_5 main_v32 (broadcastInDim S128x4x65536 ![] bcast_S_S128x4x65536 : (⟨S_, .f32⟩ : BufTy).Contents (Elt F) → (⟨S128x4x65536, .f32⟩ : BufTy).Contents (Elt F)),
    StableHlo.binary main_v31 main_v32 main_v33 (Host.powf : (⟨S128x4x65536, .f32⟩ : BufTy).Contents (Elt F) → (⟨S128x4x65536, .f32⟩ : BufTy).Contents (Elt F) → (⟨S128x4x65536, .f32⟩ : BufTy).Contents (Elt F)),
    StableHlo.nullary main_cst_6 (constant S_ .f32 0x3F4CCCCD#32),
    StableHlo.unary main_cst_6 main_v34 (broadcastInDim S128x4x65536 ![] bcast_S_S128x4x65536 : (⟨S_, .f32⟩ : BufTy).Contents (Elt F) → (⟨S128x4x65536, .f32⟩ : BufTy).Contents (Elt F)),
    StableHlo.binary main_v34 main_v33 main_v35 (mulf : (⟨S128x4x65536, .f32⟩ : BufTy).Contents (Elt F) → (⟨S128x4x65536, .f32⟩ : BufTy).Contents (Elt F) → (⟨S128x4x65536, .f32⟩ : BufTy).Contents (Elt F)),
    StableHlo.binary main_v35 main_v27 main_v36 (mulf : (⟨S128x4x65536, .f32⟩ : BufTy).Contents (Elt F) → (⟨S128x4x65536, .f32⟩ : BufTy).Contents (Elt F) → (⟨S128x4x65536, .f32⟩ : BufTy).Contents (Elt F)),
    StableHlo.nullary main_cst_7 (constant S_ .f32 0x00000000#32),
    StableHlo.binary main_v36 main_cst_7 main_v37 ((fun x v => Host.reduceAdd x v reducesTo_S128x4x65536_S128x4_d2 h_S_) : (⟨S128x4x65536, .f32⟩ : BufTy).Contents (Elt F) → (⟨S_, .f32⟩ : BufTy).Contents (Elt F) → (⟨S128x4, .f32⟩ : BufTy).Contents (Elt F)),
    StableHlo.nullary main_cst_8 (constant S_ .f32 0x47800000#32),
    StableHlo.unary main_cst_8 main_v38 (broadcastInDim S128x4 ![] bcast_S_S128x4 : (⟨S_, .f32⟩ : BufTy).Contents (Elt F) → (⟨S128x4, .f32⟩ : BufTy).Contents (Elt F)),
    StableHlo.binary main_v37 main_v38 main_v39 (Host.divf : (⟨S128x4, .f32⟩ : BufTy).Contents (Elt F) → (⟨S128x4, .f32⟩ : BufTy).Contents (Elt F) → (⟨S128x4, .f32⟩ : BufTy).Contents (Elt F)),
    StableHlo.nullary main_cst_9 (constant S_ .f32 0x00000000#32),
    StableHlo.binary main_v16 main_cst_9 main_v40 ((fun x v => Host.reduceAdd x v reducesTo_S128x4_S128_d1 h_S_) : (⟨S128x4, .f32⟩ : BufTy).Contents (Elt F) → (⟨S_, .f32⟩ : BufTy).Contents (Elt F) → (⟨S128, .f32⟩ : BufTy).Contents (Elt F)),
    StableHlo.binary main_v39 main_v16 main_v41 (mulf : (⟨S128x4, .f32⟩ : BufTy).Contents (Elt F) → (⟨S128x4, .f32⟩ : BufTy).Contents (Elt F) → (⟨S128x4, .f32⟩ : BufTy).Contents (Elt F)),
    StableHlo.nullary main_cst_10 (constant S_ .f32 0x00000000#32),
    StableHlo.binary main_v41 main_cst_10 main_v42 ((fun x v => Host.reduceAdd x v reducesTo_S128x4_S128_d1 h_S_) : (⟨S128x4, .f32⟩ : BufTy).Contents (Elt F) → (⟨S_, .f32⟩ : BufTy).Contents (Elt F) → (⟨S128, .f32⟩ : BufTy).Contents (Elt F)),
    StableHlo.nullary main_cst_11 (constant S_ .f32 0x3F800000#32),
    StableHlo.unary main_cst_11 main_v43 (broadcastInDim S128 ![] bcast_S_S128 : (⟨S_, .f32⟩ : BufTy).Contents (Elt F) → (⟨S128, .f32⟩ : BufTy).Contents (Elt F)),
    StableHlo.binary main_v40 main_v43 main_v44 (maximumf : (⟨S128, .f32⟩ : BufTy).Contents (Elt F) → (⟨S128, .f32⟩ : BufTy).Contents (Elt F) → (⟨S128, .f32⟩ : BufTy).Contents (Elt F)),
    StableHlo.binary main_v42 main_v44 main_v45 (Host.divf : (⟨S128, .f32⟩ : BufTy).Contents (Elt F) → (⟨S128, .f32⟩ : BufTy).Contents (Elt F) → (⟨S128, .f32⟩ : BufTy).Contents (Elt F)),
    StableHlo.nullary main_cst_12 (constant S_ .f32 0x00000000#32) ]

/-- The operations of @main's statements 61 … 120, a called function's in its call's place. -/
abbrev ops1 : List (HloOp τ sig (Elt F)) :=
  [ StableHlo.unary main_cst_12 main_v46 (broadcastInDim S128 ![] bcast_S_S128 : (⟨S_, .f32⟩ : BufTy).Contents (Elt F) → (⟨S128, .f32⟩ : BufTy).Contents (Elt F)),
    StableHlo.binary main_v40 main_v46 main_v47 (cmpf .ogt : (⟨S128, .f32⟩ : BufTy).Contents (Elt F) → (⟨S128, .f32⟩ : BufTy).Contents (Elt F) → (⟨S128, .i1⟩ : BufTy).Contents (Elt F)),
    StableHlo.nullary main_cst_13 (constant S_ .f32 0x00000000#32),
    TRef.unary (.of main_cst_13 : TRef sig ⟨S_, .f32⟩) main_call0.v0 id,
    TRef.unary main_call0.v0 main_call0.v1 (broadcastInDim S128 ![] bcast_S_S128),
    TRef.ternary (.of main_v47 : TRef sig ⟨S128, .i1⟩) (.of main_v45 : TRef sig ⟨S128, .f32⟩) main_call0.v1 main_call0.v2 select,
    StableHlo.nullary main_cst_14 (constant S_ .f32 0x00000000#32),
    StableHlo.unary main_cst_14 main_v49 (broadcastInDim S128 ![] bcast_S_S128 : (⟨S_, .f32⟩ : BufTy).Contents (Elt F) → (⟨S128, .f32⟩ : BufTy).Contents (Elt F)),
    StableHlo.binary main_v40 main_v49 main_v50 (cmpf .ogt : (⟨S128, .f32⟩ : BufTy).Contents (Elt F) → (⟨S128, .f32⟩ : BufTy).Contents (Elt F) → (⟨S128, .i1⟩ : BufTy).Contents (Elt F)),
    StableHlo.unary main_v50 main_v51 (uitofp .f32 : (⟨S128, .i1⟩ : BufTy).Contents (Elt F) → (⟨S128, .f32⟩ : BufTy).Contents (Elt F)),
    StableHlo.nullary main_cst_15 (constant S_ .f32 0x00000000#32),
    StableHlo.binary main_v51 main_cst_15 main_v52 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_16 (constant S_ .f32 0x00000000#32),
    StableHlo.binary main_v48 main_cst_16 main_v53 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_17 (constant S_ .f32 0x00000000#32),
    StableHlo.binary main_v52 main_cst_17 main_v54 (cmpf .ogt : (⟨S_, .f32⟩ : BufTy).Contents (Elt F) → (⟨S_, .f32⟩ : BufTy).Contents (Elt F) → (⟨S_, .i1⟩ : BufTy).Contents (Elt F)),
    StableHlo.nullary main_cst_18 (constant S_ .f32 0x3F800000#32),
    StableHlo.binary main_v52 main_cst_18 main_v55 (maximumf : (⟨S_, .f32⟩ : BufTy).Contents (Elt F) → (⟨S_, .f32⟩ : BufTy).Contents (Elt F) → (⟨S_, .f32⟩ : BufTy).Contents (Elt F)),
    StableHlo.binary main_v53 main_v55 main_v56 (Host.divf : (⟨S_, .f32⟩ : BufTy).Contents (Elt F) → (⟨S_, .f32⟩ : BufTy).Contents (Elt F) → (⟨S_, .f32⟩ : BufTy).Contents (Elt F)),
    TRef.ternary (.of main_v54 : TRef sig ⟨S_, .i1⟩) (.of main_v56 : TRef sig ⟨S_, .f32⟩) (.of main_v53 : TRef sig ⟨S_, .f32⟩) main_call1.v0 select,
    StableHlo.nullary main_cst_19 (constant S_ .f32 0x41A00000#32),
    StableHlo.binary main_cst_19 main_v57 main_v58 (mulf : (⟨S_, .f32⟩ : BufTy).Contents (Elt F) → (⟨S_, .f32⟩ : BufTy).Contents (Elt F) → (⟨S_, .f32⟩ : BufTy).Contents (Elt F)),
    StableHlo.unary main_v0 main_v59 (Host.negf : (⟨S128x4x65536, .f32⟩ : BufTy).Contents (Elt F) → (⟨S128x4x65536, .f32⟩ : BufTy).Contents (Elt F)),
    StableHlo.unary main_v59 main_v60 (Host.exp : (⟨S128x4x65536, .f32⟩ : BufTy).Contents (Elt F) → (⟨S128x4x65536, .f32⟩ : BufTy).Contents (Elt F)),
    StableHlo.nullary main_cst_20 (constant S_ .f32 0x3F800000#32),
    StableHlo.unary main_cst_20 main_v61 (broadcastInDim S128x4x65536 ![] bcast_S_S128x4x65536 : (⟨S_, .f32⟩ : BufTy).Contents (Elt F) → (⟨S128x4x65536, .f32⟩ : BufTy).Contents (Elt F)),
    StableHlo.binary main_v61 main_v60 main_v62 (addf : (⟨S128x4x65536, .f32⟩ : BufTy).Contents (Elt F) → (⟨S128x4x65536, .f32⟩ : BufTy).Contents (Elt F) → (⟨S128x4x65536, .f32⟩ : BufTy).Contents (Elt F)),
    StableHlo.nullary main_cst_21 (constant S_ .f32 0x3F800000#32),
    StableHlo.unary main_cst_21 main_v63 (broadcastInDim S128x4x65536 ![] bcast_S_S128x4x65536 : (⟨S_, .f32⟩ : BufTy).Contents (Elt F) → (⟨S128x4x65536, .f32⟩ : BufTy).Contents (Elt F)),
    StableHlo.binary main_v63 main_v62 main_v64 (Host.divf : (⟨S128x4x65536, .f32⟩ : BufTy).Contents (Elt F) → (⟨S128x4x65536, .f32⟩ : BufTy).Contents (Elt F) → (⟨S128x4x65536, .f32⟩ : BufTy).Contents (Elt F)),
    StableHlo.nullary main_cst_22 (constant S_ .f32 0x38D1B717#32),
    StableHlo.nullary main_cst_23 (constant S_ .f32 0x3F7FF972#32),
    TRef.unary (.of main_cst_22 : TRef sig ⟨S_, .f32⟩) main_call2.v0 id,
    TRef.unary main_call2.v0 main_call2.v1 (broadcastInDim S128x4x65536 ![] bcast_S_S128x4x65536),
    TRef.binary main_call2.v1 (.of main_v64 : TRef sig ⟨S128x4x65536, .f32⟩) main_call2.v2 maximumf,
    TRef.unary (.of main_cst_23 : TRef sig ⟨S_, .f32⟩) main_call2.v3 id,
    TRef.unary main_call2.v3 main_call2.v4 (broadcastInDim S128x4x65536 ![] bcast_S_S128x4x65536),
    TRef.binary main_call2.v4 main_call2.v2 main_call2.v5 minimumf,
    StableHlo.unary main_v17 main_v66 (broadcastInDim S128x4x65536 ![0, 1, 2] bcast_S128x1x65536_S128x4x65536_0_1_2 : (⟨S128x1x65536, .f32⟩ : BufTy).Contents (Elt F) → (⟨S128x4x65536, .f32⟩ : BufTy).Contents (Elt F)),
    StableHlo.binary main_v65 main_v66 main_v67 (mulf : (⟨S128x4x65536, .f32⟩ : BufTy).Contents (Elt F) → (⟨S128x4x65536, .f32⟩ : BufTy).Contents (Elt F) → (⟨S128x4x65536, .f32⟩ : BufTy).Contents (Elt F)),
    StableHlo.nullary main_cst_24 (constant S_ .f32 0x00000000#32),
    StableHlo.binary main_v67 main_cst_24 main_v68 ((fun x v => Host.reduceAdd x v reducesTo_S128x4x65536_S128x4_d2 h_S_) : (⟨S128x4x65536, .f32⟩ : BufTy).Contents (Elt F) → (⟨S_, .f32⟩ : BufTy).Contents (Elt F) → (⟨S128x4, .f32⟩ : BufTy).Contents (Elt F)),
    StableHlo.nullary main_cst_25 (constant S_ .f32 0x40000000#32),
    StableHlo.unary main_cst_25 main_v69 (broadcastInDim S128x4 ![] bcast_S_S128x4 : (⟨S_, .f32⟩ : BufTy).Contents (Elt F) → (⟨S128x4, .f32⟩ : BufTy).Contents (Elt F)),
    StableHlo.binary main_v69 main_v68 main_v70 (mulf : (⟨S128x4, .f32⟩ : BufTy).Contents (Elt F) → (⟨S128x4, .f32⟩ : BufTy).Contents (Elt F) → (⟨S128x4, .f32⟩ : BufTy).Contents (Elt F)),
    StableHlo.nullary main_cst_26 (constant S_ .f32 0x38D1B717#32),
    StableHlo.unary main_cst_26 main_v71 (broadcastInDim S128x4 ![] bcast_S_S128x4 : (⟨S_, .f32⟩ : BufTy).Contents (Elt F) → (⟨S128x4, .f32⟩ : BufTy).Contents (Elt F)),
    StableHlo.binary main_v70 main_v71 main_v72 (addf : (⟨S128x4, .f32⟩ : BufTy).Contents (Elt F) → (⟨S128x4, .f32⟩ : BufTy).Contents (Elt F) → (⟨S128x4, .f32⟩ : BufTy).Contents (Elt F)),
    StableHlo.nullary main_cst_27 (constant S_ .f32 0x00000000#32),
    StableHlo.binary main_v65 main_cst_27 main_v73 ((fun x v => Host.reduceAdd x v reducesTo_S128x4x65536_S128x4_d2 h_S_) : (⟨S128x4x65536, .f32⟩ : BufTy).Contents (Elt F) → (⟨S_, .f32⟩ : BufTy).Contents (Elt F) → (⟨S128x4, .f32⟩ : BufTy).Contents (Elt F)),
    StableHlo.nullary main_cst_28 (constant S_ .f32 0x00000000#32),
    StableHlo.binary main_v1 main_cst_28 main_v74 ((fun x v => Host.reduceAdd x v reducesTo_S128x65536_S128_d1 h_S_) : (⟨S128x65536, .f32⟩ : BufTy).Contents (Elt F) → (⟨S_, .f32⟩ : BufTy).Contents (Elt F) → (⟨S128, .f32⟩ : BufTy).Contents (Elt F)),
    StableHlo.unary main_v74 main_v75 (broadcastInDim S128x1 ![0] bcast_S128_S128x1_0 : (⟨S128, .f32⟩ : BufTy).Contents (Elt F) → (⟨S128x1, .f32⟩ : BufTy).Contents (Elt F)),
    StableHlo.unary main_v75 main_v76 (broadcastInDim S128x4 ![0, 1] bcast_S128x1_S128x4_0_1 : (⟨S128x1, .f32⟩ : BufTy).Contents (Elt F) → (⟨S128x4, .f32⟩ : BufTy).Contents (Elt F)),
    StableHlo.binary main_v73 main_v76 main_v77 (addf : (⟨S128x4, .f32⟩ : BufTy).Contents (Elt F) → (⟨S128x4, .f32⟩ : BufTy).Contents (Elt F) → (⟨S128x4, .f32⟩ : BufTy).Contents (Elt F)),
    StableHlo.nullary main_cst_29 (constant S_ .f32 0x38D1B717#32),
    StableHlo.unary main_cst_29 main_v78 (broadcastInDim S128x4 ![] bcast_S_S128x4 : (⟨S_, .f32⟩ : BufTy).Contents (Elt F) → (⟨S128x4, .f32⟩ : BufTy).Contents (Elt F)),
    StableHlo.binary main_v77 main_v78 main_v79 (addf : (⟨S128x4, .f32⟩ : BufTy).Contents (Elt F) → (⟨S128x4, .f32⟩ : BufTy).Contents (Elt F) → (⟨S128x4, .f32⟩ : BufTy).Contents (Elt F)),
    StableHlo.binary main_v72 main_v79 main_v80 (Host.divf : (⟨S128x4, .f32⟩ : BufTy).Contents (Elt F) → (⟨S128x4, .f32⟩ : BufTy).Contents (Elt F) → (⟨S128x4, .f32⟩ : BufTy).Contents (Elt F)),
    StableHlo.nullary main_cst_30 (constant S_ .f32 0x3F800000#32),
    StableHlo.unary main_cst_30 main_v81 (broadcastInDim S128x4 ![] bcast_S_S128x4 : (⟨S_, .f32⟩ : BufTy).Contents (Elt F) → (⟨S128x4, .f32⟩ : BufTy).Contents (Elt F)),
    StableHlo.binary main_v81 main_v80 main_v82 (subf : (⟨S128x4, .f32⟩ : BufTy).Contents (Elt F) → (⟨S128x4, .f32⟩ : BufTy).Contents (Elt F) → (⟨S128x4, .f32⟩ : BufTy).Contents (Elt F)),
    StableHlo.nullary main_cst_31 (constant S_ .f32 0x00000000#32),
    StableHlo.binary main_v16 main_cst_31 main_v83 ((fun x v => Host.reduceAdd x v reducesTo_S128x4_S128_d1 h_S_) : (⟨S128x4, .f32⟩ : BufTy).Contents (Elt F) → (⟨S_, .f32⟩ : BufTy).Contents (Elt F) → (⟨S128, .f32⟩ : BufTy).Contents (Elt F)),
    StableHlo.binary main_v82 main_v16 main_v84 (mulf : (⟨S128x4, .f32⟩ : BufTy).Contents (Elt F) → (⟨S128x4, .f32⟩ : BufTy).Contents (Elt F) → (⟨S128x4, .f32⟩ : BufTy).Contents (Elt F)),
    StableHlo.nullary main_cst_32 (constant S_ .f32 0x00000000#32),
    StableHlo.binary main_v84 main_cst_32 main_v85 ((fun x v => Host.reduceAdd x v reducesTo_S128x4_S128_d1 h_S_) : (⟨S128x4, .f32⟩ : BufTy).Contents (Elt F) → (⟨S_, .f32⟩ : BufTy).Contents (Elt F) → (⟨S128, .f32⟩ : BufTy).Contents (Elt F)) ]

/-- The operations of @main's statements 121 … 180, a called function's in its call's place. -/
abbrev ops2 : List (HloOp τ sig (Elt F)) :=
  [ StableHlo.nullary main_cst_33 (constant S_ .f32 0x3F800000#32),
    StableHlo.unary main_cst_33 main_v86 (broadcastInDim S128 ![] bcast_S_S128 : (⟨S_, .f32⟩ : BufTy).Contents (Elt F) → (⟨S128, .f32⟩ : BufTy).Contents (Elt F)),
    StableHlo.binary main_v83 main_v86 main_v87 (maximumf : (⟨S128, .f32⟩ : BufTy).Contents (Elt F) → (⟨S128, .f32⟩ : BufTy).Contents (Elt F) → (⟨S128, .f32⟩ : BufTy).Contents (Elt F)),
    StableHlo.binary main_v85 main_v87 main_v88 (Host.divf : (⟨S128, .f32⟩ : BufTy).Contents (Elt F) → (⟨S128, .f32⟩ : BufTy).Contents (Elt F) → (⟨S128, .f32⟩ : BufTy).Contents (Elt F)),
    StableHlo.nullary main_cst_34 (constant S_ .f32 0x00000000#32),
    StableHlo.unary main_cst_34 main_v89 (broadcastInDim S128 ![] bcast_S_S128 : (⟨S_, .f32⟩ : BufTy).Contents (Elt F) → (⟨S128, .f32⟩ : BufTy).Contents (Elt F)),
    StableHlo.binary main_v83 main_v89 main_v90 (cmpf .ogt : (⟨S128, .f32⟩ : BufTy).Contents (Elt F) → (⟨S128, .f32⟩ : BufTy).Contents (Elt F) → (⟨S128, .i1⟩ : BufTy).Contents (Elt F)),
    StableHlo.nullary main_cst_35 (constant S_ .f32 0x00000000#32),
    TRef.unary (.of main_cst_35 : TRef sig ⟨S_, .f32⟩) main_call3.v0 id,
    TRef.unary main_call3.v0 main_call3.v1 (broadcastInDim S128 ![] bcast_S_S128),
    TRef.ternary (.of main_v90 : TRef sig ⟨S128, .i1⟩) (.of main_v88 : TRef sig ⟨S128, .f32⟩) main_call3.v1 main_call3.v2 select,
    StableHlo.nullary main_cst_36 (constant S_ .f32 0x00000000#32),
    StableHlo.unary main_cst_36 main_v92 (broadcastInDim S128 ![] bcast_S_S128 : (⟨S_, .f32⟩ : BufTy).Contents (Elt F) → (⟨S128, .f32⟩ : BufTy).Contents (Elt F)),
    StableHlo.binary main_v83 main_v92 main_v93 (cmpf .ogt : (⟨S128, .f32⟩ : BufTy).Contents (Elt F) → (⟨S128, .f32⟩ : BufTy).Contents (Elt F) → (⟨S128, .i1⟩ : BufTy).Contents (Elt F)),
    StableHlo.unary main_v93 main_v94 (uitofp .f32 : (⟨S128, .i1⟩ : BufTy).Contents (Elt F) → (⟨S128, .f32⟩ : BufTy).Contents (Elt F)),
    StableHlo.nullary main_cst_37 (constant S_ .f32 0x00000000#32),
    StableHlo.binary main_v94 main_cst_37 main_v95 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_38 (constant S_ .f32 0x00000000#32),
    StableHlo.binary main_v91 main_cst_38 main_v96 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_39 (constant S_ .f32 0x00000000#32),
    StableHlo.binary main_v95 main_cst_39 main_v97 (cmpf .ogt : (⟨S_, .f32⟩ : BufTy).Contents (Elt F) → (⟨S_, .f32⟩ : BufTy).Contents (Elt F) → (⟨S_, .i1⟩ : BufTy).Contents (Elt F)),
    StableHlo.nullary main_cst_40 (constant S_ .f32 0x3F800000#32),
    StableHlo.binary main_v95 main_cst_40 main_v98 (maximumf : (⟨S_, .f32⟩ : BufTy).Contents (Elt F) → (⟨S_, .f32⟩ : BufTy).Contents (Elt F) → (⟨S_, .f32⟩ : BufTy).Contents (Elt F)),
    StableHlo.binary main_v96 main_v98 main_v99 (Host.divf : (⟨S_, .f32⟩ : BufTy).Contents (Elt F) → (⟨S_, .f32⟩ : BufTy).Contents (Elt F) → (⟨S_, .f32⟩ : BufTy).Contents (Elt F)),
    TRef.ternary (.of main_v97 : TRef sig ⟨S_, .i1⟩) (.of main_v99 : TRef sig ⟨S_, .f32⟩) (.of main_v96 : TRef sig ⟨S_, .f32⟩) main_call4.v0 select,
    StableHlo.nullary main_cst_41 (constant S_ .f32 0x3F800000#32),
    StableHlo.binary main_cst_41 main_v100 main_v101 (mulf : (⟨S_, .f32⟩ : BufTy).Contents (Elt F) → (⟨S_, .f32⟩ : BufTy).Contents (Elt F) → (⟨S_, .f32⟩ : BufTy).Contents (Elt F)),
    StableHlo.nullary main_cst_42 (constant S_ .f32 0x00000000#32),
    StableHlo.unary main_cst_42 main_v102 (broadcastInDim S128x4x65536 ![] bcast_S_S128x4x65536 : (⟨S_, .f32⟩ : BufTy).Contents (Elt F) → (⟨S128x4x65536, .f32⟩ : BufTy).Contents (Elt F)),
    StableHlo.binary main_v0 main_v102 main_v103 (cmpf .oge : (⟨S128x4x65536, .f32⟩ : BufTy).Contents (Elt F) → (⟨S128x4x65536, .f32⟩ : BufTy).Contents (Elt F) → (⟨S128x4x65536, .i1⟩ : BufTy).Contents (Elt F)),
    StableHlo.unary main_v103 main_v104 (uitofp .f32 : (⟨S128x4x65536, .i1⟩ : BufTy).Contents (Elt F) → (⟨S128x4x65536, .f32⟩ : BufTy).Contents (Elt F)),
    StableHlo.unary main_v17 main_v105 (broadcastInDim S128x4x65536 ![0, 1, 2] bcast_S128x1x65536_S128x4x65536_0_1_2 : (⟨S128x1x65536, .f32⟩ : BufTy).Contents (Elt F) → (⟨S128x4x65536, .f32⟩ : BufTy).Contents (Elt F)),
    StableHlo.binary main_v104 main_v105 main_v106 (mulf : (⟨S128x4x65536, .f32⟩ : BufTy).Contents (Elt F) → (⟨S128x4x65536, .f32⟩ : BufTy).Contents (Elt F) → (⟨S128x4x65536, .f32⟩ : BufTy).Contents (Elt F)),
    StableHlo.nullary main_cst_43 (constant S_ .f32 0x00000000#32),
    StableHlo.binary main_v106 main_cst_43 main_v107 ((fun x v => Host.reduceAdd x v reducesTo_S128x4x65536_S128x4_d2 h_S_) : (⟨S128x4x65536, .f32⟩ : BufTy).Contents (Elt F) → (⟨S_, .f32⟩ : BufTy).Contents (Elt F) → (⟨S128x4, .f32⟩ : BufTy).Contents (Elt F)),
    StableHlo.nullary main_cst_44 (constant S_ .f32 0x38D1B717#32),
    StableHlo.unary main_cst_44 main_v108 (broadcastInDim S128x4 ![] bcast_S_S128x4 : (⟨S_, .f32⟩ : BufTy).Contents (Elt F) → (⟨S128x4, .f32⟩ : BufTy).Contents (Elt F)),
    StableHlo.binary main_v107 main_v108 main_v109 (addf : (⟨S128x4, .f32⟩ : BufTy).Contents (Elt F) → (⟨S128x4, .f32⟩ : BufTy).Contents (Elt F) → (⟨S128x4, .f32⟩ : BufTy).Contents (Elt F)),
    StableHlo.nullary main_cst_45 (constant S_ .f32 0x00000000#32),
    StableHlo.binary main_v104 main_cst_45 main_v110 ((fun x v => Host.reduceAdd x v reducesTo_S128x4x65536_S128x4_d2 h_S_) : (⟨S128x4x65536, .f32⟩ : BufTy).Contents (Elt F) → (⟨S_, .f32⟩ : BufTy).Contents (Elt F) → (⟨S128x4, .f32⟩ : BufTy).Contents (Elt F)),
    StableHlo.nullary main_cst_46 (constant S_ .f32 0x00000000#32),
    StableHlo.binary main_v1 main_cst_46 main_v111 ((fun x v => Host.reduceAdd x v reducesTo_S128x65536_S128_d1 h_S_) : (⟨S128x65536, .f32⟩ : BufTy).Contents (Elt F) → (⟨S_, .f32⟩ : BufTy).Contents (Elt F) → (⟨S128, .f32⟩ : BufTy).Contents (Elt F)),
    StableHlo.unary main_v111 main_v112 (broadcastInDim S128x1 ![0] bcast_S128_S128x1_0 : (⟨S128, .f32⟩ : BufTy).Contents (Elt F) → (⟨S128x1, .f32⟩ : BufTy).Contents (Elt F)),
    StableHlo.unary main_v112 main_v113 (broadcastInDim S128x4 ![0, 1] bcast_S128x1_S128x4_0_1 : (⟨S128x1, .f32⟩ : BufTy).Contents (Elt F) → (⟨S128x4, .f32⟩ : BufTy).Contents (Elt F)),
    StableHlo.binary main_v110 main_v113 main_v114 (addf : (⟨S128x4, .f32⟩ : BufTy).Contents (Elt F) → (⟨S128x4, .f32⟩ : BufTy).Contents (Elt F) → (⟨S128x4, .f32⟩ : BufTy).Contents (Elt F)),
    StableHlo.binary main_v114 main_v107 main_v115 (subf : (⟨S128x4, .f32⟩ : BufTy).Contents (Elt F) → (⟨S128x4, .f32⟩ : BufTy).Contents (Elt F) → (⟨S128x4, .f32⟩ : BufTy).Contents (Elt F)),
    StableHlo.nullary main_cst_47 (constant S_ .f32 0x38D1B717#32),
    StableHlo.unary main_cst_47 main_v116 (broadcastInDim S128x4 ![] bcast_S_S128x4 : (⟨S_, .f32⟩ : BufTy).Contents (Elt F) → (⟨S128x4, .f32⟩ : BufTy).Contents (Elt F)),
    StableHlo.binary main_v115 main_v116 main_v117 (addf : (⟨S128x4, .f32⟩ : BufTy).Contents (Elt F) → (⟨S128x4, .f32⟩ : BufTy).Contents (Elt F) → (⟨S128x4, .f32⟩ : BufTy).Contents (Elt F)),
    StableHlo.binary main_v109 main_v117 main_v118 (Host.divf : (⟨S128x4, .f32⟩ : BufTy).Contents (Elt F) → (⟨S128x4, .f32⟩ : BufTy).Contents (Elt F) → (⟨S128x4, .f32⟩ : BufTy).Contents (Elt F)),
    StableHlo.binary main_arg1 main_v118 main_v119 (subf : (⟨S128x4, .f32⟩ : BufTy).Contents (Elt F) → (⟨S128x4, .f32⟩ : BufTy).Contents (Elt F) → (⟨S128x4, .f32⟩ : BufTy).Contents (Elt F)),
    StableHlo.binary main_v119 main_v119 main_v120 (mulf : (⟨S128x4, .f32⟩ : BufTy).Contents (Elt F) → (⟨S128x4, .f32⟩ : BufTy).Contents (Elt F) → (⟨S128x4, .f32⟩ : BufTy).Contents (Elt F)),
    StableHlo.nullary main_cst_48 (constant S_ .f32 0x00000000#32),
    StableHlo.binary main_v16 main_cst_48 main_v121 ((fun x v => Host.reduceAdd x v reducesTo_S128x4_S128_d1 h_S_) : (⟨S128x4, .f32⟩ : BufTy).Contents (Elt F) → (⟨S_, .f32⟩ : BufTy).Contents (Elt F) → (⟨S128, .f32⟩ : BufTy).Contents (Elt F)),
    StableHlo.binary main_v120 main_v16 main_v122 (mulf : (⟨S128x4, .f32⟩ : BufTy).Contents (Elt F) → (⟨S128x4, .f32⟩ : BufTy).Contents (Elt F) → (⟨S128x4, .f32⟩ : BufTy).Contents (Elt F)),
    StableHlo.nullary main_cst_49 (constant S_ .f32 0x00000000#32),
    StableHlo.binary main_v122 main_cst_49 main_v123 ((fun x v => Host.reduceAdd x v reducesTo_S128x4_S128_d1 h_S_) : (⟨S128x4, .f32⟩ : BufTy).Contents (Elt F) → (⟨S_, .f32⟩ : BufTy).Contents (Elt F) → (⟨S128, .f32⟩ : BufTy).Contents (Elt F)),
    StableHlo.nullary main_cst_50 (constant S_ .f32 0x3F800000#32),
    StableHlo.unary main_cst_50 main_v124 (broadcastInDim S128 ![] bcast_S_S128 : (⟨S_, .f32⟩ : BufTy).Contents (Elt F) → (⟨S128, .f32⟩ : BufTy).Contents (Elt F)),
    StableHlo.binary main_v121 main_v124 main_v125 (maximumf : (⟨S128, .f32⟩ : BufTy).Contents (Elt F) → (⟨S128, .f32⟩ : BufTy).Contents (Elt F) → (⟨S128, .f32⟩ : BufTy).Contents (Elt F)),
    StableHlo.binary main_v123 main_v125 main_v126 (Host.divf : (⟨S128, .f32⟩ : BufTy).Contents (Elt F) → (⟨S128, .f32⟩ : BufTy).Contents (Elt F) → (⟨S128, .f32⟩ : BufTy).Contents (Elt F)),
    StableHlo.nullary main_cst_51 (constant S_ .f32 0x00000000#32) ]

/-- The operations of @main's statements 181 … 201, a called function's in its call's place. -/
abbrev ops3 : List (HloOp τ sig (Elt F)) :=
  [ StableHlo.unary main_cst_51 main_v127 (broadcastInDim S128 ![] bcast_S_S128 : (⟨S_, .f32⟩ : BufTy).Contents (Elt F) → (⟨S128, .f32⟩ : BufTy).Contents (Elt F)),
    StableHlo.binary main_v121 main_v127 main_v128 (cmpf .ogt : (⟨S128, .f32⟩ : BufTy).Contents (Elt F) → (⟨S128, .f32⟩ : BufTy).Contents (Elt F) → (⟨S128, .i1⟩ : BufTy).Contents (Elt F)),
    StableHlo.nullary main_cst_52 (constant S_ .f32 0x00000000#32),
    TRef.unary (.of main_cst_52 : TRef sig ⟨S_, .f32⟩) main_call5.v0 id,
    TRef.unary main_call5.v0 main_call5.v1 (broadcastInDim S128 ![] bcast_S_S128),
    TRef.ternary (.of main_v128 : TRef sig ⟨S128, .i1⟩) (.of main_v126 : TRef sig ⟨S128, .f32⟩) main_call5.v1 main_call5.v2 select,
    StableHlo.nullary main_cst_53 (constant S_ .f32 0x00000000#32),
    StableHlo.unary main_cst_53 main_v130 (broadcastInDim S128 ![] bcast_S_S128 : (⟨S_, .f32⟩ : BufTy).Contents (Elt F) → (⟨S128, .f32⟩ : BufTy).Contents (Elt F)),
    StableHlo.binary main_v121 main_v130 main_v131 (cmpf .ogt : (⟨S128, .f32⟩ : BufTy).Contents (Elt F) → (⟨S128, .f32⟩ : BufTy).Contents (Elt F) → (⟨S128, .i1⟩ : BufTy).Contents (Elt F)),
    StableHlo.unary main_v131 main_v132 (uitofp .f32 : (⟨S128, .i1⟩ : BufTy).Contents (Elt F) → (⟨S128, .f32⟩ : BufTy).Contents (Elt F)),
    StableHlo.nullary main_cst_54 (constant S_ .f32 0x00000000#32),
    StableHlo.binary main_v132 main_cst_54 main_v133 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_55 (constant S_ .f32 0x00000000#32),
    StableHlo.binary main_v129 main_cst_55 main_v134 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_56 (constant S_ .f32 0x00000000#32),
    StableHlo.binary main_v133 main_cst_56 main_v135 (cmpf .ogt : (⟨S_, .f32⟩ : BufTy).Contents (Elt F) → (⟨S_, .f32⟩ : BufTy).Contents (Elt F) → (⟨S_, .i1⟩ : BufTy).Contents (Elt F)),
    StableHlo.nullary main_cst_57 (constant S_ .f32 0x3F800000#32),
    StableHlo.binary main_v133 main_cst_57 main_v136 (maximumf : (⟨S_, .f32⟩ : BufTy).Contents (Elt F) → (⟨S_, .f32⟩ : BufTy).Contents (Elt F) → (⟨S_, .f32⟩ : BufTy).Contents (Elt F)),
    StableHlo.binary main_v134 main_v136 main_v137 (Host.divf : (⟨S_, .f32⟩ : BufTy).Contents (Elt F) → (⟨S_, .f32⟩ : BufTy).Contents (Elt F) → (⟨S_, .f32⟩ : BufTy).Contents (Elt F)),
    TRef.ternary (.of main_v135 : TRef sig ⟨S_, .i1⟩) (.of main_v137 : TRef sig ⟨S_, .f32⟩) (.of main_v134 : TRef sig ⟨S_, .f32⟩) main_call6.v0 select,
    StableHlo.nullary main_cst_58 (constant S_ .f32 0x3F800000#32),
    StableHlo.binary main_cst_58 main_v138 main_v139 (mulf : (⟨S_, .f32⟩ : BufTy).Contents (Elt F) → (⟨S_, .f32⟩ : BufTy).Contents (Elt F) → (⟨S_, .f32⟩ : BufTy).Contents (Elt F)) ]

/-- @main's 211 operations, in order. -/
abbrev ops : List (HloOp τ sig (Elt F)) := ops0 ++ (ops1 ++ (ops2 ++ ops3))

set_option maxRecDepth 8192 in
set_option maxHeartbeats 4000000 in
theorem main_part0_eq (c : Dev nD) : main_part0 (F := F) c = seq ops0 := rfl
set_option maxRecDepth 8192 in
set_option maxHeartbeats 4000000 in
theorem main_part1_eq (c : Dev nD) : main_part1 (F := F) c = seq ops1 := by
  simp only [main_part1, fn_where.body, fn_where_0.body, fn_clip.body, seq, bind_assoc, pure_bind]
  rfl
set_option maxRecDepth 8192 in
set_option maxHeartbeats 4000000 in
theorem main_part2_eq (c : Dev nD) : main_part2 (F := F) c = seq ops2 := by
  simp only [main_part2, fn_where.body, fn_where_0.body, fn_clip.body, seq, bind_assoc, pure_bind]
  rfl
set_option maxRecDepth 8192 in
set_option maxHeartbeats 4000000 in
theorem main_part3_eq (c : Dev nD) : main_part3 (F := F) c = seq ops3 := by
  simp only [main_part3, fn_where.body, fn_where_0.body, fn_clip.body, seq, bind_assoc, pure_bind]

set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., nullary_bufs_sub .., reshape_bufs_sub .., reshape_bufs_sub .., nullary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., unary_bufs_sub .., unary_bufs_sub .., nullary_bufs_sub .., unary_bufs_sub .., binary_bufs_sub .., unary_bufs_sub .., binary_bufs_sub .., binary_bufs_sub .., unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., binary_bufs_sub .., binary_bufs_sub .., nullary_bufs_sub .., binary_bufs_sub .., nullary_bufs_sub .., unary_bufs_sub .., binary_bufs_sub .., binary_bufs_sub .., nullary_bufs_sub ..⟩
set_option maxRecDepth 8192 in
theorem ops1_sub : (ops1 : List (HloOp τ sig (Elt F))).Forall fun op => op.bufs ⊆ tcRefs τ sig :=
  ⟨unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., binary_bufs_sub .., nullary_bufs_sub .., binary_bufs_sub .., nullary_bufs_sub .., binary_bufs_sub .., nullary_bufs_sub .., binary_bufs_sub .., binary_bufs_sub .., ternary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., binary_bufs_sub .., nullary_bufs_sub .., unary_bufs_sub .., binary_bufs_sub .., nullary_bufs_sub .., unary_bufs_sub .., binary_bufs_sub .., nullary_bufs_sub .., binary_bufs_sub .., nullary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., binary_bufs_sub .., binary_bufs_sub .., nullary_bufs_sub .., binary_bufs_sub ..⟩
set_option maxRecDepth 8192 in
theorem ops2_sub : (ops2 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., binary_bufs_sub .., nullary_bufs_sub .., binary_bufs_sub .., nullary_bufs_sub .., binary_bufs_sub .., nullary_bufs_sub .., binary_bufs_sub .., binary_bufs_sub .., ternary_bufs_sub .., nullary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., binary_bufs_sub .., nullary_bufs_sub .., binary_bufs_sub .., unary_bufs_sub .., unary_bufs_sub .., binary_bufs_sub .., binary_bufs_sub .., nullary_bufs_sub .., unary_bufs_sub .., binary_bufs_sub .., binary_bufs_sub .., binary_bufs_sub .., binary_bufs_sub .., nullary_bufs_sub .., binary_bufs_sub .., binary_bufs_sub .., nullary_bufs_sub .., binary_bufs_sub .., nullary_bufs_sub .., unary_bufs_sub .., binary_bufs_sub .., binary_bufs_sub .., nullary_bufs_sub ..⟩
set_option maxRecDepth 8192 in
theorem ops3_sub : (ops3 : List (HloOp τ sig (Elt F))).Forall fun op => op.bufs ⊆ tcRefs τ sig :=
  ⟨unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., binary_bufs_sub .., nullary_bufs_sub .., binary_bufs_sub .., nullary_bufs_sub .., binary_bufs_sub .., nullary_bufs_sub .., binary_bufs_sub .., binary_bufs_sub .., ternary_bufs_sub .., nullary_bufs_sub .., binary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h, List.forall_iff_forall_mem.mp ops2_sub op h, List.forall_iff_forall_mem.mp ops3_sub op h]

set_option maxRecDepth 8192 in
theorem ops0_fresh : ∀ op ∈ (ops0 : List (HloOp τ sig (Elt F))), op.fresh = ∅ := by
  intro _ h; (repeat (cases h with | head => rfl | tail _ h => ?_)); exact nomatch h
set_option maxRecDepth 8192 in
theorem ops1_fresh : ∀ op ∈ (ops1 : List (HloOp τ sig (Elt F))), op.fresh = ∅ := by
  intro _ h; (repeat (cases h with | head => rfl | tail _ h => ?_)); exact nomatch h
set_option maxRecDepth 8192 in
theorem ops2_fresh : ∀ op ∈ (ops2 : List (HloOp τ sig (Elt F))), op.fresh = ∅ := by
  intro _ h; (repeat (cases h with | head => rfl | tail _ h => ?_)); exact nomatch h
set_option maxRecDepth 8192 in
theorem ops3_fresh : ∀ op ∈ (ops3 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := by
  intro op h
  simp only [ops, List.mem_append] at h
  rcases h with h | h | h | h
  exacts [ops0_fresh op h, ops1_fresh op h, ops2_fresh op h, ops3_fresh op h]

/-- At the compiled mesh, for any float values, from any memory with zero counters: every weakly fair execution of
    @main on the TensorCores terminates, and every final state has each TensorCore buffer at the operations' fold
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

set_option maxRecDepth 8192 in
set_option maxHeartbeats 4000000 in
theorem ops0_keep_main_arg0 (V : Valuation τ sig (Elt F)) : after ops0 V (main_arg0 : DevRef τ sig) = V (main_arg0 : DevRef τ sig) := by
  simp only [ops0]
  after_results_simp
set_option maxRecDepth 8192 in
set_option maxHeartbeats 4000000 in
theorem ops1_keep_main_arg0 (V : Valuation τ sig (Elt F)) : after ops1 V (main_arg0 : DevRef τ sig) = V (main_arg0 : DevRef τ sig) := by
  simp only [ops1]
  after_results_simp
set_option maxRecDepth 8192 in
set_option maxHeartbeats 4000000 in
theorem ops2_keep_main_arg0 (V : Valuation τ sig (Elt F)) : after ops2 V (main_arg0 : DevRef τ sig) = V (main_arg0 : DevRef τ sig) := by
  simp only [ops2]
  after_results_simp
set_option maxRecDepth 8192 in
set_option maxHeartbeats 4000000 in
theorem ops3_keep_main_arg0 (V : Valuation τ sig (Elt F)) : after ops3 V (main_arg0 : DevRef τ sig) = V (main_arg0 : DevRef τ sig) := by
  simp only [ops3]
  after_results_simp
/-- No operation writes `main_arg0`. -/
theorem ops_keep_main_arg0 (V : Valuation τ sig (Elt F)) : after ops V (main_arg0 : DevRef τ sig) = V (main_arg0 : DevRef τ sig) := by
  simp only [ops, after_app]
  rw [ops3_keep_main_arg0, ops2_keep_main_arg0, ops1_keep_main_arg0, ops0_keep_main_arg0]

set_option maxRecDepth 8192 in
set_option maxHeartbeats 4000000 in
theorem ops0_keep_main_arg1 (V : Valuation τ sig (Elt F)) : after ops0 V (main_arg1 : DevRef τ sig) = V (main_arg1 : DevRef τ sig) := by
  simp only [ops0]
  after_results_simp
set_option maxRecDepth 8192 in
set_option maxHeartbeats 4000000 in
theorem ops1_keep_main_arg1 (V : Valuation τ sig (Elt F)) : after ops1 V (main_arg1 : DevRef τ sig) = V (main_arg1 : DevRef τ sig) := by
  simp only [ops1]
  after_results_simp
set_option maxRecDepth 8192 in
set_option maxHeartbeats 4000000 in
theorem ops2_keep_main_arg1 (V : Valuation τ sig (Elt F)) : after ops2 V (main_arg1 : DevRef τ sig) = V (main_arg1 : DevRef τ sig) := by
  simp only [ops2]
  after_results_simp
set_option maxRecDepth 8192 in
set_option maxHeartbeats 4000000 in
theorem ops3_keep_main_arg1 (V : Valuation τ sig (Elt F)) : after ops3 V (main_arg1 : DevRef τ sig) = V (main_arg1 : DevRef τ sig) := by
  simp only [ops3]
  after_results_simp
/-- No operation writes `main_arg1`. -/
theorem ops_keep_main_arg1 (V : Valuation τ sig (Elt F)) : after ops V (main_arg1 : DevRef τ sig) = V (main_arg1 : DevRef τ sig) := by
  simp only [ops, after_app]
  rw [ops3_keep_main_arg1, ops2_keep_main_arg1, ops1_keep_main_arg1, ops0_keep_main_arg1]

set_option maxRecDepth 8192 in
set_option maxHeartbeats 4000000 in
theorem ops0_keep_main_arg2 (V : Valuation τ sig (Elt F)) : after ops0 V (main_arg2 : DevRef τ sig) = V (main_arg2 : DevRef τ sig) := by
  simp only [ops0]
  after_results_simp
set_option maxRecDepth 8192 in
set_option maxHeartbeats 4000000 in
theorem ops1_keep_main_arg2 (V : Valuation τ sig (Elt F)) : after ops1 V (main_arg2 : DevRef τ sig) = V (main_arg2 : DevRef τ sig) := by
  simp only [ops1]
  after_results_simp
set_option maxRecDepth 8192 in
set_option maxHeartbeats 4000000 in
theorem ops2_keep_main_arg2 (V : Valuation τ sig (Elt F)) : after ops2 V (main_arg2 : DevRef τ sig) = V (main_arg2 : DevRef τ sig) := by
  simp only [ops2]
  after_results_simp
set_option maxRecDepth 8192 in
set_option maxHeartbeats 4000000 in
theorem ops3_keep_main_arg2 (V : Valuation τ sig (Elt F)) : after ops3 V (main_arg2 : DevRef τ sig) = V (main_arg2 : DevRef τ sig) := by
  simp only [ops3]
  after_results_simp
/-- No operation writes `main_arg2`. -/
theorem ops_keep_main_arg2 (V : Valuation τ sig (Elt F)) : after ops V (main_arg2 : DevRef τ sig) = V (main_arg2 : DevRef τ sig) := by
  simp only [ops, after_app]
  rw [ops3_keep_main_arg2, ops2_keep_main_arg2, ops1_keep_main_arg2, ops0_keep_main_arg2]

/-- The reference runs and its argument arrays end unchanged. -/
theorem frame_ri : Cert.frame_ReferenceIdeal (hReferenceIdeal := Cert.ReferenceIdeal.Gen.facts) (hPre_finite_inputs := Cert.Pre_finite_inputs.Gen.facts) := by
  intro m g _
  exact (θ_run _ _ _).mono (fun _ h c => ⟨(h c main_arg0).trans (ops_keep_main_arg0 _), (h c main_arg1).trans (ops_keep_main_arg1 _),
    (h c main_arg2).trans (ops_keep_main_arg2 _)⟩) (run_all m g)

end Cert.ReferenceIdeal.RefRun

end
-- ==== Proof.RefRead.lean ====
/- The reference program's three results read off its run as functions of the argument arrays: the three
   per-sample-and-bin loss tables (named stretches of the operation list), each under ONE aggregation function. -/
import proofs.«180374_j28707561407033_2_alg».proof.Proof.RefRun

noncomputable section

namespace Cert.ReferenceIdeal.RefRead

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The named terms -/

/-- The reference's value `%0` as a function of the argument arrays. -/
def xR (a0 : (⟨S128x4x256x256, .f32⟩ : BufTy).Contents (Elt F)) : (⟨S128x4x65536, .f32⟩ : BufTy).Contents (Elt F) :=
  (shapeCast S128x4x65536 a0 shapeCasts_S128x4x256x256_S128x4x65536)

/-- The reference's value `%1` as a function of the argument arrays. -/
def tR (a2 : (⟨S128x1x256x256, .f32⟩ : BufTy).Contents (Elt F)) : (⟨S128x65536, .f32⟩ : BufTy).Contents (Elt F) :=
  (shapeCast S128x65536 a2 shapeCasts_S128x1x256x256_S128x65536)

/-- The reference's value `%2` (`%74` and `%111` are the same term again) as a function of the argument arrays. -/
def tsumR (a2 : (⟨S128x1x256x256, .f32⟩ : BufTy).Contents (Elt F)) : (⟨S128, .f32⟩ : BufTy).Contents (Elt F) :=
  (Host.reduceAdd (tR a2) ((constant S_ .f32 0x00000000#32) : (⟨S_, .f32⟩ : BufTy).Contents (Elt F)) reducesTo_S128x65536_S128_d1 h_S_)

/-- The reference's value `%17` as a function of the argument arrays. -/
def tbR (a2 : (⟨S128x1x256x256, .f32⟩ : BufTy).Contents (Elt F)) : (⟨S128x1x65536, .f32⟩ : BufTy).Contents (Elt F) :=
  (broadcastInDim S128x1x65536 ![0, 2] bcast_S128x65536_S128x1x65536_0_2 (tR a2))

/-- The reference's value `%20` (`%66` and `%105` are the same term again) as a function of the argument arrays. -/
def tb4R (a2 : (⟨S128x1x256x256, .f32⟩ : BufTy).Contents (Elt F)) : (⟨S128x4x65536, .f32⟩ : BufTy).Contents (Elt F) :=
  (broadcastInDim S128x4x65536 ![0, 1, 2] bcast_S128x1x65536_S128x4x65536_0_1_2 (tbR a2))

/-- The reference's value `%27` as a function of the argument arrays. -/
def bceR (a0 : (⟨S128x4x256x256, .f32⟩ : BufTy).Contents (Elt F)) (a2 : (⟨S128x1x256x256, .f32⟩ : BufTy).Contents (Elt F)) : (⟨S128x4x65536, .f32⟩ : BufTy).Contents (Elt F) :=
  (addf (subf (maximumf (xR a0) (broadcastInDim S128x4x65536 ![] bcast_S_S128x4x65536 ((constant S_ .f32 0x00000000#32) : (⟨S_, .f32⟩ : BufTy).Contents (Elt F)))) (mulf (xR a0) (tb4R a2))) (Host.log1p (Host.exp (Host.negf (Host.absf (xR a0))))))

/-- The reference's value `%36` as a function of the argument arrays. -/
def focalElR (a0 : (⟨S128x4x256x256, .f32⟩ : BufTy).Contents (Elt F)) (a2 : (⟨S128x1x256x256, .f32⟩ : BufTy).Contents (Elt F)) : (⟨S128x4x65536, .f32⟩ : BufTy).Contents (Elt F) :=
  (mulf (mulf (broadcastInDim S128x4x65536 ![] bcast_S_S128x4x65536 ((constant S_ .f32 0x3F4CCCCD#32) : (⟨S_, .f32⟩ : BufTy).Contents (Elt F))) (Host.powf (subf (broadcastInDim S128x4x65536 ![] bcast_S_S128x4x65536 ((constant S_ .f32 0x3F800000#32) : (⟨S_, .f32⟩ : BufTy).Contents (Elt F))) (Host.exp (Host.negf (bceR a0 a2)))) (broadcastInDim S128x4x65536 ![] bcast_S_S128x4x65536 ((constant S_ .f32 0x40000000#32) : (⟨S_, .f32⟩ : BufTy).Contents (Elt F))))) (bceR a0 a2))

/-- The reference's value `%37` as a function of the argument arrays. -/
def fsumR (a0 : (⟨S128x4x256x256, .f32⟩ : BufTy).Contents (Elt F)) (a2 : (⟨S128x1x256x256, .f32⟩ : BufTy).Contents (Elt F)) : (⟨S128x4, .f32⟩ : BufTy).Contents (Elt F) :=
  (Host.reduceAdd (focalElR a0 a2) ((constant S_ .f32 0x00000000#32) : (⟨S_, .f32⟩ : BufTy).Contents (Elt F)) reducesTo_S128x4x65536_S128x4_d2 h_S_)

/-- The reference's value `%39` as a function of the argument arrays. -/
def focalR (a0 : (⟨S128x4x256x256, .f32⟩ : BufTy).Contents (Elt F)) (a2 : (⟨S128x1x256x256, .f32⟩ : BufTy).Contents (Elt F)) : (⟨S128x4, .f32⟩ : BufTy).Contents (Elt F) :=
  (Host.divf (fsumR a0 a2) (broadcastInDim S128x4 ![] bcast_S_S128x4 ((constant S_ .f32 0x47800000#32) : (⟨S_, .f32⟩ : BufTy).Contents (Elt F))))

/-- The reference's value `%65` as a function of the argument arrays. -/
def pR (a0 : (⟨S128x4x256x256, .f32⟩ : BufTy).Contents (Elt F)) : (⟨S128x4x65536, .f32⟩ : BufTy).Contents (Elt F) :=
  (minimumf (broadcastInDim S128x4x65536 ![] bcast_S_S128x4x65536 ((constant S_ .f32 0x3F7FF972#32) : (⟨S_, .f32⟩ : BufTy).Contents (Elt F))) (maximumf (broadcastInDim S128x4x65536 ![] bcast_S_S128x4x65536 ((constant S_ .f32 0x38D1B717#32) : (⟨S_, .f32⟩ : BufTy).Contents (Elt F))) (Host.divf (broadcastInDim S128x4x65536 ![] bcast_S_S128x4x65536 ((constant S_ .f32 0x3F800000#32) : (⟨S_, .f32⟩ : BufTy).Contents (Elt F))) (addf (broadcastInDim S128x4x65536 ![] bcast_S_S128x4x65536 ((constant S_ .f32 0x3F800000#32) : (⟨S_, .f32⟩ : BufTy).Contents (Elt F))) (Host.exp (Host.negf (xR a0)))))))

/-- The reference's value `%67` as a function of the argument arrays. -/
def ptR (a0 : (⟨S128x4x256x256, .f32⟩ : BufTy).Contents (Elt F)) (a2 : (⟨S128x1x256x256, .f32⟩ : BufTy).Contents (Elt F)) : (⟨S128x4x65536, .f32⟩ : BufTy).Contents (Elt F) :=
  (mulf (pR a0) (tb4R a2))

/-- The reference's value `%68` as a function of the argument arrays. -/
def interR (a0 : (⟨S128x4x256x256, .f32⟩ : BufTy).Contents (Elt F)) (a2 : (⟨S128x1x256x256, .f32⟩ : BufTy).Contents (Elt F)) : (⟨S128x4, .f32⟩ : BufTy).Contents (Elt F) :=
  (Host.reduceAdd (ptR a0 a2) ((constant S_ .f32 0x00000000#32) : (⟨S_, .f32⟩ : BufTy).Contents (Elt F)) reducesTo_S128x4x65536_S128x4_d2 h_S_)

/-- The reference's value `%73` as a function of the argument arrays. -/
def psumR (a0 : (⟨S128x4x256x256, .f32⟩ : BufTy).Contents (Elt F)) : (⟨S128x4, .f32⟩ : BufTy).Contents (Elt F) :=
  (Host.reduceAdd (pR a0) ((constant S_ .f32 0x00000000#32) : (⟨S_, .f32⟩ : BufTy).Contents (Elt F)) reducesTo_S128x4x65536_S128x4_d2 h_S_)

/-- The reference's value `%82` as a function of the argument arrays. -/
def diceR (a0 : (⟨S128x4x256x256, .f32⟩ : BufTy).Contents (Elt F)) (a2 : (⟨S128x1x256x256, .f32⟩ : BufTy).Contents (Elt F)) : (⟨S128x4, .f32⟩ : BufTy).Contents (Elt F) :=
  (subf (broadcastInDim S128x4 ![] bcast_S_S128x4 ((constant S_ .f32 0x3F800000#32) : (⟨S_, .f32⟩ : BufTy).Contents (Elt F))) (Host.divf (addf (mulf (broadcastInDim S128x4 ![] bcast_S_S128x4 ((constant S_ .f32 0x40000000#32) : (⟨S_, .f32⟩ : BufTy).Contents (Elt F))) (interR a0 a2)) (broadcastInDim S128x4 ![] bcast_S_S128x4 ((constant S_ .f32 0x38D1B717#32) : (⟨S_, .f32⟩ : BufTy).Contents (Elt F)))) (addf (addf (psumR a0) (broadcastInDim S128x4 ![0, 1] bcast_S128x1_S128x4_0_1 (broadcastInDim S128x1 ![0] bcast_S128_S128x1_0 (tsumR a2)))) (broadcastInDim S128x4 ![] bcast_S_S128x4 ((constant S_ .f32 0x38D1B717#32) : (⟨S_, .f32⟩ : BufTy).Contents (Elt F))))))

/-- The reference's value `%104` as a function of the argument arrays. -/
def mR (a0 : (⟨S128x4x256x256, .f32⟩ : BufTy).Contents (Elt F)) : (⟨S128x4x65536, .f32⟩ : BufTy).Contents (Elt F) :=
  (uitofp .f32 (cmpf .oge (xR a0) (broadcastInDim S128x4x65536 ![] bcast_S_S128x4x65536 ((constant S_ .f32 0x00000000#32) : (⟨S_, .f32⟩ : BufTy).Contents (Elt F)))))

/-- The reference's value `%106` as a function of the argument arrays. -/
def mtR (a0 : (⟨S128x4x256x256, .f32⟩ : BufTy).Contents (Elt F)) (a2 : (⟨S128x1x256x256, .f32⟩ : BufTy).Contents (Elt F)) : (⟨S128x4x65536, .f32⟩ : BufTy).Contents (Elt F) :=
  (mulf (mR a0) (tb4R a2))

/-- The reference's value `%107` as a function of the argument arrays. -/
def i2R (a0 : (⟨S128x4x256x256, .f32⟩ : BufTy).Contents (Elt F)) (a2 : (⟨S128x1x256x256, .f32⟩ : BufTy).Contents (Elt F)) : (⟨S128x4, .f32⟩ : BufTy).Contents (Elt F) :=
  (Host.reduceAdd (mtR a0 a2) ((constant S_ .f32 0x00000000#32) : (⟨S_, .f32⟩ : BufTy).Contents (Elt F)) reducesTo_S128x4x65536_S128x4_d2 h_S_)

/-- The reference's value `%110` as a function of the argument arrays. -/
def msumR (a0 : (⟨S128x4x256x256, .f32⟩ : BufTy).Contents (Elt F)) : (⟨S128x4, .f32⟩ : BufTy).Contents (Elt F) :=
  (Host.reduceAdd (mR a0) ((constant S_ .f32 0x00000000#32) : (⟨S_, .f32⟩ : BufTy).Contents (Elt F)) reducesTo_S128x4x65536_S128x4_d2 h_S_)

/-- The reference's value `%118` as a function of the argument arrays. -/
def iouGtR (a0 : (⟨S128x4x256x256, .f32⟩ : BufTy).Contents (Elt F)) (a2 : (⟨S128x1x256x256, .f32⟩ : BufTy).Contents (Elt F)) : (⟨S128x4, .f32⟩ : BufTy).Contents (Elt F) :=
  (Host.divf (addf (i2R a0 a2) (broadcastInDim S128x4 ![] bcast_S_S128x4 ((constant S_ .f32 0x38D1B717#32) : (⟨S_, .f32⟩ : BufTy).Contents (Elt F)))) (addf (subf (addf (msumR a0) (broadcastInDim S128x4 ![0, 1] bcast_S128x1_S128x4_0_1 (broadcastInDim S128x1 ![0] bcast_S128_S128x1_0 (tsumR a2)))) (i2R a0 a2)) (broadcastInDim S128x4 ![] bcast_S_S128x4 ((constant S_ .f32 0x38D1B717#32) : (⟨S_, .f32⟩ : BufTy).Contents (Elt F)))))

/-- The reference's value `%120` as a function of the argument arrays. -/
def iouR (a0 : (⟨S128x4x256x256, .f32⟩ : BufTy).Contents (Elt F)) (a1 : (⟨S128x4, .f32⟩ : BufTy).Contents (Elt F)) (a2 : (⟨S128x1x256x256, .f32⟩ : BufTy).Contents (Elt F)) : (⟨S128x4, .f32⟩ : BufTy).Contents (Elt F) :=
  (mulf (subf a1 (iouGtR a0 a2)) (subf a1 (iouGtR a0 a2)))

/-- The validity table of the aggregation: for each sample and each of the four area bins, 1 when the sample's target
    fraction `tsum / 65536` lies strictly between the bin's bounds `lo` and `hi`, else 0 — the operations of `%3 … %16`. -/
def validOf (lo hi : (⟨S4, .f32⟩ : BufTy).Contents (Elt F)) (tsum : FVec F S128 .f32) : FVec F S128x4 .f32 :=
  let ratio : FVec F S128 .f32 := Host.divf tsum (broadcastInDim S128 ![] bcast_S_S128 (constant (F := F) S_ .f32 0x47800000#32))
  uitofp .f32 (andi
    (cmpf .ogt (broadcastInDim S128x4 ![0, 1] bcast_S128x1_S128x4_0_1 (broadcastInDim S128x1 ![0] bcast_S128_S128x1_0 ratio)) (broadcastInDim S128x4 ![0, 1] bcast_S1x4_S128x4_0_1 (broadcastInDim S1x4 ![1] bcast_S4_S1x4_1 lo)))
    (cmpf .olt (broadcastInDim S128x4 ![0, 1] bcast_S128x1_S128x4_0_1 (broadcastInDim S128x1 ![0] bcast_S128_S128x1_0 ratio)) (broadcastInDim S128x4 ![0, 1] bcast_S1x4_S128x4_0_1 (broadcastInDim S1x4 ![1] bcast_S4_S1x4_1 hi))))

/-- The aggregation the program applies to each of its three per-sample-and-bin loss tables, operation for operation
    (`%3 … %16` then `%40 … %58`; `%83 … %101` and `%121 … %139` are the same operations): the validity table from the
    target sums, each sample's mean loss over its valid bins (0 for a sample with none), the mean of those over the
    samples with a valid bin (their plain sum when there is none), times the weight whose bit pattern is `w`. -/
def aggOf (lo hi : (⟨S4, .f32⟩ : BufTy).Contents (Elt F)) (w : BitVec 32) (loss : FVec F S128x4 .f32) (tsum : FVec F S128 .f32) : (⟨S_, .f32⟩ : BufTy).Contents (Elt F) :=
  let ratio : FVec F S128 .f32 := Host.divf tsum (broadcastInDim S128 ![] bcast_S_S128 (constant (F := F) S_ .f32 0x47800000#32))
  let valid : FVec F S128x4 .f32 := uitofp .f32 (andi
    (cmpf .ogt (broadcastInDim S128x4 ![0, 1] bcast_S128x1_S128x4_0_1 (broadcastInDim S128x1 ![0] bcast_S128_S128x1_0 ratio)) (broadcastInDim S128x4 ![0, 1] bcast_S1x4_S128x4_0_1 (broadcastInDim S1x4 ![1] bcast_S4_S1x4_1 lo)))
    (cmpf .olt (broadcastInDim S128x4 ![0, 1] bcast_S128x1_S128x4_0_1 (broadcastInDim S128x1 ![0] bcast_S128_S128x1_0 ratio)) (broadcastInDim S128x4 ![0, 1] bcast_S1x4_S128x4_0_1 (broadcastInDim S1x4 ![1] bcast_S4_S1x4_1 hi))))
  let cnt : FVec F S128 .f32 := Host.reduceAdd valid (constant (F := F) S_ .f32 0x00000000#32) reducesTo_S128x4_S128_d1 h_S_
  let per : FVec F S128 .f32 := select (cmpf .ogt cnt (broadcastInDim S128 ![] bcast_S_S128 (constant (F := F) S_ .f32 0x00000000#32)))
    (Host.divf (Host.reduceAdd (mulf loss valid) (constant (F := F) S_ .f32 0x00000000#32) reducesTo_S128x4_S128_d1 h_S_) (maximumf cnt (broadcastInDim S128 ![] bcast_S_S128 (constant (F := F) S_ .f32 0x3F800000#32))))
    (broadcastInDim S128 ![] bcast_S_S128 (id (constant (F := F) S_ .f32 0x00000000#32)))
  let vb : FVec F S_ .f32 := Host.reduceAdd (uitofp .f32 (cmpf .ogt cnt (broadcastInDim S128 ![] bcast_S_S128 (constant (F := F) S_ .f32 0x00000000#32)))) (constant (F := F) S_ .f32 0x00000000#32) reducesTo_S128_S_d0 h_S_
  let total : FVec F S_ .f32 := Host.reduceAdd per (constant (F := F) S_ .f32 0x00000000#32) reducesTo_S128_S_d0 h_S_
  mulf (constant (F := F) S_ .f32 w) (select (cmpf .ogt vb (constant (F := F) S_ .f32 0x00000000#32)) (Host.divf total (maximumf vb (constant (F := F) S_ .f32 0x3F800000#32))) total)

/-- The four area bins' lower bounds: the program's first constant table. -/
def binLo : (⟨S4, .f32⟩ : BufTy).Contents (Elt F) := fun i => FloatOps.ofBits .f32 (lit0 (S4.rowMajor i))
/-- The four area bins' upper bounds: the program's second constant table. -/
def binHi : (⟨S4, .f32⟩ : BufTy).Contents (Elt F) := fun i => FloatOps.ofBits .f32 (lit1 (S4.rowMajor i))
/-- The aggregation at this program's two tables. -/
def agg (w : BitVec 32) (loss : FVec F S128x4 .f32) (tsum : FVec F S128 .f32) : (⟨S_, .f32⟩ : BufTy).Contents (Elt F) := aggOf binLo binHi w loss tsum

/-! ## The operation list in six stretches

The same 211 operations as `RefRun.ops`, cut after `%39`, `%58`, `%82`, `%101`, `%120`: each stretch ends at a value the
next ones read by name. -/

/-- Operations 1 … 50. -/
abbrev segA : List (HloOp τ sig (Elt F)) :=
  [ StableHlo.nullary main_cst (fun i => FloatOps.ofBits .f32 (lit0 (S4.rowMajor i))),
    StableHlo.nullary main_cst_0 (fun i => FloatOps.ofBits .f32 (lit1 (S4.rowMajor i))),
    StableHlo.reshape main_arg0 main_v0 rfl shapeCasts_S128x4x256x256_S128x4x65536,
    StableHlo.reshape main_arg2 main_v1 rfl shapeCasts_S128x1x256x256_S128x65536,
    StableHlo.nullary main_cst_1 (constant S_ .f32 0x00000000#32),
    StableHlo.binary main_v1 main_cst_1 main_v2 ((fun x v => Host.reduceAdd x v reducesTo_S128x65536_S128_d1 h_S_) : (⟨S128x65536, .f32⟩ : BufTy).Contents (Elt F) → (⟨S_, .f32⟩ : BufTy).Contents (Elt F) → (⟨S128, .f32⟩ : BufTy).Contents (Elt F)),
    StableHlo.nullary main_cst_2 (constant S_ .f32 0x47800000#32),
    StableHlo.unary main_cst_2 main_v3 (broadcastInDim S128 ![] bcast_S_S128 : (⟨S_, .f32⟩ : BufTy).Contents (Elt F) → (⟨S128, .f32⟩ : BufTy).Contents (Elt F)),
    StableHlo.binary main_v2 main_v3 main_v4 (Host.divf : (⟨S128, .f32⟩ : BufTy).Contents (Elt F) → (⟨S128, .f32⟩ : BufTy).Contents (Elt F) → (⟨S128, .f32⟩ : BufTy).Contents (Elt F)),
    StableHlo.unary main_v4 main_v5 (broadcastInDim S128x1 ![0] bcast_S128_S128x1_0 : (⟨S128, .f32⟩ : BufTy).Contents (Elt F) → (⟨S128x1, .f32⟩ : BufTy).Contents (Elt F)),
    StableHlo.unary main_cst main_v6 (broadcastInDim S1x4 ![1] bcast_S4_S1x4_1 : (⟨S4, .f32⟩ : BufTy).Contents (Elt F) → (⟨S1x4, .f32⟩ : BufTy).Contents (Elt F)),
    StableHlo.unary main_v5 main_v7 (broadcastInDim S128x4 ![0, 1] bcast_S128x1_S128x4_0_1 : (⟨S128x1, .f32⟩ : BufTy).Contents (Elt F) → (⟨S128x4, .f32⟩ : BufTy).Contents (Elt F)),
    StableHlo.unary main_v6 main_v8 (broadcastInDim S128x4 ![0, 1] bcast_S1x4_S128x4_0_1 : (⟨S1x4, .f32⟩ : BufTy).Contents (Elt F) → (⟨S128x4, .f32⟩ : BufTy).Contents (Elt F)),
    StableHlo.binary main_v7 main_v8 main_v9 (cmpf .ogt : (⟨S128x4, .f32⟩ : BufTy).Contents (Elt F) → (⟨S128x4, .f32⟩ : BufTy).Contents (Elt F) → (⟨S128x4, .i1⟩ : BufTy).Contents (Elt F)),
    StableHlo.unary main_v4 main_v10 (broadcastInDim S128x1 ![0] bcast_S128_S128x1_0 : (⟨S128, .f32⟩ : BufTy).Contents (Elt F) → (⟨S128x1, .f32⟩ : BufTy).Contents (Elt F)),
    StableHlo.unary main_cst_0 main_v11 (broadcastInDim S1x4 ![1] bcast_S4_S1x4_1 : (⟨S4, .f32⟩ : BufTy).Contents (Elt F) → (⟨S1x4, .f32⟩ : BufTy).Contents (Elt F)),
    StableHlo.unary main_v10 main_v12 (broadcastInDim S128x4 ![0, 1] bcast_S128x1_S128x4_0_1 : (⟨S128x1, .f32⟩ : BufTy).Contents (Elt F) → (⟨S128x4, .f32⟩ : BufTy).Contents (Elt F)),
    StableHlo.unary main_v11 main_v13 (broadcastInDim S128x4 ![0, 1] bcast_S1x4_S128x4_0_1 : (⟨S1x4, .f32⟩ : BufTy).Contents (Elt F) → (⟨S128x4, .f32⟩ : BufTy).Contents (Elt F)),
    StableHlo.binary main_v12 main_v13 main_v14 (cmpf .olt : (⟨S128x4, .f32⟩ : BufTy).Contents (Elt F) → (⟨S128x4, .f32⟩ : BufTy).Contents (Elt F) → (⟨S128x4, .i1⟩ : BufTy).Contents (Elt F)),
    StableHlo.binary main_v9 main_v14 main_v15 (andi : (⟨S128x4, .i1⟩ : BufTy).Contents (Elt F) → (⟨S128x4, .i1⟩ : BufTy).Contents (Elt F) → (⟨S128x4, .i1⟩ : BufTy).Contents (Elt F)),
    StableHlo.unary main_v15 main_v16 (uitofp .f32 : (⟨S128x4, .i1⟩ : BufTy).Contents (Elt F) → (⟨S128x4, .f32⟩ : BufTy).Contents (Elt F)),
    StableHlo.unary main_v1 main_v17 (broadcastInDim S128x1x65536 ![0, 2] bcast_S128x65536_S128x1x65536_0_2 : (⟨S128x65536, .f32⟩ : BufTy).Contents (Elt F) → (⟨S128x1x65536, .f32⟩ : BufTy).Contents (Elt F)),
    StableHlo.nullary main_cst_3 (constant S_ .f32 0x00000000#32),
    StableHlo.unary main_cst_3 main_v18 (broadcastInDim S128x4x65536 ![] bcast_S_S128x4x65536 : (⟨S_, .f32⟩ : BufTy).Contents (Elt F) → (⟨S128x4x65536, .f32⟩ : BufTy).Contents (Elt F)),
    StableHlo.binary main_v0 main_v18 main_v19 (maximumf : (⟨S128x4x65536, .f32⟩ : BufTy).Contents (Elt F) → (⟨S128x4x65536, .f32⟩ : BufTy).Contents (Elt F) → (⟨S128x4x65536, .f32⟩ : BufTy).Contents (Elt F)),
    StableHlo.unary main_v17 main_v20 (broadcastInDim S128x4x65536 ![0, 1, 2] bcast_S128x1x65536_S128x4x65536_0_1_2 : (⟨S128x1x65536, .f32⟩ : BufTy).Contents (Elt F) → (⟨S128x4x65536, .f32⟩ : BufTy).Contents (Elt F)),
    StableHlo.binary main_v0 main_v20 main_v21 (mulf : (⟨S128x4x65536, .f32⟩ : BufTy).Contents (Elt F) → (⟨S128x4x65536, .f32⟩ : BufTy).Contents (Elt F) → (⟨S128x4x65536, .f32⟩ : BufTy).Contents (Elt F)),
    StableHlo.binary main_v19 main_v21 main_v22 (subf : (⟨S128x4x65536, .f32⟩ : BufTy).Contents (Elt F) → (⟨S128x4x65536, .f32⟩ : BufTy).Contents (Elt F) → (⟨S128x4x65536, .f32⟩ : BufTy).Contents (Elt F)),
    StableHlo.unary main_v0 main_v23 (Host.absf : (⟨S128x4x65536, .f32⟩ : BufTy).Contents (Elt F) → (⟨S128x4x65536, .f32⟩ : BufTy).Contents (Elt F)),
    StableHlo.unary main_v23 main_v24 (Host.negf : (⟨S128x4x65536, .f32⟩ : BufTy).Contents (Elt F) → (⟨S128x4x65536, .f32⟩ : BufTy).Contents (Elt F)),
    StableHlo.unary main_v24 main_v25 (Host.exp : (⟨S128x4x65536, .f32⟩ : BufTy).Contents (Elt F) → (⟨S128x4x65536, .f32⟩ : BufTy).Contents (Elt F)),
    StableHlo.unary main_v25 main_v26 (Host.log1p : (⟨S128x4x65536, .f32⟩ : BufTy).Contents (Elt F) → (⟨S128x4x65536, .f32⟩ : BufTy).Contents (Elt F)),
    StableHlo.binary main_v22 main_v26 main_v27 (addf : (⟨S128x4x65536, .f32⟩ : BufTy).Contents (Elt F) → (⟨S128x4x65536, .f32⟩ : BufTy).Contents (Elt F) → (⟨S128x4x65536, .f32⟩ : BufTy).Contents (Elt F)),
    StableHlo.unary main_v27 main_v28 (Host.negf : (⟨S128x4x65536, .f32⟩ : BufTy).Contents (Elt F) → (⟨S128x4x65536, .f32⟩ : BufTy).Contents (Elt F)),
    StableHlo.unary main_v28 main_v29 (Host.exp : (⟨S128x4x65536, .f32⟩ : BufTy).Contents (Elt F) → (⟨S128x4x65536, .f32⟩ : BufTy).Contents (Elt F)),
    StableHlo.nullary main_cst_4 (constant S_ .f32 0x3F800000#32),
    StableHlo.unary main_cst_4 main_v30 (broadcastInDim S128x4x65536 ![] bcast_S_S128x4x65536 : (⟨S_, .f32⟩ : BufTy).Contents (Elt F) → (⟨S128x4x65536, .f32⟩ : BufTy).Contents (Elt F)),
    StableHlo.binary main_v30 main_v29 main_v31 (subf : (⟨S128x4x65536, .f32⟩ : BufTy).Contents (Elt F) → (⟨S128x4x65536, .f32⟩ : BufTy).Contents (Elt F) → (⟨S128x4x65536, .f32⟩ : BufTy).Contents (Elt F)),
    StableHlo.nullary main_cst_5 (constant S_ .f32 0x40000000#32),
    StableHlo.unary main_cst_5 main_v32 (broadcastInDim S128x4x65536 ![] bcast_S_S128x4x65536 : (⟨S_, .f32⟩ : BufTy).Contents (Elt F) → (⟨S128x4x65536, .f32⟩ : BufTy).Contents (Elt F)),
    StableHlo.binary main_v31 main_v32 main_v33 (Host.powf : (⟨S128x4x65536, .f32⟩ : BufTy).Contents (Elt F) → (⟨S128x4x65536, .f32⟩ : BufTy).Contents (Elt F) → (⟨S128x4x65536, .f32⟩ : BufTy).Contents (Elt F)),
    StableHlo.nullary main_cst_6 (constant S_ .f32 0x3F4CCCCD#32),
    StableHlo.unary main_cst_6 main_v34 (broadcastInDim S128x4x65536 ![] bcast_S_S128x4x65536 : (⟨S_, .f32⟩ : BufTy).Contents (Elt F) → (⟨S128x4x65536, .f32⟩ : BufTy).Contents (Elt F)),
    StableHlo.binary main_v34 main_v33 main_v35 (mulf : (⟨S128x4x65536, .f32⟩ : BufTy).Contents (Elt F) → (⟨S128x4x65536, .f32⟩ : BufTy).Contents (Elt F) → (⟨S128x4x65536, .f32⟩ : BufTy).Contents (Elt F)),
    StableHlo.binary main_v35 main_v27 main_v36 (mulf : (⟨S128x4x65536, .f32⟩ : BufTy).Contents (Elt F) → (⟨S128x4x65536, .f32⟩ : BufTy).Contents (Elt F) → (⟨S128x4x65536, .f32⟩ : BufTy).Contents (Elt F)),
    StableHlo.nullary main_cst_7 (constant S_ .f32 0x00000000#32),
    StableHlo.binary main_v36 main_cst_7 main_v37 ((fun x v => Host.reduceAdd x v reducesTo_S128x4x65536_S128x4_d2 h_S_) : (⟨S128x4x65536, .f32⟩ : BufTy).Contents (Elt F) → (⟨S_, .f32⟩ : BufTy).Contents (Elt F) → (⟨S128x4, .f32⟩ : BufTy).Contents (Elt F)),
    StableHlo.nullary main_cst_8 (constant S_ .f32 0x47800000#32),
    StableHlo.unary main_cst_8 main_v38 (broadcastInDim S128x4 ![] bcast_S_S128x4 : (⟨S_, .f32⟩ : BufTy).Contents (Elt F) → (⟨S128x4, .f32⟩ : BufTy).Contents (Elt F)),
    StableHlo.binary main_v37 main_v38 main_v39 (Host.divf : (⟨S128x4, .f32⟩ : BufTy).Contents (Elt F) → (⟨S128x4, .f32⟩ : BufTy).Contents (Elt F) → (⟨S128x4, .f32⟩ : BufTy).Contents (Elt F)) ]

/-- Operations 51 … 82. -/
abbrev segB : List (HloOp τ sig (Elt F)) :=
  [ StableHlo.nullary main_cst_9 (constant S_ .f32 0x00000000#32),
    StableHlo.binary main_v16 main_cst_9 main_v40 ((fun x v => Host.reduceAdd x v reducesTo_S128x4_S128_d1 h_S_) : (⟨S128x4, .f32⟩ : BufTy).Contents (Elt F) → (⟨S_, .f32⟩ : BufTy).Contents (Elt F) → (⟨S128, .f32⟩ : BufTy).Contents (Elt F)),
    StableHlo.binary main_v39 main_v16 main_v41 (mulf : (⟨S128x4, .f32⟩ : BufTy).Contents (Elt F) → (⟨S128x4, .f32⟩ : BufTy).Contents (Elt F) → (⟨S128x4, .f32⟩ : BufTy).Contents (Elt F)),
    StableHlo.nullary main_cst_10 (constant S_ .f32 0x00000000#32),
    StableHlo.binary main_v41 main_cst_10 main_v42 ((fun x v => Host.reduceAdd x v reducesTo_S128x4_S128_d1 h_S_) : (⟨S128x4, .f32⟩ : BufTy).Contents (Elt F) → (⟨S_, .f32⟩ : BufTy).Contents (Elt F) → (⟨S128, .f32⟩ : BufTy).Contents (Elt F)),
    StableHlo.nullary main_cst_11 (constant S_ .f32 0x3F800000#32),
    StableHlo.unary main_cst_11 main_v43 (broadcastInDim S128 ![] bcast_S_S128 : (⟨S_, .f32⟩ : BufTy).Contents (Elt F) → (⟨S128, .f32⟩ : BufTy).Contents (Elt F)),
    StableHlo.binary main_v40 main_v43 main_v44 (maximumf : (⟨S128, .f32⟩ : BufTy).Contents (Elt F) → (⟨S128, .f32⟩ : BufTy).Contents (Elt F) → (⟨S128, .f32⟩ : BufTy).Contents (Elt F)),
    StableHlo.binary main_v42 main_v44 main_v45 (Host.divf : (⟨S128, .f32⟩ : BufTy).Contents (Elt F) → (⟨S128, .f32⟩ : BufTy).Contents (Elt F) → (⟨S128, .f32⟩ : BufTy).Contents (Elt F)),
    StableHlo.nullary main_cst_12 (constant S_ .f32 0x00000000#32),
    StableHlo.unary main_cst_12 main_v46 (broadcastInDim S128 ![] bcast_S_S128 : (⟨S_, .f32⟩ : BufTy).Contents (Elt F) → (⟨S128, .f32⟩ : BufTy).Contents (Elt F)),
    StableHlo.binary main_v40 main_v46 main_v47 (cmpf .ogt : (⟨S128, .f32⟩ : BufTy).Contents (Elt F) → (⟨S128, .f32⟩ : BufTy).Contents (Elt F) → (⟨S128, .i1⟩ : BufTy).Contents (Elt F)),
    StableHlo.nullary main_cst_13 (constant S_ .f32 0x00000000#32),
    TRef.unary (.of main_cst_13 : TRef sig ⟨S_, .f32⟩) main_call0.v0 id,
    TRef.unary main_call0.v0 main_call0.v1 (broadcastInDim S128 ![] bcast_S_S128),
    TRef.ternary (.of main_v47 : TRef sig ⟨S128, .i1⟩) (.of main_v45 : TRef sig ⟨S128, .f32⟩) main_call0.v1 main_call0.v2 select,
    StableHlo.nullary main_cst_14 (constant S_ .f32 0x00000000#32),
    StableHlo.unary main_cst_14 main_v49 (broadcastInDim S128 ![] bcast_S_S128 : (⟨S_, .f32⟩ : BufTy).Contents (Elt F) → (⟨S128, .f32⟩ : BufTy).Contents (Elt F)),
    StableHlo.binary main_v40 main_v49 main_v50 (cmpf .ogt : (⟨S128, .f32⟩ : BufTy).Contents (Elt F) → (⟨S128, .f32⟩ : BufTy).Contents (Elt F) → (⟨S128, .i1⟩ : BufTy).Contents (Elt F)),
    StableHlo.unary main_v50 main_v51 (uitofp .f32 : (⟨S128, .i1⟩ : BufTy).Contents (Elt F) → (⟨S128, .f32⟩ : BufTy).Contents (Elt F)),
    StableHlo.nullary main_cst_15 (constant S_ .f32 0x00000000#32),
    StableHlo.binary main_v51 main_cst_15 main_v52 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_16 (constant S_ .f32 0x00000000#32),
    StableHlo.binary main_v48 main_cst_16 main_v53 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_17 (constant S_ .f32 0x00000000#32),
    StableHlo.binary main_v52 main_cst_17 main_v54 (cmpf .ogt : (⟨S_, .f32⟩ : BufTy).Contents (Elt F) → (⟨S_, .f32⟩ : BufTy).Contents (Elt F) → (⟨S_, .i1⟩ : BufTy).Contents (Elt F)),
    StableHlo.nullary main_cst_18 (constant S_ .f32 0x3F800000#32),
    StableHlo.binary main_v52 main_cst_18 main_v55 (maximumf : (⟨S_, .f32⟩ : BufTy).Contents (Elt F) → (⟨S_, .f32⟩ : BufTy).Contents (Elt F) → (⟨S_, .f32⟩ : BufTy).Contents (Elt F)),
    StableHlo.binary main_v53 main_v55 main_v56 (Host.divf : (⟨S_, .f32⟩ : BufTy).Contents (Elt F) → (⟨S_, .f32⟩ : BufTy).Contents (Elt F) → (⟨S_, .f32⟩ : BufTy).Contents (Elt F)),
    TRef.ternary (.of main_v54 : TRef sig ⟨S_, .i1⟩) (.of main_v56 : TRef sig ⟨S_, .f32⟩) (.of main_v53 : TRef sig ⟨S_, .f32⟩) main_call1.v0 select,
    StableHlo.nullary main_cst_19 (constant S_ .f32 0x41A00000#32),
    StableHlo.binary main_cst_19 main_v57 main_v58 (mulf : (⟨S_, .f32⟩ : BufTy).Contents (Elt F) → (⟨S_, .f32⟩ : BufTy).Contents (Elt F) → (⟨S_, .f32⟩ : BufTy).Contents (Elt F)) ]

/-- Operations 83 … 122. -/
abbrev segC : List (HloOp τ sig (Elt F)) :=
  [ StableHlo.unary main_v0 main_v59 (Host.negf : (⟨S128x4x65536, .f32⟩ : BufTy).Contents (Elt F) → (⟨S128x4x65536, .f32⟩ : BufTy).Contents (Elt F)),
    StableHlo.unary main_v59 main_v60 (Host.exp : (⟨S128x4x65536, .f32⟩ : BufTy).Contents (Elt F) → (⟨S128x4x65536, .f32⟩ : BufTy).Contents (Elt F)),
    StableHlo.nullary main_cst_20 (constant S_ .f32 0x3F800000#32),
    StableHlo.unary main_cst_20 main_v61 (broadcastInDim S128x4x65536 ![] bcast_S_S128x4x65536 : (⟨S_, .f32⟩ : BufTy).Contents (Elt F) → (⟨S128x4x65536, .f32⟩ : BufTy).Contents (Elt F)),
    StableHlo.binary main_v61 main_v60 main_v62 (addf : (⟨S128x4x65536, .f32⟩ : BufTy).Contents (Elt F) → (⟨S128x4x65536, .f32⟩ : BufTy).Contents (Elt F) → (⟨S128x4x65536, .f32⟩ : BufTy).Contents (Elt F)),
    StableHlo.nullary main_cst_21 (constant S_ .f32 0x3F800000#32),
    StableHlo.unary main_cst_21 main_v63 (broadcastInDim S128x4x65536 ![] bcast_S_S128x4x65536 : (⟨S_, .f32⟩ : BufTy).Contents (Elt F) → (⟨S128x4x65536, .f32⟩ : BufTy).Contents (Elt F)),
    StableHlo.binary main_v63 main_v62 main_v64 (Host.divf : (⟨S128x4x65536, .f32⟩ : BufTy).Contents (Elt F) → (⟨S128x4x65536, .f32⟩ : BufTy).Contents (Elt F) → (⟨S128x4x65536, .f32⟩ : BufTy).Contents (Elt F)),
    StableHlo.nullary main_cst_22 (constant S_ .f32 0x38D1B717#32),
    StableHlo.nullary main_cst_23 (constant S_ .f32 0x3F7FF972#32),
    TRef.unary (.of main_cst_22 : TRef sig ⟨S_, .f32⟩) main_call2.v0 id,
    TRef.unary main_call2.v0 main_call2.v1 (broadcastInDim S128x4x65536 ![] bcast_S_S128x4x65536),
    TRef.binary main_call2.v1 (.of main_v64 : TRef sig ⟨S128x4x65536, .f32⟩) main_call2.v2 maximumf,
    TRef.unary (.of main_cst_23 : TRef sig ⟨S_, .f32⟩) main_call2.v3 id,
    TRef.unary main_call2.v3 main_call2.v4 (broadcastInDim S128x4x65536 ![] bcast_S_S128x4x65536),
    TRef.binary main_call2.v4 main_call2.v2 main_call2.v5 minimumf,
    StableHlo.unary main_v17 main_v66 (broadcastInDim S128x4x65536 ![0, 1, 2] bcast_S128x1x65536_S128x4x65536_0_1_2 : (⟨S128x1x65536, .f32⟩ : BufTy).Contents (Elt F) → (⟨S128x4x65536, .f32⟩ : BufTy).Contents (Elt F)),
    StableHlo.binary main_v65 main_v66 main_v67 (mulf : (⟨S128x4x65536, .f32⟩ : BufTy).Contents (Elt F) → (⟨S128x4x65536, .f32⟩ : BufTy).Contents (Elt F) → (⟨S128x4x65536, .f32⟩ : BufTy).Contents (Elt F)),
    StableHlo.nullary main_cst_24 (constant S_ .f32 0x00000000#32),
    StableHlo.binary main_v67 main_cst_24 main_v68 ((fun x v => Host.reduceAdd x v reducesTo_S128x4x65536_S128x4_d2 h_S_) : (⟨S128x4x65536, .f32⟩ : BufTy).Contents (Elt F) → (⟨S_, .f32⟩ : BufTy).Contents (Elt F) → (⟨S128x4, .f32⟩ : BufTy).Contents (Elt F)),
    StableHlo.nullary main_cst_25 (constant S_ .f32 0x40000000#32),
    StableHlo.unary main_cst_25 main_v69 (broadcastInDim S128x4 ![] bcast_S_S128x4 : (⟨S_, .f32⟩ : BufTy).Contents (Elt F) → (⟨S128x4, .f32⟩ : BufTy).Contents (Elt F)),
    StableHlo.binary main_v69 main_v68 main_v70 (mulf : (⟨S128x4, .f32⟩ : BufTy).Contents (Elt F) → (⟨S128x4, .f32⟩ : BufTy).Contents (Elt F) → (⟨S128x4, .f32⟩ : BufTy).Contents (Elt F)),
    StableHlo.nullary main_cst_26 (constant S_ .f32 0x38D1B717#32),
    StableHlo.unary main_cst_26 main_v71 (broadcastInDim S128x4 ![] bcast_S_S128x4 : (⟨S_, .f32⟩ : BufTy).Contents (Elt F) → (⟨S128x4, .f32⟩ : BufTy).Contents (Elt F)),
    StableHlo.binary main_v70 main_v71 main_v72 (addf : (⟨S128x4, .f32⟩ : BufTy).Contents (Elt F) → (⟨S128x4, .f32⟩ : BufTy).Contents (Elt F) → (⟨S128x4, .f32⟩ : BufTy).Contents (Elt F)),
    StableHlo.nullary main_cst_27 (constant S_ .f32 0x00000000#32),
    StableHlo.binary main_v65 main_cst_27 main_v73 ((fun x v => Host.reduceAdd x v reducesTo_S128x4x65536_S128x4_d2 h_S_) : (⟨S128x4x65536, .f32⟩ : BufTy).Contents (Elt F) → (⟨S_, .f32⟩ : BufTy).Contents (Elt F) → (⟨S128x4, .f32⟩ : BufTy).Contents (Elt F)),
    StableHlo.nullary main_cst_28 (constant S_ .f32 0x00000000#32),
    StableHlo.binary main_v1 main_cst_28 main_v74 ((fun x v => Host.reduceAdd x v reducesTo_S128x65536_S128_d1 h_S_) : (⟨S128x65536, .f32⟩ : BufTy).Contents (Elt F) → (⟨S_, .f32⟩ : BufTy).Contents (Elt F) → (⟨S128, .f32⟩ : BufTy).Contents (Elt F)),
    StableHlo.unary main_v74 main_v75 (broadcastInDim S128x1 ![0] bcast_S128_S128x1_0 : (⟨S128, .f32⟩ : BufTy).Contents (Elt F) → (⟨S128x1, .f32⟩ : BufTy).Contents (Elt F)),
    StableHlo.unary main_v75 main_v76 (broadcastInDim S128x4 ![0, 1] bcast_S128x1_S128x4_0_1 : (⟨S128x1, .f32⟩ : BufTy).Contents (Elt F) → (⟨S128x4, .f32⟩ : BufTy).Contents (Elt F)),
    StableHlo.binary main_v73 main_v76 main_v77 (addf : (⟨S128x4, .f32⟩ : BufTy).Contents (Elt F) → (⟨S128x4, .f32⟩ : BufTy).Contents (Elt F) → (⟨S128x4, .f32⟩ : BufTy).Contents (Elt F)),
    StableHlo.nullary main_cst_29 (constant S_ .f32 0x38D1B717#32),
    StableHlo.unary main_cst_29 main_v78 (broadcastInDim S128x4 ![] bcast_S_S128x4 : (⟨S_, .f32⟩ : BufTy).Contents (Elt F) → (⟨S128x4, .f32⟩ : BufTy).Contents (Elt F)),
    StableHlo.binary main_v77 main_v78 main_v79 (addf : (⟨S128x4, .f32⟩ : BufTy).Contents (Elt F) → (⟨S128x4, .f32⟩ : BufTy).Contents (Elt F) → (⟨S128x4, .f32⟩ : BufTy).Contents (Elt F)),
    StableHlo.binary main_v72 main_v79 main_v80 (Host.divf : (⟨S128x4, .f32⟩ : BufTy).Contents (Elt F) → (⟨S128x4, .f32⟩ : BufTy).Contents (Elt F) → (⟨S128x4, .f32⟩ : BufTy).Contents (Elt F)),
    StableHlo.nullary main_cst_30 (constant S_ .f32 0x3F800000#32),
    StableHlo.unary main_cst_30 main_v81 (broadcastInDim S128x4 ![] bcast_S_S128x4 : (⟨S_, .f32⟩ : BufTy).Contents (Elt F) → (⟨S128x4, .f32⟩ : BufTy).Contents (Elt F)),
    StableHlo.binary main_v81 main_v80 main_v82 (subf : (⟨S128x4, .f32⟩ : BufTy).Contents (Elt F) → (⟨S128x4, .f32⟩ : BufTy).Contents (Elt F) → (⟨S128x4, .f32⟩ : BufTy).Contents (Elt F)) ]

/-- Operations 123 … 154. -/
abbrev segD : List (HloOp τ sig (Elt F)) :=
  [ StableHlo.nullary main_cst_31 (constant S_ .f32 0x00000000#32),
    StableHlo.binary main_v16 main_cst_31 main_v83 ((fun x v => Host.reduceAdd x v reducesTo_S128x4_S128_d1 h_S_) : (⟨S128x4, .f32⟩ : BufTy).Contents (Elt F) → (⟨S_, .f32⟩ : BufTy).Contents (Elt F) → (⟨S128, .f32⟩ : BufTy).Contents (Elt F)),
    StableHlo.binary main_v82 main_v16 main_v84 (mulf : (⟨S128x4, .f32⟩ : BufTy).Contents (Elt F) → (⟨S128x4, .f32⟩ : BufTy).Contents (Elt F) → (⟨S128x4, .f32⟩ : BufTy).Contents (Elt F)),
    StableHlo.nullary main_cst_32 (constant S_ .f32 0x00000000#32),
    StableHlo.binary main_v84 main_cst_32 main_v85 ((fun x v => Host.reduceAdd x v reducesTo_S128x4_S128_d1 h_S_) : (⟨S128x4, .f32⟩ : BufTy).Contents (Elt F) → (⟨S_, .f32⟩ : BufTy).Contents (Elt F) → (⟨S128, .f32⟩ : BufTy).Contents (Elt F)),
    StableHlo.nullary main_cst_33 (constant S_ .f32 0x3F800000#32),
    StableHlo.unary main_cst_33 main_v86 (broadcastInDim S128 ![] bcast_S_S128 : (⟨S_, .f32⟩ : BufTy).Contents (Elt F) → (⟨S128, .f32⟩ : BufTy).Contents (Elt F)),
    StableHlo.binary main_v83 main_v86 main_v87 (maximumf : (⟨S128, .f32⟩ : BufTy).Contents (Elt F) → (⟨S128, .f32⟩ : BufTy).Contents (Elt F) → (⟨S128, .f32⟩ : BufTy).Contents (Elt F)),
    StableHlo.binary main_v85 main_v87 main_v88 (Host.divf : (⟨S128, .f32⟩ : BufTy).Contents (Elt F) → (⟨S128, .f32⟩ : BufTy).Contents (Elt F) → (⟨S128, .f32⟩ : BufTy).Contents (Elt F)),
    StableHlo.nullary main_cst_34 (constant S_ .f32 0x00000000#32),
    StableHlo.unary main_cst_34 main_v89 (broadcastInDim S128 ![] bcast_S_S128 : (⟨S_, .f32⟩ : BufTy).Contents (Elt F) → (⟨S128, .f32⟩ : BufTy).Contents (Elt F)),
    StableHlo.binary main_v83 main_v89 main_v90 (cmpf .ogt : (⟨S128, .f32⟩ : BufTy).Contents (Elt F) → (⟨S128, .f32⟩ : BufTy).Contents (Elt F) → (⟨S128, .i1⟩ : BufTy).Contents (Elt F)),
    StableHlo.nullary main_cst_35 (constant S_ .f32 0x00000000#32),
    TRef.unary (.of main_cst_35 : TRef sig ⟨S_, .f32⟩) main_call3.v0 id,
    TRef.unary main_call3.v0 main_call3.v1 (broadcastInDim S128 ![] bcast_S_S128),
    TRef.ternary (.of main_v90 : TRef sig ⟨S128, .i1⟩) (.of main_v88 : TRef sig ⟨S128, .f32⟩) main_call3.v1 main_call3.v2 select,
    StableHlo.nullary main_cst_36 (constant S_ .f32 0x00000000#32),
    StableHlo.unary main_cst_36 main_v92 (broadcastInDim S128 ![] bcast_S_S128 : (⟨S_, .f32⟩ : BufTy).Contents (Elt F) → (⟨S128, .f32⟩ : BufTy).Contents (Elt F)),
    StableHlo.binary main_v83 main_v92 main_v93 (cmpf .ogt : (⟨S128, .f32⟩ : BufTy).Contents (Elt F) → (⟨S128, .f32⟩ : BufTy).Contents (Elt F) → (⟨S128, .i1⟩ : BufTy).Contents (Elt F)),
    StableHlo.unary main_v93 main_v94 (uitofp .f32 : (⟨S128, .i1⟩ : BufTy).Contents (Elt F) → (⟨S128, .f32⟩ : BufTy).Contents (Elt F)),
    StableHlo.nullary main_cst_37 (constant S_ .f32 0x00000000#32),
    StableHlo.binary main_v94 main_cst_37 main_v95 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_38 (constant S_ .f32 0x00000000#32),
    StableHlo.binary main_v91 main_cst_38 main_v96 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_39 (constant S_ .f32 0x00000000#32),
    StableHlo.binary main_v95 main_cst_39 main_v97 (cmpf .ogt : (⟨S_, .f32⟩ : BufTy).Contents (Elt F) → (⟨S_, .f32⟩ : BufTy).Contents (Elt F) → (⟨S_, .i1⟩ : BufTy).Contents (Elt F)),
    StableHlo.nullary main_cst_40 (constant S_ .f32 0x3F800000#32),
    StableHlo.binary main_v95 main_cst_40 main_v98 (maximumf : (⟨S_, .f32⟩ : BufTy).Contents (Elt F) → (⟨S_, .f32⟩ : BufTy).Contents (Elt F) → (⟨S_, .f32⟩ : BufTy).Contents (Elt F)),
    StableHlo.binary main_v96 main_v98 main_v99 (Host.divf : (⟨S_, .f32⟩ : BufTy).Contents (Elt F) → (⟨S_, .f32⟩ : BufTy).Contents (Elt F) → (⟨S_, .f32⟩ : BufTy).Contents (Elt F)),
    TRef.ternary (.of main_v97 : TRef sig ⟨S_, .i1⟩) (.of main_v99 : TRef sig ⟨S_, .f32⟩) (.of main_v96 : TRef sig ⟨S_, .f32⟩) main_call4.v0 select,
    StableHlo.nullary main_cst_41 (constant S_ .f32 0x3F800000#32),
    StableHlo.binary main_cst_41 main_v100 main_v101 (mulf : (⟨S_, .f32⟩ : BufTy).Contents (Elt F) → (⟨S_, .f32⟩ : BufTy).Contents (Elt F) → (⟨S_, .f32⟩ : BufTy).Contents (Elt F)) ]

/-- Operations 155 … 179. -/
abbrev segE : List (HloOp τ sig (Elt F)) :=
  [ StableHlo.nullary main_cst_42 (constant S_ .f32 0x00000000#32),
    StableHlo.unary main_cst_42 main_v102 (broadcastInDim S128x4x65536 ![] bcast_S_S128x4x65536 : (⟨S_, .f32⟩ : BufTy).Contents (Elt F) → (⟨S128x4x65536, .f32⟩ : BufTy).Contents (Elt F)),
    StableHlo.binary main_v0 main_v102 main_v103 (cmpf .oge : (⟨S128x4x65536, .f32⟩ : BufTy).Contents (Elt F) → (⟨S128x4x65536, .f32⟩ : BufTy).Contents (Elt F) → (⟨S128x4x65536, .i1⟩ : BufTy).Contents (Elt F)),
    StableHlo.unary main_v103 main_v104 (uitofp .f32 : (⟨S128x4x65536, .i1⟩ : BufTy).Contents (Elt F) → (⟨S128x4x65536, .f32⟩ : BufTy).Contents (Elt F)),
    StableHlo.unary main_v17 main_v105 (broadcastInDim S128x4x65536 ![0, 1, 2] bcast_S128x1x65536_S128x4x65536_0_1_2 : (⟨S128x1x65536, .f32⟩ : BufTy).Contents (Elt F) → (⟨S128x4x65536, .f32⟩ : BufTy).Contents (Elt F)),
    StableHlo.binary main_v104 main_v105 main_v106 (mulf : (⟨S128x4x65536, .f32⟩ : BufTy).Contents (Elt F) → (⟨S128x4x65536, .f32⟩ : BufTy).Contents (Elt F) → (⟨S128x4x65536, .f32⟩ : BufTy).Contents (Elt F)),
    StableHlo.nullary main_cst_43 (constant S_ .f32 0x00000000#32),
    StableHlo.binary main_v106 main_cst_43 main_v107 ((fun x v => Host.reduceAdd x v reducesTo_S128x4x65536_S128x4_d2 h_S_) : (⟨S128x4x65536, .f32⟩ : BufTy).Contents (Elt F) → (⟨S_, .f32⟩ : BufTy).Contents (Elt F) → (⟨S128x4, .f32⟩ : BufTy).Contents (Elt F)),
    StableHlo.nullary main_cst_44 (constant S_ .f32 0x38D1B717#32),
    StableHlo.unary main_cst_44 main_v108 (broadcastInDim S128x4 ![] bcast_S_S128x4 : (⟨S_, .f32⟩ : BufTy).Contents (Elt F) → (⟨S128x4, .f32⟩ : BufTy).Contents (Elt F)),
    StableHlo.binary main_v107 main_v108 main_v109 (addf : (⟨S128x4, .f32⟩ : BufTy).Contents (Elt F) → (⟨S128x4, .f32⟩ : BufTy).Contents (Elt F) → (⟨S128x4, .f32⟩ : BufTy).Contents (Elt F)),
    StableHlo.nullary main_cst_45 (constant S_ .f32 0x00000000#32),
    StableHlo.binary main_v104 main_cst_45 main_v110 ((fun x v => Host.reduceAdd x v reducesTo_S128x4x65536_S128x4_d2 h_S_) : (⟨S128x4x65536, .f32⟩ : BufTy).Contents (Elt F) → (⟨S_, .f32⟩ : BufTy).Contents (Elt F) → (⟨S128x4, .f32⟩ : BufTy).Contents (Elt F)),
    StableHlo.nullary main_cst_46 (constant S_ .f32 0x00000000#32),
    StableHlo.binary main_v1 main_cst_46 main_v111 ((fun x v => Host.reduceAdd x v reducesTo_S128x65536_S128_d1 h_S_) : (⟨S128x65536, .f32⟩ : BufTy).Contents (Elt F) → (⟨S_, .f32⟩ : BufTy).Contents (Elt F) → (⟨S128, .f32⟩ : BufTy).Contents (Elt F)),
    StableHlo.unary main_v111 main_v112 (broadcastInDim S128x1 ![0] bcast_S128_S128x1_0 : (⟨S128, .f32⟩ : BufTy).Contents (Elt F) → (⟨S128x1, .f32⟩ : BufTy).Contents (Elt F)),
    StableHlo.unary main_v112 main_v113 (broadcastInDim S128x4 ![0, 1] bcast_S128x1_S128x4_0_1 : (⟨S128x1, .f32⟩ : BufTy).Contents (Elt F) → (⟨S128x4, .f32⟩ : BufTy).Contents (Elt F)),
    StableHlo.binary main_v110 main_v113 main_v114 (addf : (⟨S128x4, .f32⟩ : BufTy).Contents (Elt F) → (⟨S128x4, .f32⟩ : BufTy).Contents (Elt F) → (⟨S128x4, .f32⟩ : BufTy).Contents (Elt F)),
    StableHlo.binary main_v114 main_v107 main_v115 (subf : (⟨S128x4, .f32⟩ : BufTy).Contents (Elt F) → (⟨S128x4, .f32⟩ : BufTy).Contents (Elt F) → (⟨S128x4, .f32⟩ : BufTy).Contents (Elt F)),
    StableHlo.nullary main_cst_47 (constant S_ .f32 0x38D1B717#32),
    StableHlo.unary main_cst_47 main_v116 (broadcastInDim S128x4 ![] bcast_S_S128x4 : (⟨S_, .f32⟩ : BufTy).Contents (Elt F) → (⟨S128x4, .f32⟩ : BufTy).Contents (Elt F)),
    StableHlo.binary main_v115 main_v116 main_v117 (addf : (⟨S128x4, .f32⟩ : BufTy).Contents (Elt F) → (⟨S128x4, .f32⟩ : BufTy).Contents (Elt F) → (⟨S128x4, .f32⟩ : BufTy).Contents (Elt F)),
    StableHlo.binary main_v109 main_v117 main_v118 (Host.divf : (⟨S128x4, .f32⟩ : BufTy).Contents (Elt F) → (⟨S128x4, .f32⟩ : BufTy).Contents (Elt F) → (⟨S128x4, .f32⟩ : BufTy).Contents (Elt F)),
    StableHlo.binary main_arg1 main_v118 main_v119 (subf : (⟨S128x4, .f32⟩ : BufTy).Contents (Elt F) → (⟨S128x4, .f32⟩ : BufTy).Contents (Elt F) → (⟨S128x4, .f32⟩ : BufTy).Contents (Elt F)),
    StableHlo.binary main_v119 main_v119 main_v120 (mulf : (⟨S128x4, .f32⟩ : BufTy).Contents (Elt F) → (⟨S128x4, .f32⟩ : BufTy).Contents (Elt F) → (⟨S128x4, .f32⟩ : BufTy).Contents (Elt F)) ]

/-- Operations 180 … 211. -/
abbrev segF : List (HloOp τ sig (Elt F)) :=
  [ StableHlo.nullary main_cst_48 (constant S_ .f32 0x00000000#32),
    StableHlo.binary main_v16 main_cst_48 main_v121 ((fun x v => Host.reduceAdd x v reducesTo_S128x4_S128_d1 h_S_) : (⟨S128x4, .f32⟩ : BufTy).Contents (Elt F) → (⟨S_, .f32⟩ : BufTy).Contents (Elt F) → (⟨S128, .f32⟩ : BufTy).Contents (Elt F)),
    StableHlo.binary main_v120 main_v16 main_v122 (mulf : (⟨S128x4, .f32⟩ : BufTy).Contents (Elt F) → (⟨S128x4, .f32⟩ : BufTy).Contents (Elt F) → (⟨S128x4, .f32⟩ : BufTy).Contents (Elt F)),
    StableHlo.nullary main_cst_49 (constant S_ .f32 0x00000000#32),
    StableHlo.binary main_v122 main_cst_49 main_v123 ((fun x v => Host.reduceAdd x v reducesTo_S128x4_S128_d1 h_S_) : (⟨S128x4, .f32⟩ : BufTy).Contents (Elt F) → (⟨S_, .f32⟩ : BufTy).Contents (Elt F) → (⟨S128, .f32⟩ : BufTy).Contents (Elt F)),
    StableHlo.nullary main_cst_50 (constant S_ .f32 0x3F800000#32),
    StableHlo.unary main_cst_50 main_v124 (broadcastInDim S128 ![] bcast_S_S128 : (⟨S_, .f32⟩ : BufTy).Contents (Elt F) → (⟨S128, .f32⟩ : BufTy).Contents (Elt F)),
    StableHlo.binary main_v121 main_v124 main_v125 (maximumf : (⟨S128, .f32⟩ : BufTy).Contents (Elt F) → (⟨S128, .f32⟩ : BufTy).Contents (Elt F) → (⟨S128, .f32⟩ : BufTy).Contents (Elt F)),
    StableHlo.binary main_v123 main_v125 main_v126 (Host.divf : (⟨S128, .f32⟩ : BufTy).Contents (Elt F) → (⟨S128, .f32⟩ : BufTy).Contents (Elt F) → (⟨S128, .f32⟩ : BufTy).Contents (Elt F)),
    StableHlo.nullary main_cst_51 (constant S_ .f32 0x00000000#32),
    StableHlo.unary main_cst_51 main_v127 (broadcastInDim S128 ![] bcast_S_S128 : (⟨S_, .f32⟩ : BufTy).Contents (Elt F) → (⟨S128, .f32⟩ : BufTy).Contents (Elt F)),
    StableHlo.binary main_v121 main_v127 main_v128 (cmpf .ogt : (⟨S128, .f32⟩ : BufTy).Contents (Elt F) → (⟨S128, .f32⟩ : BufTy).Contents (Elt F) → (⟨S128, .i1⟩ : BufTy).Contents (Elt F)),
    StableHlo.nullary main_cst_52 (constant S_ .f32 0x00000000#32),
    TRef.unary (.of main_cst_52 : TRef sig ⟨S_, .f32⟩) main_call5.v0 id,
    TRef.unary main_call5.v0 main_call5.v1 (broadcastInDim S128 ![] bcast_S_S128),
    TRef.ternary (.of main_v128 : TRef sig ⟨S128, .i1⟩) (.of main_v126 : TRef sig ⟨S128, .f32⟩) main_call5.v1 main_call5.v2 select,
    StableHlo.nullary main_cst_53 (constant S_ .f32 0x00000000#32),
    StableHlo.unary main_cst_53 main_v130 (broadcastInDim S128 ![] bcast_S_S128 : (⟨S_, .f32⟩ : BufTy).Contents (Elt F) → (⟨S128, .f32⟩ : BufTy).Contents (Elt F)),
    StableHlo.binary main_v121 main_v130 main_v131 (cmpf .ogt : (⟨S128, .f32⟩ : BufTy).Contents (Elt F) → (⟨S128, .f32⟩ : BufTy).Contents (Elt F) → (⟨S128, .i1⟩ : BufTy).Contents (Elt F)),
    StableHlo.unary main_v131 main_v132 (uitofp .f32 : (⟨S128, .i1⟩ : BufTy).Contents (Elt F) → (⟨S128, .f32⟩ : BufTy).Contents (Elt F)),
    StableHlo.nullary main_cst_54 (constant S_ .f32 0x00000000#32),
    StableHlo.binary main_v132 main_cst_54 main_v133 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_55 (constant S_ .f32 0x00000000#32),
    StableHlo.binary main_v129 main_cst_55 main_v134 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_56 (constant S_ .f32 0x00000000#32),
    StableHlo.binary main_v133 main_cst_56 main_v135 (cmpf .ogt : (⟨S_, .f32⟩ : BufTy).Contents (Elt F) → (⟨S_, .f32⟩ : BufTy).Contents (Elt F) → (⟨S_, .i1⟩ : BufTy).Contents (Elt F)),
    StableHlo.nullary main_cst_57 (constant S_ .f32 0x3F800000#32),
    StableHlo.binary main_v133 main_cst_57 main_v136 (maximumf : (⟨S_, .f32⟩ : BufTy).Contents (Elt F) → (⟨S_, .f32⟩ : BufTy).Contents (Elt F) → (⟨S_, .f32⟩ : BufTy).Contents (Elt F)),
    StableHlo.binary main_v134 main_v136 main_v137 (Host.divf : (⟨S_, .f32⟩ : BufTy).Contents (Elt F) → (⟨S_, .f32⟩ : BufTy).Contents (Elt F) → (⟨S_, .f32⟩ : BufTy).Contents (Elt F)),
    TRef.ternary (.of main_v135 : TRef sig ⟨S_, .i1⟩) (.of main_v137 : TRef sig ⟨S_, .f32⟩) (.of main_v134 : TRef sig ⟨S_, .f32⟩) main_call6.v0 select,
    StableHlo.nullary main_cst_58 (constant S_ .f32 0x3F800000#32),
    StableHlo.binary main_cst_58 main_v138 main_v139 (mulf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem ops_eq : (ops : List (HloOp τ sig (Elt F))) = segA ++ (segB ++ (segC ++ (segD ++ (segE ++ segF)))) := rfl

/-! ## The contents after each stretch, from any contents `V0` -/

/-- The device's buffer contents after the first 1 stretch. -/
def valA (V0 : Valuation τ sig (Elt F)) : Valuation τ sig (Elt F) := after segA V0
set_option maxRecDepth 8192 in
set_option maxHeartbeats 4000000 in
theorem valA_main_arg1 (V0 : Valuation τ sig (Elt F)) : valA V0 (no_index (Proc.devRef .tc main_arg1)) = (V0 (Proc.devRef .tc main_arg1)) := by
  unfold valA
  simp only [segA]
  after_results_simp
set_option maxRecDepth 8192 in
set_option maxHeartbeats 4000000 in
theorem valA_main_v0 (V0 : Valuation τ sig (Elt F)) : valA V0 (no_index (Proc.devRef .tc main_v0)) = (xR (V0 (Proc.devRef .tc main_arg0))) := by
  unfold valA
  simp only [segA]
  after_results_simp
  rfl
set_option maxRecDepth 8192 in
set_option maxHeartbeats 4000000 in
theorem valA_main_v1 (V0 : Valuation τ sig (Elt F)) : valA V0 (no_index (Proc.devRef .tc main_v1)) = (tR (V0 (Proc.devRef .tc main_arg2))) := by
  unfold valA
  simp only [segA]
  after_results_simp
  rfl
set_option maxRecDepth 8192 in
set_option maxHeartbeats 4000000 in
theorem valA_main_v16 (V0 : Valuation τ sig (Elt F)) : valA V0 (no_index (Proc.devRef .tc main_v16)) = (validOf binLo binHi (tsumR (V0 (Proc.devRef .tc main_arg2)))) := by
  unfold valA
  simp only [segA]
  after_results_simp
  rfl
set_option maxRecDepth 8192 in
set_option maxHeartbeats 4000000 in
theorem valA_main_v17 (V0 : Valuation τ sig (Elt F)) : valA V0 (no_index (Proc.devRef .tc main_v17)) = (tbR (V0 (Proc.devRef .tc main_arg2))) := by
  unfold valA
  simp only [segA]
  after_results_simp
  rfl
set_option maxRecDepth 8192 in
set_option maxHeartbeats 4000000 in
theorem valA_main_v39 (V0 : Valuation τ sig (Elt F)) : valA V0 (no_index (Proc.devRef .tc main_v39)) = (focalR (V0 (Proc.devRef .tc main_arg0)) (V0 (Proc.devRef .tc main_arg2))) := by
  unfold valA
  simp only [segA]
  after_results_simp
  rfl

/-- The device's buffer contents after the first 2 stretches. -/
def valB (V0 : Valuation τ sig (Elt F)) : Valuation τ sig (Elt F) := after segB (valA V0)
set_option maxRecDepth 8192 in
set_option maxHeartbeats 4000000 in
theorem valB_main_arg1 (V0 : Valuation τ sig (Elt F)) : valB V0 (no_index (Proc.devRef .tc main_arg1)) = (V0 (Proc.devRef .tc main_arg1)) := by
  unfold valB
  simp only [segB]
  after_results_simp
  exact valA_main_arg1 V0
set_option maxRecDepth 8192 in
set_option maxHeartbeats 4000000 in
theorem valB_main_v0 (V0 : Valuation τ sig (Elt F)) : valB V0 (no_index (Proc.devRef .tc main_v0)) = (xR (V0 (Proc.devRef .tc main_arg0))) := by
  unfold valB
  simp only [segB]
  after_results_simp
  exact valA_main_v0 V0
set_option maxRecDepth 8192 in
set_option maxHeartbeats 4000000 in
theorem valB_main_v1 (V0 : Valuation τ sig (Elt F)) : valB V0 (no_index (Proc.devRef .tc main_v1)) = (tR (V0 (Proc.devRef .tc main_arg2))) := by
  unfold valB
  simp only [segB]
  after_results_simp
  exact valA_main_v1 V0
set_option maxRecDepth 8192 in
set_option maxHeartbeats 4000000 in
theorem valB_main_v16 (V0 : Valuation τ sig (Elt F)) : valB V0 (no_index (Proc.devRef .tc main_v16)) = (validOf binLo binHi (tsumR (V0 (Proc.devRef .tc main_arg2)))) := by
  unfold valB
  simp only [segB]
  after_results_simp
  exact valA_main_v16 V0
set_option maxRecDepth 8192 in
set_option maxHeartbeats 4000000 in
theorem valB_main_v17 (V0 : Valuation τ sig (Elt F)) : valB V0 (no_index (Proc.devRef .tc main_v17)) = (tbR (V0 (Proc.devRef .tc main_arg2))) := by
  unfold valB
  simp only [segB]
  after_results_simp
  exact valA_main_v17 V0
set_option maxRecDepth 8192 in
set_option maxHeartbeats 4000000 in
theorem valB_main_v58 (V0 : Valuation τ sig (Elt F)) : valB V0 (no_index (Proc.devRef .tc main_v58)) = (aggOf binLo binHi 0x41A00000#32 (focalR (V0 (Proc.devRef .tc main_arg0)) (V0 (Proc.devRef .tc main_arg2))) (tsumR (V0 (Proc.devRef .tc main_arg2)))) := by
  unfold valB
  simp only [segB]
  after_results_simp
  simp only [valA_main_arg1, valA_main_v0, valA_main_v1, valA_main_v16, valA_main_v17, valA_main_v39]
  rfl

/-- The device's buffer contents after the first 3 stretches. -/
def valC (V0 : Valuation τ sig (Elt F)) : Valuation τ sig (Elt F) := after segC (valB V0)
set_option maxRecDepth 8192 in
set_option maxHeartbeats 4000000 in
theorem valC_main_arg1 (V0 : Valuation τ sig (Elt F)) : valC V0 (no_index (Proc.devRef .tc main_arg1)) = (V0 (Proc.devRef .tc main_arg1)) := by
  unfold valC
  simp only [segC]
  after_results_simp
  exact valB_main_arg1 V0
set_option maxRecDepth 8192 in
set_option maxHeartbeats 4000000 in
theorem valC_main_v0 (V0 : Valuation τ sig (Elt F)) : valC V0 (no_index (Proc.devRef .tc main_v0)) = (xR (V0 (Proc.devRef .tc main_arg0))) := by
  unfold valC
  simp only [segC]
  after_results_simp
  exact valB_main_v0 V0
set_option maxRecDepth 8192 in
set_option maxHeartbeats 4000000 in
theorem valC_main_v1 (V0 : Valuation τ sig (Elt F)) : valC V0 (no_index (Proc.devRef .tc main_v1)) = (tR (V0 (Proc.devRef .tc main_arg2))) := by
  unfold valC
  simp only [segC]
  after_results_simp
  exact valB_main_v1 V0
set_option maxRecDepth 8192 in
set_option maxHeartbeats 4000000 in
theorem valC_main_v16 (V0 : Valuation τ sig (Elt F)) : valC V0 (no_index (Proc.devRef .tc main_v16)) = (validOf binLo binHi (tsumR (V0 (Proc.devRef .tc main_arg2)))) := by
  unfold valC
  simp only [segC]
  after_results_simp
  exact valB_main_v16 V0
set_option maxRecDepth 8192 in
set_option maxHeartbeats 4000000 in
theorem valC_main_v17 (V0 : Valuation τ sig (Elt F)) : valC V0 (no_index (Proc.devRef .tc main_v17)) = (tbR (V0 (Proc.devRef .tc main_arg2))) := by
  unfold valC
  simp only [segC]
  after_results_simp
  exact valB_main_v17 V0
set_option maxRecDepth 8192 in
set_option maxHeartbeats 4000000 in
theorem valC_main_v58 (V0 : Valuation τ sig (Elt F)) : valC V0 (no_index (Proc.devRef .tc main_v58)) = (aggOf binLo binHi 0x41A00000#32 (focalR (V0 (Proc.devRef .tc main_arg0)) (V0 (Proc.devRef .tc main_arg2))) (tsumR (V0 (Proc.devRef .tc main_arg2)))) := by
  unfold valC
  simp only [segC]
  after_results_simp
  exact valB_main_v58 V0
set_option maxRecDepth 8192 in
set_option maxHeartbeats 4000000 in
theorem valC_main_v82 (V0 : Valuation τ sig (Elt F)) : valC V0 (no_index (Proc.devRef .tc main_v82)) = (diceR (V0 (Proc.devRef .tc main_arg0)) (V0 (Proc.devRef .tc main_arg2))) := by
  unfold valC
  simp only [segC]
  after_results_simp
  simp only [valB_main_arg1, valB_main_v0, valB_main_v1, valB_main_v16, valB_main_v17, valB_main_v58]
  rfl

/-- The device's buffer contents after the first 4 stretches. -/
def valD (V0 : Valuation τ sig (Elt F)) : Valuation τ sig (Elt F) := after segD (valC V0)
set_option maxRecDepth 8192 in
set_option maxHeartbeats 4000000 in
theorem valD_main_arg1 (V0 : Valuation τ sig (Elt F)) : valD V0 (no_index (Proc.devRef .tc main_arg1)) = (V0 (Proc.devRef .tc main_arg1)) := by
  unfold valD
  simp only [segD]
  after_results_simp
  exact valC_main_arg1 V0
set_option maxRecDepth 8192 in
set_option maxHeartbeats 4000000 in
theorem valD_main_v0 (V0 : Valuation τ sig (Elt F)) : valD V0 (no_index (Proc.devRef .tc main_v0)) = (xR (V0 (Proc.devRef .tc main_arg0))) := by
  unfold valD
  simp only [segD]
  after_results_simp
  exact valC_main_v0 V0
set_option maxRecDepth 8192 in
set_option maxHeartbeats 4000000 in
theorem valD_main_v1 (V0 : Valuation τ sig (Elt F)) : valD V0 (no_index (Proc.devRef .tc main_v1)) = (tR (V0 (Proc.devRef .tc main_arg2))) := by
  unfold valD
  simp only [segD]
  after_results_simp
  exact valC_main_v1 V0
set_option maxRecDepth 8192 in
set_option maxHeartbeats 4000000 in
theorem valD_main_v16 (V0 : Valuation τ sig (Elt F)) : valD V0 (no_index (Proc.devRef .tc main_v16)) = (validOf binLo binHi (tsumR (V0 (Proc.devRef .tc main_arg2)))) := by
  unfold valD
  simp only [segD]
  after_results_simp
  exact valC_main_v16 V0
set_option maxRecDepth 8192 in
set_option maxHeartbeats 4000000 in
theorem valD_main_v17 (V0 : Valuation τ sig (Elt F)) : valD V0 (no_index (Proc.devRef .tc main_v17)) = (tbR (V0 (Proc.devRef .tc main_arg2))) := by
  unfold valD
  simp only [segD]
  after_results_simp
  exact valC_main_v17 V0
set_option maxRecDepth 8192 in
set_option maxHeartbeats 4000000 in
theorem valD_main_v58 (V0 : Valuation τ sig (Elt F)) : valD V0 (no_index (Proc.devRef .tc main_v58)) = (aggOf binLo binHi 0x41A00000#32 (focalR (V0 (Proc.devRef .tc main_arg0)) (V0 (Proc.devRef .tc main_arg2))) (tsumR (V0 (Proc.devRef .tc main_arg2)))) := by
  unfold valD
  simp only [segD]
  after_results_simp
  exact valC_main_v58 V0
set_option maxRecDepth 8192 in
set_option maxHeartbeats 4000000 in
theorem valD_main_v101 (V0 : Valuation τ sig (Elt F)) : valD V0 (no_index (Proc.devRef .tc main_v101)) = (aggOf binLo binHi 0x3F800000#32 (diceR (V0 (Proc.devRef .tc main_arg0)) (V0 (Proc.devRef .tc main_arg2))) (tsumR (V0 (Proc.devRef .tc main_arg2)))) := by
  unfold valD
  simp only [segD]
  after_results_simp
  simp only [valC_main_arg1, valC_main_v0, valC_main_v1, valC_main_v16, valC_main_v17, valC_main_v58, valC_main_v82]
  rfl

/-- The device's buffer contents after the first 5 stretches. -/
def valE (V0 : Valuation τ sig (Elt F)) : Valuation τ sig (Elt F) := after segE (valD V0)
set_option maxRecDepth 8192 in
set_option maxHeartbeats 4000000 in
theorem valE_main_v16 (V0 : Valuation τ sig (Elt F)) : valE V0 (no_index (Proc.devRef .tc main_v16)) = (validOf binLo binHi (tsumR (V0 (Proc.devRef .tc main_arg2)))) := by
  unfold valE
  simp only [segE]
  after_results_simp
  exact valD_main_v16 V0
set_option maxRecDepth 8192 in
set_option maxHeartbeats 4000000 in
theorem valE_main_v58 (V0 : Valuation τ sig (Elt F)) : valE V0 (no_index (Proc.devRef .tc main_v58)) = (aggOf binLo binHi 0x41A00000#32 (focalR (V0 (Proc.devRef .tc main_arg0)) (V0 (Proc.devRef .tc main_arg2))) (tsumR (V0 (Proc.devRef .tc main_arg2)))) := by
  unfold valE
  simp only [segE]
  after_results_simp
  exact valD_main_v58 V0
set_option maxRecDepth 8192 in
set_option maxHeartbeats 4000000 in
theorem valE_main_v101 (V0 : Valuation τ sig (Elt F)) : valE V0 (no_index (Proc.devRef .tc main_v101)) = (aggOf binLo binHi 0x3F800000#32 (diceR (V0 (Proc.devRef .tc main_arg0)) (V0 (Proc.devRef .tc main_arg2))) (tsumR (V0 (Proc.devRef .tc main_arg2)))) := by
  unfold valE
  simp only [segE]
  after_results_simp
  exact valD_main_v101 V0
set_option maxRecDepth 8192 in
set_option maxHeartbeats 4000000 in
theorem valE_main_v120 (V0 : Valuation τ sig (Elt F)) : valE V0 (no_index (Proc.devRef .tc main_v120)) = (iouR (V0 (Proc.devRef .tc main_arg0)) (V0 (Proc.devRef .tc main_arg1)) (V0 (Proc.devRef .tc main_arg2))) := by
  unfold valE
  simp only [segE]
  after_results_simp
  simp only [valD_main_arg1, valD_main_v0, valD_main_v1, valD_main_v16, valD_main_v17, valD_main_v58, valD_main_v101]
  rfl

/-- The device's buffer contents after the first 6 stretches. -/
def valF (V0 : Valuation τ sig (Elt F)) : Valuation τ sig (Elt F) := after segF (valE V0)
set_option maxRecDepth 8192 in
set_option maxHeartbeats 4000000 in
theorem valF_main_v58 (V0 : Valuation τ sig (Elt F)) : valF V0 (no_index (Proc.devRef .tc main_v58)) = (aggOf binLo binHi 0x41A00000#32 (focalR (V0 (Proc.devRef .tc main_arg0)) (V0 (Proc.devRef .tc main_arg2))) (tsumR (V0 (Proc.devRef .tc main_arg2)))) := by
  unfold valF
  simp only [segF]
  after_results_simp
  exact valE_main_v58 V0
set_option maxRecDepth 8192 in
set_option maxHeartbeats 4000000 in
theorem valF_main_v101 (V0 : Valuation τ sig (Elt F)) : valF V0 (no_index (Proc.devRef .tc main_v101)) = (aggOf binLo binHi 0x3F800000#32 (diceR (V0 (Proc.devRef .tc main_arg0)) (V0 (Proc.devRef .tc main_arg2))) (tsumR (V0 (Proc.devRef .tc main_arg2)))) := by
  unfold valF
  simp only [segF]
  after_results_simp
  exact valE_main_v101 V0
set_option maxRecDepth 8192 in
set_option maxHeartbeats 4000000 in
theorem valF_main_v139 (V0 : Valuation τ sig (Elt F)) : valF V0 (no_index (Proc.devRef .tc main_v139)) = (aggOf binLo binHi 0x3F800000#32 (iouR (V0 (Proc.devRef .tc main_arg0)) (V0 (Proc.devRef .tc main_arg1)) (V0 (Proc.devRef .tc main_arg2))) (tsumR (V0 (Proc.devRef .tc main_arg2)))) := by
  unfold valF
  simp only [segF]
  after_results_simp
  simp only [valE_main_v16, valE_main_v58, valE_main_v101, valE_main_v120]
  rfl

theorem after_ops (V0 : Valuation τ sig (Elt F)) : after ops V0 = valF V0 := by
  rw [ops_eq]
  simp only [after_app]
  rfl

/-- At the compiled mesh, for any float values, from any memory with zero counters: every weakly fair execution of @main
    terminates with the three results at the aggregation of the three loss tables of the arguments' launch contents, and
    the arguments unchanged. -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v58) = aggOf binLo binHi 0x41A00000#32 (focalR (m ((c.tc : Thread nD τ).loc main_arg0)) (m ((c.tc : Thread nD τ).loc main_arg2))) (tsumR (m ((c.tc : Thread nD τ).loc main_arg2)))
      ∧ r.2.mem ((c.tc : Thread nD τ).loc main_v101) = aggOf binLo binHi 0x3F800000#32 (diceR (m ((c.tc : Thread nD τ).loc main_arg0)) (m ((c.tc : Thread nD τ).loc main_arg2))) (tsumR (m ((c.tc : Thread nD τ).loc main_arg2)))
      ∧ r.2.mem ((c.tc : Thread nD τ).loc main_v139) = aggOf binLo binHi 0x3F800000#32 (iouR (m ((c.tc : Thread nD τ).loc main_arg0)) (m ((c.tc : Thread nD τ).loc main_arg1)) (m ((c.tc : Thread nD τ).loc main_arg2))) (tsumR (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v58).trans (by rw [after_ops]; exact valF_main_v58 (launchContents m c)),
      (h c main_v101).trans (by rw [after_ops]; exact valF_main_v101 (launchContents m c)),
      (h c main_v139).trans (by rw [after_ops]; exact valF_main_v139 (launchContents m c)),
      (h c main_arg0).trans (ops_keep_main_arg0 _), (h c main_arg1).trans (ops_keep_main_arg1 _), (h c main_arg2).trans (ops_keep_main_arg2 _)⟩)
    (run_all m ρ)

end Cert.ReferenceIdeal.RefRead

end
-- ==== Proof.RefAt.lean ====
/- The reference's four aggregated arrays read at an index: each is the specification's term of the argument arrays —
   the reshape read through the row-major index, each host sum as the literal zero plus the sum over the flattened
   pixel index, the elementwise operations read pointwise. -/
import proofs.«180374_j28707561407033_2_alg».proof.Proof.RefRead
import proofs.«180374_j28707561407033_2_alg».proof.Proof.Spec
import Idealize.ShloMosaic.Lib.ValueIdx
import Idealize.ShloMosaic.Lib.Pipeline.Value
import Idealize.ShloMosaic.PureOps.Ideal.Laws

noncomputable section

namespace Cert.ReferenceIdeal.RefAt

open Cert.ReferenceIdeal Cert.ReferenceIdeal.Gen Idealize.ShloMosaic Idealize.ShloMosaic.ValueIdx Cert.Elem
open Cert.Spec (rowOf colOf)

/-! ## The layout operations at an index -/

/-- The logits' reshape reads pixel `k` of row-major image `(p, q)` at its row and column. -/
theorem xR_at (a0 : (⟨S128x4x256x256, .f32⟩ : BufTy).Contents (Elt Ideal)) (p : Fin 128) (q : Fin 4) (k : Fin 65536) :
    RefRead.xR a0 (ix3 p q k) = a0 (ix4 p q (rowOf k) (colOf k)) := by
  unfold RefRead.xR
  refine shapeCast_apply a0 _ _ _ ?_
  rw [Shape.rowMajor_val_four, Shape.rowMajor_val_three]
  show ((p.val * 4 + q.val) * 256 + k.val / 256) * 256 + k.val % 256 = (p.val * 4 + q.val) * 65536 + k.val
  omega

/-- The targets' reshape likewise. -/
theorem tR_at (a2 : (⟨S128x1x256x256, .f32⟩ : BufTy).Contents (Elt Ideal)) (p : Fin 128) (k : Fin 65536) :
    RefRead.tR a2 (ix2 p k) = a2 (ix4 p (0 : Fin 1) (rowOf k) (colOf k)) := by
  unfold RefRead.tR
  refine shapeCast_apply a2 _ _ _ ?_
  rw [Shape.rowMajor_val_four, Shape.rowMajor_val_two]
  show ((p.val * 1 + 0) * 256 + k.val / 256) * 256 + k.val % 256 = p.val * 65536 + k.val
  omega

/-- The targets repeated along the mask axis read the sample's target at the pixel. -/
theorem tb4R_at (a2 : (⟨S128x1x256x256, .f32⟩ : BufTy).Contents (Elt Ideal)) (p : Fin 128) (q : Fin 4) (k : Fin 65536) :
    RefRead.tb4R a2 (ix3 p q k) = a2 (ix4 p (0 : Fin 1) (rowOf k) (colOf k)) := by
  unfold RefRead.tb4R RefRead.tbR
  rw [broadcastInDim_apply _ _ _ _ (ix3 p (0 : Fin 1) k) (fun a => by fin_cases a <;> rfl),
    broadcastInDim_apply _ _ _ _ (ix2 p k) (fun a => by fin_cases a <;> rfl), tR_at]

/-- A per-sample vector repeated along the mask axis. -/
theorem bb_at (v : (⟨S128, .f32⟩ : BufTy).Contents (Elt Ideal)) (p : Fin 128) (q : Fin 4) :
    broadcastInDim S128x4 ![0, 1] bcast_S128x1_S128x4_0_1 (broadcastInDim S128x1 ![0] bcast_S128_S128x1_0 v) (ix2 p q) = v (ix1 p) := by
  rw [broadcastInDim_apply _ _ _ _ (ix2 p (0 : Fin 1)) (fun a => by fin_cases a <;> rfl),
    broadcastInDim_apply _ _ _ _ (ix1 p) (fun a => by fin_cases a <;> rfl)]

/-! ## The host sums at an index -/

theorem lift3 (h : S128x4x65536.Reduces [2] S128x4) (p : Fin 128) (q : Fin 4) (k : Fin (S128x4x65536.size 2)) :
    h.lift (ix2 p q) k = ix3 p q (⟨k.val, k.isLt⟩ : Fin 65536) := by
  funext c; apply Fin.ext
  fin_cases c <;> rfl

theorem lift2 (h : S128x65536.Reduces [1] S128) (p : Fin 128) (k : Fin (S128x65536.size 1)) :
    h.lift (ix1 p) k = ix2 p (⟨k.val, k.isLt⟩ : Fin 65536) := by
  funext c; apply Fin.ext
  fin_cases c <;> rfl

/-- The sum over an image's pixels, from the literal zero. -/
theorem reduce3_at (x : (⟨S128x4x65536, .f32⟩ : BufTy).Contents (Elt Ideal)) (p : Fin 128) (q : Fin 4) :
    Host.reduceAdd x (constant (F := Ideal) S_ .f32 0x00000000#32) reducesTo_S128x4x65536_S128x4_d2 h_S_ (ix2 p q)
      = z + ∑ k : Fin 65536, x (ix3 p q k) := by
  have hR : S128x4x65536.Reduces [2] S128x4 := by decide
  show Ideal.hostReduceAdd reducesTo_S128x4x65536_S128x4_d2 x (Ideal.ofBits .f32 0x00000000#32) (ix2 p q) = _
  rw [Ideal.hostReduceAdd_single _ hR]
  exact congrArg (z + ·) (Finset.sum_congr rfl fun k _ => congrArg x (lift3 hR p q k))

theorem reduce2_at (x : (⟨S128x65536, .f32⟩ : BufTy).Contents (Elt Ideal)) (p : Fin 128) :
    Host.reduceAdd x (constant (F := Ideal) S_ .f32 0x00000000#32) reducesTo_S128x65536_S128_d1 h_S_ (ix1 p)
      = z + ∑ k : Fin 65536, x (ix2 p k) := by
  have hR : S128x65536.Reduces [1] S128 := by decide
  show Ideal.hostReduceAdd reducesTo_S128x65536_S128_d1 x (Ideal.ofBits .f32 0x00000000#32) (ix1 p) = _
  rw [Ideal.hostReduceAdd_single _ hR]
  exact congrArg (z + ·) (Finset.sum_congr rfl fun k _ => congrArg x (lift2 hR p k))

/-! ## The sums of the elementwise terms, and the four arrays -/

/-- The host's quotient is pointwise. -/
theorem hdivf_apply {s : Shape} (a b : FVec Ideal s .f32) (i : s.Idx) : Host.divf a b i = Ideal.div (a i) (b i) := rfl

variable (a0 : (⟨S128x4x256x256, .f32⟩ : BufTy).Contents (Elt Ideal)) (a1 : (⟨S128x4, .f32⟩ : BufTy).Contents (Elt Ideal))
  (a2 : (⟨S128x1x256x256, .f32⟩ : BufTy).Contents (Elt Ideal)) (p : Fin 128) (q : Fin 4)

/-- Each sample's target sum. -/
theorem tsumR_at : RefRead.tsumR a2 (ix1 p) = Cert.Spec.tsumR a2 p := by
  unfold RefRead.tsumR Cert.Spec.tsumR
  rw [reduce2_at]
  exact congrArg (z + ·) (Finset.sum_congr rfl fun k _ => tR_at a2 p k)

/-- The focal term summed over the image. -/
theorem fsumR_at : RefRead.fsumR a0 a2 (ix2 p q) = Cert.Spec.sumR a0 a2 focR p q := by
  unfold RefRead.fsumR Cert.Spec.sumR
  rw [reduce3_at]
  refine congrArg (z + ·) (Finset.sum_congr rfl fun k _ => ?_)
  rw [← xR_at a0 p q k, ← tb4R_at a2 p q k]
  rfl

/-- The focal loss per sample and mask. -/
theorem focalR_at : RefRead.focalR a0 a2 (ix2 p q) = Cert.Spec.focalR a0 a2 p q := by
  unfold Cert.Spec.focalR
  rw [← fsumR_at]
  rfl

theorem interR_at : RefRead.interR a0 a2 (ix2 p q) = Cert.Spec.sumR a0 a2 (fun x t => probR x * t) p q := by
  unfold RefRead.interR Cert.Spec.sumR
  rw [reduce3_at]
  refine congrArg (z + ·) (Finset.sum_congr rfl fun k _ => ?_)
  rw [← xR_at a0 p q k, ← tb4R_at a2 p q k]
  rfl

theorem psumR_at : RefRead.psumR a0 (ix2 p q) = Cert.Spec.sumR a0 a2 (fun x _ => probR x) p q := by
  unfold RefRead.psumR Cert.Spec.sumR
  rw [reduce3_at]
  refine congrArg (z + ·) (Finset.sum_congr rfl fun k _ => ?_)
  rw [← xR_at a0 p q k]
  rfl

/-- The dice loss per sample and mask. -/
theorem diceR_at : RefRead.diceR a0 a2 (ix2 p q) = Cert.Spec.diceR a0 a2 p q := by
  unfold Cert.Spec.diceR
  rw [← interR_at, ← psumR_at a0 a2, ← tsumR_at, ← bb_at (RefRead.tsumR a2) p q]
  unfold RefRead.diceR
  simp only [subf_apply, addf_apply, mulf_apply, hdivf_apply]
  rfl

theorem i2R_at : RefRead.i2R a0 a2 (ix2 p q) = Cert.Spec.sumR a0 a2 (fun x t => mskR x * t) p q := by
  unfold RefRead.i2R Cert.Spec.sumR
  rw [reduce3_at]
  refine congrArg (z + ·) (Finset.sum_congr rfl fun k _ => ?_)
  rw [← xR_at a0 p q k, ← tb4R_at a2 p q k]
  rfl

theorem msumR_at : RefRead.msumR a0 (ix2 p q) = Cert.Spec.sumR a0 a2 (fun x _ => mskR x) p q := by
  unfold RefRead.msumR Cert.Spec.sumR
  rw [reduce3_at]
  refine congrArg (z + ·) (Finset.sum_congr rfl fun k _ => ?_)
  rw [← xR_at a0 p q k]
  rfl

theorem iouGtR_at : RefRead.iouGtR a0 a2 (ix2 p q) = Cert.Spec.iouGtR a0 a2 p q := by
  unfold Cert.Spec.iouGtR
  rw [← i2R_at, ← msumR_at a0 a2, ← tsumR_at, ← bb_at (RefRead.tsumR a2) p q]
  unfold RefRead.iouGtR
  simp only [subf_apply, addf_apply, hdivf_apply]
  rfl

/-- The squared error of the predicted IoU per sample and mask. -/
theorem iouR_at : RefRead.iouR a0 a1 a2 (ix2 p q) = Cert.Spec.iouR a0 a1 a2 p q := by
  unfold Cert.Spec.iouR
  rw [← iouGtR_at]
  rfl

end Cert.ReferenceIdeal.RefAt

end
-- ==== Proof.LibReindex.lean ====
/-
  Re-indexing finite sums over consecutive indices. A sum over `n = a * b` indices is a double sum over `a`
  blocks of `b` indices each, the index written `i * b + j` or `b * i + j`; a sum over `n = a + b + c` indices
  is the sum of its three consecutive blocks. All over an arbitrary additive commutative monoid.
-/
import Mathlib.Algebra.BigOperators.Fin
import Mathlib.Logic.Equiv.Fin.Basic

namespace Cert.LibReindex

open scoped BigOperators

variable {M : Type*} [AddCommMonoid M]

/-- Position `j` of block `i`, among `a` blocks of `b`, lies below `a * b`. -/
theorem mul_add_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right _ i.isLt

/-- The same with the block size written first. -/
theorem mul_add_lt' {a b : ℕ} (i : Fin a) (j : Fin b) : b * i.val + j.val < a * b :=
  Nat.mul_comm b i.val ▸ mul_add_lt i j

/-- A sum over `n = a * b` indices is the double sum over `a` blocks of `b`: the index is `i * b + j`. -/
theorem sum_mul_add {n : ℕ} (a b : ℕ) (hn : n = a * b) (f : Fin n → M) :
    ∑ r : Fin n, f r = ∑ i : Fin a, ∑ j : Fin b, f ⟨i.val * b + j.val, hn ▸ mul_add_lt i j⟩ := by
  subst hn
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.add_comm, Nat.mul_comm]

/-- A sum over `n = a * b` indices is the double sum over `a` blocks of `b`: the index is `b * i + j`. -/
theorem sum_mul_add' {n : ℕ} (a b : ℕ) (hn : n = a * b) (f : Fin n → M) :
    ∑ r : Fin n, f r = ∑ i : Fin a, ∑ j : Fin b, f ⟨b * i.val + j.val, hn ▸ mul_add_lt' i j⟩ := by
  rw [sum_mul_add a b hn f]
  refine Finset.sum_congr rfl fun i _ => Finset.sum_congr rfl fun j _ => congrArg f (Fin.ext ?_)
  show i.val * b + j.val = b * i.val + j.val
  rw [Nat.mul_comm]

/-- A sum over `n = a + b + c` indices is the sum of its three consecutive blocks. -/
theorem sum_three_blocks {n : ℕ} (a b c : ℕ) (hn : n = a + b + c) (f : Fin n → M) :
    ∑ k : Fin n, f k
      = (∑ i : Fin a, f ⟨i.val, by omega⟩ + ∑ i : Fin b, f ⟨a + i.val, by omega⟩)
        + ∑ i : Fin c, f ⟨a + b + i.val, by omega⟩ := by
  subst hn
  rw [Fin.sum_univ_add, Fin.sum_univ_add]
  rfl

end Cert.LibReindex
-- ==== Proof.Bridge.lean ====
/-
  The two spellings of the four aggregated arrays agree. A sum over the 65536 flattened pixels k = 256·y + w is the
  double sum over rows y and columns w, and the sum over the 256 rows is the double sum over 8 bands of 32 rows
  (y = 32·h + r); addition of extended reals is commutative and associative, so no finiteness is needed for the
  regrouping. The summands agree term by term: the clamped sigmoid and the mask always, the focal term on real numbers
  (that is where the inputs' finiteness is used: the square as a power of exponent 2).
-/
import proofs.«180374_j28707561407033_2_alg».proof.Proof.Spec
import proofs.«180374_j28707561407033_2_alg».proof.Proof.LibReindex

noncomputable section

namespace Cert.Bridge

open Idealize.ShloMosaic Idealize.ShloMosaic.ValueIdx Cert.Elem Cert.Spec Cert.LibFinite Cert.LibReindex

/-- Pixels row-major: the sum over k of a term of (row, column) is the sum over bands, rows in the band, columns. -/
theorem sum_bands (g : Fin 256 → Fin 256 → EReal) :
    ∑ k : Fin 65536, g (rowOf k) (colOf k) = ∑ h : Fin 8, ∑ r : Fin 32, ∑ w : Fin 256, g (bandRow h r) w := by
  rw [sum_mul_add 256 256 (by norm_num) (fun k : Fin 65536 => g (rowOf k) (colOf k))]
  have hrow : ∀ (y w : Fin 256) (hk : y.val * 256 + w.val < 65536), rowOf ⟨y.val * 256 + w.val, hk⟩ = y := by
    intro y w hk; apply Fin.ext; show (y.val * 256 + w.val) / 256 = y.val; omega
  have hcol : ∀ (y w : Fin 256) (hk : y.val * 256 + w.val < 65536), colOf ⟨y.val * 256 + w.val, hk⟩ = w := by
    intro y w hk; apply Fin.ext; show (y.val * 256 + w.val) % 256 = w.val; omega
  simp only [hrow, hcol]
  rw [sum_mul_add' 8 32 (by norm_num) (fun y : Fin 256 => ∑ w : Fin 256, g y w)]
  rfl

variable (X : SX.Idx → EReal) (P : SP.Idx → EReal) (T : ST.Idx → EReal)

/-- Two image sums whose terms agree at every pixel agree. -/
theorem sumR_eq_sumK (f g : EReal → EReal → EReal) (p : Fin 128) (q : Fin 4)
    (hfg : ∀ (y w : Fin 256), f (X (ix4 p q y w)) (T (ix4 p (0 : Fin 1) y w)) = g (X (ix4 p q y w)) (T (ix4 p (0 : Fin 1) y w))) :
    sumR X T f p q = sumK X T g p q := by
  unfold sumR sumK
  rw [z_eq, zero_add, sum_bands (fun y w => f (X (ix4 p q y w)) (T (ix4 p (0 : Fin 1) y w)))]
  exact Finset.sum_congr rfl fun h _ => Finset.sum_congr rfl fun r _ => Finset.sum_congr rfl fun w _ => hfg _ _

theorem tsum_eq (p : Fin 128) : tsumK T p = tsumR T p := by
  unfold tsumR tsumK
  rw [z_eq, zero_add, sum_bands (fun y w => T (ix4 p (0 : Fin 1) y w))]

theorem focal_eq (hX : ∀ i, IsFin (X i)) (hT : ∀ i, IsFin (T i)) (p : Fin 128) (q : Fin 4) :
    focalK X T p q = focalR X T p q := by
  unfold focalK focalR
  rw [sumR_eq_sumK X T focR focK p q (fun y w => (foc_eq (hX _) (hT _)).symm)]

theorem dice_eq (p : Fin 128) (q : Fin 4) : diceK X T p q = diceR X T p q := by
  unfold diceK diceR
  rw [sumR_eq_sumK X T (fun x t => probR x * t) (fun x t => probK x * t) p q (fun y w => by rw [prob_eq]),
    sumR_eq_sumK X T (fun x _ => probR x) (fun x _ => probK x) p q (fun y w => by rw [prob_eq]), tsum_eq]

theorem iou_eq (p : Fin 128) (q : Fin 4) : iouK X P T p q = iouR X P T p q := by
  unfold iouK iouR iouGtK iouGtR
  rw [sumR_eq_sumK X T (fun x t => mskR x * t) (fun x t => mskK x * t) p q (fun y w => by rw [msk_eq]),
    sumR_eq_sumK X T (fun x _ => mskR x) (fun x _ => mskK x) p q (fun y w => by rw [msk_eq]), tsum_eq]

end Cert.Bridge

end
-- ==== Proof.FinIn.lean ====
/-
  The precondition says every entry of the three argument arrays has absolute value below +infinity; on the extended
  reals such an entry is a real number.
-/
import proofs.«180374_j28707561407033_2_alg».proof.Pre_finite_inputs
import Idealize.ShloMosaic.PureOps.Ideal
import Idealize.ShloMosaic.Lib.ReduceAll
import Idealize.ShloMosaic.Lib.Affine
import Idealize.ShloMosaic.Lib.ValueIdx
import proofs.«180374_j28707561407033_2_alg».proof.Proof.LibFinite

noncomputable section

namespace Cert.FinIn

open Idealize.ShloMosaic Cert.LibFinite Cert.Pre_finite_inputs

instance : Subsingleton S_.Idx := ⟨fun a b => funext fun d => d.elim0⟩

/-- The pattern `0x7F800000` (exponent field all ones, zero fraction) denotes +infinity. -/
theorem ofBits_inf : Ideal.ofBits .f32 0x7F800000#32 = (⊤ : EReal) := by
  simp [Ideal.ofBits, Ideal.ieee]

/-- An extended real whose absolute value is below +infinity is a real number. -/
theorem isFin_of_abs_lt (x : EReal) (h : Ideal.cmp .olt (max x (-x)) (Ideal.ofBits .f32 0x7F800000#32) = 1#1) : IsFin x := by
  rw [ofBits_inf] at h
  induction x using EReal.rec with
  | bot => simp [Ideal.cmp] at h
  | top => simp [Ideal.cmp] at h
  | coe r => exact isFin_coe r

variable [Facts]

theorem finite_of_pre (a0 : FVec Ideal S128x4x256x256 .f32) (a1 : FVec Ideal S128x4 .f32) (a2 : FVec Ideal S128x1x256x256 .f32)
    (h : fn (F := Ideal) a0 a1 a2 = fun _ => 1#1) :
    (∀ i, IsFin (a0 i)) ∧ (∀ i, IsFin (a1 i)) ∧ (∀ i, IsFin (a2 i)) := by
  have h0 := congrFun h ValueIdx.ix0
  dsimp only [fn] at h0
  have h1 := IntOp.andi_eq_one.mp h0
  have h2 := IntOp.andi_eq_one.mp h1.1
  refine ⟨fun i => ?_, fun i => ?_, fun i => ?_⟩
  · have e := Host.reduce_andi_all _ _ _ _ _ h2.1 i
    exact isFin_of_abs_lt _ e
  · have e := Host.reduce_andi_all _ _ _ _ _ h2.2 i
    exact isFin_of_abs_lt _ e
  · have e := Host.reduce_andi_all _ _ _ _ _ h1.2 i
    exact isFin_of_abs_lt _ e

end Cert.FinIn

end
-- ==== Proof.lean ====
/-
  The certificate's five claims.

  The kernel sums each of six elementwise terms of the logits and targets over the image, in 8 bands of 32 rows kept
  as running sums between grid points, and from the finished sums forms the focal mean, the dice term, the squared
  IoU-prediction error and the target count of every sample; the reference forms the same four arrays from sums over
  the flattened image. Both programs then apply one and the same chain of host operations (the area-range validity
  mask and the nested means) to these arrays, so it suffices that the arrays agree index by index: the sums agree by
  regrouping (addition of extended reals is commutative and associative), the clamped sigmoid and the mask agree
  term by term, and the focal term agrees on real numbers, where the square written as a power of exponent 2 is the
  product — this is the one place where the inputs' finiteness is used. The idealization rewrote nothing, so
  `preserves` is trivial.
-/
import proofs.«180374_j28707561407033_2_alg».proof.Defs
import proofs.«180374_j28707561407033_2_alg».proof.Proof.Gen.Kernel
import proofs.«180374_j28707561407033_2_alg».proof.Proof.Gen.KernelIdeal
import proofs.«180374_j28707561407033_2_alg».proof.Proof.Gen.ReferenceIdeal
import proofs.«180374_j28707561407033_2_alg».proof.Proof.Gen.Pre_finite_inputs
import proofs.«180374_j28707561407033_2_alg».proof.Proof.KFrame
import proofs.«180374_j28707561407033_2_alg».proof.Proof.KIFrame
import proofs.«180374_j28707561407033_2_alg».proof.Proof.KIValue
import proofs.«180374_j28707561407033_2_alg».proof.Proof.RefAt
import proofs.«180374_j28707561407033_2_alg».proof.Proof.RefRead
import proofs.«180374_j28707561407033_2_alg».proof.Proof.Bridge
import proofs.«180374_j28707561407033_2_alg».proof.Proof.FinIn

set_option maxRecDepth 16384

noncomputable section

namespace Cert.Proof

open Idealize.ShloMosaic Idealize.ShloMosaic.TcCoe Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Frame.frame m ρ

theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- The shared host chain is one function: spelled over either program's shapes it is the same term. -/
theorem agg_same (lo hi : (⟨Cert.KernelIdeal.S4, .f32⟩ : BufTy).Contents (Elt Ideal)) (w : BitVec 32)
    (loss : FVec Ideal Cert.KernelIdeal.S128x4 .f32) (ts : FVec Ideal Cert.KernelIdeal.S128 .f32) :
    Cert.ReferenceIdeal.RefRead.aggOf (F := Ideal) lo hi w loss ts = Cert.KernelIdeal.Tail.aggOf (F := Ideal) lo hi w loss ts := rfl

theorem bins_same : (Cert.ReferenceIdeal.RefRead.binLo (F := Ideal) = Cert.KernelIdeal.Tail.binLo (F := Ideal))
    ∧ (Cert.ReferenceIdeal.RefRead.binHi (F := Ideal) = Cert.KernelIdeal.Tail.binHi (F := Ideal)) := ⟨rfl, rfl⟩

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, _, _, Cert.KernelIdeal.Tail.results_of m ρ (Cert.KernelIdeal.Frame.D m)
    (Cert.KernelIdeal.Body.A_eq (Cert.KernelIdeal.Tail.V m)) (Cert.KernelIdeal.Frame.run_main m ρ), ?_⟩
  refine (θ_run Cert.ReferenceIdeal.defs _ _).mono (fun r h c => ?_) (Cert.ReferenceIdeal.RefRead.run_named (F := Ideal) m' ρ')
  obtain ⟨h58, h101, h139, ha0, ha1, ha2⟩ := h c
  obtain ⟨g0, g1, g2⟩ := hagree c
  obtain ⟨fX, fP, fT⟩ := @Cert.FinIn.finite_of_pre Cert.Pre_finite_inputs.Gen.facts _ _ _ (hpre c)
  have e6 : Cert.ReferenceIdeal.RefRead.tsumR (m' ((c.tc : Thread Cert.ReferenceIdeal.nD Cert.ReferenceIdeal.τ).loc Cert.ReferenceIdeal.main_arg2))
      = Cert.KernelIdeal.Tail.ts ((Cert.KernelIdeal.Frame.D m 0 c).arrAt 6 Cert.KernelIdeal.cfg0.N) := by
    rw [g2]; funext i
    obtain ⟨p, rfl⟩ : ∃ p : Fin 128, i = ix1 p := ⟨i 0, eq_ix1 i⟩
    rw [Cert.ReferenceIdeal.RefAt.tsumR_at, Cert.KernelIdeal.Val.ts_apply, Cert.KernelIdeal.Val.arr6, Cert.Bridge.tsum_eq]
  have e3 : Cert.ReferenceIdeal.RefRead.focalR (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2))
      = (Cert.KernelIdeal.Frame.D m 0 c).arrAt 3 Cert.KernelIdeal.cfg0.N := by
    rw [g0, g2]; funext i
    obtain ⟨p, q, rfl⟩ : ∃ (p : Fin 128) (q : Fin 4), i = ix2 p q := ⟨i 0, i 1, eq_ix2 i⟩
    rw [Cert.ReferenceIdeal.RefAt.focalR_at, Cert.KernelIdeal.Val.arr3, Cert.Bridge.focal_eq _ _ fX fT]
  have e4 : Cert.ReferenceIdeal.RefRead.diceR (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg2))
      = (Cert.KernelIdeal.Frame.D m 0 c).arrAt 4 Cert.KernelIdeal.cfg0.N := by
    rw [g0, g2]; funext i
    obtain ⟨p, q, rfl⟩ : ∃ (p : Fin 128) (q : Fin 4), i = ix2 p q := ⟨i 0, i 1, eq_ix2 i⟩
    rw [Cert.ReferenceIdeal.RefAt.diceR_at, Cert.KernelIdeal.Val.arr4, Cert.Bridge.dice_eq]
  have e5 : Cert.ReferenceIdeal.RefRead.iouR (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
      = (Cert.KernelIdeal.Frame.D m 0 c).arrAt 5 Cert.KernelIdeal.cfg0.N := by
    rw [g0, g1, g2]; funext i
    obtain ⟨p, q, rfl⟩ : ∃ (p : Fin 128) (q : Fin 4), i = ix2 p q := ⟨i 0, i 1, eq_ix2 i⟩
    rw [Cert.ReferenceIdeal.RefAt.iouR_at, Cert.KernelIdeal.Val.arr5, Cert.Bridge.iou_eq]
  refine ⟨h58.trans ?_, h101.trans ?_, h139.trans ?_, ha0, ha1, ha2⟩
  · exact (agg_same _ _ _ _ _).trans (Cert.KernelIdeal.Tail.aggOf_congr _ bins_same.1 bins_same.2 e3 e6)
  · exact (agg_same _ _ _ _ _).trans (Cert.KernelIdeal.Tail.aggOf_congr _ bins_same.1 bins_same.2 e4 e6)
  · exact (agg_same _ _ _ _ _).trans (Cert.KernelIdeal.Tail.aggOf_congr _ bins_same.1 bins_same.2 e5 e6)

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefRun.frame_ri, trivial, algebraic⟩

end Cert.Proof

end
